-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x100000 : Shape := ⟨2, ![1024, 100000]⟩
abbrev S1024 : Shape := ⟨1, ![1024]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : IVec S1024 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 99999#32
  let main_v6 : IVec S1024 32 := broadcastInDim S1024 ![] bcast_S_S1024 main_c_1
  let main_v7 : IVec S1024 1 := cmpi .sle main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S1024x100000 : Shape := ⟨2, ![1024, 100000]⟩
abbrev S1024 : Shape := ⟨1, ![1024]⟩
abbrev S100000x1024 : Shape := ⟨2, ![100000, 1024]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩
abbrev S4096 : Shape := ⟨1, ![4096]⟩
abbrev S240x128 : Shape := ⟨2, ![240, 128]⟩
abbrev S128 : Shape := ⟨1, ![128]⟩
abbrev S16 : Shape := ⟨1, ![16]⟩
abbrev S1x16 : Shape := ⟨2, ![1, 16]⟩
abbrev S800x1024 : Shape := ⟨2, ![800, 1024]⟩
abbrev S1x1024 : Shape := ⟨2, ![1, 1024]⟩

abbrev nBuf : Table → Nat
  | .hbm => 32
  | .local .tc .vmem => 10
  | .local .scVector .vmem => 4
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000x1024, .f32⟩
  | .hbm, ⟨3, _⟩ => ⟨S1024x1, .i32⟩
  | .hbm, ⟨4, _⟩ => ⟨S_, .i32⟩
  | .hbm, ⟨5, _⟩ => ⟨S1024x1, .i32⟩
  | .hbm, ⟨6, _⟩ => ⟨S1024x1, .i1⟩
  | .hbm, ⟨7, _⟩ => ⟨S_, .i32⟩
  | .hbm, ⟨8, _⟩ => ⟨S1024x1, .i32⟩
  | .hbm, ⟨9, _⟩ => ⟨S1024x1, .i32⟩
  | .hbm, ⟨10, _⟩ => ⟨S1024x1, .i32⟩
  | .hbm, ⟨11, _⟩ => ⟨S1024x1x1, .i32⟩
  | .hbm, ⟨12, _⟩ => ⟨S1, .i32⟩
  | .hbm, ⟨13, _⟩ => ⟨S_, .i32⟩
  | .hbm, ⟨14, _⟩ => ⟨S1024x1x1, .i32⟩
  | .hbm, ⟨15, _⟩ => ⟨S1024x1x1, .i1⟩
  | .hbm, ⟨16, _⟩ => ⟨S1x1x1, .i32⟩
  | .hbm, ⟨17, _⟩ => ⟨S1024x1x1, .i32⟩
  | .hbm, ⟨18, _⟩ => ⟨S1024x1x1, .i1⟩
  | .hbm, ⟨19, _⟩ => ⟨S1024x1x1, .i1⟩
  | .hbm, ⟨20, _⟩ => ⟨S_, .i1⟩
  | .hbm, ⟨21, _⟩ => ⟨S1024x1, .i1⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024, .f32⟩
  | .hbm, ⟨27, _⟩ => ⟨S4096, .f32⟩
  | .hbm, ⟨28, _⟩ => ⟨S4096, .f32⟩
  | .hbm, ⟨29, _⟩ => ⟨S1024, .f32⟩
  | .hbm, ⟨30, _⟩ => ⟨S1024, .f32⟩
  | .hbm, ⟨31, _⟩ => ⟨S1024, .f32⟩
  | .local .tc .vmem, ⟨0, _⟩ => ⟨S800x1024, .f32⟩
  | .local .tc .vmem, ⟨1, _⟩ => ⟨S800x1024, .f32⟩
  | .local .tc .vmem, ⟨2, _⟩ => ⟨S1024, .f32⟩
  | .local .tc .vmem, ⟨3, _⟩ => ⟨S1024, .f32⟩
  | .local .tc .vmem, ⟨4, _⟩ => ⟨S4096, .f32⟩
  | .local .tc .vmem, ⟨5, _⟩ => ⟨S4096, .f32⟩
  | .local .tc .vmem, ⟨6, _⟩ => ⟨S1024, .f32⟩
  | .local .tc .vmem, ⟨7, _⟩ => ⟨S1024, .f32⟩
  | .local .tc .vmem, ⟨8, _⟩ => ⟨S1024, .f32⟩
  | .local .tc .vmem, ⟨9, _⟩ => ⟨S1024, .f32⟩
  | .local .scVector .vmem, ⟨0, _⟩ => ⟨S240x128, .f32⟩
  | .local .scVector .vmem, ⟨1, _⟩ => ⟨S240x128, .f32⟩
  | .local .scVector .vmem, ⟨2, _⟩ => ⟨S128, .f32⟩
  | .local .scVector .vmem, ⟨3, _⟩ => ⟨S128, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_v4_0 : Ref sig .tc := ⟨.hbm, 27, rfl⟩
abbrev main_v4_1 : Ref sig .tc := ⟨.hbm, 28, rfl⟩
abbrev main_v5_0 : Ref sig .tc := ⟨.hbm, 29, rfl⟩
abbrev main_v5_1 : Ref sig .tc := ⟨.hbm, 30, rfl⟩
abbrev main_v6 : Ref sig .tc := ⟨.hbm, 31, rfl⟩
abbrev main_v0_scv : Ref sig .scVector := ⟨.hbm, 2, rfl⟩
abbrev main_v4_0_scv : Ref sig .scVector := ⟨.hbm, 27, rfl⟩
abbrev main_v4_1_scv : Ref sig .scVector := ⟨.hbm, 28, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c15600_i32 : BitVec 32 := 15600#32
  let v29 : BitVec 32 := Scalar.muli v28 c15600_i32
  let c0_i32_10 : BitVec 32 := 0#32
  let v31 : BitVec 32 := Scalar.addi v29 c0_i32_10
  v31
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v30 : BitVec 32 := Scalar.muli v11 c128_i32
  v30
def k0_off1 (i : grid0.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c15600_i32 : BitVec 32 := 15600#32
  let v29 : BitVec 32 := Scalar.muli v28 c15600_i32
  let v31 : BitVec 32 := Scalar.addi v29 c0_i32_10
  let v32 : BitVec 32 := v31
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v30 : BitVec 32 := Scalar.muli v11 c128_i32
  let v33 : BitVec 32 := v30
  ![v32.toNat, v33.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c15600_i32 : BitVec 32 := 15600#32
  let v29 : BitVec 32 := Scalar.muli v28 c15600_i32
  let c240_i32 : BitVec 32 := 240#32
  let v36 : BitVec 32 := Scalar.addi v29 c240_i32
  v36
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v30 : BitVec 32 := Scalar.muli v11 c128_i32
  v30
@[reducible] def k0_t1_loop : Scf.Loop 32 :=
  let c0_i32_11 : BitVec 32 := 0#32
  let c32_i32 : BitVec 32 := 32#32
  let v42 : BitVec 32 := Scalar.addi c0_i32_11 c32_i32
  let c1_i32_12 : BitVec 32 := 1#32
  ⟨c0_i32_11, v42, c1_i32_12⟩
@[reducible] def k0_t2_loop : Scf.Loop 32 :=
  let c0_i32_36 : BitVec 32 := 0#32
  let c240_i32_37 : BitVec 32 := 240#32
  let v103 : BitVec 32 := Scalar.addi c0_i32_36 c240_i32_37
  let c1_i32_38 : BitVec 32 := 1#32
  ⟨c0_i32_36, v103, c1_i32_38⟩
def k0_off2 (k0_t2 : Fin k0_t2_loop.trips) : Fin 2 → Nat :=
  let c0_i32_36 : BitVec 32 := 0#32
  let c1_i32_38 : BitVec 32 := 1#32
  let arg28 : BitVec 32 := Scf.iv c0_i32_36 c1_i32_38 k0_t2
  let v119 : Index := Scalar.indexCast arg28
  let c0_55 : Index := 0#32
  ![v119.toNat, 0]
def k0_off3 (k0_t2 : Fin k0_t2_loop.trips) : Fin 2 → Nat :=
  let c0_i32_36 : BitVec 32 := 0#32
  let c1_i32_38 : BitVec 32 := 1#32
  let arg28 : BitVec 32 := Scf.iv c0_i32_36 c1_i32_38 k0_t2
  let v125 : Index := Scalar.indexCast arg28
  let c16_56 : Index := 16#32
  ![v125.toNat, 16]
def k0_off4 (k0_t2 : Fin k0_t2_loop.trips) : Fin 2 → Nat :=
  let c0_i32_36 : BitVec 32 := 0#32
  let c1_i32_38 : BitVec 32 := 1#32
  let arg28 : BitVec 32 := Scf.iv c0_i32_36 c1_i32_38 k0_t2
  let v131 : Index := Scalar.indexCast arg28
  let c32_57 : Index := 32#32
  ![v131.toNat, 32]
def k0_off5 (k0_t2 : Fin k0_t2_loop.trips) : Fin 2 → Nat :=
  let c0_i32_36 : BitVec 32 := 0#32
  let c1_i32_38 : BitVec 32 := 1#32
  let arg28 : BitVec 32 := Scf.iv c0_i32_36 c1_i32_38 k0_t2
  let v137 : Index := Scalar.indexCast arg28
  let c48_58 : Index := 48#32
  ![v137.toNat, 48]
def k0_off6 (k0_t2 : Fin k0_t2_loop.trips) : Fin 2 → Nat :=
  let c0_i32_36 : BitVec 32 := 0#32
  let c1_i32_38 : BitVec 32 := 1#32
  let arg28 : BitVec 32 := Scf.iv c0_i32_36 c1_i32_38 k0_t2
  let v143 : Index := Scalar.indexCast arg28
  let c64_59 : Index := 64#32
  ![v143.toNat, 64]
def k0_off7 (k0_t2 : Fin k0_t2_loop.trips) : Fin 2 → Nat :=
  let c0_i32_36 : BitVec 32 := 0#32
  let c1_i32_38 : BitVec 32 := 1#32
  let arg28 : BitVec 32 := Scf.iv c0_i32_36 c1_i32_38 k0_t2
  let v149 : Index := Scalar.indexCast arg28
  let c80_60 : Index := 80#32
  ![v149.toNat, 80]
def k0_off8 (k0_t2 : Fin k0_t2_loop.trips) : Fin 2 → Nat :=
  let c0_i32_36 : BitVec 32 := 0#32
  let c1_i32_38 : BitVec 32 := 1#32
  let arg28 : BitVec 32 := Scf.iv c0_i32_36 c1_i32_38 k0_t2
  let v155 : Index := Scalar.indexCast arg28
  let c96_61 : Index := 96#32
  ![v155.toNat, 96]
def k0_off9 (k0_t2 : Fin k0_t2_loop.trips) : Fin 2 → Nat :=
  let c0_i32_36 : BitVec 32 := 0#32
  let c1_i32_38 : BitVec 32 := 1#32
  let arg28 : BitVec 32 := Scf.iv c0_i32_36 c1_i32_38 k0_t2
  let v161 : Index := Scalar.indexCast arg28
  let c112_62 : Index := 112#32
  ![v161.toNat, 112]
def k0_cond1 (k0_t1 : Fin k0_t1_loop.trips) : BitVec 1 :=
  let c2_i32_31 : BitVec 32 := 2#32
  let c0_i32_11 : BitVec 32 := 0#32
  let c1_i32_12 : BitVec 32 := 1#32
  let arg11 : BitVec 32 := Scf.iv c0_i32_11 c1_i32_12 k0_t1
  let v100 : BitVec 32 := Scalar.muli c2_i32_31 arg11
  let c2_i32_40 : BitVec 32 := 2#32
  let v105 : BitVec 32 := Scalar.addi v100 c2_i32_40
  let c65_i32 : BitVec 32 := 65#32
  let v106 : BitVec 1 := Scalar.cmpi .slt v105 c65_i32
  let v107 : BitVec 32 := Scalar.extui v106
  let c0_i32_41 : BitVec 32 := 0#32
  let v108 : BitVec 1 := Scalar.cmpi .ne v107 c0_i32_41
  v108

def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c15600_i32 : BitVec 32 := 15600#32
  let v29 : BitVec 32 := Scalar.muli v28 c15600_i32
  let c2_i32_31 : BitVec 32 := 2#32
  let c0_i32_11 : BitVec 32 := 0#32
  let c1_i32_12 : BitVec 32 := 1#32
  let arg11 : BitVec 32 := Scf.iv c0_i32_11 c1_i32_12 k0_t1
  let v100 : BitVec 32 := Scalar.muli c2_i32_31 arg11
  let c2_i32_55 : BitVec 32 := 2#32
  let v119 : BitVec 32 := Scalar.addi v100 c2_i32_55
  let c240_i32_56 : BitVec 32 := 240#32
  let v120 : BitVec 32 := Scalar.muli v119 c240_i32_56
  let v121 : BitVec 32 := Scalar.addi v29 v120
  v121
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v30 : BitVec 32 := Scalar.muli v11 c128_i32
  v30
def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c15600_i32 : BitVec 32 := 15600#32
  let v29 : BitVec 32 := Scalar.muli v28 c15600_i32
  let c2_i32_31 : BitVec 32 := 2#32
  let c0_i32_11 : BitVec 32 := 0#32
  let c1_i32_12 : BitVec 32 := 1#32
  let arg11 : BitVec 32 := Scf.iv c0_i32_11 c1_i32_12 k0_t1
  let v100 : BitVec 32 := Scalar.muli c2_i32_31 arg11
  let c2_i32_55 : BitVec 32 := 2#32
  let v119 : BitVec 32 := Scalar.addi v100 c2_i32_55
  let c240_i32_56 : BitVec 32 := 240#32
  let v120 : BitVec 32 := Scalar.muli v119 c240_i32_56
  let v121 : BitVec 32 := Scalar.addi v29 v120
  let v122 : BitVec 32 := v121
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v30 : BitVec 32 := Scalar.muli v11 c128_i32
  let v123 : BitVec 32 := v30
  ![v122.toNat, v123.toNat]
@[reducible] def k0_t3_loop : Scf.Loop 32 :=
  let c0_i32_48 : BitVec 32 := 0#32
  let c240_i32_49 : BitVec 32 := 240#32
  let v113 : BitVec 32 := Scalar.addi c0_i32_48 c240_i32_49
  let c1_i32_50 : BitVec 32 := 1#32
  ⟨c0_i32_48, v113, c1_i32_50⟩
def k0_off11 (k0_t3 : Fin k0_t3_loop.trips) : Fin 2 → Nat :=
  let c0_i32_48 : BitVec 32 := 0#32
  let c1_i32_50 : BitVec 32 := 1#32
  let arg28 : BitVec 32 := Scf.iv c0_i32_48 c1_i32_50 k0_t3
  let v119 : Index := Scalar.indexCast arg28
  let c0_55 : Index := 0#32
  ![v119.toNat, 0]
def k0_off12 (k0_t3 : Fin k0_t3_loop.trips) : Fin 2 → Nat :=
  let c0_i32_48 : BitVec 32 := 0#32
  let c1_i32_50 : BitVec 32 := 1#32
  let arg28 : BitVec 32 := Scf.iv c0_i32_48 c1_i32_50 k0_t3
  let v125 : Index := Scalar.indexCast arg28
  let c16_56 : Index := 16#32
  ![v125.toNat, 16]
def k0_off13 (k0_t3 : Fin k0_t3_loop.trips) : Fin 2 → Nat :=
  let c0_i32_48 : BitVec 32 := 0#32
  let c1_i32_50 : BitVec 32 := 1#32
  let arg28 : BitVec 32 := Scf.iv c0_i32_48 c1_i32_50 k0_t3
  let v131 : Index := Scalar.indexCast arg28
  let c32_57 : Index := 32#32
  ![v131.toNat, 32]
def k0_off14 (k0_t3 : Fin k0_t3_loop.trips) : Fin 2 → Nat :=
  let c0_i32_48 : BitVec 32 := 0#32
  let c1_i32_50 : BitVec 32 := 1#32
  let arg28 : BitVec 32 := Scf.iv c0_i32_48 c1_i32_50 k0_t3
  let v137 : Index := Scalar.indexCast arg28
  let c48_58 : Index := 48#32
  ![v137.toNat, 48]
def k0_off15 (k0_t3 : Fin k0_t3_loop.trips) : Fin 2 → Nat :=
  let c0_i32_48 : BitVec 32 := 0#32
  let c1_i32_50 : BitVec 32 := 1#32
  let arg28 : BitVec 32 := Scf.iv c0_i32_48 c1_i32_50 k0_t3
  let v143 : Index := Scalar.indexCast arg28
  let c64_59 : Index := 64#32
  ![v143.toNat, 64]
def k0_off16 (k0_t3 : Fin k0_t3_loop.trips) : Fin 2 → Nat :=
  let c0_i32_48 : BitVec 32 := 0#32
  let c1_i32_50 : BitVec 32 := 1#32
  let arg28 : BitVec 32 := Scf.iv c0_i32_48 c1_i32_50 k0_t3
  let v149 : Index := Scalar.indexCast arg28
  let c80_60 : Index := 80#32
  ![v149.toNat, 80]
def k0_off17 (k0_t3 : Fin k0_t3_loop.trips) : Fin 2 → Nat :=
  let c0_i32_48 : BitVec 32 := 0#32
  let c1_i32_50 : BitVec 32 := 1#32
  let arg28 : BitVec 32 := Scf.iv c0_i32_48 c1_i32_50 k0_t3
  let v155 : Index := Scalar.indexCast arg28
  let c96_61 : Index := 96#32
  ![v155.toNat, 96]
def k0_off18 (k0_t3 : Fin k0_t3_loop.trips) : Fin 2 → Nat :=
  let c0_i32_48 : BitVec 32 := 0#32
  let c1_i32_50 : BitVec 32 := 1#32
  let arg28 : BitVec 32 := Scf.iv c0_i32_48 c1_i32_50 k0_t3
  let v161 : Index := Scalar.indexCast arg28
  let c112_62 : Index := 112#32
  ![v161.toNat, 112]
def k0_cond2 (k0_t1 : Fin k0_t1_loop.trips) : BitVec 1 :=
  let c2_i32_42 : BitVec 32 := 2#32
  let c0_i32_11 : BitVec 32 := 0#32
  let c1_i32_12 : BitVec 32 := 1#32
  let arg11 : BitVec 32 := Scf.iv c0_i32_11 c1_i32_12 k0_t1
  let v109 : BitVec 32 := Scalar.muli c2_i32_42 arg11
  let c1_i32_43 : BitVec 32 := 1#32
  let v110 : BitVec 32 := Scalar.addi v109 c1_i32_43
  let c2_i32_52 : BitVec 32 := 2#32
  let v115 : BitVec 32 := Scalar.addi v110 c2_i32_52
  let c65_i32_53 : BitVec 32 := 65#32
  let v116 : BitVec 1 := Scalar.cmpi .slt v115 c65_i32_53
  let v117 : BitVec 32 := Scalar.extui v116
  let c0_i32_54 : BitVec 32 := 0#32
  let v118 : BitVec 1 := Scalar.cmpi .ne v117 c0_i32_54
  v118

def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c15600_i32 : BitVec 32 := 15600#32
  let v29 : BitVec 32 := Scalar.muli v28 c15600_i32
  let c2_i32_42 : BitVec 32 := 2#32
  let c0_i32_11 : BitVec 32 := 0#32
  let c1_i32_12 : BitVec 32 := 1#32
  let arg11 : BitVec 32 := Scf.iv c0_i32_11 c1_i32_12 k0_t1
  let v109 : BitVec 32 := Scalar.muli c2_i32_42 arg11
  let c1_i32_43 : BitVec 32 := 1#32
  let v110 : BitVec 32 := Scalar.addi v109 c1_i32_43
  let c2_i32_55 : BitVec 32 := 2#32
  let v119 : BitVec 32 := Scalar.addi v110 c2_i32_55
  let c240_i32_56 : BitVec 32 := 240#32
  let v120 : BitVec 32 := Scalar.muli v119 c240_i32_56
  let v121 : BitVec 32 := Scalar.addi v29 v120
  v121
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v30 : BitVec 32 := Scalar.muli v11 c128_i32
  v30
def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c15600_i32 : BitVec 32 := 15600#32
  let v29 : BitVec 32 := Scalar.muli v28 c15600_i32
  let c2_i32_42 : BitVec 32 := 2#32
  let c0_i32_11 : BitVec 32 := 0#32
  let c1_i32_12 : BitVec 32 := 1#32
  let arg11 : BitVec 32 := Scf.iv c0_i32_11 c1_i32_12 k0_t1
  let v109 : BitVec 32 := Scalar.muli c2_i32_42 arg11
  let c1_i32_43 : BitVec 32 := 1#32
  let v110 : BitVec 32 := Scalar.addi v109 c1_i32_43
  let c2_i32_55 : BitVec 32 := 2#32
  let v119 : BitVec 32 := Scalar.addi v110 c2_i32_55
  let c240_i32_56 : BitVec 32 := 240#32
  let v120 : BitVec 32 := Scalar.muli v119 c240_i32_56
  let v121 : BitVec 32 := Scalar.addi v29 v120
  let v122 : BitVec 32 := v121
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v30 : BitVec 32 := Scalar.muli v11 c128_i32
  let v123 : BitVec 32 := v30
  ![v122.toNat, v123.toNat]
@[reducible] def k0_t4_loop : Scf.Loop 32 :=
  let c0_i32_18 : BitVec 32 := 0#32
  let c240_i32_19 : BitVec 32 := 240#32
  let v46 : BitVec 32 := Scalar.addi c0_i32_18 c240_i32_19
  let c1_i32_20 : BitVec 32 := 1#32
  ⟨c0_i32_18, v46, c1_i32_20⟩
def k0_off20 (k0_t4 : Fin k0_t4_loop.trips) : Fin 2 → Nat :=
  let c0_i32_18 : BitVec 32 := 0#32
  let c1_i32_20 : BitVec 32 := 1#32
  let arg11 : BitVec 32 := Scf.iv c0_i32_18 c1_i32_20 k0_t4
  let v100 : Index := Scalar.indexCast arg11
  let c0_31 : Index := 0#32
  ![v100.toNat, 0]
def k0_off21 (k0_t4 : Fin k0_t4_loop.trips) : Fin 2 → Nat :=
  let c0_i32_18 : BitVec 32 := 0#32
  let c1_i32_20 : BitVec 32 := 1#32
  let arg11 : BitVec 32 := Scf.iv c0_i32_18 c1_i32_20 k0_t4
  let v106 : Index := Scalar.indexCast arg11
  let c16_32 : Index := 16#32
  ![v106.toNat, 16]
def k0_off22 (k0_t4 : Fin k0_t4_loop.trips) : Fin 2 → Nat :=
  let c0_i32_18 : BitVec 32 := 0#32
  let c1_i32_20 : BitVec 32 := 1#32
  let arg11 : BitVec 32 := Scf.iv c0_i32_18 c1_i32_20 k0_t4
  let v112 : Index := Scalar.indexCast arg11
  let c32_33 : Index := 32#32
  ![v112.toNat, 32]
def k0_off23 (k0_t4 : Fin k0_t4_loop.trips) : Fin 2 → Nat :=
  let c0_i32_18 : BitVec 32 := 0#32
  let c1_i32_20 : BitVec 32 := 1#32
  let arg11 : BitVec 32 := Scf.iv c0_i32_18 c1_i32_20 k0_t4
  let v118 : Index := Scalar.indexCast arg11
  let c48_34 : Index := 48#32
  ![v118.toNat, 48]
def k0_off24 (k0_t4 : Fin k0_t4_loop.trips) : Fin 2 → Nat :=
  let c0_i32_18 : BitVec 32 := 0#32
  let c1_i32_20 : BitVec 32 := 1#32
  let arg11 : BitVec 32 := Scf.iv c0_i32_18 c1_i32_20 k0_t4
  let v124 : Index := Scalar.indexCast arg11
  let c64_35 : Index := 64#32
  ![v124.toNat, 64]
def k0_off25 (k0_t4 : Fin k0_t4_loop.trips) : Fin 2 → Nat :=
  let c0_i32_18 : BitVec 32 := 0#32
  let c1_i32_20 : BitVec 32 := 1#32
  let arg11 : BitVec 32 := Scf.iv c0_i32_18 c1_i32_20 k0_t4
  let v130 : Index := Scalar.indexCast arg11
  let c80_36 : Index := 80#32
  ![v130.toNat, 80]
def k0_off26 (k0_t4 : Fin k0_t4_loop.trips) : Fin 2 → Nat :=
  let c0_i32_18 : BitVec 32 := 0#32
  let c1_i32_20 : BitVec 32 := 1#32
  let arg11 : BitVec 32 := Scf.iv c0_i32_18 c1_i32_20 k0_t4
  let v136 : Index := Scalar.indexCast arg11
  let c96_37 : Index := 96#32
  ![v136.toNat, 96]
def k0_off27 (k0_t4 : Fin k0_t4_loop.trips) : Fin 2 → Nat :=
  let c0_i32_18 : BitVec 32 := 0#32
  let c1_i32_20 : BitVec 32 := 1#32
  let arg11 : BitVec 32 := Scf.iv c0_i32_18 c1_i32_20 k0_t4
  let v142 : Index := Scalar.indexCast arg11
  let c112_38 : Index := 112#32
  ![v142.toNat, 112]
def k0_off28 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c1024_i32 : BitVec 32 := 1024#32
  let v96 : BitVec 32 := Scalar.muli v28 c1024_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c128_i32 : BitVec 32 := 128#32
  let v30 : BitVec 32 := Scalar.muli v11 c128_i32
  let v97 : BitVec 32 := Scalar.addi v96 v30
  ![v97.toNat]
abbrev grid1 : Pipeline.Grid := ⟨1, ![47], ![false]⟩

@[reducible] def k1_t1_loop : Scf.Loop 32 :=
  let c0_i32_2 : BitVec 32 := 0#32
  let c800_i32 : BitVec 32 := 800#32
  let v7 : BitVec 32 := Scalar.addi c0_i32_2 c800_i32
  let c1_i32 : BitVec 32 := 1#32
  ⟨c0_i32_2, v7, c1_i32⟩
def k1_off1 (k1_t1 : Fin k1_t1_loop.trips) : Fin 2 → Nat :=
  let c0_i32_2 : BitVec 32 := 0#32
  let c1_i32 : BitVec 32 := 1#32
  let arg4 : BitVec 32 := Scf.iv c0_i32_2 c1_i32 k1_t1
  let v11 : Index := Scalar.indexCast arg4
  let c0_6 : Index := 0#32
  ![v11.toNat, 0]
def cc1_transform_0 (i : grid1.Coords) : Fin 2 → Nat :=
  let arg0 : BitVec 32 := BitVec.ofNat 32 (i 0).val
  let c78_i32 : BitVec 32 := 78#32
  let v0 : BitVec 32 := Scalar.addi c78_i32 arg0
  let c0_i32 : BitVec 32 := 0#32
  let c0_i32_0 : BitVec 32 := 0#32
  ![v0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S800x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x100000_S100000x1024_1_0 : S1024x100000.Transposes [1, 0] S100000x1024
  bcast_S1024_S1024x1_0 : S1024.BroadcastsInDim S1024x1 (![0] : Fin 1 → Fin S1024x1.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  h_S_ : 0 < S_.numel
  shapeCasts_S1024x1_S1024 : S1024x1.ShapeCasts S1024
  inb_S100000x1024_S240x128_0_0 : ∀ a, (![0, 0] : Fin 2 → Nat) a + S240x128.size a ≤ S100000x1024.size a
  h_S1x16 : 0 < S1x16.numel
  shapeCasts_S1x16_S16 : S1x16.ShapeCasts S16
  inb_S128_S16_0 : ∀ a, (![0] : Fin 1 → Nat) a + S16.size a ≤ S128.size a
  h_S16 : 0 < S16.numel
  shapeCasts_S16_S16 : S16.ShapeCasts S16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S1024_S1024_0 : ∀ a, (![0] : Fin 1 → Nat) a + S1024.size a ≤ S1024.size a
  h_S1024 : 0 < S1024.numel
  shapeCasts_S1024_S1024 : S1024.ShapeCasts S1024
  h_S1x1024 : 0 < S1x1024.numel
  shapeCasts_S1x1024_S1024 : S1x1024.ShapeCasts S1024
  inb_S4096_S1024_0 : ∀ a, (![0] : Fin 1 → Nat) a + S1024.size a ≤ S4096.size a
  inb_S4096_S1024_1024 : ∀ a, (![1024] : Fin 1 → Nat) a + S1024.size a ≤ S4096.size a
  inb_S4096_S1024_2048 : ∀ a, (![2048] : Fin 1 → Nat) a + S1024.size a ≤ S4096.size a
  inb_S4096_S1024_3072 : ∀ a, (![3072] : Fin 1 → Nat) a + S1024.size a ≤ S4096.size a
  gather_S1024x100000_S1024x1x1_S1024x1_n_1_0_0_1_2_11_wf : GatherDims.WF S1024x100000 S1024x1x1 S1024x1 [] [1] [0] [1] [0] 2 ![1, 1]
  hcc0_scratch4 : 0 + S_.numel ≤ 14
  hcc0_scratch5 : 1 + S_.numel ≤ 14
  hcc0_scoped0 : 2 + S_.numel ≤ 14
  hcc0_scoped1 : 3 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 8 ∣ (k0_mult1 i).toNat
  k0_mult2_dvd : ∀ i : grid0.Coords, 128 ∣ (k0_mult2 i).toNat
  k0_off1_inb : ∀ i : grid0.Coords, ∀ (r : Fin 2), ∀ a, (k0_off1 i (BitVec.ofNat 32 (240 * r.val))) a + S240x128.size a ≤ S100000x1024.size a
  k0_mult3_dvd : ∀ i : grid0.Coords, 8 ∣ (k0_mult3 i).toNat
  k0_mult4_dvd : ∀ i : grid0.Coords, 128 ∣ (k0_mult4 i).toNat
  k0_t1_ok : k0_t1_loop.OK
  k0_t2_ok : k0_t2_loop.OK
  k0_off2_inb : ∀ k0_t2 : Fin k0_t2_loop.trips, ∀ a, (k0_off2 k0_t2) a + S1x16.size a ≤ S240x128.size a
  k0_off3_inb : ∀ k0_t2 : Fin k0_t2_loop.trips, ∀ a, (k0_off3 k0_t2) a + S1x16.size a ≤ S240x128.size a
  k0_off4_inb : ∀ k0_t2 : Fin k0_t2_loop.trips, ∀ a, (k0_off4 k0_t2) a + S1x16.size a ≤ S240x128.size a
  k0_off5_inb : ∀ k0_t2 : Fin k0_t2_loop.trips, ∀ a, (k0_off5 k0_t2) a + S1x16.size a ≤ S240x128.size a
  k0_off6_inb : ∀ k0_t2 : Fin k0_t2_loop.trips, ∀ a, (k0_off6 k0_t2) a + S1x16.size a ≤ S240x128.size a
  k0_off7_inb : ∀ k0_t2 : Fin k0_t2_loop.trips, ∀ a, (k0_off7 k0_t2) a + S1x16.size a ≤ S240x128.size a
  k0_off8_inb : ∀ k0_t2 : Fin k0_t2_loop.trips, ∀ a, (k0_off8 k0_t2) a + S1x16.size a ≤ S240x128.size a
  k0_off9_inb : ∀ k0_t2 : Fin k0_t2_loop.trips, ∀ a, (k0_off9 k0_t2) a + S1x16.size a ≤ S240x128.size a
  k0_mult5_dvd : ∀ (i : grid0.Coords) (k0_t1 : Fin k0_t1_loop.trips), ∀ (k0_h1 : k0_cond1 k0_t1 = 1#1), 8 ∣ (k0_mult5 i k0_t1).toNat
  k0_mult6_dvd : ∀ (i : grid0.Coords) (k0_t1 : Fin k0_t1_loop.trips), ∀ (k0_h1 : k0_cond1 k0_t1 = 1#1), 128 ∣ (k0_mult6 i).toNat
  k0_off10_inb : ∀ (i : grid0.Coords) (k0_t1 : Fin k0_t1_loop.trips), ∀ (k0_h1 : k0_cond1 k0_t1 = 1#1), ∀ a, (k0_off10 i k0_t1) a + S240x128.size a ≤ S100000x1024.size a
  k0_t3_ok : k0_t3_loop.OK
  k0_off11_inb : ∀ k0_t3 : Fin k0_t3_loop.trips, ∀ a, (k0_off11 k0_t3) a + S1x16.size a ≤ S240x128.size a
  k0_off12_inb : ∀ k0_t3 : Fin k0_t3_loop.trips, ∀ a, (k0_off12 k0_t3) a + S1x16.size a ≤ S240x128.size a
  k0_off13_inb : ∀ k0_t3 : Fin k0_t3_loop.trips, ∀ a, (k0_off13 k0_t3) a + S1x16.size a ≤ S240x128.size a
  k0_off14_inb : ∀ k0_t3 : Fin k0_t3_loop.trips, ∀ a, (k0_off14 k0_t3) a + S1x16.size a ≤ S240x128.size a
  k0_off15_inb : ∀ k0_t3 : Fin k0_t3_loop.trips, ∀ a, (k0_off15 k0_t3) a + S1x16.size a ≤ S240x128.size a
  k0_off16_inb : ∀ k0_t3 : Fin k0_t3_loop.trips, ∀ a, (k0_off16 k0_t3) a + S1x16.size a ≤ S240x128.size a
  k0_off17_inb : ∀ k0_t3 : Fin k0_t3_loop.trips, ∀ a, (k0_off17 k0_t3) a + S1x16.size a ≤ S240x128.size a
  k0_off18_inb : ∀ k0_t3 : Fin k0_t3_loop.trips, ∀ a, (k0_off18 k0_t3) a + S1x16.size a ≤ S240x128.size a
  k0_mult7_dvd : ∀ (i : grid0.Coords) (k0_t1 : Fin k0_t1_loop.trips), ∀ (k0_h2 : k0_cond2 k0_t1 = 1#1), 8 ∣ (k0_mult7 i k0_t1).toNat
  k0_mult8_dvd : ∀ (i : grid0.Coords) (k0_t1 : Fin k0_t1_loop.trips), ∀ (k0_h2 : k0_cond2 k0_t1 = 1#1), 128 ∣ (k0_mult8 i).toNat
  k0_off19_inb : ∀ (i : grid0.Coords) (k0_t1 : Fin k0_t1_loop.trips), ∀ (k0_h2 : k0_cond2 k0_t1 = 1#1), ∀ a, (k0_off19 i k0_t1) a + S240x128.size a ≤ S100000x1024.size a
  k0_t4_ok : k0_t4_loop.OK
  k0_off20_inb : ∀ k0_t4 : Fin k0_t4_loop.trips, ∀ a, (k0_off20 k0_t4) a + S1x16.size a ≤ S240x128.size a
  k0_off21_inb : ∀ k0_t4 : Fin k0_t4_loop.trips, ∀ a, (k0_off21 k0_t4) a + S1x16.size a ≤ S240x128.size a
  k0_off22_inb : ∀ k0_t4 : Fin k0_t4_loop.trips, ∀ a, (k0_off22 k0_t4) a + S1x16.size a ≤ S240x128.size a
  k0_off23_inb : ∀ k0_t4 : Fin k0_t4_loop.trips, ∀ a, (k0_off23 k0_t4) a + S1x16.size a ≤ S240x128.size a
  k0_off24_inb : ∀ k0_t4 : Fin k0_t4_loop.trips, ∀ a, (k0_off24 k0_t4) a + S1x16.size a ≤ S240x128.size a
  k0_off25_inb : ∀ k0_t4 : Fin k0_t4_loop.trips, ∀ a, (k0_off25 k0_t4) a + S1x16.size a ≤ S240x128.size a
  k0_off26_inb : ∀ k0_t4 : Fin k0_t4_loop.trips, ∀ a, (k0_off26 k0_t4) a + S1x16.size a ≤ S240x128.size a
  k0_off27_inb : ∀ k0_t4 : Fin k0_t4_loop.trips, ∀ a, (k0_off27 k0_t4) a + S1x16.size a ≤ S240x128.size a
  k0_off28_inb : ∀ i : grid0.Coords, ∀ a, (k0_off28 i) a + S128.size a ≤ S4096.size a
  hrank1 : 0 < grid1.rank
  k1_t1_ok : k1_t1_loop.OK
  k1_off1_inb : ∀ k1_t1 : Fin k1_t1_loop.trips, ∀ a, (k1_off1 k1_t1) a + S1x1024.size a ≤ S800x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x1024.size a ≤ S100000x1024.size a
  hwx1_0 : ∀ i : grid1.Coords, EltTy.bits .f32 = 32 ∨ (Rect.block (s := S100000x1024) S800x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .f32 = 32 ∨ (Rect.block (s := S1024) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

abbrev win1_0 : Pipeline.Window sig grid1 :=
  Pipeline.Window.ofSpec (Memref.whole main_v0) S800x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S1024.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v4_0) false false (stage2_0 0) (sem2_0 0) (Memref.isWhole_whole _) (hstage2_0 0)

abbrev win2_1 : Pipeline.Window sig grid2 :=
  Pipeline.Window.whole (Memref.whole main_v4_1) false false (stage2_1 0) (sem2_1 0) (Memref.isWhole_whole _) (hstage2_1 0)

abbrev win2_2 : Pipeline.Window sig grid2 :=
  Pipeline.Window.whole (Memref.whole main_v5_0) false false (stage2_2 0) (sem2_2 0) (Memref.isWhole_whole _) (hstage2_2 0)

abbrev win2_3 : Pipeline.Window sig grid2 :=
  Pipeline.Window.whole (Memref.whole main_v5_1) false false (stage2_3 0) (sem2_3 0) (Memref.isWhole_whole _) (hstage2_3 0)

abbrev win2_4 : Pipeline.Window sig grid2 :=
  Pipeline.Window.whole (Memref.whole main_v3) false false (stage2_4 0) (sem2_4 0) (Memref.isWhole_whole _) (hstage2_4 0)

abbrev win2_5 : Pipeline.Window sig grid2 :=
  Pipeline.Window.whole (Memref.whole main_v6) true false (stage2_5 0) (sem2_5 0) (Memref.isWhole_whole _) (hstage2_5 0)

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 47
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .i32⟩
  | .hbm, ⟨3, _⟩ => ⟨S_, .f32⟩
  | .hbm, ⟨4, _⟩ => ⟨S1024x100000, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1024x1, .i32⟩
  | .hbm, ⟨21, _⟩ => ⟨S1024x2, .i32⟩
  | .hbm, ⟨22, _⟩ => ⟨S_, .f32⟩
  | .hbm, ⟨23, _⟩ => ⟨S1024, .f32⟩
  | .hbm, ⟨24, _⟩ => ⟨S1024x100000, .f32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x1, .i32⟩
  | .hbm, ⟨41, _⟩ => ⟨S1024x2, .i32⟩
  | .hbm, ⟨42, _⟩ => ⟨S1024, .f32⟩
  | .hbm, ⟨43, _⟩ => ⟨S1024x100000, .f32⟩
  | .hbm, ⟨44, _⟩ => ⟨S_, .f32⟩
  | .hbm, ⟨45, _⟩ => ⟨S1024, .f32⟩
  | .hbm, ⟨46, _⟩ => ⟨S1024, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S_S1024x100000 : S_.BroadcastsInDim S1024x100000 (![] : Fin 0 → Fin S1024x100000.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  reducesTo_S1024x100000_S1024_d1 : S1024x100000.ReducesTo [1] S1024
  h_S_ : 0 < S_.numel
  scatter_S1024x100000_S1024x2_S1024_n_01_01_1_wf : ScatterDims.WF S1024x100000 S1024x2 S1024 [] [0, 1] [0, 1] 1
  gather_S1024x100000_S1024x2_S1024_n_01_n_n_01_1_11_wf : GatherDims.WF S1024x100000 S1024x2 S1024 [] [0, 1] [] [0, 1] [] 1 ![1, 1]

variable [Facts₀]

def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf
def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf

class Facts : Prop extends Facts₀ where

variable [Facts]
-- ==== Proof.RefFrame.lean ====
/-
  The reference's frame: the reference is a straight-line host program, so every weakly fair execution of it
  terminates without a fault, and it writes only its own intermediate buffers — its two arguments end as they
  began. This is its run (each result at the operations' composed term of the arguments) with the value dropped.
-/
import proofs.«210259_g7730941132961_cont_sun_c4_476_29_alg».proof.Defs
import proofs.«210259_g7730941132961_cont_sun_c4_476_29_alg».proof.Proof.Gen.ReferenceIdeal
import proofs.«210259_g7730941132961_cont_sun_c4_476_29_alg».proof.Proof.Gen.Pre_input_domain
import proofs.«210259_g7730941132961_cont_sun_c4_476_29_alg».proof.Proof.Gen.ReferenceIdeal.Run
import proofs.«210259_g7730941132961_cont_sun_c4_476_29_alg».proof.Proof.Gen.ReferenceIdeal.Read

noncomputable section

namespace Cert.Proof.RefFrame

open Idealize.ShloMosaic Idealize.SL.Sem

/-- The reference runs to the end, faults nowhere, and leaves both arguments unchanged. -/
theorem frame_ri : @Cert.frame_ReferenceIdeal Cert.ReferenceIdeal.Gen.facts Cert.Pre_input_domain.Gen.facts := fun m ρ _ =>
  (θ_run Cert.ReferenceIdeal.defs _ _).mono (fun _ h c => (h c).2) (Cert.ReferenceIdeal.Value.run (F := Ideal) m ρ)

end Cert.Proof.RefFrame

end
-- ==== Proof.Common.lean ====
/-
  What the parts of this certificate share: the program as the launch theorem of a SparseCore program sees it
  (one vector-subcore call on 2 x 16 tiles, then two TensorCore pipelines), the resource algebra (the handshakes'
  rounds, the pipelines' staging cells' rounds, the local transfers' counters), and the names of the arrays.
-/
import proofs.«210259_g7730941132961_cont_sun_c4_476_29_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«210259_g7730941132961_cont_sun_c4_476_29_alg».proof.Proof.Gen.KernelIdeal
import proofs.«210259_g7730941132961_cont_sun_c4_476_29_alg».proof.Proof.Gen.KernelIdeal.Skeleton
import proofs.«210259_g7730941132961_cont_sun_c4_476_29_alg».proof.Proof.Gen.KernelIdeal.Launch
import proofs.«210259_g7730941132961_cont_sun_c4_476_29_alg».proof.Proof.Gen.KernelIdeal.Points

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' label signature, lifted through the family of the two TensorCore pipelines. -/
abbrev ΛP : Labels := Pipeline.Sig Λ₀ (Fin 2) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
/-- The kernels' body table, lifted. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := UR sig nD τ
/-- Side by side with the local transfers' counters. -/
abbrev UU : Type := UH × (UP × Counters)

/-- The handshakes' copy: the left factor. -/
abbrev EH : Emb UH (MT nD τ sig (HIx 1) (Elt F) ℕ UU ℕ) := embL
/-- The pipelines' copy: the left factor of the right factor. -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KernelIdeal

end
-- ==== Proof.Val.lean ====
/-
  What the kernel computes, as pure functions of the transposed input, at any float instance.
  A pair (largest, second largest) is updated by one more entry with `push` and two pairs are joined with `merge`.
  Per column b of the transposed input X (100000 rows, 1024 columns):
    * the SparseCore tiles leave, for each of the four row groups g (rows g*15600 .. g*15600+15599), the pair of the
      group's rows, entry g*1024 + b of the two 4096-vectors;
    * the first TensorCore kernel leaves the pair of the rows 62400 .. 99999, entry b of the two 1024-vectors;
    * the second joins the five pairs and subtracts from the target's entry the larger of the others.
-/
import Idealize.ShloMosaic.PureOps
import Idealize.ShloMosaic.Lib.ValueIdx

noncomputable section

namespace Cert.Proof.Val

open Idealize.ShloMosaic Idealize.ShloMosaic.ValueIdx

variable {F : FTy → Type} [FloatOps F]

abbrev SX : Shape := ⟨2, ![100000, 1024]⟩
abbrev S4k : Shape := ⟨1, ![4096]⟩
abbrev S1k : Shape := ⟨1, ![1024]⟩

/-- Minus infinity, as the kernels spell it. -/
def ninf : F .f32 := Scalar.ofBits .f32 0xFF800000#32

/-- One more entry. -/
def push (p : F .f32 × F .f32) (x : F .f32) : F .f32 × F .f32 :=
  (FloatOps.maximumf p.1 x, FloatOps.maximumf p.2 (FloatOps.minimumf p.1 x))

/-- Two pairs joined. -/
def merge (p q : F .f32 × F .f32) : F .f32 × F .f32 :=
  (FloatOps.maximumf p.1 q.1, FloatOps.maximumf (FloatOps.minimumf p.1 q.1) (FloatOps.maximumf p.2 q.2))

/-- The pair of the first `n` entries of a sequence, from `init`. -/
def foldN (col : ℕ → F .f32) (init : F .f32 × F .f32) : ℕ → F .f32 × F .f32
  | 0 => init
  | n + 1 => push (foldN col init n) (col n)

/-- Column `b` of `X` as a sequence (minus infinity past the last row: never read). -/
def colX (X : FVec F SX .f32) (b : Fin 1024) : ℕ → F .f32 :=
  fun v => if h : v < 100000 then X (ix2 ⟨v, h⟩ b) else ninf

/-- Row group `g`'s pair at column `b`. -/
def groupPair (X : FVec F SX .f32) (g : ℕ) (b : Fin 1024) : F .f32 × F .f32 :=
  foldN (fun r => colX X b (g * 15600 + r)) (ninf, ninf) 15600

/-- What the tiles leave in the two 4096-vectors. -/
def scPair (X : FVec F SX .f32) (k : S4k.Idx) : F .f32 × F .f32 :=
  groupPair X ((k 0).val / 1024) ⟨(k 0).val % 1024, Nat.mod_lt _ (by norm_num)⟩
def scM1 (X : FVec F SX .f32) : FVec F S4k .f32 := fun k => (scPair X k).1
def scM2 (X : FVec F SX .f32) : FVec F S4k .f32 := fun k => (scPair X k).2

/-- The first TensorCore kernel's pair at column `b`, after its first `n` rows (rows 62400 ..). -/
def tcPairN (X : FVec F SX .f32) (n : ℕ) (b : S1k.Idx) : F .f32 × F .f32 :=
  foldN (fun r => colX X (b 0) (62400 + r)) (ninf, ninf) n
def tcM1 (X : FVec F SX .f32) : FVec F S1k .f32 := fun b => (tcPairN X 37600 b).1
def tcM2 (X : FVec F SX .f32) : FVec F S1k .f32 := fun b => (tcPairN X 37600 b).2

/-- The five pairs joined, in the second TensorCore kernel's order. -/
def allPair (m1 m2 : FVec F S4k .f32) (t1 t2 : FVec F S1k .f32) (b : Fin 1024) : F .f32 × F .f32 :=
  let g (j : ℕ) (h : j * 1024 + b.val < 4096) : F .f32 × F .f32 := (m1 (ix1 ⟨j * 1024 + b.val, h⟩), m2 (ix1 ⟨j * 1024 + b.val, h⟩))
  merge (merge (merge (merge (g 0 (by omega)) (g 1 (by omega))) (g 2 (by omega))) (g 3 (by omega))) (t1 (ix1 b), t2 (ix1 b))

/-- The result: the target's entry minus the larger of the others. -/
def out (m1 m2 : FVec F S4k .f32) (t1 t2 : FVec F S1k .f32) (c : FVec F S1k .f32) : FVec F S1k .f32 := fun b =>
  let M := allPair m1 m2 t1 t2 (b 0)
  FloatOps.subf (c b) (Scalar.select (FloatOps.cmpf .oeq (c b) M.1) M.2 M.1)

end Cert.Proof.Val

end
-- ==== Proof.Pay.lean ====
/-
  What the handshakes of the one SparseCore call carry. The TensorCore hands each tile two read shares of the
  whole transposed input (one per transfer that may be reading it at a time) and the tile's own 128 entries of
  the two 4096-vectors; the tile hands them back with its entries at the pairs of its row group and columns.
-/
import proofs.«210259_g7730941132961_cont_sun_c4_476_29_alg».proof.Proof.Common
import proofs.«210259_g7730941132961_cont_sun_c4_476_29_alg».proof.Proof.Val

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable (m : (ℓ : Loc nD τ sig) → Buf (Elt F) ℓ) (ρ : Dev nD → PrngReg)

/-- The input, its transpose, the two 4096-vectors, as locations of device `d`. -/
abbrev inLoc (d : Dev nD) : Loc nD τ sig := (SparseCore.T d).loc main_arg0
abbrev tgLoc (d : Dev nD) : Loc nD τ sig := (SparseCore.T d).loc main_arg1
abbrev xtLoc (d : Dev nD) : Loc nD τ sig := (SparseCore.T d).loc main_v0
abbrev m1Loc (d : Dev nD) : Loc nD τ sig := (SparseCore.T d).loc main_v4_0
abbrev m2Loc (d : Dev nD) : Loc nD τ sig := (SparseCore.T d).loc main_v4_1

variable [FloatOps F]

/-- The transposed input: what the first host operation writes. -/
def XT (d : Dev nD) : Buf (Elt F) (xtLoc d) :=
  (transpose S100000x1024 [1, 0] (m (inLoc d)) transposes_S1024x100000_S100000x1024_1_0 : FVec F S100000x1024 .f32)

/-- What the tiles leave in the two 4096-vectors. -/
def R1 (d : Dev nD) : Buf (Elt F) (m1Loc d) := (Val.scM1 (F := F) (XT m d) : FVec F S4096 .f32)
def R2 (d : Dev nD) : Buf (Elt F) (m2Loc d) := (Val.scM2 (F := F) (XT m d) : FVec F S4096 .f32)

/-- Tile `(c, i)`'s number: the kernel's `wid = s * 2 + c`. -/
def wid (c : Fin 2) (i : Fin 16) : Fin 32 := ⟨i.val * 2 + c.val, by omega⟩

theorem hdiv32 : 32 ∣ S4096.size 0 := ⟨128, rfl⟩
/-- Tile `w`'s 128 entries of a 4096-vector. -/
abbrev pc (w : Fin 32) : Rect S4096 := Rect.part (s := S4096) (a₀ := 0) hdiv32 w
abbrev pcSet (w : Fin 32) : Finset S4096.Idx := ((Memref.whole main_v4_0_scv : Memref sig .scVector .hbm S4096 .f32).view.slice (pc w)).set

/-- The read shares of the transposed input: a share per SparseCore, of it a share per tile, of it the two read shares
    a tile holds, one per transfer of its two. -/
abbrev coreTok (c : Fin 2) : PosShare TreeShare := shareTok fullShare 2 c
abbrev tileTok (c : Fin 2) (i : Fin 16) : PosShare TreeShare := shareTok (coreTok c) 16 i
abbrev tokA (c : Fin 2) (i : Fin 16) : PosShare TreeShare := shareTok (tileTok c i) 2 0
abbrev tokB (c : Fin 2) (i : Fin 16) : PosShare TreeShare := shareTok (tileTok c i) 2 1

/-- What a tile is handed, -/
def goT (d : Dev nD) (c : Fin 2) (i : Fin 16) : sProp 𝕄 :=
  iprop((xtLoc d ↦{tokA c i} XT m d) ∗ (xtLoc d ↦{tokB c i} XT m d)
    ∗ (m1Loc d ↦[pcSet (wid c i)]{fullShare} m (m1Loc d)) ∗ (m2Loc d ↦[pcSet (wid c i)]{fullShare} m (m2Loc d)))
/-- and what it hands back. -/
def tdT (d : Dev nD) (c : Fin 2) (i : Fin 16) : sProp 𝕄 :=
  iprop((xtLoc d ↦{tokA c i} XT m d) ∗ (xtLoc d ↦{tokB c i} XT m d)
    ∗ (m1Loc d ↦[pcSet (wid c i)]{fullShare} R1 m d) ∗ (m2Loc d ↦[pcSet (wid c i)]{fullShare} R2 m d))

instance goT_storable (d : Dev nD) (c : Fin 2) (i : Fin 16) : BI.Storable (upEmb : UEmb _ 𝕄) (goT m d c i) := by unfold goT; infer_instance
instance tdT_storable (d : Dev nD) (c : Fin 2) (i : Fin 16) : BI.Storable (upEmb : UEmb _ 𝕄) (tdT m d c i) := by unfold tdT; infer_instance

/-- The one call's payloads: a SparseCore's are its sixteen tiles'; the kernel's proof consumes nothing of the launch's. -/
def P : (K (F := F)).Pay (nD := nD) (Val := Elt F) (Name := ℕ) (U := UU) where
  st := fun q d c => match q with | 0 => bigSep Finset.univ fun i : Fin ((K (F := F)).nSub 0) => goT m d (Fin.cast nCore_zero c) (Fin.cast nSub_zero i)
  dn := fun q d c => match q with | 0 => bigSep Finset.univ fun i : Fin ((K (F := F)).nSub 0) => tdT m d (Fin.cast nCore_zero c) (Fin.cast nSub_zero i)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands are its tiles', and its results theirs. -/
theorem vecSplit : (K (F := F)).VecSplit' (P m) 0 := by
  intro d c
  have h1 : (P m).st 0 d c = bigSep Finset.univ fun i : Fin ((K (F := F)).nSub 0) => (P m).go 0 d c i := rfl
  have h2 : (P m).dn 0 d c = bigSep Finset.univ fun i : Fin ((K (F := F)).nSub 0) => (P m).td 0 d c i := rfl
  rw [h1, h2]
  iintro H
  imodintro
  isplitl [H]
  · iexact H
  · iintro H; iexact H

end Cert.Proof.KernelIdeal

end
-- ==== Proof.HostOps.lean ====
/-
  The host operations of @main before the SparseCore call, as one straight line: the transpose of the input, the
  gather of each row's target entry (with its index normalisation and bounds mask) and its reshape to a vector; and
  @main as that line followed by the call and the two TensorCore kernel regions.
-/
import proofs.«210259_g7730941132961_cont_sun_c4_476_29_alg».proof.Proof.Pay
import Idealize.ShloMosaic.Lib.Pipeline.Frame

noncomputable section

namespace Cert.Proof.KernelIdeal

open Cert.KernelIdeal Cert.KernelIdeal.Gen

open Idealize.ShloMosaic
open Idealize.ShloMosaic.SparseCore (S V T)
open Idealize.SL Idealize.SL.Sem

variable {F : FTy → Type} [FloatOps F]

/-- The straight line. -/
def hostOps : List (HloOp τ sig (Elt F)) := [
  StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F)),
  StableHlo.unary main_arg1 main_v1 (broadcastInDim S1024x1 ![0] bcast_S1024_S1024x1_0 : (⟨S1024, .i32⟩ : BufTy).Contents (Elt F) → (⟨S1024x1, .i32⟩ : BufTy).Contents (Elt F)),
  StableHlo.TRef.nullary main_call0.c (constantI S_ 32 0#32),
  StableHlo.TRef.unary main_call0.c main_call0.v0 (broadcastInDim S1024x1 ![] bcast_S_S1024x1),
  StableHlo.TRef.binary (StableHlo.TRef.of main_v1) main_call0.v0 main_call0.v1 (cmpi .slt),
  StableHlo.TRef.nullary main_call0.c_0 (constantI S_ 32 100000#32),
  StableHlo.TRef.unary main_call0.c_0 main_call0.v2 (broadcastInDim S1024x1 ![] bcast_S_S1024x1),
  StableHlo.TRef.binary (StableHlo.TRef.of main_v1) main_call0.v2 main_call0.v3 addi,
  StableHlo.TRef.ternary main_call0.v1 main_call0.v3 (StableHlo.TRef.of main_v1) main_call0.v4 select,
  StableHlo.TRef.reshape main_call0.v4 main_call0.v5 rfl shapeCasts_S1024x1_S1024x1x1,
  StableHlo.TRef.nullary main_call0.c_1 (constantI S1 32 99999#32),
  StableHlo.TRef.nullary main_call0.c_2 (constantI S_ 32 0#32),
  StableHlo.TRef.unary main_call0.c_2 main_call0.v6 (broadcastInDim S1024x1x1 ![] bcast_S_S1024x1x1),
  StableHlo.TRef.binary main_call0.v5 main_call0.v6 main_call0.v7 (cmpi .sge),
  StableHlo.TRef.unary main_call0.c_1 main_call0.v8 (broadcastInDim S1x1x1 ![2] bcast_S1_S1x1x1_2),
  StableHlo.TRef.unary main_call0.v8 main_call0.v9 (broadcastInDim S1024x1x1 ![0, 1, 2] bcast_S1x1x1_S1024x1x1_0_1_2),
  StableHlo.TRef.binary main_call0.v5 main_call0.v9 main_call0.v10 (cmpi .sle),
  StableHlo.TRef.binary main_call0.v7 main_call0.v10 main_call0.v11 andi,
  StableHlo.TRef.nullary main_call0.c_3 (constantI S_ 1 1#1),
  StableHlo.TRef.binary main_call0.v11 main_call0.c_3 main_call0.v12 (fun x v => Host.reduce IntOp.andi x v reducesTo_S1024x1x1_S1024x1_d2 h_S_),
  StableHlo.TRef.binary (StableHlo.TRef.of main_arg0) main_call0.v5 main_call0.v13 (fun x i => Host.gather gather_S1024x100000_S1024x1x1_S1024x1_n_1_0_0_1_2_11 x i),
  StableHlo.TRef.nullary main_call0.cst (constant S_ .f32 0x7FC00000#32),
  StableHlo.TRef.unary main_call0.cst main_call0.v14 (broadcastInDim S1024x1 ![] bcast_S_S1024x1),
  StableHlo.TRef.ternary main_call0.v12 main_call0.v13 main_call0.v14 main_call0.v15 select,
  StableHlo.reshape main_v2 main_v3 rfl shapeCasts_S1024x1_S1024]

/-- What follows it: the SparseCore call, then the two kernel regions. -/
def tail (d : Dev nD) : Prog (TpuEff nD τ sig (Elt F) (SparseCore.Sig (Pipeline.Sig Λ₀ (Fin 2) fun p => (pcfgs (F := F) p).Adm) 1) .tc) PUnit :=
  sc.run d 0 >>= fun _ =>
    (Prog.lift (.customCall (SparseCore.inner (Pipeline.entry 0)) ()) >>= fun _ =>
      (Prog.lift (.customCall (SparseCore.inner (Pipeline.entry 1)) ()) >>= fun _ => pure ⟨⟩))

/-- @main is the line, then the rest. -/
theorem main_eq (d : Dev nD) : main (F := F) d = (StableHlo.seq hostOps >>= fun _ => tail d) := by
  chain_rfl

end Cert.Proof.KernelIdeal

end
-- ==== Proof.TcStates.lean ====
/-
  The TensorCore's thread states around its two kernel regions, after the SparseCore call has returned:
  what it owes (nothing) with its recorded waits bounded, and the arrays the regions read and write at their contents.
-/
import proofs.«210259_g7730941132961_cont_sun_c4_476_29_alg».proof.Proof.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The first TensorCore kernel's two results, the gathered target entries, the final result, as locations of device `d`. -/
abbrev t1Loc (d : Dev nD) : Loc nD τ sig := (SparseCore.T d).loc main_v5_0
abbrev t2Loc (d : Dev nD) : Loc nD τ sig := (SparseCore.T d).loc main_v5_1
abbrev clsLoc (d : Dev nD) : Loc nD τ sig := (SparseCore.T d).loc main_v3
abbrev outLoc (d : Dev nD) : Loc nD τ sig := (SparseCore.T d).loc main_v6

variable [FloatOps F]

/-- What the first TensorCore kernel leaves in its two results: the pairs of the rows 62400 .. 99999. -/
def T1 (d : Dev nD) : Buf (Elt F) (t1Loc d) := (Val.tcM1 (F := F) (XT m d) : FVec F S1024 .f32)
def T2 (d : Dev nD) : Buf (Elt F) (t2Loc d) := (Val.tcM2 (F := F) (XT m d) : FVec F S1024 .f32)

/-- What the second leaves in the result, from the target entries `C`. -/
def OUT (d : Dev nD) (C : Buf (Elt F) (clsLoc d)) : Buf (Elt F) (outLoc d) :=
  (Val.out (F := F) (R1 m d : FVec F S4096 .f32) (R2 m d : FVec F S4096 .f32) (T1 m d : FVec F S1024 .f32) (T2 m d : FVec F S1024 .f32) (C : FVec F S1024 .f32) : FVec F S1024 .f32)

/-- After the SparseCore call the TensorCore owes nothing; its recorded waits sit at or below level 8. -/
def tcOw (d : Dev nD) : sProp 𝕄 := iprop(∃ W, ⌜(K (F := F)).WBelow (T d) W 8⌝ ∗ owes (T d) 0 W)

/-- Around the first region: the transposed input whole, the two results (at any contents before, at the pairs after). -/
def preTopk (d : Dev nD) : sProp 𝕄 :=
  iprop(tcOw d ∗ (xtLoc d ↦{fullShare} XT m d) ∗ (∃ f, t1Loc d ↦{fullShare} f) ∗ (∃ f, t2Loc d ↦{fullShare} f))
def postTopk (d : Dev nD) : sProp 𝕄 :=
  iprop(tcOw d ∗ (xtLoc d ↦{fullShare} XT m d) ∗ (t1Loc d ↦{fullShare} T1 m d) ∗ (t2Loc d ↦{fullShare} T2 m d))

/-- Around the second region: its five operands at their contents, the result (at any contents before, at `OUT` after). -/
def preComb (d : Dev nD) (C : Buf (Elt F) (clsLoc d)) : sProp 𝕄 :=
  iprop(tcOw d ∗ (m1Loc d ↦{fullShare} R1 m d) ∗ (m2Loc d ↦{fullShare} R2 m d) ∗ (t1Loc d ↦{fullShare} T1 m d) ∗ (t2Loc d ↦{fullShare} T2 m d)
    ∗ (clsLoc d ↦{fullShare} C) ∗ (∃ f, outLoc d ↦{fullShare} f))
def postComb (d : Dev nD) (C : Buf (Elt F) (clsLoc d)) : sProp 𝕄 :=
  iprop(tcOw d ∗ (m1Loc d ↦{fullShare} R1 m d) ∗ (m2Loc d ↦{fullShare} R2 m d) ∗ (t1Loc d ↦{fullShare} T1 m d) ∗ (t2Loc d ↦{fullShare} T2 m d)
    ∗ (clsLoc d ↦{fullShare} C) ∗ (outLoc d ↦{fullShare} OUT m d C))

end Cert.Proof.KernelIdeal

end
-- ==== Proof.HostVal.lean ====
/-
  What the buffers hold after the host line: the transposed input is the transpose; the gathered target entries are
  whatever the line computes (named, not opened, here); every buffer the line does not write holds what it held.
-/
import proofs.«210259_g7730941132961_cont_sun_c4_476_29_alg».proof.Proof.HostOps
import proofs.«210259_g7730941132961_cont_sun_c4_476_29_alg».proof.Proof.TcStates

noncomputable section

namespace Cert.Proof.KernelIdeal

open Cert.KernelIdeal Cert.KernelIdeal.Gen

open Idealize.ShloMosaic Idealize.ShloMosaic.StableHlo
open Idealize.ShloMosaic.SparseCore (S V T)
open Idealize.SL Idealize.SL.Sem

variable {F : FTy → Type} [FloatOps F]

variable (m : (ℓ : Loc nD τ sig) → Buf (Elt F) ℓ)

abbrev in' : DevRef τ sig := Proc.devRef .tc (main_arg0 : Ref sig .tc)
abbrev tg' : DevRef τ sig := Proc.devRef .tc (main_arg1 : Ref sig .tc)
abbrev xt' : DevRef τ sig := Proc.devRef .tc (main_v0 : Ref sig .tc)
abbrev cls' : DevRef τ sig := Proc.devRef .tc (main_v3 : Ref sig .tc)
abbrev m1' : DevRef τ sig := Proc.devRef .tc (main_v4_0 : Ref sig .tc)
abbrev m2' : DevRef τ sig := Proc.devRef .tc (main_v4_1 : Ref sig .tc)
abbrev t1' : DevRef τ sig := Proc.devRef .tc (main_v5_0 : Ref sig .tc)
abbrev t2' : DevRef τ sig := Proc.devRef .tc (main_v5_1 : Ref sig .tc)
abbrev out' : DevRef τ sig := Proc.devRef .tc (main_v6 : Ref sig .tc)

/-- The launch contents, and the contents after the host line. -/
def V0 (d : Dev nD) : Valuation τ sig (Elt F) := fun b => m (d, b)
def V1 (d : Dev nD) : Valuation τ sig (Elt F) := StableHlo.after (hostOps (F := F)) (V0 m d)

/-- The gathered target entries: what the host line leaves in its last buffer. -/
def CLS (d : Dev nD) : Buf (Elt F) (clsLoc d) := V1 m d cls'

theorem V1_in (d : Dev nD) : V1 m d in' = m (inLoc d) := by
  unfold V1 hostOps; after_results; rfl
theorem V1_tg (d : Dev nD) : V1 m d tg' = m (tgLoc d) := by
  unfold V1 hostOps; after_results; rfl
theorem V1_m1 (d : Dev nD) : V1 m d m1' = m (m1Loc d) := by
  unfold V1 hostOps; after_results; rfl
theorem V1_m2 (d : Dev nD) : V1 m d m2' = m (m2Loc d) := by
  unfold V1 hostOps; after_results; rfl
theorem V1_t1 (d : Dev nD) : V1 m d t1' = m (t1Loc d) := by
  unfold V1 hostOps; after_results; rfl
theorem V1_t2 (d : Dev nD) : V1 m d t2' = m (t2Loc d) := by
  unfold V1 hostOps; after_results; rfl
theorem V1_out (d : Dev nD) : V1 m d out' = m (outLoc d) := by
  unfold V1 hostOps; after_results; rfl

theorem V1_xt (d : Dev nD) : V1 m d xt' = XT m d := by
  unfold V1 hostOps XT
  after_results
  rfl

end Cert.Proof.KernelIdeal

end
-- ==== Proof.Split.lean ====
/-
  How the TensorCore deals the arrays to the 32 tiles and gathers them back: the transposed input as nested read
  shares (a share per SparseCore, per tile, per transfer; the remainders stay with the TensorCore), each 4096-vector
  as its 32 runs of 128 entries, run `i * 2 + c` to tile `i` of SparseCore `c`.
-/
import proofs.«210259_g7730941132961_cont_sun_c4_476_29_alg».proof.Proof.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable (m : (ℓ : Loc nD τ sig) → Buf (Elt F) ℓ)

/-! ## The 32 runs of a 4096-vector -/

theorem pcSet_eq (w : Fin 32) : pcSet w = (pc w).set := by
  show ((View.whole (main_v4_0_scv : Ref sig .scVector)).slice (pc w)).set = _
  rw [View.set_slice]; exact Finset.map_refl
theorem pcs_disjoint : ∀ i ∈ (Finset.univ : Finset (Fin 32)), ∀ j ∈ (Finset.univ : Finset (Fin 32)), i ≠ j → Disjoint (pcSet i) (pcSet j) :=
  fun i _ j _ h => by rw [pcSet_eq, pcSet_eq]; exact Rect.part_disjoint hdiv32 h
theorem pcs_cover : (Finset.univ : Finset (Fin 32)).biUnion pcSet = Finset.univ :=
  (Finset.biUnion_congr rfl fun i _ => pcSet_eq i).trans (Rect.biUnion_part hdiv32)

theorem m1_pieces (d : Dev nD) (f : Buf (Elt F) (m1Loc d)) :
    (m1Loc d ↦{fullShare} f : sProp 𝕄) = bigSep Finset.univ fun w : Fin 32 => m1Loc d ↦[pcSet w]{fullShare} f := by
  rw [← pointsTo_biUnion Finset.univ (ℓ := m1Loc d) pcSet pcs_disjoint, pcs_cover]; try rfl
theorem m2_pieces (d : Dev nD) (f : Buf (Elt F) (m2Loc d)) :
    (m2Loc d ↦{fullShare} f : sProp 𝕄) = bigSep Finset.univ fun w : Fin 32 => m2Loc d ↦[pcSet w]{fullShare} f := by
  rw [← pointsTo_biUnion Finset.univ (ℓ := m2Loc d) pcSet pcs_disjoint, pcs_cover]; try rfl

/-- Run `w` is tile `(w % 2, w / 2)`'s. -/
def widE : Fin 2 × Fin 16 ↪ Fin 32 := ⟨fun ci => wid ci.1 ci.2, by
  rintro ⟨c, i⟩ ⟨c', i'⟩ h
  have h' : i.val * 2 + c.val = i'.val * 2 + c'.val := congrArg Fin.val h
  have hc := c.isLt; have hc' := c'.isLt
  refine Prod.ext (Fin.ext ?_) (Fin.ext ?_) <;> simp only <;> omega⟩

theorem widE_univ : (Finset.univ : Finset (Fin 2 × Fin 16)).map widE = Finset.univ := by decide

theorem bigSep_wid (Φ : Fin 32 → sProp 𝕄) :
    bigSep Finset.univ Φ = bigSep Finset.univ fun c : Fin 2 => bigSep Finset.univ fun i : Fin 16 => Φ (wid c i) := by
  rw [← widE_univ, bigSep_map, bigSep_univ_prod]; rfl

/-! ## The read shares of the transposed input -/

variable [FloatOps F]

theorem fin2_sep (Φ : Fin 2 → sProp 𝕄) : bigSep Finset.univ Φ = iprop(Φ 0 ∗ Φ 1) := by
  rw [show (Finset.univ : Finset (Fin 2)) = {0, 1} by decide, bigSep_insert (by decide), bigSep_singleton]; rfl

/-- A tile's share is its two read shares and a remainder. -/
theorem tile_split (d : Dev nD) (c : Fin 2) (i : Fin 16) :
    (xtLoc d ↦{tileTok c i} XT m d : sProp 𝕄)
      ⊣⊢ iprop((xtLoc d ↦{shareDrop (tileTok c i) 2} XT m d) ∗ ((xtLoc d ↦{tokA c i} XT m d) ∗ (xtLoc d ↦{tokB c i} XT m d))) := by
  have h : (xtLoc d ↦{tileTok c i} XT m d : sProp 𝕄)
      ⊣⊢ iprop((xtLoc d ↦{shareDrop (tileTok c i) 2} XT m d) ∗ bigSep Finset.univ (fun j : Fin 2 => xtLoc d ↦{shareTok (tileTok c i) 2 j} XT m d)) :=
    pointsTo_toks (tileTok c i) 2
  rw [fin2_sep] at h
  exact h

/-- The families the split is made of. -/
abbrev R0 (d : Dev nD) : sProp 𝕄 := xtLoc d ↦{shareDrop fullShare 2} XT m d
abbrev RC (d : Dev nD) : sProp 𝕄 := bigSep Finset.univ fun c : Fin 2 => xtLoc d ↦{shareDrop (coreTok c) 16} XT m d
abbrev RT (d : Dev nD) : sProp 𝕄 := bigSep Finset.univ fun c : Fin 2 => bigSep Finset.univ fun i : Fin 16 => xtLoc d ↦{shareDrop (tileTok c i) 2} XT m d
abbrev AA (d : Dev nD) : sProp 𝕄 := bigSep Finset.univ fun c : Fin 2 => bigSep Finset.univ fun i : Fin 16 => xtLoc d ↦{tokA c i} XT m d
abbrev BB (d : Dev nD) : sProp 𝕄 := bigSep Finset.univ fun c : Fin 2 => bigSep Finset.univ fun i : Fin 16 => xtLoc d ↦{tokB c i} XT m d
abbrev PP1 (d : Dev nD) (f : Buf (Elt F) (m1Loc d)) : sProp 𝕄 := bigSep Finset.univ fun c : Fin 2 => bigSep Finset.univ fun i : Fin 16 => m1Loc d ↦[pcSet (wid c i)]{fullShare} f
abbrev PP2 (d : Dev nD) (f : Buf (Elt F) (m2Loc d)) : sProp 𝕄 := bigSep Finset.univ fun c : Fin 2 => bigSep Finset.univ fun i : Fin 16 => m2Loc d ↦[pcSet (wid c i)]{fullShare} f

/-- The whole transposed input is the remainders and every tile's two read shares. -/
theorem xt_split (d : Dev nD) :
    (xtLoc d ↦{fullShare} XT m d : sProp 𝕄) = iprop(R0 m d ∗ (RC m d ∗ (RT m d ∗ (AA m d ∗ BB m d)))) := by
  have top : (xtLoc d ↦{fullShare} XT m d : sProp 𝕄)
      ⊣⊢ iprop((xtLoc d ↦{shareDrop fullShare 2} XT m d) ∗ bigSep Finset.univ (fun c : Fin 2 => xtLoc d ↦{coreTok c} XT m d)) :=
    pointsTo_toks fullShare 2
  have core (c : Fin 2) : (xtLoc d ↦{coreTok c} XT m d : sProp 𝕄)
      ⊣⊢ iprop((xtLoc d ↦{shareDrop (coreTok c) 16} XT m d) ∗ bigSep Finset.univ (fun i : Fin 16 => xtLoc d ↦{tileTok c i} XT m d)) :=
    pointsTo_toks (coreTok c) 16
  rw [BI.equiv_iff.mp ⟨top.1, top.2⟩,
    bigSep_congr fun c _ => BI.equiv_iff.mp ⟨(core c).1, (core c).2⟩,
    bigSep_congr fun c _ => congrArg _ (bigSep_congr fun i _ => BI.equiv_iff.mp ⟨(tile_split m d c i).1, (tile_split m d c i).2⟩)]
  simp only [bigSep_sep']

theorem m1_tiles (d : Dev nD) (f : Buf (Elt F) (m1Loc d)) : (m1Loc d ↦{fullShare} f : sProp 𝕄) = PP1 d f := by
  rw [m1_pieces, bigSep_wid]
theorem m2_tiles (d : Dev nD) (f : Buf (Elt F) (m2Loc d)) : (m2Loc d ↦{fullShare} f : sProp 𝕄) = PP2 d f := by
  rw [m2_pieces, bigSep_wid]

/-- Every SparseCore's operands, -/
theorem st_all (d : Dev nD) : (bigSep Finset.univ fun c : Fin ((K (F := F)).nCore 0) => (P m).st 0 d c)
    = iprop(AA m d ∗ (BB m d ∗ (PP1 d (m (m1Loc d)) ∗ PP2 d (m (m2Loc d))))) := by
  have h : (bigSep Finset.univ fun c : Fin ((K (F := F)).nCore 0) => (P m).st 0 d c)
      = bigSep Finset.univ fun c : Fin 2 => bigSep Finset.univ fun i : Fin 16 => goT m d c i := rfl
  rw [h]; unfold goT; simp only [bigSep_sep']
/-- and results. -/
theorem dn_all (d : Dev nD) : (bigSep Finset.univ fun c : Fin ((K (F := F)).nCore 0) => (P m).dn 0 d c)
    = iprop(AA m d ∗ (BB m d ∗ (PP1 d (R1 m d) ∗ PP2 d (R2 m d)))) := by
  have h : (bigSep Finset.univ fun c : Fin ((K (F := F)).nCore 0) => (P m).dn 0 d c)
      = bigSep Finset.univ fun c : Fin 2 => bigSep Finset.univ fun i : Fin 16 => tdT m d c i := rfl
  rw [h]; unfold tdT; simp only [bigSep_sep']

/-- The remainders the TensorCore keeps across the call. -/
def xtRest (d : Dev nD) : sProp 𝕄 := iprop(R0 m d ∗ (RC m d ∗ RT m d))

/-- The deal: the three arrays whole are the remainders and every SparseCore's operands. -/
theorem st_intro (d : Dev nD) :
    iprop((xtLoc d ↦{fullShare} XT m d) ∗ (m1Loc d ↦{fullShare} m (m1Loc d)) ∗ (m2Loc d ↦{fullShare} m (m2Loc d)))
      ⊢ (iprop(xtRest m d ∗ bigSep Finset.univ fun c : Fin ((K (F := F)).nCore 0) => (P m).st 0 d c) : sProp 𝕄) := by
  rw [xt_split, m1_tiles, m2_tiles, st_all]; unfold xtRest
  iintro ⟨⟨H0, HC, HT, HA, HB⟩, H1, H2⟩
  isplitl [H0 HC HT]
  · isplitl [H0]; · iexact H0
    isplitl [HC]; · iexact HC
    iexact HT
  isplitl [HA]; · iexact HA
  isplitl [HB]; · iexact HB
  isplitl [H1]; · iexact H1
  iexact H2

/-- The gathering: the remainders and every SparseCore's results are the three arrays whole, the vectors at the pairs. -/
theorem dn_elim (d : Dev nD) :
    (iprop(xtRest m d ∗ bigSep Finset.univ fun c : Fin ((K (F := F)).nCore 0) => (P m).dn 0 d c) : sProp 𝕄)
      ⊢ iprop((xtLoc d ↦{fullShare} XT m d) ∗ (m1Loc d ↦{fullShare} R1 m d) ∗ (m2Loc d ↦{fullShare} R2 m d)) := by
  rw [xt_split, m1_tiles, m2_tiles, dn_all]; unfold xtRest
  iintro ⟨⟨H0, HC, HT⟩, HA, HB, H1, H2⟩
  isplitl [H0 HC HT HA HB]
  · isplitl [H0]; · iexact H0
    isplitl [HC]; · iexact HC
    isplitl [HT]; · iexact HT
    isplitl [HA]; · iexact HA
    iexact HB
  isplitl [H1]; · iexact H1
  iexact H2

end Cert.Proof.KernelIdeal

end
-- ==== Proof.Ghost.lean ====
/-
  The launch element of the ghost state: the handshakes' rounds, the two pipelines' staging cells' rounds (dealt to each
  TensorCore as the ghost state its two regions allocate their cells' invariants from), and the transfers' counters.
-/
import proofs.«210259_g7730941132961_cont_sun_c4_476_29_alg».proof.Proof.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- Neither pipeline has prefetched tables. -/
abbrev adm : (p : Fin 2) → (pcfgs (F := F) p).Adm := fun p => (cfgs p).toPCfg_adm

/-- The pipelines' configurations, as the regions kit reads them. -/
abbrev pinned : Fin 2 → Pipeline.Cfg sig Λ₀ := Pipeline.pin (pcfgs (F := F)) adm

theorem pinned_inj : Function.Injective (Pipeline.cellOf (nD := nD) (τ := τ) (pinned (F := F))) := cellOf_inj

variable [FloatOps F]

/-- What the launch deals a TensorCore for its two regions: both pipelines' cells' ghost state and duty tokens. -/
def G (d : Dev nD) : sProp 𝕄 := Pipeline.ghostOn (pcfgs (F := F)) adm EP Finset.univ d

def u₀ : UU := (initOf (K (F := F)).hsCells (K (F := F)).hsToks,
  (initOf (Pipeline.cells (nD := nD) (τ := τ) (pinned (F := F)) pinned_inj) (Pipeline.launchToks (nD := nD) (τ := τ) (pinned (F := F)) pinned_inj), 1))

theorem bigSep_emp' {I : Type} (s : Finset I) : (bigSep s fun _ => iprop(emp)) = (iprop(emp) : sProp 𝕄) := bigSep_emp_const s

theorem own_EP (x : UP) :
    (BI.own (((Emb.inl : Emb UP (UP × Counters)).trans (embR : Emb (UP × Counters) (MT nD τ sig (HIx 1) (Elt F) ℕ UU ℕ))) x) : sProp 𝕄) ⊢ BI.own (EP (F := F) x) :=
  Entails.of_eq rfl

theorem hghost : iprop((bigSep Finset.univ fun c : Dev nD => bigSep Finset.univ fun p : Fin 2 => Pipeline.cellsGhost (pinned (F := F)) (EP (F := F)) p c)
      ∗ (bigSep Finset.univ fun c : Dev nD => bigSep Finset.univ fun p : Fin 2 => (Pipeline.toksInit (pinned (F := F)) (EP (F := F)) p c : sProp 𝕄)))
    ⊢ bigSep Finset.univ fun d : Dev nD => G (F := F) d := by
  rw [← bigSep_sep']
  exact bigSep_mono fun c _ => show iprop((bigSep Finset.univ fun p : Fin 2 => Pipeline.cellsGhost (pinned (F := F)) (EP (F := F)) p c)
        ∗ bigSep Finset.univ fun p : Fin 2 => (Pipeline.toksInit (pinned (F := F)) (EP (F := F)) p c : sProp 𝕄)) ⊢ G (F := F) c
    from Entails.of_eq (by unfold G Pipeline.ghostOn Pipeline.PerCore.ghostOn; rw [bigSep_sep'])

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP0, -⟩
  ihave HP := (own_EP _) $$ HP0
  imod (Pipeline.fund_ghost (pinned (F := F)) (EP (F := F)) pinned_inj) $$ HP with ⟨Hg, Ht⟩
  imodintro
  isplitl [HH]; · iexact HH
  isplitl [Hg Ht]
  · iapply (hghost (F := F))
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdeal

end
-- ==== Proof.Launch1.lean ====
/-
  @main on the TensorCore, first part: the host line, then the SparseCore call — the transposed input dealt to the
  tiles as read shares, the two 4096-vectors as their 32 runs, and gathered back with the vectors at the pairs.
-/
import proofs.«210259_g7730941132961_cont_sun_c4_476_29_alg».proof.Proof.HostVal
import proofs.«210259_g7730941132961_cont_sun_c4_476_29_alg».proof.Proof.Split
import proofs.«210259_g7730941132961_cont_sun_c4_476_29_alg».proof.Proof.Ghost

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)

variable {F : FTy → Type}

local notation "𝕄" => MT nD τ sig (HIx 1) (Elt F) ℕ UU ℕ

variable (m : (ℓ : Loc nD τ sig) → Buf (Elt F) ℓ) (ρ : Dev nD → PrngReg)

variable [FloatOps F]

theorem hostOps_tc : (hostOps (F := F)).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub ..⟩

theorem hostOps_sub : ∀ op ∈ (hostOps (F := F)), op.bufs ⊆ ucRefs τ sig :=
  fun op h => sub_ucRefs op ((List.forall_iff_forall_mem.mp hostOps_tc) op h)

theorem hostOps_fresh : ∀ op ∈ (hostOps (F := F)), op.fresh = ∅ := by
  intro op h
  simp only [hostOps, List.mem_cons, List.mem_nil_iff, or_false] at h
  rcases h with (rfl | rfl | rfl | rfl | rfl | rfl | rfl | rfl | rfl | rfl | rfl | rfl | rfl | rfl | rfl | rfl | rfl | rfl | rfl | rfl | rfl | rfl | rfl | rfl | rfl) <;> rfl

/-- The nine arrays the rest of @main reads or writes. -/
abbrev S9 : Finset (DevRef τ sig) := {in', tg', xt', cls', m1', m2', t1', t2', out'}

theorem S9_sub : S9 ⊆ ucRefs τ sig := by decide

theorem held_S9 (d : Dev nD) (W : Valuation τ sig (Elt F)) :
    (held (T d) S9 W : sProp 𝕄) = iprop((inLoc d ↦{fullShare} W in') ∗ (tgLoc d ↦{fullShare} W tg') ∗ (xtLoc d ↦{fullShare} W xt')
      ∗ (clsLoc d ↦{fullShare} W cls') ∗ (m1Loc d ↦{fullShare} W m1') ∗ (m2Loc d ↦{fullShare} W m2') ∗ (t1Loc d ↦{fullShare} W t1')
      ∗ (t2Loc d ↦{fullShare} W t2') ∗ (outLoc d ↦{fullShare} W out')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The two kernel regions that follow the call, then the return. -/
def tail2 (d : Dev nD) : Prog (TpuEff nD τ sig (Elt F) (SparseCore.Sig (Pipeline.Sig Λ₀ (Fin 2) fun p => (pcfgs (F := F) p).Adm) 1) .tc) PUnit :=
  Prog.lift (.customCall (SparseCore.inner (Pipeline.entry 0)) ()) >>= fun _ =>
    (Prog.lift (.customCall (SparseCore.inner (Pipeline.entry 1)) ()) >>= fun _ => pure ⟨⟩)

theorem tail_eq (d : Dev nD) : tail (F := F) d = (sc.run d 0 >>= fun _ => tail2 d) := rfl

/-- What the TensorCore holds when the SparseCore call has returned: the boundary, the nine arrays — the transposed
    input, the gathered entries, the two 4096-vectors at the pairs, the rest at the launch contents. -/
def afterCall (d : Dev nD) : sProp 𝕄 :=
  iprop(boundary (T d) ∗ (inLoc d ↦{fullShare} m (inLoc d)) ∗ (tgLoc d ↦{fullShare} m (tgLoc d)) ∗ (xtLoc d ↦{fullShare} XT m d)
    ∗ (clsLoc d ↦{fullShare} CLS m d) ∗ (m1Loc d ↦{fullShare} R1 m d) ∗ (m2Loc d ↦{fullShare} R2 m d)
    ∗ (t1Loc d ↦{fullShare} m (t1Loc d)) ∗ (t2Loc d ↦{fullShare} m (t2Loc d)) ∗ (outLoc d ↦{fullShare} m (outLoc d)))

set_option backward.isDefEq.respectTransparency.types false in
/-- @main up to the return of the SparseCore call. -/
theorem hmain_call (κ : GSem nD τ sig → ℕ) (d : Dev nD) (Φ : PUnit → sProp 𝕄) :
    iprop((K (F := F)).ctx EH (P m) κ ∗ (K (F := F)).tcSt EH d 0 ∗ (K (F := F)).tcRes m ρ d
        ∗ (iprop((K (F := F)).tcSt EH d 1 ∗ afterCall m d) -∗ wp frame (wpE ((K (F := F)).defs (D (F := F))) 𝒱 (SparseCore.T d) none) Set.univ (tail2 d) Φ))
      ⊢ wp frame (wpE ((K (F := F)).defs (D (F := F))) 𝒱 (SparseCore.T d) none) Set.univ (main d) Φ := by
  unfold SparseCore.Cfg.tcRes
  rw [main_eq, show (unscopedBufs d (fun b => m ((SparseCore.T d).loc b)) : sProp 𝕄) = held (T d) (ucRefs τ sig) (V0 m d)
    from unscopedBufs_held d (V0 m d)]
  iintro ⟨#Hctx, Hst, ⟨Hb, Hheld, -, -⟩, Hk⟩
  iapply (StableHlo.wp_seq 𝒱 none Set.univ d (ucRefs τ sig) _ (hostOps (F := F)) hostOps_sub hostOps_fresh (V0 m d)) $$ [Hb Hheld]
  · isplitl [Hb]; · iexact Hb
    iexact Hheld
  iintro ⟨Hb, Hheld⟩
  ihave H2 := (Entails.of_eq (held_sub_split (d.tc : Thread nD τ) S9_sub (StableHlo.after (hostOps (F := F)) (V0 m d)))) $$ Hheld
  icases H2 with ⟨H9, -⟩
  ihave H9' := (show (held (d.tc : Thread nD τ) S9 (StableHlo.after (hostOps (F := F)) (V0 m d)) : sProp 𝕄)
      ⊢ iprop((inLoc d ↦{fullShare} V1 m d in') ∗ (tgLoc d ↦{fullShare} V1 m d tg') ∗ (xtLoc d ↦{fullShare} V1 m d xt')
      ∗ (clsLoc d ↦{fullShare} V1 m d cls') ∗ (m1Loc d ↦{fullShare} V1 m d m1') ∗ (m2Loc d ↦{fullShare} V1 m d m2') ∗ (t1Loc d ↦{fullShare} V1 m d t1')
      ∗ (t2Loc d ↦{fullShare} V1 m d t2') ∗ (outLoc d ↦{fullShare} V1 m d out')) from Entails.of_eq (held_S9 (F := F) d (V1 m d))) $$ H9
  icases H9' with ⟨Hin, Htg, Hxt, Hcls, Hm1, Hm2, Ht1, Ht2, Hout⟩
  rw [V1_in, V1_tg, V1_xt, V1_m1, V1_m2, V1_t1, V1_t2, V1_out, tail_eq, wp_bind]
  ihave Hsp := (st_intro m d) $$ [Hxt Hm1 Hm2]
  · isplitl [Hxt]; · iexact Hxt
    isplitl [Hm1]; · iexact Hm1
    iexact Hm2
  icases Hsp with ⟨Hrest, Hst0⟩
  iapply ((K (F := F)).wp_run (D (F := F)) 𝒱 (EH := EH) (P := P m) κ d 0) $$ [Hst Hst0 Hrest Hb Hin Htg Hcls Ht1 Ht2 Hout Hk]
  isplitr; · iexact Hctx
  isplitl [Hst]; · iexact Hst
  isplitl [Hst0]; · iexact Hst0
  iintro ⟨Hst, Hdn⟩
  ihave Hj := (dn_elim m d) $$ [Hrest Hdn]
  · isplitl [Hrest]; · iexact Hrest
    iexact Hdn
  icases Hj with ⟨Hxt, Hm1, Hm2⟩
  iapply Hk
  isplitl [Hst]; · iexact Hst
  unfold afterCall CLS
  isplitl [Hb]; · iexact Hb
  isplitl [Hin]; · iexact Hin
  isplitl [Htg]; · iexact Htg
  isplitl [Hxt]; · iexact Hxt
  isplitl [Hcls]; · iexact Hcls
  isplitl [Hm1]; · iexact Hm1
  isplitl [Hm2]; · iexact Hm2
  isplitl [Ht1]; · iexact Ht1
  isplitl [Ht2]; · iexact Ht2
  iexact Hout

end Cert.Proof.KernelIdeal

end
-- ==== Proof.Launch2.lean ====
/-
  @main on the TensorCore, second part: the two kernel regions entered through the regions kit from what the
  SparseCore call left, and what @main leaves for the claim to read: the two arguments unchanged, the result at the
  target entries minus the larger of the others.
-/
import proofs.«210259_g7730941132961_cont_sun_c4_476_29_alg».proof.Proof.Launch1
import proofs.«210259_g7730941132961_cont_sun_c4_476_29_alg».proof.Proof.TcStates

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The rest of the TensorCore's handshake state after the call. -/
def tcStRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (d : Dev nD) : ((K (F := F)).tcSt EH d 1 : sProp 𝕄) = iprop(tcOw d ∗ tcStRest d) := by
  unfold SparseCore.Cfg.tcSt tcOw tcStRest
  rw [(K (F := F)).Otc_end d (le_refl 1)]

/-- The states the two regions are entered from. -/
def preTopkM (d : Dev nD) : sProp 𝕄 :=
  iprop(tcOw d ∗ (xtLoc d ↦{fullShare} XT m d) ∗ (t1Loc d ↦{fullShare} m (t1Loc d)) ∗ (t2Loc d ↦{fullShare} m (t2Loc d)))
def preCombM (d : Dev nD) (C : Buf (Elt F) (clsLoc d)) : sProp 𝕄 :=
  iprop(tcOw d ∗ (m1Loc d ↦{fullShare} R1 m d) ∗ (m2Loc d ↦{fullShare} R2 m d) ∗ (t1Loc d ↦{fullShare} T1 m d) ∗ (t2Loc d ↦{fullShare} T2 m d)
    ∗ (clsLoc d ↦{fullShare} C) ∗ (outLoc d ↦{fullShare} m (outLoc d)))

/-- What @main leaves the claim. -/
def FIN (d : Dev nD) : sProp 𝕄 :=
  iprop((inLoc d ↦{fullShare} m (inLoc d)) ∗ (tgLoc d ↦{fullShare} m (tgLoc d)) ∗ (outLoc d ↦{fullShare} OUT m d (CLS m d)))

/-- The two regions and the return, in the kernels' own label signature. -/
def tail2D : Prog (TpuEff nD τ sig (Elt F) (Pipeline.Sig Λ₀ (Fin 2) fun p => (pcfgs (F := F) p).Adm) .tc) PUnit :=
  .op (.customCall (Pipeline.entry 0) ()) fun _ => .op (.customCall (Pipeline.entry 1) ()) fun _ => .ret ⟨⟩

theorem tail2_lift (d : Dev nD) : tail2 (F := F) d = SparseCore.liftProg tail2D := rfl

theorem G_split (d : Dev nD) : (G (F := F) d : sProp 𝕄)
    = iprop((Pipeline.cellsGhost (pinned (F := F)) (EP (F := F)) 0 d ∗ Pipeline.toksInit (pinned (F := F)) (EP (F := F)) 0 d)
      ∗ (Pipeline.cellsGhost (pinned (F := F)) (EP (F := F)) 1 d ∗ Pipeline.toksInit (pinned (F := F)) (EP (F := F)) 1 d)) := by
  unfold G Pipeline.ghostOn Pipeline.PerCore.ghostOn
  rw [fin2_sep]

section Tail

variable {pd : (p : Fin 2) → (c : Dev nD) → Pipeline.Dat τ (Elt F) (HIx 1) ℕ UU ℕ (Pipeline.pin (pcfgs (F := F)) adm p) c}
  (Rt : Pipeline.RegionSeg (pcfgs (F := F)) adm pd (none : HIx 1) (defs₀ (F := F)) 𝒱₀ (K (F := F)).L (K (F := F)).lev (0 : Fin 2))
  (Rc : Pipeline.RegionSeg (pcfgs (F := F)) adm pd (none : HIx 1) (defs₀ (F := F)) 𝒱₀ (K (F := F)).L (K (F := F)).lev (1 : Fin 2))
  (htpre : ∀ d, preTopkM m d ⊢ Rt.pre d) (htpost : ∀ d, Rt.post d ⊢ postTopk m d)
  (hcpre : ∀ d, preCombM m d (CLS m d) ⊢ Rc.pre d) (hcpost : ∀ d, Rc.post d ⊢ postComb m d (CLS m d))

set_option backward.isDefEq.respectTransparency.types false in
include htpre htpost hcpre hcpost in
/-- The two regions and the return, over the kernels' own body table. -/
theorem hmain_tailD (κ : GSem nD τ sig → ℕ) (d : Dev nD) :
    iprop((K (F := F)).ctx EH (P m) κ ∗ (tcOw d ∗ tcStRest d) ∗ afterCall m d
        ∗ ((Pipeline.cellsGhost (pinned (F := F)) (EP (F := F)) 0 d ∗ Pipeline.toksInit (pinned (F := F)) (EP (F := F)) 0 d)
          ∗ (Pipeline.cellsGhost (pinned (F := F)) (EP (F := F)) 1 d ∗ Pipeline.toksInit (pinned (F := F)) (EP (F := F)) 1 d)))
      ⊢ wp frame (wpE (D (F := F)) 𝒱 (SparseCore.T d) none) Set.univ (tail2D (F := F))
          fun _ => iprop((tcOw d ∗ tcStRest d) ∗ FIN m d) := by
  unfold afterCall tail2D
  iintro ⟨#Hctx, ⟨How, Hsr⟩, ⟨Hb, Hin, Htg, Hxt, Hcls, Hm1, Hm2, Ht1, Ht2, Hout⟩, ⟨Hg0, Hk0⟩, ⟨Hg1, Hk1⟩⟩
  ihave #Hlev := (SparseCore.Cfg.ctx_levAts κ) $$ Hctx
  iapply (Pipeline.RegionSeg.wp (pcfgs (F := F)) adm pd (none : HIx 1) pinned_inj (EP (F := F)) (defs₀ (F := F)) 𝒱₀ (K (F := F)).L (K (F := F)).lev Rt d none
    (fun u hu => nomatch hu) _ _) $$ [Hb How Hxt Ht1 Ht2 Hg0 Hk0 Hsr Hin Htg Hcls Hm1 Hm2 Hout Hg1 Hk1]
  isplitr [Hb How Hxt Ht1 Ht2 Hg0 Hk0]
  swap
  · isplitl [Hb]; · iexact Hb
    isplitl [How Hxt Ht1 Ht2]
    · iapply (htpre d); unfold preTopkM
      isplitl [How]; · iexact How
      isplitl [Hxt]; · iexact Hxt
      isplitl [Ht1]; · iexact Ht1
      iexact Ht2
    isplitr; · iexact Hlev
    isplitl [Hg0]; · iexact Hg0
    iexact Hk0
  iintro ⟨Hb, Hpost⟩
  ihave Hpost' := (htpost d) $$ Hpost
  unfold postTopk
  icases Hpost' with ⟨How, Hxt, Ht1, Ht2⟩
  iapply (Pipeline.RegionSeg.wp (pcfgs (F := F)) adm pd (none : HIx 1) pinned_inj (EP (F := F)) (defs₀ (F := F)) 𝒱₀ (K (F := F)).L (K (F := F)).lev Rc d none
    (fun u hu => nomatch hu) _ _) $$ [Hb How Ht1 Ht2 Hsr Hin Htg Hcls Hm1 Hm2 Hout Hg1 Hk1]
  isplitr [Hb How Ht1 Ht2 Hcls Hm1 Hm2 Hout Hg1 Hk1]
  swap
  · isplitl [Hb]; · iexact Hb
    isplitl [How Ht1 Ht2 Hcls Hm1 Hm2 Hout]
    · iapply (hcpre d); unfold preCombM
      isplitl [How]; · iexact How
      isplitl [Hm1]; · iexact Hm1
      isplitl [Hm2]; · iexact Hm2
      isplitl [Ht1]; · iexact Ht1
      isplitl [Ht2]; · iexact Ht2
      isplitl [Hcls]; · iexact Hcls
      iexact Hout
    isplitr; · iexact Hlev
    isplitl [Hg1]; · iexact Hg1
    iexact Hk1
  iintro ⟨Hb, Hpost⟩
  ihave Hpost' := (hcpost d) $$ Hpost
  unfold postComb
  icases Hpost' with ⟨How, Hm1, Hm2, Ht1, Ht2, Hcls, Hout⟩
  rw [wp_ret]; imodintro
  isplitl [How Hsr]
  · isplitl [How]; · iexact How
    iexact Hsr
  unfold FIN
  isplitl [Hin]; · iexact Hin
  isplitl [Htg]; · iexact Htg
  iexact Hout

include htpre htpost hcpre hcpost in
/-- @main from the return of the SparseCore call to its end. -/
theorem hmain_tail (κ : GSem nD τ sig → ℕ) (d : Dev nD) :
    iprop((K (F := F)).ctx EH (P m) κ ∗ (K (F := F)).tcSt EH d 1 ∗ afterCall m d ∗ G (F := F) d)
      ⊢ wp frame (wpE ((K (F := F)).defs (D (F := F))) 𝒱 (SparseCore.T d) none) Set.univ (tail2 d)
          fun _ => iprop((K (F := F)).tcSt EH d 1 ∗ FIN m d) := by
  rw [tail2_lift, tcSt_one, G_split]
  exact (hmain_tailD m Rt Rc htpre htpost hcpre hcpost κ d).trans
    ((K (F := F)).wp_liftProg (D (F := F)) 𝒱 (SparseCore.T d) Set.univ none tail2D _)

end Tail

end Cert.Proof.KernelIdeal

end
-- ==== Proof.Run.lean ====
/-
  The program's run: the launch theorem of a SparseCore program at this certificate's payloads, the tile's task,
  @main's two parts and the launch element. Every weakly fair execution of the device's threads terminates, nothing
  faulting, and every final memory holds the result at the target entries minus the larger of the others, the two
  arguments unchanged.
-/
import proofs.«210259_g7730941132961_cont_sun_c4_476_29_alg».proof.Proof.Launch2

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the claim reads off a final memory on device `d`. -/
def fq (d : Dev nD) (s' : Phys nD τ sig (Elt F)) : Prop :=
  s'.mem.mem (outLoc d) = OUT m d (CLS m d) ∧ s'.mem.mem (inLoc d) = m (inLoc d) ∧ s'.mem.mem (tgLoc d) = m (tgLoc d)

theorem hfin (d : Dev nD) (s' : Phys nD τ sig (Elt F)) : iprop(FIN m d ∗ SI s') ⊢ (⌜fq m d s'⌝ : sProp 𝕄) := by
  unfold FIN
  iintro ⟨⟨Hin, Htg, Hout⟩, HSI⟩
  icombine HSI Hin gives %h1
  icombine HSI Htg gives %h2
  icombine HSI Hout gives %h3
  ipureintro
  exact ⟨funext fun i => h3 i (Finset.mem_univ i), funext fun i => h1 i (Finset.mem_univ i), funext fun i => h2 i (Finset.mem_univ i)⟩

/-- The post of the run. -/
def QC : PUnit × MemSt nD τ sig (Elt F) → Prop := fun r => ∀ c : Dev nD,
  r.2.mem (outLoc c) = OUT m c (CLS m c) ∧ r.2.mem (inLoc c) = m (inLoc c) ∧ r.2.mem (tgLoc c) = m (tgLoc c)

section Run

variable {pd : (p : Fin 2) → (c : Dev nD) → Pipeline.Dat τ (Elt F) (HIx 1) ℕ UU ℕ (Pipeline.pin (pcfgs (F := F)) adm p) c}
  (Rt : Pipeline.RegionSeg (pcfgs (F := F)) adm pd (none : HIx 1) (defs₀ (F := F)) 𝒱₀ (K (F := F)).L (K (F := F)).lev (0 : Fin 2))
  (Rc : Pipeline.RegionSeg (pcfgs (F := F)) adm pd (none : HIx 1) (defs₀ (F := F)) 𝒱₀ (K (F := F)).L (K (F := F)).lev (1 : Fin 2))
  (htpre : ∀ d, preTopkM m d ⊢ Rt.pre d) (htpost : ∀ d, Rt.post d ⊢ postTopk m d)
  (hcpre : ∀ d, preCombM m d (CLS m d) ⊢ Rc.pre d) (hcpost : ∀ d, Rc.post d ⊢ postComb m d (CLS m d))
  (htile : (K (F := F)).TileObl (D (F := F)) 𝒱 (P m) v₀ 0)

include htpre htpost hcpre hcpost in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  iintro ⟨#Hctx, Hst, Hres, HG⟩
  iapply (hmain_call m ρ κ d _) $$ [Hst Hres HG]
  isplitr; · iexact Hctx
  isplitl [Hst]; · iexact Hst
  isplitl [Hres]; · iexact Hres
  iintro ⟨Hst, Hac⟩
  iapply (hmain_tail m Rt Rc htpre htpost hcpre hcpost κ d) $$ [Hst Hac HG]
  isplitr; · iexact Hctx
  isplitl [Hst]; · iexact Hst
  isplitl [Hac]; · iexact Hac
  iexact HG

include htpre htpost hcpre hcpost htile in
/-- The launch theorem at this certificate. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G (F := F)) (FIN m) (u₀ (F := F)) (sep_elim_left.trans (hu₀ m)) (hmain m ρ Rt Rc htpre htpost hcpre hcpost) (fq m) (hfin m) (QC m) (fun _ h => h)

end Run

end Cert.Proof.KernelIdeal

end
-- ==== Proof.TileBodyVal.lean ====
/-
  The values a tile's task carries, as pure functions of the transposed input X.
  Tile w (of 32) works on row group w / 8 (rows (w / 8) * 15600 ..) and column block w % 8 (columns (w % 8) * 128 ..).
  Lane l of lane group u is column (w % 8) * 128 + u * 16 + l; after n rows its running pair is the pair of the first
  n entries of that column within the row group. A chunk c is rows c * 240 .. c * 240 + 239 of the group.
-/
import proofs.«210259_g7730941132961_cont_sun_c4_476_29_alg».proof.Proof.Common
import proofs.«210259_g7730941132961_cont_sun_c4_476_29_alg».proof.Proof.Val
import Idealize.ShloMosaic.Lib.Pipeline.Value

noncomputable section

namespace Cert.Proof.KernelIdeal

open Cert.KernelIdeal Cert.KernelIdeal.Gen
open Idealize.ShloMosaic Idealize.ShloMosaic.ValueIdx

variable {F : FTy → Type} [FloatOps F]

/-- Tile `w`'s row group and column block. -/
def gsW (w : Fin 32) : ℕ := w.val / 8
def jbW (w : Fin 32) : ℕ := w.val % 8
theorem gsW_lt (w : Fin 32) : gsW w < 4 := by unfold gsW; omega
theorem jbW_lt (w : Fin 32) : jbW w < 8 := by unfold jbW; omega

/-- Column `b` of the tile's block, as a column of X. -/
def colW (w : Fin 32) (b : ℕ) (hb : b < 128) : Fin 1024 := ⟨jbW w * 128 + b, by have := jbW_lt w; omega⟩

/-- The entries of column `b` of the block within the tile's row group, in order. -/
def seqW (X : FVec F Val.SX .f32) (w : Fin 32) (b : ℕ) (hb : b < 128) : ℕ → F .f32 :=
  fun r => Val.colX X (colW w b hb) (gsW w * 15600 + r)

/-- Lane `l` of lane group `u` after `n` rows. -/
def pairW (X : FVec F Val.SX .f32) (w : Fin 32) (n : ℕ) (u : Fin 8) (l : ℕ) (hl : l < 16) : F .f32 × F .f32 :=
  Val.foldN (seqW X w (u.val * 16 + l) (by omega)) (Val.ninf, Val.ninf) n

def Avec (X : FVec F Val.SX .f32) (w : Fin 32) (n : ℕ) (u : Fin 8) : FVec F S16 .f32 := fun j => (pairW X w n u (j 0).val (j 0).isLt).1
def Bvec (X : FVec F Val.SX .f32) (w : Fin 32) (n : ℕ) (u : Fin 8) : FVec F S16 .f32 := fun j => (pairW X w n u (j 0).val (j 0).isLt).2

/-- The sixteen carried vectors. -/
abbrev St (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

def stV (X : FVec F Val.SX .f32) (w : Fin 32) (n : ℕ) : St F :=
  (Avec X w n 0, Avec X w n 1, Avec X w n 2, Avec X w n 3, Avec X w n 4, Avec X w n 5, Avec X w n 6, Avec X w n 7,
    Bvec X w n 0, Bvec X w n 1, Bvec X w n 2, Bvec X w n 3, Bvec X w n 4, Bvec X w n 5, Bvec X w n 6, Bvec X w n 7)

/-- Chunk `c` of the tile's region: 240 rows by 128 columns. -/
def chunkB (X : FVec F Val.SX .f32) (w : Fin 32) (c : ℕ) : FVec F S240x128 .f32 :=
  fun j => Val.colX X (colW w (j 1).val (j 1).isLt) (gsW w * 15600 + (c * 240 + (j 0).val))

theorem pairW_zero (X : FVec F Val.SX .f32) (w : Fin 32) (u : Fin 8) (l : ℕ) (hl : l < 16) : pairW X w 0 u l hl = (Val.ninf, Val.ninf) := rfl

theorem pairW_succ (X : FVec F Val.SX .f32) (w : Fin 32) (n : ℕ) (u : Fin 8) (l : ℕ) (hl : l < 16) :
    pairW X w (n + 1) u l hl = Val.push (pairW X w n u l hl) (seqW X w (u.val * 16 + l) (by omega) n) := rfl

/-- The 1x16 piece at row `r`, columns `cc ..`, of a 240x128 array, recast to 16 lanes, at lane `j`. -/
theorem lane_of_piece (B : FVec F S240x128 .f32) (g : S1x16.Idx → F .f32) (r cc : ℕ) (hr : r < 240) (hcc : cc + 16 ≤ 128)
    (hg : ∀ x : S1x16.Idx, g x = B (ix2 ⟨r, hr⟩ ⟨cc + (x 1).val, by have : (x 1).val < 16 := (x 1).isLt; omega⟩)) (j : S16.Idx) :
    shapeCast S16 g shapeCasts_S1x16_S16 j = B (ix2 ⟨r, hr⟩ ⟨cc + (j 0).val, by have : (j 0).val < 16 := (j 0).isLt; omega⟩) := by
  rw [shapeCast_apply g shapeCasts_S1x16_S16 j (ix2 0 (j 0)) (by rw [Shape.rowMajor_val_two, Shape.rowMajor_val_one]; simp [ix2]), hg]

/-- One more row into the larger entries: lane group `u` at row `r` of chunk `c`. -/
theorem stepA (X : FVec F Val.SX .f32) (w : Fin 32) (c r : ℕ) (hr : r < 240) (u : Fin 8) (g : S1x16.Idx → F .f32)
    (hg : ∀ x : S1x16.Idx, g x = chunkB X w c (ix2 ⟨r, hr⟩ ⟨u.val * 16 + (x 1).val, by have : (x 1).val < 16 := (x 1).isLt; omega⟩)) :
    maximumf (Avec X w (c * 240 + r) u) (shapeCast S16 g shapeCasts_S1x16_S16) = Avec X w (c * 240 + r + 1) u := by
  funext j
  show FloatOps.maximumf (pairW X w (c * 240 + r) u (j 0).val (j 0).isLt).1 (shapeCast S16 g shapeCasts_S1x16_S16 j)
    = (pairW X w (c * 240 + r + 1) u (j 0).val (j 0).isLt).1
  rw [lane_of_piece (chunkB X w c) g r (u.val * 16) hr (by omega) hg j]
  rfl

/-- One more row into the second larger entries. -/
theorem stepB (X : FVec F Val.SX .f32) (w : Fin 32) (c r : ℕ) (hr : r < 240) (u : Fin 8) (g : S1x16.Idx → F .f32)
    (hg : ∀ x : S1x16.Idx, g x = chunkB X w c (ix2 ⟨r, hr⟩ ⟨u.val * 16 + (x 1).val, by have : (x 1).val < 16 := (x 1).isLt; omega⟩)) :
    maximumf (Bvec X w (c * 240 + r) u) (minimumf (Avec X w (c * 240 + r) u) (shapeCast S16 g shapeCasts_S1x16_S16)) = Bvec X w (c * 240 + r + 1) u := by
  funext j
  show FloatOps.maximumf (pairW X w (c * 240 + r) u (j 0).val (j 0).isLt).2
      (FloatOps.minimumf (pairW X w (c * 240 + r) u (j 0).val (j 0).isLt).1 (shapeCast S16 g shapeCasts_S1x16_S16 j))
    = (pairW X w (c * 240 + r + 1) u (j 0).val (j 0).isLt).2
  rw [lane_of_piece (chunkB X w c) g r (u.val * 16) hr (by omega) hg j]
  rfl

end Cert.Proof.KernelIdeal

end
-- ==== Proof.TileBodyGeo.lean ====
/-
  A tile's place and the pieces of the arrays it touches: the tile's number, the chunks of the transposed input it
  streams (as rectangles of the array, in closed form and as the program computes them), what a chunk's copy leaves
  in a buffer, and the tile's 128 entries of the two result vectors.
-/
import proofs.«210259_g7730941132961_cont_sun_c4_476_29_alg».proof.Proof.Common
import proofs.«210259_g7730941132961_cont_sun_c4_476_29_alg».proof.Proof.Val
import proofs.«210259_g7730941132961_cont_sun_c4_476_29_alg».proof.Proof.Pay
import proofs.«210259_g7730941132961_cont_sun_c4_476_29_alg».proof.Proof.TileBodyVal

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xtV" => (Memref.whole Cert.KernelIdeal.main_v0_scv : Memref Cert.KernelIdeal.sig Kind.scVector Space.hbm Cert.KernelIdeal.S100000x1024 EltTy.f32)
local notation "m1V" => (Memref.whole Cert.KernelIdeal.main_v4_0_scv : Memref Cert.KernelIdeal.sig Kind.scVector Space.hbm Cert.KernelIdeal.S4096 EltTy.f32)
local notation "m2V" => (Memref.whole Cert.KernelIdeal.main_v4_1_scv : Memref Cert.KernelIdeal.sig Kind.scVector Space.hbm Cert.KernelIdeal.S4096 EltTy.f32)
local notation "bufA" => (Memref.whole Cert.KernelIdeal.cc0_scratch0 : Memref Cert.KernelIdeal.sig Kind.scVector Space.vmem Cert.KernelIdeal.S240x128 EltTy.f32)
local notation "bufB" => (Memref.whole Cert.KernelIdeal.cc0_scratch1 : Memref Cert.KernelIdeal.sig Kind.scVector Space.vmem Cert.KernelIdeal.S240x128 EltTy.f32)
local notation "s1V" => (Memref.whole Cert.KernelIdeal.cc0_scratch2 : Memref Cert.KernelIdeal.sig Kind.scVector Space.vmem Cert.KernelIdeal.S128 EltTy.f32)
local notation "s2V" => (Memref.whole Cert.KernelIdeal.cc0_scratch3 : Memref Cert.KernelIdeal.sig Kind.scVector Space.vmem Cert.KernelIdeal.S128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev iL (L : grid0.Coords) : Fin 16 := Fin.cast bound_one (L 1)
/-- The tile's number. -/
def wL (L : grid0.Coords) : Fin 32 := wid (cL L) (iL L)

/-- The transposed input, as the values' functions read it. -/
abbrev XV (d : Dev nD) : FVec F Val.SX .f32 := XT m d

/-! ## The chunks -/

omit [FloatOps F] in
theorem chunk_inb (w : Fin 32) (c : ℕ) :
    ∀ a, (![gsW w * 15600 + min c 64 * 240, jbW w * 128] : Fin 2 → ℕ) a + S240x128.size a ≤ S100000x1024.size a := by
  have := gsW_lt w; have := jbW_lt w
  exact Rect.inb₂ (by show gsW w * 15600 + min c 64 * 240 + 240 ≤ 100000; omega) (by show jbW w * 128 + 128 ≤ 1024; omega)

/-- Chunk `c` of tile `w`'s region, as a rectangle of the transposed input (`c ≤ 64`). -/
abbrev chunkR (w : Fin 32) (c : ℕ) : Rect S100000x1024 :=
  Rect.unit (s := S100000x1024) ![gsW w * 15600 + min c 64 * 240, jbW w * 128] S240x128.size (chunk_inb w c)
abbrev chunkM (w : Fin 32) (c : ℕ) : Memref sig .scVector .hbm S240x128 .f32 := (xtV).slice (chunkR w c) (fun _ => rfl)

omit [FloatOps F] in
theorem rect_congr {s : Shape} {off off' : Fin s.rank → ℕ} (size : Fin s.rank → ℕ) (h : off = off') (inb) (inb') :
    Rect.unit (s := s) off size inb = Rect.unit (s := s) off' size inb' := by subst h; rfl

-- the offsets the program computes, in closed form
omit [FloatOps F] in
theorem off1_eq0 : ∀ L : grid0.Coords, k0_off1 L 0#32 = ![gsW (wL L) * 15600 + min 0 64 * 240, jbW (wL L) * 128] := by decide +kernel
omit [FloatOps F] in
theorem off1_eq1 : ∀ L : grid0.Coords, k0_off1 L 240#32 = ![gsW (wL L) * 15600 + min 1 64 * 240, jbW (wL L) * 128] := by decide +kernel
omit [FloatOps F] in
theorem off28_eq : ∀ L : grid0.Coords, k0_off28 L = ![(wL L).val * 128] := by decide +kernel
omit [FloatOps F] in
theorem cond1_eq : ∀ k : Fin k0_t1_loop.trips, k0_cond1 k = 1#1 := by decide +kernel
omit [FloatOps F] in
theorem cond2_eq : ∀ k : Fin k0_t1_loop.trips, k0_cond2 k = if k.val < 31 then 1#1 else 0#1 := by decide +kernel
omit [FloatOps F] in
theorem off10_eq : ∀ (L : grid0.Coords) (k : Fin k0_t1_loop.trips),
    k0_off10 L k = ![gsW (wL L) * 15600 + min (2 * k.val + 2) 64 * 240, jbW (wL L) * 128] := by decide +kernel
omit [FloatOps F] in
theorem off19_eq : ∀ (L : grid0.Coords) (k : Fin k0_t1_loop.trips), k.val < 31 →
    k0_off19 L k = ![gsW (wL L) * 15600 + min (2 * k.val + 3) 64 * 240, jbW (wL L) * 128] := by decide +kernel
omit [FloatOps F] in
theorem trips1 : k0_t1_loop.trips = 32 := by decide +kernel
omit [FloatOps F] in
theorem trips2 : k0_t2_loop.trips = 240 := by decide +kernel
omit [FloatOps F] in
theorem trips3 : k0_t3_loop.trips = 240 := by decide +kernel
omit [FloatOps F] in
theorem trips4 : k0_t4_loop.trips = 240 := by decide +kernel

/-- What a chunk read through its rectangle is. -/
theorem read_chunk (w : Fin 32) (c : ℕ) (hc : c ≤ 64) :
    (chunkM w c).view.read (Elt F) (XT m d) = (chunkB (XV m d) w c : FVec F S240x128 .f32) := by
  funext i
  have h : gsW w * 15600 + (c * 240 + (i 0).val) < 100000 := by
    have := gsW_lt w; have : (i 0).val < 240 := (i 0).isLt; omega
  have hmin : min c 64 = c := Nat.min_eq_left hc
  show XT m d ((chunkR w c).idx i) = Val.colX (XV m d) (colW w (i 1).val (i 1).isLt) (gsW w * 15600 + (c * 240 + (i 0).val))
  unfold Val.colX
  rw [dif_pos h]
  show XV m d _ = XV m d _
  congr 1
  funext a
  match a with
  | 0 => exact Fin.ext (by show gsW w * 15600 + min c 64 * 240 + 1 * (i 0).val = gsW w * 15600 + (c * 240 + (i 0).val); rw [hmin]; omega)
  | 1 => exact Fin.ext (by show jbW w * 128 + 1 * (i 1).val = jbW w * 128 + (i 1).val; omega)

/-- What a chunk's copy leaves in the first buffer, -/
theorem landedA (w : Fin 32) (c : ℕ) (hc : c ≤ 64) (fa : Buf (Elt F) ((thrV d L).loc cc0_scratch0)) :
    View.write (Elt F) (bufA).view fa ((chunkM w c).view.read (Elt F) (XT m d)) Finset.univ
      = (chunkB (XV m d) w c : FVec F S240x128 .f32) := by
  rw [read_chunk m d w c hc]
  exact View.write_whole_univ _ _ _
/-- and in the second. -/
theorem landedB (w : Fin 32) (c : ℕ) (hc : c ≤ 64) (fb : Buf (Elt F) ((thrV d L).loc cc0_scratch1)) :
    View.write (Elt F) (bufB).view fb ((chunkM w c).view.read (Elt F) (XT m d)) Finset.univ
      = (chunkB (XV m d) w c : FVec F S240x128 .f32) := by
  rw [read_chunk m d w c hc]
  exact View.write_whole_univ _ _ _

end Tile

end Cert.Proof.KernelIdeal

end
-- ==== Proof.TileBodyRow.lean ====
/-
  One row of a chunk held in a buffer: what the eight loads of sixteen lanes read, and the sixteen carried vectors
  after the row.
-/
import proofs.«210259_g7730941132961_cont_sun_c4_476_29_alg».proof.Proof.Common
import proofs.«210259_g7730941132961_cont_sun_c4_476_29_alg».proof.Proof.Val
import proofs.«210259_g7730941132961_cont_sun_c4_476_29_alg».proof.Proof.Pay
import proofs.«210259_g7730941132961_cont_sun_c4_476_29_alg».proof.Proof.TileBodyGeo

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xtV" => (Memref.whole Cert.KernelIdeal.main_v0_scv : Memref Cert.KernelIdeal.sig Kind.scVector Space.hbm Cert.KernelIdeal.S100000x1024 EltTy.f32)
local notation "m1V" => (Memref.whole Cert.KernelIdeal.main_v4_0_scv : Memref Cert.KernelIdeal.sig Kind.scVector Space.hbm Cert.KernelIdeal.S4096 EltTy.f32)
local notation "m2V" => (Memref.whole Cert.KernelIdeal.main_v4_1_scv : Memref Cert.KernelIdeal.sig Kind.scVector Space.hbm Cert.KernelIdeal.S4096 EltTy.f32)
local notation "bufA" => (Memref.whole Cert.KernelIdeal.cc0_scratch0 : Memref Cert.KernelIdeal.sig Kind.scVector Space.vmem Cert.KernelIdeal.S240x128 EltTy.f32)
local notation "bufB" => (Memref.whole Cert.KernelIdeal.cc0_scratch1 : Memref Cert.KernelIdeal.sig Kind.scVector Space.vmem Cert.KernelIdeal.S240x128 EltTy.f32)
local notation "s1V" => (Memref.whole Cert.KernelIdeal.cc0_scratch2 : Memref Cert.KernelIdeal.sig Kind.scVector Space.vmem Cert.KernelIdeal.S128 EltTy.f32)
local notation "s2V" => (Memref.whole Cert.KernelIdeal.cc0_scratch3 : Memref Cert.KernelIdeal.sig Kind.scVector Space.vmem Cert.KernelIdeal.S128 EltTy.f32)

variable [FloatOps F]

open Idealize.ShloMosaic.ValueIdx

/-- A load of one row's sixteen lanes from the first buffer, -/
theorem piece_readA (d : Dev nD) (L : grid0.Coords) (B : FVec F S240x128 .f32) (off : Fin 2 → ℕ) (inb) (r cc : ℕ) (hoff : off = ![r, cc])
    (hr : r < 240) (hcc : cc + 16 ≤ 128) (x : S1x16.Idx) :
    View.readAt (Elt F) (bufA).view (Rect.unit (s := S240x128) off S1x16.size inb).toLoadRect (B : Buf (Elt F) ((thrV d L).loc cc0_scratch0)) x
      = B (ix2 ⟨r, hr⟩ ⟨cc + (x 1).val, by have : (x 1).val < 16 := (x 1).isLt; omega⟩) := by
  subst hoff
  show B ((Rect.unit (s := S240x128) ![r, cc] S1x16.size inb).idx x) = _
  congr 1
  funext a
  match a with
  | 0 => exact Fin.ext (by have : (x 0).val < 1 := (x 0).isLt; show r + 1 * (x 0).val = r; omega)
  | 1 => exact Fin.ext (by show cc + 1 * (x 1).val = cc + (x 1).val; omega)
/-- and from the second. -/
theorem piece_readB (d : Dev nD) (L : grid0.Coords) (B : FVec F S240x128 .f32) (off : Fin 2 → ℕ) (inb) (r cc : ℕ) (hoff : off = ![r, cc])
    (hr : r < 240) (hcc : cc + 16 ≤ 128) (x : S1x16.Idx) :
    View.readAt (Elt F) (bufB).view (Rect.unit (s := S240x128) off S1x16.size inb).toLoadRect (B : Buf (Elt F) ((thrV d L).loc cc0_scratch1)) x
      = B (ix2 ⟨r, hr⟩ ⟨cc + (x 1).val, by have : (x 1).val < 16 := (x 1).isLt; omega⟩) := by
  subst hoff
  show B ((Rect.unit (s := S240x128) ![r, cc] S1x16.size inb).idx x) = _
  congr 1
  funext a
  match a with
  | 0 => exact Fin.ext (by have : (x 0).val < 1 := (x 0).isLt; show r + 1 * (x 0).val = r; omega)
  | 1 => exact Fin.ext (by show cc + 1 * (x 1).val = cc + (x 1).val; omega)

/-- The sixteen carried vectors after row `r` of chunk `c`: each lane group's pair takes the row's sixteen entries. -/
theorem stV_step (X : FVec F Val.SX .f32) (w : Fin 32) (c r : ℕ) (hr : r < 240) (g0 g1 g2 g3 g4 g5 g6 g7 : S1x16.Idx → F .f32)
    (h0 : ∀ x : S1x16.Idx, g0 x = chunkB X w c (ix2 ⟨r, hr⟩ ⟨0 + (x 1).val, by have : (x 1).val < 16 := (x 1).isLt; omega⟩))
    (h1 : ∀ x : S1x16.Idx, g1 x = chunkB X w c (ix2 ⟨r, hr⟩ ⟨16 + (x 1).val, by have : (x 1).val < 16 := (x 1).isLt; omega⟩))
    (h2 : ∀ x : S1x16.Idx, g2 x = chunkB X w c (ix2 ⟨r, hr⟩ ⟨32 + (x 1).val, by have : (x 1).val < 16 := (x 1).isLt; omega⟩))
    (h3 : ∀ x : S1x16.Idx, g3 x = chunkB X w c (ix2 ⟨r, hr⟩ ⟨48 + (x 1).val, by have : (x 1).val < 16 := (x 1).isLt; omega⟩))
    (h4 : ∀ x : S1x16.Idx, g4 x = chunkB X w c (ix2 ⟨r, hr⟩ ⟨64 + (x 1).val, by have : (x 1).val < 16 := (x 1).isLt; omega⟩))
    (h5 : ∀ x : S1x16.Idx, g5 x = chunkB X w c (ix2 ⟨r, hr⟩ ⟨80 + (x 1).val, by have : (x 1).val < 16 := (x 1).isLt; omega⟩))
    (h6 : ∀ x : S1x16.Idx, g6 x = chunkB X w c (ix2 ⟨r, hr⟩ ⟨96 + (x 1).val, by have : (x 1).val < 16 := (x 1).isLt; omega⟩))
    (h7 : ∀ x : S1x16.Idx, g7 x = chunkB X w c (ix2 ⟨r, hr⟩ ⟨112 + (x 1).val, by have : (x 1).val < 16 := (x 1).isLt; omega⟩)) :
    ((maximumf (Avec X w (c * 240 + r) 0) (shapeCast S16 g0 shapeCasts_S1x16_S16),
      maximumf (Avec X w (c * 240 + r) 1) (shapeCast S16 g1 shapeCasts_S1x16_S16),
      maximumf (Avec X w (c * 240 + r) 2) (shapeCast S16 g2 shapeCasts_S1x16_S16),
      maximumf (Avec X w (c * 240 + r) 3) (shapeCast S16 g3 shapeCasts_S1x16_S16),
      maximumf (Avec X w (c * 240 + r) 4) (shapeCast S16 g4 shapeCasts_S1x16_S16),
      maximumf (Avec X w (c * 240 + r) 5) (shapeCast S16 g5 shapeCasts_S1x16_S16),
      maximumf (Avec X w (c * 240 + r) 6) (shapeCast S16 g6 shapeCasts_S1x16_S16),
      maximumf (Avec X w (c * 240 + r) 7) (shapeCast S16 g7 shapeCasts_S1x16_S16),
      maximumf (Bvec X w (c * 240 + r) 0) (minimumf (Avec X w (c * 240 + r) 0) (shapeCast S16 g0 shapeCasts_S1x16_S16)),
      maximumf (Bvec X w (c * 240 + r) 1) (minimumf (Avec X w (c * 240 + r) 1) (shapeCast S16 g1 shapeCasts_S1x16_S16)),
      maximumf (Bvec X w (c * 240 + r) 2) (minimumf (Avec X w (c * 240 + r) 2) (shapeCast S16 g2 shapeCasts_S1x16_S16)),
      maximumf (Bvec X w (c * 240 + r) 3) (minimumf (Avec X w (c * 240 + r) 3) (shapeCast S16 g3 shapeCasts_S1x16_S16)),
      maximumf (Bvec X w (c * 240 + r) 4) (minimumf (Avec X w (c * 240 + r) 4) (shapeCast S16 g4 shapeCasts_S1x16_S16)),
      maximumf (Bvec X w (c * 240 + r) 5) (minimumf (Avec X w (c * 240 + r) 5) (shapeCast S16 g5 shapeCasts_S1x16_S16)),
      maximumf (Bvec X w (c * 240 + r) 6) (minimumf (Avec X w (c * 240 + r) 6) (shapeCast S16 g6 shapeCasts_S1x16_S16)),
      maximumf (Bvec X w (c * 240 + r) 7) (minimumf (Avec X w (c * 240 + r) 7) (shapeCast S16 g7 shapeCasts_S1x16_S16))) : St F)
      = stV X w (c * 240 + (r + 1)) := by
  unfold stV
  rw [stepA X w c r hr 0 g0 h0, stepA X w c r hr 1 g1 h1, stepA X w c r hr 2 g2 h2, stepA X w c r hr 3 g3 h3,
    stepA X w c r hr 4 g4 h4, stepA X w c r hr 5 g5 h5, stepA X w c r hr 6 g6 h6, stepA X w c r hr 7 g7 h7,
    stepB X w c r hr 0 g0 h0, stepB X w c r hr 1 g1 h1, stepB X w c r hr 2 g2 h2, stepB X w c r hr 3 g3 h3,
    stepB X w c r hr 4 g4 h4, stepB X w c r hr 5 g5 h5, stepB X w c r hr 6 g6 h6, stepB X w c r hr 7 g7 h7]
  rfl

end Cert.Proof.KernelIdeal

end
-- ==== Proof.TileBodyFin.lean ====
/-
  What a tile leaves in the two result vectors: entry w * 128 + t of the first is the larger entry of lane t % 16 of
  lane group t / 16 after all 15600 rows, which is the row group's pair at that column; the second likewise.
-/
import proofs.«210259_g7730941132961_cont_sun_c4_476_29_alg».proof.Proof.Common
import proofs.«210259_g7730941132961_cont_sun_c4_476_29_alg».proof.Proof.Val
import proofs.«210259_g7730941132961_cont_sun_c4_476_29_alg».proof.Proof.Pay
import proofs.«210259_g7730941132961_cont_sun_c4_476_29_alg».proof.Proof.TileBodyGeo
import Idealize.ShloMosaic.Lib.Ring

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xtV" => (Memref.whole Cert.KernelIdeal.main_v0_scv : Memref Cert.KernelIdeal.sig Kind.scVector Space.hbm Cert.KernelIdeal.S100000x1024 EltTy.f32)
local notation "m1V" => (Memref.whole Cert.KernelIdeal.main_v4_0_scv : Memref Cert.KernelIdeal.sig Kind.scVector Space.hbm Cert.KernelIdeal.S4096 EltTy.f32)
local notation "m2V" => (Memref.whole Cert.KernelIdeal.main_v4_1_scv : Memref Cert.KernelIdeal.sig Kind.scVector Space.hbm Cert.KernelIdeal.S4096 EltTy.f32)
local notation "bufA" => (Memref.whole Cert.KernelIdeal.cc0_scratch0 : Memref Cert.KernelIdeal.sig Kind.scVector Space.vmem Cert.KernelIdeal.S240x128 EltTy.f32)
local notation "bufB" => (Memref.whole Cert.KernelIdeal.cc0_scratch1 : Memref Cert.KernelIdeal.sig Kind.scVector Space.vmem Cert.KernelIdeal.S240x128 EltTy.f32)
local notation "s1V" => (Memref.whole Cert.KernelIdeal.cc0_scratch2 : Memref Cert.KernelIdeal.sig Kind.scVector Space.vmem Cert.KernelIdeal.S128 EltTy.f32)
local notation "s2V" => (Memref.whole Cert.KernelIdeal.cc0_scratch3 : Memref Cert.KernelIdeal.sig Kind.scVector Space.vmem Cert.KernelIdeal.S128 EltTy.f32)

variable [FloatOps F]

open Idealize.ShloMosaic.ValueIdx

/-- Every element type has a value (the closed form of a list of stores names one off the pieces). -/
instance eltNonempty : ∀ e, Nonempty (Elt F e) := by
  intro e
  cases e
  · exact ⟨(0 : BitVec 1)⟩
  · exact ⟨(0 : BitVec 4)⟩
  · exact ⟨(0 : BitVec 8)⟩
  · exact ⟨(0 : BitVec 16)⟩
  · exact ⟨(0 : BitVec 32)⟩
  · exact ⟨(0 : BitVec 64)⟩
  · exact ⟨(Scalar.ofBits .fp8e4m3 0 : F .fp8e4m3)⟩
  · exact ⟨(Scalar.ofBits .fp8e5m2 0 : F .fp8e5m2)⟩
  · exact ⟨(Scalar.ofBits .bf16 0 : F .bf16)⟩
  · exact ⟨(Scalar.ofBits .f16 0 : F .f16)⟩
  · exact ⟨(Scalar.ofBits .f32 0 : F .f32)⟩

/-- What the tile leaves in its two 128-scratches after `n` rows. -/
def outAn (X : FVec F Val.SX .f32) (w : Fin 32) (n : ℕ) : FVec F S128 .f32 :=
  fun t => (pairW X w n ⟨(t 0).val / 16, by have : (t 0).val < 128 := (t 0).isLt; omega⟩ ((t 0).val % 16) (Nat.mod_lt _ (by norm_num))).1
def outBn (X : FVec F Val.SX .f32) (w : Fin 32) (n : ℕ) : FVec F S128 .f32 :=
  fun t => (pairW X w n ⟨(t 0).val / 16, by have : (t 0).val < 128 := (t 0).isLt; omega⟩ ((t 0).val % 16) (Nat.mod_lt _ (by norm_num))).2

theorem pairW_congr (X : FVec F Val.SX .f32) (w : Fin 32) (n : ℕ) {u u' : Fin 8} {l l' : ℕ} (hl : l < 16) (hl' : l' < 16)
    (hu : u = u') (hll : l = l') : pairW X w n u l hl = pairW X w n u' l' hl' := by subst hu; subst hll; rfl

/-- The row group's pair at a column of the tile's block is the lane's pair after all the rows. -/
theorem groupPair_eq (X : FVec F Val.SX .f32) (w : Fin 32) (t : ℕ) (ht : t < 128) (i : ℕ) (hi : i = w.val * 128 + t) (h1 : i % 1024 < 1024) :
    Val.groupPair X (i / 1024) ⟨i % 1024, h1⟩ = pairW X w 15600 ⟨t / 16, by omega⟩ (t % 16) (Nat.mod_lt _ (by norm_num)) := by
  subst hi
  have hg : (w.val * 128 + t) / 1024 = gsW w := by unfold gsW; omega
  have hb : (⟨(w.val * 128 + t) % 1024, h1⟩ : Fin 1024) = colW w (t / 16 * 16 + t % 16) (by omega) :=
    Fin.ext (by unfold colW jbW; simp only []; omega)
  unfold Val.groupPair pairW seqW
  rw [hg, hb]

/-- One store of sixteen lanes is the scratch's function on its sixteen entries. -/
theorem pieceA_out (X : FVec F Val.SX .f32) (w : Fin 32) (n : ℕ) (u : Fin 8) (off : Fin 1 → ℕ) (inb) (hoff : off = ![u.val * 16])
    (v : FVec F S16 .f32) (hv : v = Avec X w n u) (x : S16.Idx) :
    shapeCast S16 v shapeCasts_S16_S16 x = outAn X w n ((Rect.unit (s := S128) off S16.size inb).emb x) := by
  subst hoff hv
  have hx : (x 0).val < 16 := (x 0).isLt
  rw [shapeCast_apply _ shapeCasts_S16_S16 x x rfl]
  show (pairW X w n u (x 0).val hx).1
    = (pairW X w n ⟨(u.val * 16 + 1 * (x 0).val) / 16, by omega⟩ ((u.val * 16 + 1 * (x 0).val) % 16) (Nat.mod_lt _ (by norm_num))).1
  exact congrArg Prod.fst (pairW_congr X w n _ _ (Fin.ext (by show u.val = (u.val * 16 + 1 * (x 0).val) / 16; omega)) (by omega))
theorem pieceB_out (X : FVec F Val.SX .f32) (w : Fin 32) (n : ℕ) (u : Fin 8) (off : Fin 1 → ℕ) (inb) (hoff : off = ![u.val * 16])
    (v : FVec F S16 .f32) (hv : v = Bvec X w n u) (x : S16.Idx) :
    shapeCast S16 v shapeCasts_S16_S16 x = outBn X w n ((Rect.unit (s := S128) off S16.size inb).emb x) := by
  subst hoff hv
  have hx : (x 0).val < 16 := (x 0).isLt
  rw [shapeCast_apply _ shapeCasts_S16_S16 x x rfl]
  show (pairW X w n u (x 0).val hx).2
    = (pairW X w n ⟨(u.val * 16 + 1 * (x 0).val) / 16, by omega⟩ ((u.val * 16 + 1 * (x 0).val) % 16) (Nat.mod_lt _ (by norm_num))).2
  exact congrArg Prod.snd (pairW_congr X w n _ _ (Fin.ext (by show u.val = (u.val * 16 + 1 * (x 0).val) / 16; omega)) (by omega))

/-- What the eight stores of sixteen lanes leave in the scratch, read back whole. -/
theorem read_out1 (X : FVec F Val.SX .f32) (w : Fin 32) (n : ℕ) (d : Dev nD) (L : grid0.Coords)
    (f1 : Buf (Elt F) ((thrV d L).loc cc0_scratch2)) (Lp : List (View.Piece (Elt F) S128 .f32))
    (hL : Lp = [(⟨Rect.unit (s := S128) ![112] S16.size inb_S128_S16_112, k0_pay88 (Avec X w (n) 7)⟩ : View.Piece (Elt F) S128 .f32),
        (⟨Rect.unit (s := S128) ![96] S16.size inb_S128_S16_96, k0_pay86 (Avec X w (n) 6)⟩ : View.Piece (Elt F) S128 .f32),
        (⟨Rect.unit (s := S128) ![80] S16.size inb_S128_S16_80, k0_pay84 (Avec X w (n) 5)⟩ : View.Piece (Elt F) S128 .f32),
        (⟨Rect.unit (s := S128) ![64] S16.size inb_S128_S16_64, k0_pay82 (Avec X w (n) 4)⟩ : View.Piece (Elt F) S128 .f32),
        (⟨Rect.unit (s := S128) ![48] S16.size inb_S128_S16_48, k0_pay80 (Avec X w (n) 3)⟩ : View.Piece (Elt F) S128 .f32),
        (⟨Rect.unit (s := S128) ![32] S16.size inb_S128_S16_32, k0_pay78 (Avec X w (n) 2)⟩ : View.Piece (Elt F) S128 .f32),
        (⟨Rect.unit (s := S128) ![16] S16.size inb_S128_S16_16, k0_pay76 (Avec X w (n) 1)⟩ : View.Piece (Elt F) S128 .f32),
        (⟨Rect.unit (s := S128) ![0] S16.size inb_S128_S16_0, k0_pay74 (Avec X w (n) 0)⟩ : View.Piece (Elt F) S128 .f32)]) :
    View.read (Elt F) (s1V).view ((s1V).view.writes (Elt F) f1 Lp) = outAn X w n := by
  subst hL
  have hcov := View.cover_of_tiledL (Val := Elt F) [(⟨Rect.unit (s := S128) ![112] S16.size inb_S128_S16_112, k0_pay88 (Avec X w (n) 7)⟩ : View.Piece (Elt F) S128 .f32),
        (⟨Rect.unit (s := S128) ![96] S16.size inb_S128_S16_96, k0_pay86 (Avec X w (n) 6)⟩ : View.Piece (Elt F) S128 .f32),
        (⟨Rect.unit (s := S128) ![80] S16.size inb_S128_S16_80, k0_pay84 (Avec X w (n) 5)⟩ : View.Piece (Elt F) S128 .f32),
        (⟨Rect.unit (s := S128) ![64] S16.size inb_S128_S16_64, k0_pay82 (Avec X w (n) 4)⟩ : View.Piece (Elt F) S128 .f32),
        (⟨Rect.unit (s := S128) ![48] S16.size inb_S128_S16_48, k0_pay80 (Avec X w (n) 3)⟩ : View.Piece (Elt F) S128 .f32),
        (⟨Rect.unit (s := S128) ![32] S16.size inb_S128_S16_32, k0_pay78 (Avec X w (n) 2)⟩ : View.Piece (Elt F) S128 .f32),
        (⟨Rect.unit (s := S128) ![16] S16.size inb_S128_S16_16, k0_pay76 (Avec X w (n) 1)⟩ : View.Piece (Elt F) S128 .f32),
        (⟨Rect.unit (s := S128) ![0] S16.size inb_S128_S16_0, k0_pay74 (Avec X w (n) 0)⟩ : View.Piece (Elt F) S128 .f32)] ![16] (by sl_kernel_rfl)
  rw [View.read_writes_eq_canon _ _ _ hcov]
  funext y
  refine View.canon_apply_of_pieces (outAn X w n) _ ?_ y (hcov y)
  intro p hp x
  simp only [List.mem_cons, List.mem_singleton, List.not_mem_nil, or_false] at hp
  rcases hp with rfl | rfl | rfl | rfl | rfl | rfl | rfl | rfl
  · exact pieceA_out X w n 7 ![112] inb_S128_S16_112 rfl _ rfl x
  · exact pieceA_out X w n 6 ![96] inb_S128_S16_96 rfl _ rfl x
  · exact pieceA_out X w n 5 ![80] inb_S128_S16_80 rfl _ rfl x
  · exact pieceA_out X w n 4 ![64] inb_S128_S16_64 rfl _ rfl x
  · exact pieceA_out X w n 3 ![48] inb_S128_S16_48 rfl _ rfl x
  · exact pieceA_out X w n 2 ![32] inb_S128_S16_32 rfl _ rfl x
  · exact pieceA_out X w n 1 ![16] inb_S128_S16_16 rfl _ rfl x
  · exact pieceA_out X w n 0 ![0] inb_S128_S16_0 rfl _ rfl x

/-- What the eight stores of sixteen lanes leave in the scratch, read back whole. -/
theorem read_out2 (X : FVec F Val.SX .f32) (w : Fin 32) (n : ℕ) (d : Dev nD) (L : grid0.Coords)
    (f1 : Buf (Elt F) ((thrV d L).loc cc0_scratch3)) (Lp : List (View.Piece (Elt F) S128 .f32))
    (hL : Lp = [(⟨Rect.unit (s := S128) ![112] S16.size inb_S128_S16_112, k0_pay89 (Bvec X w (n) 7)⟩ : View.Piece (Elt F) S128 .f32),
        (⟨Rect.unit (s := S128) ![96] S16.size inb_S128_S16_96, k0_pay87 (Bvec X w (n) 6)⟩ : View.Piece (Elt F) S128 .f32),
        (⟨Rect.unit (s := S128) ![80] S16.size inb_S128_S16_80, k0_pay85 (Bvec X w (n) 5)⟩ : View.Piece (Elt F) S128 .f32),
        (⟨Rect.unit (s := S128) ![64] S16.size inb_S128_S16_64, k0_pay83 (Bvec X w (n) 4)⟩ : View.Piece (Elt F) S128 .f32),
        (⟨Rect.unit (s := S128) ![48] S16.size inb_S128_S16_48, k0_pay81 (Bvec X w (n) 3)⟩ : View.Piece (Elt F) S128 .f32),
        (⟨Rect.unit (s := S128) ![32] S16.size inb_S128_S16_32, k0_pay79 (Bvec X w (n) 2)⟩ : View.Piece (Elt F) S128 .f32),
        (⟨Rect.unit (s := S128) ![16] S16.size inb_S128_S16_16, k0_pay77 (Bvec X w (n) 1)⟩ : View.Piece (Elt F) S128 .f32),
        (⟨Rect.unit (s := S128) ![0] S16.size inb_S128_S16_0, k0_pay75 (Bvec X w (n) 0)⟩ : View.Piece (Elt F) S128 .f32)]) :
    View.read (Elt F) (s2V).view ((s2V).view.writes (Elt F) f1 Lp) = outBn X w n := by
  subst hL
  have hcov := View.cover_of_tiledL (Val := Elt F) [(⟨Rect.unit (s := S128) ![112] S16.size inb_S128_S16_112, k0_pay89 (Bvec X w (n) 7)⟩ : View.Piece (Elt F) S128 .f32),
        (⟨Rect.unit (s := S128) ![96] S16.size inb_S128_S16_96, k0_pay87 (Bvec X w (n) 6)⟩ : View.Piece (Elt F) S128 .f32),
        (⟨Rect.unit (s := S128) ![80] S16.size inb_S128_S16_80, k0_pay85 (Bvec X w (n) 5)⟩ : View.Piece (Elt F) S128 .f32),
        (⟨Rect.unit (s := S128) ![64] S16.size inb_S128_S16_64, k0_pay83 (Bvec X w (n) 4)⟩ : View.Piece (Elt F) S128 .f32),
        (⟨Rect.unit (s := S128) ![48] S16.size inb_S128_S16_48, k0_pay81 (Bvec X w (n) 3)⟩ : View.Piece (Elt F) S128 .f32),
        (⟨Rect.unit (s := S128) ![32] S16.size inb_S128_S16_32, k0_pay79 (Bvec X w (n) 2)⟩ : View.Piece (Elt F) S128 .f32),
        (⟨Rect.unit (s := S128) ![16] S16.size inb_S128_S16_16, k0_pay77 (Bvec X w (n) 1)⟩ : View.Piece (Elt F) S128 .f32),
        (⟨Rect.unit (s := S128) ![0] S16.size inb_S128_S16_0, k0_pay75 (Bvec X w (n) 0)⟩ : View.Piece (Elt F) S128 .f32)] ![16] (by sl_kernel_rfl)
  rw [View.read_writes_eq_canon _ _ _ hcov]
  funext y
  refine View.canon_apply_of_pieces (outBn X w n) _ ?_ y (hcov y)
  intro p hp x
  simp only [List.mem_cons, List.mem_singleton, List.not_mem_nil, or_false] at hp
  rcases hp with rfl | rfl | rfl | rfl | rfl | rfl | rfl | rfl
  · exact pieceB_out X w n 7 ![112] inb_S128_S16_112 rfl _ rfl x
  · exact pieceB_out X w n 6 ![96] inb_S128_S16_96 rfl _ rfl x
  · exact pieceB_out X w n 5 ![80] inb_S128_S16_80 rfl _ rfl x
  · exact pieceB_out X w n 4 ![64] inb_S128_S16_64 rfl _ rfl x
  · exact pieceB_out X w n 3 ![48] inb_S128_S16_48 rfl _ rfl x
  · exact pieceB_out X w n 2 ![32] inb_S128_S16_32 rfl _ rfl x
  · exact pieceB_out X w n 1 ![16] inb_S128_S16_16 rfl _ rfl x
  · exact pieceB_out X w n 0 ![0] inb_S128_S16_0 rfl _ rfl x

section Tile

variable (d : Dev nD) (L : grid0.Coords)

/-! ## The tile's entries of the two result vectors -/

abbrev m1K (L : grid0.Coords) : Memref sig .scVector .hbm S128 .f32 :=
  (m1V).slice (Rect.unit (s := S4096) (k0_off28 L) S128.size (k0_off28_inb L)) (fun _ => rfl)
abbrev m2K (L : grid0.Coords) : Memref sig .scVector .hbm S128 .f32 :=
  (m2V).slice (Rect.unit (s := S4096) (k0_off28 L) S128.size (k0_off28_inb L)) (fun _ => rfl)

omit [FloatOps F] in
theorem outRect_eq : Rect.unit (s := S4096) (k0_off28 L) S128.size (k0_off28_inb L) = pc (wL L) := by
  unfold pc Rect.part Rect.block
  congr 1 <;> funext a
  · rw [off28_eq]
    match a with
    | 0 => simp [Shape.partIx, Shape.partSize]
  · match a with
    | 0 => simp [Shape.partSize]

omit [FloatOps F] in
theorem set_m1K : (m1K L).view.set = pcSet (wL L) := by
  show ((m1V).view.slice (Rect.unit (s := S4096) (k0_off28 L) S128.size (k0_off28_inb L))).set = ((m1V).view.slice (pc (wL L))).set
  rw [outRect_eq]
omit [FloatOps F] in
theorem set_m2K : (m2K L).view.set = pcSet (wL L) := by
  show ((m2V).view.slice (Rect.unit (s := S4096) (k0_off28 L) S128.size (k0_off28_inb L))).set = ((m1V).view.slice (pc (wL L))).set
  rw [outRect_eq]
  rfl

omit [FloatOps F] in
theorem pts_m1K (f : Buf (Elt F) (m1Loc d)) :
    ((m1K L).view.loc (thrV d L) ↦[(m1K L).view.set]{fullShare} f : sProp 𝕄) = m1Loc d ↦[pcSet (wid (cL L) (iL L))]{fullShare} f := by
  rw [set_m1K]; rfl
omit [FloatOps F] in
theorem pts_m2K (f : Buf (Elt F) (m2Loc d)) :
    ((m2K L).view.loc (thrV d L) ↦[(m2K L).view.set]{fullShare} f : sProp 𝕄) = m2Loc d ↦[pcSet (wid (cL L) (iL L))]{fullShare} f := by
  rw [set_m2K]; rfl

/-- What the copy out of the scratch leaves in the tile's entries of the result vector. -/
theorem landed1 (f0 : Buf (Elt F) (m1Loc d)) (pay : S128.Idx → Elt F .f32) (hpay : pay = outAn (XV m d) (wL L) 15600) :
    ((m1K L).view.loc (thrV d L) ↦[(m1K L).view.set]{fullShare} (m1K L).view.writes (Elt F) f0 [⟨Rect.whole S128, pay⟩] : sProp 𝕄)
      = m1Loc d ↦[pcSet (wid (cL L) (iL L))]{fullShare} R1 m d := by
  rw [← pts_m1K (F := F) d L (R1 m d)]
  refine pointsTo_congr fun i hi => ?_
  obtain ⟨t, -, rfl⟩ := Finset.mem_map.mp hi
  subst hpay
  have he : ((m1K L).view.slice (Rect.whole S128)).emb t = (m1K L).view.emb t := by
    rw [View.emb_slice]
    show (m1K L).view.emb ((Rect.whole S128).emb t) = _
    rw [Rect.emb_whole_apply]
  have ht : (t 0).val < 128 := (t 0).isLt
  have hi0 : (((m1K L).view.emb t) 0).val = (wL L).val * 128 + (t 0).val := by
    show k0_off28 L 0 + 1 * (t 0).val = _
    rw [off28_eq]; simp
  rw [View.writes_singleton, ← he, View.write_emb_of_mem _ _ (Finset.mem_univ t), he]
  show outAn (XV m d) (wL L) 15600 t = (Val.scPair (XV m d) ((m1K L).view.emb t)).1
  unfold outAn Val.scPair
  rw [groupPair_eq (XV m d) (wL L) (t 0).val ht _ hi0]

/-- What the copy out of the scratch leaves in the tile's entries of the result vector. -/
theorem landed2 (f0 : Buf (Elt F) (m2Loc d)) (pay : S128.Idx → Elt F .f32) (hpay : pay = outBn (XV m d) (wL L) 15600) :
    ((m2K L).view.loc (thrV d L) ↦[(m2K L).view.set]{fullShare} (m2K L).view.writes (Elt F) f0 [⟨Rect.whole S128, pay⟩] : sProp 𝕄)
      = m2Loc d ↦[pcSet (wid (cL L) (iL L))]{fullShare} R2 m d := by
  rw [← pts_m2K (F := F) d L (R2 m d)]
  refine pointsTo_congr fun i hi => ?_
  obtain ⟨t, -, rfl⟩ := Finset.mem_map.mp hi
  subst hpay
  have he : ((m2K L).view.slice (Rect.whole S128)).emb t = (m2K L).view.emb t := by
    rw [View.emb_slice]
    show (m2K L).view.emb ((Rect.whole S128).emb t) = _
    rw [Rect.emb_whole_apply]
  have ht : (t 0).val < 128 := (t 0).isLt
  have hi0 : (((m2K L).view.emb t) 0).val = (wL L).val * 128 + (t 0).val := by
    show k0_off28 L 0 + 1 * (t 0).val = _
    rw [off28_eq]; simp
  rw [View.writes_singleton, ← he, View.write_emb_of_mem _ _ (Finset.mem_univ t), he]
  show outBn (XV m d) (wL L) 15600 t = (Val.scPair (XV m d) ((m2K L).view.emb t)).2
  unfold outBn Val.scPair
  rw [groupPair_eq (XV m d) (wL L) (t 0).val ht _ hi0]

/-- The same, the scratch's contents being what the eight stores left. -/
theorem landed1' (f0 : Buf (Elt F) (m1Loc d)) (f1 : Buf (Elt F) ((thrV d L).loc cc0_scratch2)) (Lp : List (View.Piece (Elt F) S128 .f32)) (n : ℕ)
    (hL : Lp = [(⟨Rect.unit (s := S128) ![112] S16.size inb_S128_S16_112, k0_pay88 (Avec (XV m d) (wL L) (n) 7)⟩ : View.Piece (Elt F) S128 .f32),
        (⟨Rect.unit (s := S128) ![96] S16.size inb_S128_S16_96, k0_pay86 (Avec (XV m d) (wL L) (n) 6)⟩ : View.Piece (Elt F) S128 .f32),
        (⟨Rect.unit (s := S128) ![80] S16.size inb_S128_S16_80, k0_pay84 (Avec (XV m d) (wL L) (n) 5)⟩ : View.Piece (Elt F) S128 .f32),
        (⟨Rect.unit (s := S128) ![64] S16.size inb_S128_S16_64, k0_pay82 (Avec (XV m d) (wL L) (n) 4)⟩ : View.Piece (Elt F) S128 .f32),
        (⟨Rect.unit (s := S128) ![48] S16.size inb_S128_S16_48, k0_pay80 (Avec (XV m d) (wL L) (n) 3)⟩ : View.Piece (Elt F) S128 .f32),
        (⟨Rect.unit (s := S128) ![32] S16.size inb_S128_S16_32, k0_pay78 (Avec (XV m d) (wL L) (n) 2)⟩ : View.Piece (Elt F) S128 .f32),
        (⟨Rect.unit (s := S128) ![16] S16.size inb_S128_S16_16, k0_pay76 (Avec (XV m d) (wL L) (n) 1)⟩ : View.Piece (Elt F) S128 .f32),
        (⟨Rect.unit (s := S128) ![0] S16.size inb_S128_S16_0, k0_pay74 (Avec (XV m d) (wL L) (n) 0)⟩ : View.Piece (Elt F) S128 .f32)]) (hn : n = 15600) :
    ((m1K L).view.loc (thrV d L) ↦[(m1K L).view.set]{fullShare} (m1K L).view.writes (Elt F) f0
        [⟨Rect.whole S128, ReadAs.same.apply (View.read (Elt F) (s1V).view ((s1V).view.writes (Elt F) f1 Lp))⟩] : sProp 𝕄)
      = m1Loc d ↦[pcSet (wid (cL L) (iL L))]{fullShare} R1 m d := by
  subst hn
  exact landed1 m d L f0 _ (read_out1 (XV m d) (wL L) 15600 d L f1 Lp hL)

/-- The same, the scratch's contents being what the eight stores left. -/
theorem landed2' (f0 : Buf (Elt F) (m2Loc d)) (f1 : Buf (Elt F) ((thrV d L).loc cc0_scratch3)) (Lp : List (View.Piece (Elt F) S128 .f32)) (n : ℕ)
    (hL : Lp = [(⟨Rect.unit (s := S128) ![112] S16.size inb_S128_S16_112, k0_pay89 (Bvec (XV m d) (wL L) (n) 7)⟩ : View.Piece (Elt F) S128 .f32),
        (⟨Rect.unit (s := S128) ![96] S16.size inb_S128_S16_96, k0_pay87 (Bvec (XV m d) (wL L) (n) 6)⟩ : View.Piece (Elt F) S128 .f32),
        (⟨Rect.unit (s := S128) ![80] S16.size inb_S128_S16_80, k0_pay85 (Bvec (XV m d) (wL L) (n) 5)⟩ : View.Piece (Elt F) S128 .f32),
        (⟨Rect.unit (s := S128) ![64] S16.size inb_S128_S16_64, k0_pay83 (Bvec (XV m d) (wL L) (n) 4)⟩ : View.Piece (Elt F) S128 .f32),
        (⟨Rect.unit (s := S128) ![48] S16.size inb_S128_S16_48, k0_pay81 (Bvec (XV m d) (wL L) (n) 3)⟩ : View.Piece (Elt F) S128 .f32),
        (⟨Rect.unit (s := S128) ![32] S16.size inb_S128_S16_32, k0_pay79 (Bvec (XV m d) (wL L) (n) 2)⟩ : View.Piece (Elt F) S128 .f32),
        (⟨Rect.unit (s := S128) ![16] S16.size inb_S128_S16_16, k0_pay77 (Bvec (XV m d) (wL L) (n) 1)⟩ : View.Piece (Elt F) S128 .f32),
        (⟨Rect.unit (s := S128) ![0] S16.size inb_S128_S16_0, k0_pay75 (Bvec (XV m d) (wL L) (n) 0)⟩ : View.Piece (Elt F) S128 .f32)]) (hn : n = 15600) :
    ((m2K L).view.loc (thrV d L) ↦[(m2K L).view.set]{fullShare} (m2K L).view.writes (Elt F) f0
        [⟨Rect.whole S128, ReadAs.same.apply (View.read (Elt F) (s2V).view ((s2V).view.writes (Elt F) f1 Lp))⟩] : sProp 𝕄)
      = m2Loc d ↦[pcSet (wid (cL L) (iL L))]{fullShare} R2 m d := by
  subst hn
  exact landed2 m d L f0 _ (read_out2 (XV m d) (wL L) 15600 d L f1 Lp hL)

end Tile

end Cert.Proof.KernelIdeal

end
-- ==== Proof.TileBody.lean ====
/-
  The body of the SparseCore kernel, one tile's task: two copies of 240-row chunks in flight on two semaphores while
  the rows of the chunk before are folded into sixteen running vectors, then the sixteen vectors stored to two
  scratches and copied out to the tile's entries of the two result vectors.
-/
import proofs.«210259_g7730941132961_cont_sun_c4_476_29_alg».proof.Proof.Common
import proofs.«210259_g7730941132961_cont_sun_c4_476_29_alg».proof.Proof.Val
import proofs.«210259_g7730941132961_cont_sun_c4_476_29_alg».proof.Proof.Pay
import proofs.«210259_g7730941132961_cont_sun_c4_476_29_alg».proof.Proof.TileBodyRow
import proofs.«210259_g7730941132961_cont_sun_c4_476_29_alg».proof.Proof.TileBodyFin

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xtV" => (Memref.whole Cert.KernelIdeal.main_v0_scv : Memref Cert.KernelIdeal.sig Kind.scVector Space.hbm Cert.KernelIdeal.S100000x1024 EltTy.f32)
local notation "m1V" => (Memref.whole Cert.KernelIdeal.main_v4_0_scv : Memref Cert.KernelIdeal.sig Kind.scVector Space.hbm Cert.KernelIdeal.S4096 EltTy.f32)
local notation "m2V" => (Memref.whole Cert.KernelIdeal.main_v4_1_scv : Memref Cert.KernelIdeal.sig Kind.scVector Space.hbm Cert.KernelIdeal.S4096 EltTy.f32)
local notation "bufA" => (Memref.whole Cert.KernelIdeal.cc0_scratch0 : Memref Cert.KernelIdeal.sig Kind.scVector Space.vmem Cert.KernelIdeal.S240x128 EltTy.f32)
local notation "bufB" => (Memref.whole Cert.KernelIdeal.cc0_scratch1 : Memref Cert.KernelIdeal.sig Kind.scVector Space.vmem Cert.KernelIdeal.S240x128 EltTy.f32)
local notation "s1V" => (Memref.whole Cert.KernelIdeal.cc0_scratch2 : Memref Cert.KernelIdeal.sig Kind.scVector Space.vmem Cert.KernelIdeal.S128 EltTy.f32)
local notation "s2V" => (Memref.whole Cert.KernelIdeal.cc0_scratch3 : Memref Cert.KernelIdeal.sig Kind.scVector Space.vmem Cert.KernelIdeal.S128 EltTy.f32)

variable [FloatOps F]

section Tile

variable (d : Dev nD) (L : grid0.Coords)

abbrev semA (d : Dev nD) (L : grid0.Coords) : GSem nD τ sig := (thrV d L, .dma cc0_scratch4.sem)
abbrev semB (d : Dev nD) (L : grid0.Coords) : GSem nD τ sig := (thrV d L, .dma cc0_scratch5.sem)
abbrev semC (d : Dev nD) (L : grid0.Coords) : GSem nD τ sig := (thrV d L, .dma cc0_scoped0.sem)
abbrev semD (d : Dev nD) (L : grid0.Coords) : GSem nD τ sig := (thrV d L, .dma cc0_scoped1.sem)

omit [FloatOps F] in
theorem ownSems0_V :
    (ownSems0 (thrV d L) : sProp 𝕄)
      = iprop(semVal (semA d L) 0 ∗ semVal (semB d L) 0 ∗ semVal (semC d L) 0 ∗ semVal (semD d L) 0
          ∗ bigSep (((((ownCells (thrV d L)).erase (semA d L)).erase (semB d L)).erase (semC d L)).erase (semD d L))
              fun g => semVal g 0) := by
  unfold SparseCore.Cfg.ownSems0
  rw [SparseCore.bigSep_erase' ((mem_ownCells (g := semA d L)).mpr ⟨rfl, by
      show (SemLoc.dma cc0_scratch4.sem : SemLoc sig).isScoped .scVector = true; decide⟩),
    SparseCore.bigSep_erase' (Finset.mem_erase.mpr ⟨by simp [semA, semB]; decide, (mem_ownCells (g := semB d L)).mpr ⟨rfl, by
      show (SemLoc.dma cc0_scratch5.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d L)).mpr ⟨rfl, by show (SemLoc.dma cc0_scoped0.sem : SemLoc sig).isScoped .scVector = true; decide⟩⟩⟩),
    SparseCore.bigSep_erase' (Finset.mem_erase.mpr ⟨by simp [semC, semD]; decide, Finset.mem_erase.mpr ⟨by simp [semB, semD]; decide,
      Finset.mem_erase.mpr ⟨by simp [semA, semD]; decide,
      (mem_ownCells (g := semD d L)).mpr ⟨rfl, by show (SemLoc.dma cc0_scoped1.sem : SemLoc sig).isScoped .scVector = true; decide⟩⟩⟩⟩)]

omit [FloatOps F] in
/-- The four scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_xt (q : PosShare TreeShare) (f : Buf (Elt F) (xtLoc d)) :
    ((xtV).view.loc (thrV d L) ↦{q} f : sProp 𝕄) = xtLoc d ↦{q} f := by
  simp only [Memref.view_whole, View.set_whole]
omit [FloatOps F] in
theorem pts_bufA (f : Buf (Elt F) ((thrV d L).loc cc0_scratch0)) :
    ((bufA).view.loc (thrV d L) ↦{fullShare} f : sProp 𝕄) = (thrV d L).loc cc0_scratch0 ↦{fullShare} f := rfl
omit [FloatOps F] in
theorem pts_bufB (f : Buf (Elt F) ((thrV d L).loc cc0_scratch1)) :
    ((bufB).view.loc (thrV d L) ↦{fullShare} f : sProp 𝕄) = (thrV d L).loc cc0_scratch1 ↦{fullShare} f := rfl
omit [FloatOps F] in
theorem pts_s1 (f : Buf (Elt F) ((thrV d L).loc cc0_scratch2)) :
    ((s1V).view.loc (thrV d L) ↦{fullShare} f : sProp 𝕄) = (thrV d L).loc cc0_scratch2 ↦{fullShare} f := rfl
omit [FloatOps F] in
theorem pts_s2 (f : Buf (Elt F) ((thrV d L).loc cc0_scratch3)) :
    ((s2V).view.loc (thrV d L) ↦{fullShare} f : sProp 𝕄) = (thrV d L).loc cc0_scratch3 ↦{fullShare} f := rfl

/-! ## A chunk's copy in flight -/

/-- Chunk `c` on its way into the first buffer: what its wait hands over, -/
abbrev FlA (c : ℕ) : sProp 𝕄 :=
  Flight countersEmb (thrV d L) (SemLoc.dma cc0_scratch4.sem) (default : HIx 1) 983040
    iprop(((bufA).view.loc (thrV d L) ↦{fullShare} (chunkB (XV m d) (wL L) c : FVec F S240x128 .f32))
      ∗ ((xtV).view.loc (thrV d L) ↦[(chunkM (wL L) c).view.set]{tokA (cL L) (iL L)} XT m d))
/-- and the rest of the read share it borrowed from. -/
abbrev RestA (c : ℕ) : sProp 𝕄 :=
  (xtV).view.loc (thrV d L) ↦[Finset.univ \ (chunkM (wL L) c).view.set]{tokA (cL L) (iL L)} XT m d
/-- The same into the second buffer. -/
abbrev FlB (c : ℕ) : sProp 𝕄 :=
  Flight countersEmb (thrV d L) (SemLoc.dma cc0_scratch5.sem) (default : HIx 1) 983040
    iprop(((bufB).view.loc (thrV d L) ↦{fullShare} (chunkB (XV m d) (wL L) c : FVec F S240x128 .f32))
      ∗ ((xtV).view.loc (thrV d L) ↦[(chunkM (wL L) c).view.set]{tokB (cL L) (iL L)} XT m d))
abbrev RestB (c : ℕ) : sProp 𝕄 :=
  (xtV).view.loc (thrV d L) ↦[Finset.univ \ (chunkM (wL L) c).view.set]{tokB (cL L) (iL L)} XT m d

/-- A copy in flight, its source the slice at the offsets the program computes and the buffer's earlier contents
    overwritten whole, is the chunk's. -/
theorem flA_norm (c : ℕ) (hc : c ≤ 64) (off : Fin 2 → ℕ) (inb) (hoff : off = ![gsW (wL L) * 15600 + min c 64 * 240, jbW (wL L) * 128])
    (fa : Buf (Elt F) ((thrV d L).loc cc0_scratch0)) :
    (Flight countersEmb (thrV d L) (SemLoc.dma cc0_scratch4.sem) (default : HIx 1) 983040
      iprop(((bufA).view.loc (thrV d L) ↦{fullShare} View.write (Elt F) (bufA).view fa
            (((xtV).slice (Rect.unit (s := S100000x1024) off S240x128.size inb) (fun _ => rfl)).view.read (Elt F) (XT m d)) Finset.univ)
        ∗ ((xtV).view.loc (thrV d L) ↦[((xtV).slice (Rect.unit (s := S100000x1024) off S240x128.size inb) (fun _ => rfl)).view.set]{tokA (cL L) (iL L)} XT m d)) : sProp 𝕄)
      ⊢ FlA m d L c := by
  subst hoff
  rw [landedA m d L (wL L) c hc fa]
theorem restA_norm (c : ℕ) (off : Fin 2 → ℕ) (inb) (hoff : off = ![gsW (wL L) * 15600 + min c 64 * 240, jbW (wL L) * 128]) :
    ((xtV).view.loc (thrV d L) ↦[Finset.univ \ ((xtV).slice (Rect.unit (s := S100000x1024) off S240x128.size inb) (fun _ => rfl)).view.set]{tokA (cL L) (iL L)} XT m d : sProp 𝕄)
      ⊢ RestA m d L c := by
  subst hoff; exact .rfl
theorem flB_norm (c : ℕ) (hc : c ≤ 64) (off : Fin 2 → ℕ) (inb) (hoff : off = ![gsW (wL L) * 15600 + min c 64 * 240, jbW (wL L) * 128])
    (fb : Buf (Elt F) ((thrV d L).loc cc0_scratch1)) :
    (Flight countersEmb (thrV d L) (SemLoc.dma cc0_scratch5.sem) (default : HIx 1) 983040
      iprop(((bufB).view.loc (thrV d L) ↦{fullShare} View.write (Elt F) (bufB).view fb
            (((xtV).slice (Rect.unit (s := S100000x1024) off S240x128.size inb) (fun _ => rfl)).view.read (Elt F) (XT m d)) Finset.univ)
        ∗ ((xtV).view.loc (thrV d L) ↦[((xtV).slice (Rect.unit (s := S100000x1024) off S240x128.size inb) (fun _ => rfl)).view.set]{tokB (cL L) (iL L)} XT m d)) : sProp 𝕄)
      ⊢ FlB m d L c := by
  subst hoff
  rw [landedB m d L (wL L) c hc fb]
theorem restB_norm (c : ℕ) (off : Fin 2 → ℕ) (inb) (hoff : off = ![gsW (wL L) * 15600 + min c 64 * 240, jbW (wL L) * 128]) :
    ((xtV).view.loc (thrV d L) ↦[Finset.univ \ ((xtV).slice (Rect.unit (s := S100000x1024) off S240x128.size inb) (fun _ => rfl)).view.set]{tokB (cL L) (iL L)} XT m d : sProp 𝕄)
      ⊢ RestB m d L c := by
  subst hoff; exact .rfl

/-! ## The invariants -/

/-- Before trip `k` of the pairs' loop: chunk `2k` on its way into the first buffer, chunk `2k + 1` into the second
    (none after the last trip: the second buffer, its semaphore and its read share are back), the carried vectors the
    pairs after `2k` chunks, the waits recorded so far at the index that may always be recorded. -/
def invO (O : CellTallies nD τ sig (HIx 1)) (W : Waits sig (HIx 1)) (k : ℕ) (acc : St F) : sProp 𝕄 :=
  iprop(Transfers.MayWaits (thrV d L) (none : HIx 1) O
    ∗ FlA m d L (2 * k) ∗ RestA m d L (2 * k)
    ∗ (if k < 32 then iprop(FlB m d L (2 * k + 1) ∗ RestB m d L (2 * k + 1))
        else iprop((∃ fb, (bufB).view.loc (thrV d L) ↦{fullShare} fb) ∗ semVal (semB d L) 0
          ∗ ((xtV).view.loc (thrV d L) ↦{tokB (cL L) (iL L)} XT m d)))
    ∗ ⌜acc = stV (XV m d) (wL L) (2 * k * 240)⌝
    ∗ ∃ W', ⌜∀ p ∈ W', p ∈ W ∨ p.2 = none⌝ ∗ owes (thrV d L) O W')

/-- Before row `r` of a chunk `c` held in the first buffer. -/
def invA (c : ℕ) (r : ℕ) (acc : St F) : sProp 𝕄 :=
  iprop(((bufA).view.loc (thrV d L) ↦{fullShare} (chunkB (XV m d) (wL L) c : FVec F S240x128 .f32))
    ∗ ⌜acc = stV (XV m d) (wL L) (c * 240 + r)⌝)
/-- The same in the second buffer. -/
def invB (c : ℕ) (r : ℕ) (acc : St F) : sProp 𝕄 :=
  iprop(((bufB).view.loc (thrV d L) ↦{fullShare} (chunkB (XV m d) (wL L) c : FVec F S240x128 .f32))
    ∗ ⌜acc = stV (XV m d) (wL L) (c * 240 + r)⌝)

theorem stV_eq (X : FVec F Val.SX .f32) (w : Fin 32) {n n' : ℕ} (h : n = n') : stV X w n = stV X w n' := by rw [h]

set_option maxHeartbeats 4000000 in
theorem body (hF : (K (F := F)).Facts) (O : CellTallies nD τ sig (HIx 1)) (W : Waits sig (HIx 1)) (hO : ∀ g, O g none = 0) :
    iprop(levAts (K (F := F)).L (K (F := F)).lev ∗ emp ∗ goT m d (cL L) (iL L)
        ∗ scopedBufs (thrV d L) ∗ scopedSems0 (thrV d L) ∗ owes (thrV d L) O W)
      ⊢ wp frame (wpE (defs₀ (F := F)) 𝒱₀ (thrV d L) none) Set.univ
          (cc0__topk_kernel L xtV (Memref.isWhole_whole _) m1V (Memref.isWhole_whole _) m2V (Memref.isWhole_whole _)
            bufA (Memref.isWhole_whole _) bufB (Memref.isWhole_whole _) s1V (Memref.isWhole_whole _) s2V (Memref.isWhole_whole _)
            cc0_scratch4 cc0_scratch5 cc0_scoped0 cc0_scoped1)
          fun _ => iprop(tdT m d (cL L) (iL L) ∗ scopedBufs (thrV d L) ∗ scopedSems0 (thrV d L)
            ∗ ∃ W', ⌜∀ p ∈ W', p ∈ W ∨ p.2 = none⌝ ∗ owes (thrV d L) O W') := by
  simp only [cc0__topk_kernel_eq_skeleton]; unfold cc0__topk_kernel_skel
  rw [(K (F := F)).scopedBufs_V hF d (cV L) (jV L), SparseCore.Cfg.scopedSems0_V (Val := Elt F) d (cV L) (jV L), ownSems0_V, ownBufs_V]
  unfold goT
  iintro ⟨#Hlv, -, ⟨HxA, HxB, Hm1, Hm2⟩, ⟨⟨%fa, Hba⟩, ⟨%fb, Hbb⟩, ⟨%f1, Hs1⟩, ⟨%f2, Hs2⟩, Hbufs⟩, ⟨HsemA, HsemB, HsemC, HsemD, Hsems⟩, HO⟩
  ihave Hmw := ((K (F := F)).mayWaits_none (thr := thrV d L) hO) $$ Hlv
  ihave HxA' := (Entails.of_eq (pts_xt (F := F) d L _ _).symm) $$ HxA
  ihave HxB' := (Entails.of_eq (pts_xt (F := F) d L _ _).symm) $$ HxB
  ihave Hba' := (Entails.of_eq (pts_bufA (F := F) d L _).symm) $$ Hba
  ihave Hbb' := (Entails.of_eq (pts_bufB (F := F) d L _).symm) $$ Hbb
  ihave Hs1' := (Entails.of_eq (pts_s1 (F := F) d L _).symm) $$ Hs1
  ihave Hs2' := (Entails.of_eq (pts_s2 (F := F) d L _).symm) $$ Hs2
  sl_exec
  -- the two copies in flight, stated over the chunks
  ihave HFA := (flA_norm m d L 0 (by omega) _ (k0_off1_inb L 0) (off1_eq0 L) fa) $$ [HsemA]
  · iexact HsemA
  ihave HRA := (restA_norm m d L 0 _ (k0_off1_inb L 0) (off1_eq0 L)) $$ [HxA']
  · iexact HxA'
  ihave HFB := (flB_norm m d L 1 (by omega) _ (k0_off1_inb L 1) (off1_eq1 L) fb) $$ [HsemB]
  · iexact HsemB
  ihave HRB := (restB_norm m d L 1 _ (k0_off1_inb L 1) (off1_eq1 L)) $$ [HxB']
  · iexact HxB'

  sl_for (invO m d L O W) $$ [Hmw HFA HRA HFB HRB HO]
  case region =>
    intro k acc
    have hk : k.val < 32 := lt_of_lt_of_eq k.isLt trips1
    have h2 : Scf.trips k0_t2_loop.lb k0_t2_loop.ub k0_t2_loop.st = 240 := trips2
    have h3 : Scf.trips k0_t3_loop.lb k0_t3_loop.ub k0_t3_loop.st = 240 := trips3
    unfold invO
    rw [if_pos hk]
    unfold FlA RestA FlB RestB
    iintro ⟨#Hmw, HFA, HRA, ⟨HFB, HRB⟩, %hacc, %W', %hW', HO⟩
    subst hacc
    have k0_h1 : k0_cond1 k = 1#1 := cond1_eq k
    sl_exec
    sl_for (invA m d L (2 * k.val)) $$ [HFA_dst]
    case region =>
      intro r acc'
      have hr : r.val < 240 := lt_of_lt_of_eq r.isLt trips2
      unfold invA
      iintro ⟨HB, %hacc'⟩
      subst hacc'
      sl_exec
      sl_step
      isplitl [HB]; · iexact HB
      ipureintro
      exact stV_step (XV m d) (wL L) (2 * k.val) r.val hr _ _ _ _ _ _ _ _
        (fun x => piece_readA d L _ _ _ r.val 0 (k0_off2_eq r) hr (by omega) x)
        (fun x => piece_readA d L _ _ _ r.val 16 (k0_off3_eq r) hr (by omega) x)
        (fun x => piece_readA d L _ _ _ r.val 32 (k0_off4_eq r) hr (by omega) x)
        (fun x => piece_readA d L _ _ _ r.val 48 (k0_off5_eq r) hr (by omega) x)
        (fun x => piece_readA d L _ _ _ r.val 64 (k0_off6_eq r) hr (by omega) x)
        (fun x => piece_readA d L _ _ _ r.val 80 (k0_off7_eq r) hr (by omega) x)
        (fun x => piece_readA d L _ _ _ r.val 96 (k0_off8_eq r) hr (by omega) x)
        (fun x => piece_readA d L _ _ _ r.val 112 (k0_off9_eq r) hr (by omega) x)
    · unfold invA
      isplitl [HFA_dst]; · iexact HFA_dst
      ipureintro; rfl
    iintro %acc1 HI
    unfold invA
    icases HI with ⟨HbA, %hacc1⟩
    subst hacc1
    sl_exec
    ihave HFA' := (flA_norm m d L (2 * k.val + 2) (by omega) _ (k0_off10_inb L k k0_h1) (off10_eq L k) _) $$ [HFA]
    · iexact HFA
    ihave HRA' := (restA_norm m d L (2 * k.val + 2) _ (k0_off10_inb L k k0_h1) (off10_eq L k)) $$ [HRA]
    · iexact HRA
    sl_for (invB m d L (2 * k.val + 1)) $$ [HFB_dst]
    case region =>
      intro r acc'
      have hr : r.val < 240 := lt_of_lt_of_eq r.isLt trips3
      unfold invB
      iintro ⟨HB, %hacc'⟩
      subst hacc'
      sl_exec
      sl_step
      isplitl [HB]; · iexact HB
      ipureintro
      exact stV_step (XV m d) (wL L) (2 * k.val + 1) r.val hr _ _ _ _ _ _ _ _
        (fun x => piece_readB d L _ _ _ r.val 0 (k0_off11_eq r) hr (by omega) x)
        (fun x => piece_readB d L _ _ _ r.val 16 (k0_off12_eq r) hr (by omega) x)
        (fun x => piece_readB d L _ _ _ r.val 32 (k0_off13_eq r) hr (by omega) x)
        (fun x => piece_readB d L _ _ _ r.val 48 (k0_off14_eq r) hr (by omega) x)
        (fun x => piece_readB d L _ _ _ r.val 64 (k0_off15_eq r) hr (by omega) x)
        (fun x => piece_readB d L _ _ _ r.val 80 (k0_off16_eq r) hr (by omega) x)
        (fun x => piece_readB d L _ _ _ r.val 96 (k0_off17_eq r) hr (by omega) x)
        (fun x => piece_readB d L _ _ _ r.val 112 (k0_off18_eq r) hr (by omega) x)
    · unfold invB
      isplitl [HFB_dst]; · iexact HFB_dst
      ipureintro
      exact stV_eq _ _ (by omega)
    iintro %acc2 HI
    unfold invB
    icases HI with ⟨HbB, %hacc2⟩
    subst hacc2
    by_cases hk31 : k.val < 31
    · have k0_h2 : k0_cond2 k = 1#1 := by rw [cond2_eq, if_pos hk31]
      rw [if_pos (by omega : k.val + 1 < 32)]
      sl_exec
      ihave HFB' := (flB_norm m d L (2 * k.val + 3) (by omega) _ (k0_off19_inb L k k0_h2) (off19_eq L k hk31) _) $$ [HFB]
      · iexact HFB
      ihave HRB' := (restB_norm m d L (2 * k.val + 3) _ (k0_off19_inb L k k0_h2) (off19_eq L k hk31)) $$ [HRB]
      · iexact HRB
      sl_step
      isplitr; · iexact Hmw
      isplitl [HFA']; · iexact HFA'
      isplitl [HRA']; · iexact HRA'
      isplitl [HFB' HRB']
      · isplitl [HFB']; · iexact HFB'
        iexact HRB'
      isplitr; · ipureintro; exact stV_eq _ _ (by omega)
      iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        exact hW' p hp
    · have k0_h2 : ¬ k0_cond2 k = 1#1 := by rw [cond2_eq, if_neg hk31]; decide
      rw [if_neg (by omega : ¬ k.val + 1 < 32)]
      sl_exec
      sl_step
      isplitr; · iexact Hmw
      isplitl [HFA']; · iexact HFA'
      isplitl [HRA']; · iexact HRA'
      isplitl [HbB HFB HRB]
      · isplitl [HbB]; · iexists _; iexact HbB
        isplitl [HFB]; · iexact HFB
        iexact HRB
      isplitr; · ipureintro; exact stV_eq _ _ (by omega)
      iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        exact hW' p hp
  · unfold invO
    rw [if_pos (by omega : 0 < 32)]
    isplitr; · iexact Hmw
    isplitl [HFA]; · iexact HFA
    isplitl [HRA]; · iexact HRA
    isplitl [HFB HRB]
    · isplitl [HFB]; · iexact HFB
      iexact HRB
    isplitr; · ipureintro; rfl
    iexists W; isplitr
    · ipureintro; exact fun p hp => .inl hp
    · iexact HO
  iintro %accO HI
  have h1 : Scf.trips k0_t1_loop.lb k0_t1_loop.ub k0_t1_loop.st = 32 := trips1
  have h4 : Scf.trips k0_t4_loop.lb k0_t4_loop.ub k0_t4_loop.st = 240 := trips4
  obtain ⟨kk, hkk⟩ : ∃ kk : ℕ, kk = 32 := ⟨_, rfl⟩
  rw [h1, ← hkk]
  unfold invO
  rw [if_neg (by omega : ¬ kk < 32)]
  unfold FlA RestA
  icases HI with ⟨-, HFA, HRA, ⟨⟨%fb', Hbb⟩, HsemB, HxB⟩, %hacc, %W', %hW', HO⟩
  subst hacc
  sl_exec
  sl_for (invA m d L (2 * kk)) $$ [HFA_dst]
  case region =>
    intro r acc'
    have hr : r.val < 240 := lt_of_lt_of_eq r.isLt trips4
    unfold invA
    iintro ⟨HB, %hacc'⟩
    subst hacc'
    sl_exec
    sl_step
    isplitl [HB]; · iexact HB
    ipureintro
    exact stV_step (XV m d) (wL L) (2 * kk) r.val hr _ _ _ _ _ _ _ _
      (fun x => piece_readA d L _ _ _ r.val 0 (k0_off20_eq r) hr (by omega) x)
      (fun x => piece_readA d L _ _ _ r.val 16 (k0_off21_eq r) hr (by omega) x)
      (fun x => piece_readA d L _ _ _ r.val 32 (k0_off22_eq r) hr (by omega) x)
      (fun x => piece_readA d L _ _ _ r.val 48 (k0_off23_eq r) hr (by omega) x)
      (fun x => piece_readA d L _ _ _ r.val 64 (k0_off24_eq r) hr (by omega) x)
      (fun x => piece_readA d L _ _ _ r.val 80 (k0_off25_eq r) hr (by omega) x)
      (fun x => piece_readA d L _ _ _ r.val 96 (k0_off26_eq r) hr (by omega) x)
      (fun x => piece_readA d L _ _ _ r.val 112 (k0_off27_eq r) hr (by omega) x)
  · unfold invA
    isplitl [HFA_dst]; · iexact HFA_dst
    ipureintro; rfl
  iintro %acc4 HI
  unfold invA
  icases HI with ⟨HbA, %hacc4⟩
  subst hacc4
  rw [h4]
  ihave Hm1' := (Entails.of_eq (pts_m1K (F := F) d L _).symm) $$ Hm1
  ihave Hm2' := (Entails.of_eq (pts_m2K (F := F) d L _).symm) $$ Hm2
  sl_exec
  sl_step
  unfold tdT
  ihave Hm1'' := (Entails.of_eq (landed1' m d L _ f1 _ (2 * kk * 240 + 240) rfl (by omega))) $$ [Hm1']
  · iexact Hm1'
  ihave Hm2'' := (Entails.of_eq (landed2' m d L _ f2 _ (2 * kk * 240 + 240) rfl (by omega))) $$ [Hm2']
  · iexact Hm2'
  ihave HxA'' := (Entails.of_eq (pts_xt (F := F) d L _ _)) $$ HRA
  ihave HxB'' := (Entails.of_eq (pts_xt (F := F) d L _ _)) $$ HxB
  isplitl [HxA'' HxB'' Hm1'' Hm2'']
  · isplitl [HxA'']; · iexact HxA''
    isplitl [HxB'']; · iexact HxB''
    isplitl [Hm1'']; · iexact Hm1''
    iexact Hm2''
  isplitl [HbA Hbb Hs1' Hs2' Hbufs]
  · isplitl [HbA]; · iexists _; iexact HbA
    isplitl [Hbb]; · iexists _; iexact Hbb
    isplitl [Hs1']; · iexists _; iexact Hs1'
    isplitl [Hs2']; · iexists _; iexact Hs2'
    iexact Hbufs
  isplitl [HFA HsemB HsemC HsemD Hsems]
  · isplitl [HFA]; · iexact HFA
    isplitl [HsemB]; · iexact HsemB
    isplitl [HsemC]; · iexact HsemC
    isplitl [HsemD]; · iexact HsemD
    iexact Hsems
  iexists _; isplitr
  swap
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW' p hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__topk_kernel (coordsV c s)
          xtV (Memref.isWhole_whole _) m1V (Memref.isWhole_whole _) m2V (Memref.isWhole_whole _)
          bufA (Memref.isWhole_whole _) bufB (Memref.isWhole_whole _) s1V (Memref.isWhole_whole _) s2V (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task: from its two read shares of the transposed input and its entries of the two result vectors to the
    same with the entries at the row group's pairs. -/
theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (body m d (coordsV ⟨_, hc.1⟩ ⟨_, hc.2⟩) facts O W hO).trans (wp_mono frame _ _ fun _ => obl_post)

end Cert.Proof.KernelIdeal

end
-- ==== Proof.RegionsDat.lean ====
/-
  The proof data of the two TensorCore kernel regions: per region the arrays' contents at entry, what each window's
  staging buffer holds after the body at each point, the invariant (the scoped buffers the region does not stage,
  passed through unread), nothing owed, and the bound on the recorded waits.
  Region 0 (47 points): the block of the transposed input at point t is rows 62400 + 800 t .. 62400 + 800 t + 799; the
  two results' buffers, written back at the last point only, hold after point t the pairs of the first 800 (t + 1) rows.
  Region 1 (one point): the five operands as fetched; the result at the joined pairs' difference.
-/
import proofs.«210259_g7730941132961_cont_sun_c4_476_29_alg».proof.Proof.TcStates
import proofs.«210259_g7730941132961_cont_sun_c4_476_29_alg».proof.Proof.Ghost
import Idealize.ShloMosaic.Lib.Pipeline.Frame
import Idealize.ShloMosaic.Lib.Pipeline.FrameBody
import Idealize.ShloMosaic.Lib.Pipeline.Value

noncomputable section

namespace Cert.Proof.KernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type}

local notation "𝕄" => MT nD τ sig (HIx 1) (Elt F) ℕ UU ℕ

variable (m : (ℓ : Loc nD τ sig) → Buf (Elt F) ℓ)

variable [FloatOps F]

/-- The pairs a TensorCore's recorded waits may name: those at or below level 8 (the pipeline loop's own, at the index
    of its credit tokens, sit at level 0). -/
def recBelow (c : Dev nD) : Set (SemLoc sig × HIx 1) := {p | (K (F := F)).lev (SparseCore.T c, p.1) p.2 ≤ 8}

/-- The thread states the regions are entered from: as `preTopk` / `preComb`, the results at the launch memory's contents. -/
def preTopkN (d : Dev nD) : sProp 𝕄 :=
  iprop(tcOw d ∗ (xtLoc d ↦{fullShare} XT m d) ∗ (t1Loc d ↦{fullShare} m (t1Loc d)) ∗ (t2Loc d ↦{fullShare} m (t2Loc d)))
def preCombN (d : Dev nD) (C : Buf (Elt F) (clsLoc d)) : sProp 𝕄 :=
  iprop(tcOw d ∗ (m1Loc d ↦{fullShare} R1 m d) ∗ (m2Loc d ↦{fullShare} R2 m d) ∗ (t1Loc d ↦{fullShare} T1 m d) ∗ (t2Loc d ↦{fullShare} T2 m d)
    ∗ (clsLoc d ↦{fullShare} C) ∗ (outLoc d ↦{fullShare} m (outLoc d)))

/-- The block of the transposed input the first kernel's window 0 stages at point `t`, read off the array. -/
def iblkT (c : Dev nD) (t : Fin cfg1.N) : ((cfg1.win 0).xblock (cfg1.grid.coords t)).Idx → Elt F (cfg1.win 0).elt :=
  ((cfg1.win 0).blk t).view.read (Elt F) (XT m c)

/-- Region 0's proof data on core `c`. -/
def datTopk (c : Dev nD) : Dat τ (Elt F) (HIx 1) ℕ UU ℕ cfg1 c where
  A w := match w with
    | ⟨0, _⟩ => XT m c
    | ⟨1, _⟩ => m (t1Loc c)
    | ⟨2, _⟩ => m (t2Loc c)
  after w t := match w with
    | ⟨0, _⟩ => iblkT m c t
    | ⟨1, _⟩ => fun b => (Val.tcPairN (F := F) (XT m c) ((t.val + 1) * 800) b).1
    | ⟨2, _⟩ => fun b => (Val.tcPairN (F := F) (XT m c) ((t.val + 1) * 800) b).2
  Φ _ := Pipeline.scopedRest (Ix := HIx 1) (Name := ℕ) (U := UU) (Lvl := ℕ) (Val := Elt F) spec1 c
  q _ := fullShare
  owed _ := 0
  recorded _ := recBelow (F := F) c

/-- Region 1's proof data on core `c`, from the target entries `C`. -/
def datComb (C : (d : Dev nD) → Buf (Elt F) (clsLoc d)) (c : Dev nD) : Dat τ (Elt F) (HIx 1) ℕ UU ℕ cfg2 c where
  A w := match w with
    | ⟨0, _⟩ => R1 m c
    | ⟨1, _⟩ => R2 m c
    | ⟨2, _⟩ => T1 m c
    | ⟨3, _⟩ => T2 m c
    | ⟨4, _⟩ => C c
    | ⟨5, _⟩ => m (outLoc c)
  after w _ := match w with
    | ⟨0, _⟩ => (R1 m c : FVec F S4096 .f32)
    | ⟨1, _⟩ => (R2 m c : FVec F S4096 .f32)
    | ⟨2, _⟩ => (T1 m c : FVec F S1024 .f32)
    | ⟨3, _⟩ => (T2 m c : FVec F S1024 .f32)
    | ⟨4, _⟩ => (C c : FVec F S1024 .f32)
    | ⟨5, _⟩ => (OUT m c (C c) : FVec F S1024 .f32)
  Φ _ := Pipeline.scopedRest (Ix := HIx 1) (Name := ℕ) (U := UU) (Lvl := ℕ) (Val := Elt F) spec2 c
  q _ := fullShare
  owed _ := 0
  recorded _ := recBelow (F := F) c

/-- The two regions' proof data, by pipeline. -/
def pdats (C : (d : Dev nD) → Buf (Elt F) (clsLoc d)) :
    (p : Fin 2) → (c : Dev nD) → Dat τ (Elt F) (HIx 1) ℕ UU ℕ (Pipeline.pin (pcfgs (F := F)) adm p) c
  | ⟨0, _⟩ => datTopk m
  | ⟨1, _⟩ => datComb m C

/-! ## What both regions' entries and exits share -/

/-- The TensorCore's debt as the pipeline loop holds it, from the thread state's: every recorded wait sits at or below level 8. -/
theorem owesAt_of_tcOw {cfg : Cfg sig Λ₀} (c : Dev nD) (dat : Dat τ (Elt F) (HIx 1) ℕ UU ℕ cfg c)
    (ho : ∀ t, dat.owed t = 0) (hr : ∀ t, dat.recorded t = recBelow (F := F) c) (t : Fin (cfg.N + 1)) :
    (tcOw (F := F) c : sProp 𝕄) ⊢ dat.owesAt none t := by
  unfold tcOw Pipeline.Dat.owesAt Pipeline.owesWithin
  iintro ⟨%W, %hW, HO⟩
  iexists W; isplitr
  · ipureintro; intro p hp; exact Or.inl (by rw [hr]; exact hW p hp)
  rw [ho]; iexact HO

/-- and back: the loop's own waits, recorded at the index of its credit tokens, sit at level 0. -/
theorem tcOw_of_owesAt {cfg : Cfg sig Λ₀} (c : Dev nD) (dat : Dat τ (Elt F) (HIx 1) ℕ UU ℕ cfg c)
    (ho : ∀ t, dat.owed t = 0) (hr : ∀ t, dat.recorded t = recBelow (F := F) c) (t : Fin (cfg.N + 1)) :
    dat.owesAt none t ⊢ (tcOw (F := F) c : sProp 𝕄) := by
  unfold tcOw Pipeline.Dat.owesAt Pipeline.owesWithin
  iintro ⟨%W, %hW, HO⟩
  iexists W; isplitr
  · ipureintro; intro p hp
    rcases hW hp with h | ⟨w, s, rfl⟩
    · rw [hr] at h; exact h
    · show (K (F := F)).lev _ none ≤ 8
      rw [SparseCore.Cfg.lev_none]; exact Nat.zero_le _
  rw [ho]; iexact HO

end Cert.Proof.KernelIdeal

end
-- ==== Proof.RegionsComb.lean ====
/-
  The second TensorCore kernel region (no grid: one point): its six windows are whole arrays; the body loads the
  four row groups' pairs and the first kernel's pair, joins the five, and stores the target's entry minus the larger
  of the others. Here: what the body finds in its operands' buffers, the body's run on any whole staging memrefs,
  what the run's one covering store leaves as a value, the body obligation, and the region's record.
-/
import proofs.«210259_g7730941132961_cont_sun_c4_476_29_alg».proof.Proof.RegionsDat
import Idealize.ShloMosaic.Lib.Pipeline.Regions
import Idealize.ShloMosaic.Lib.Ring
import Idealize.ShloMosaic.Lib.Tactic

noncomputable section

namespace Cert.Proof.KernelIdeal

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type}

local notation "𝕄" => MT nD τ sig (HIx 1) (Elt F) ℕ UU ℕ

variable (m : (ℓ : Loc nD τ sig) → Buf (Elt F) ℓ)

variable [FloatOps F]

/-! ## What the body finds in its operands' buffers -/

/-- A whole-array window's buffer, once fetched, holds the array: the block index is zero and the block the array. -/
local macro "before_whole_tac" w:term "," X:term "," tt:term : tactic => `(tactic| (
  unfold Dat.fetched Dat.blockOf
  dsimp only [datComb]
  funext j
  have hm : (win2 $w).moved (grid2.coords $tt) j = true := ((win2 $w).moved_iff _ j).mpr fun a => (j a).isLt
  unfold Window.fill; rw [dif_pos hm, View.read_apply]
  refine (cast_eq _ _).trans (congrArg $X ?_)
  funext a; apply Fin.ext
  rw [View.emb_slice, Function.Embedding.trans_apply]
  show (((win2 $w).rect $tt).emb _ a : Nat) = _
  rw [Window.rect_emb_val]
  show 0 * _ + (j a : Nat) = j a
  omega))

theorem beforeC_0 (C) (c : Dev nD) (t : Fin cfg2.N) (d) : (datComb m C c).before 0 t d = (R1 m c : FVec F S4096 .f32) := by
  rw [Dat.before_fetched _ 0 t (fetch2_0 t)]; before_whole_tac 0, (R1 m c), t
theorem beforeC_1 (C) (c : Dev nD) (t : Fin cfg2.N) (d) : (datComb m C c).before 1 t d = (R2 m c : FVec F S4096 .f32) := by
  rw [Dat.before_fetched _ 1 t (fetch2_1 t)]; before_whole_tac 1, (R2 m c), t
theorem beforeC_2 (C) (c : Dev nD) (t : Fin cfg2.N) (d) : (datComb m C c).before 2 t d = (T1 m c : FVec F S1024 .f32) := by
  rw [Dat.before_fetched _ 2 t (fetch2_2 t)]; before_whole_tac 2, (T1 m c), t
theorem beforeC_3 (C) (c : Dev nD) (t : Fin cfg2.N) (d) : (datComb m C c).before 3 t d = (T2 m c : FVec F S1024 .f32) := by
  rw [Dat.before_fetched _ 3 t (fetch2_3 t)]; before_whole_tac 3, (T2 m c), t
theorem beforeC_4 (C : (d : Dev nD) → Buf (Elt F) (clsLoc d)) (c : Dev nD) (t : Fin cfg2.N) (d) : (datComb m C c).before 4 t d = (C c : FVec F S1024 .f32) := by
  rw [Dat.before_fetched _ 4 t (fetch2_4 t)]; before_whole_tac 4, (C c), t

theorem afterC_0 (C) (c : Dev nD) (t : Fin cfg2.N) : (datComb m C c).after 0 t = (R1 m c : FVec F S4096 .f32) := by dsimp only [datComb]
theorem afterC_1 (C) (c : Dev nD) (t : Fin cfg2.N) : (datComb m C c).after 1 t = (R2 m c : FVec F S4096 .f32) := by dsimp only [datComb]
theorem afterC_2 (C) (c : Dev nD) (t : Fin cfg2.N) : (datComb m C c).after 2 t = (T1 m c : FVec F S1024 .f32) := by dsimp only [datComb]
theorem afterC_3 (C) (c : Dev nD) (t : Fin cfg2.N) : (datComb m C c).after 3 t = (T2 m c : FVec F S1024 .f32) := by dsimp only [datComb]
theorem afterC_4 (C : (d : Dev nD) → Buf (Elt F) (clsLoc d)) (c : Dev nD) (t : Fin cfg2.N) : (datComb m C c).after 4 t = (C c : FVec F S1024 .f32) := by dsimp only [datComb]
theorem afterC_5 (C) (c : Dev nD) (t : Fin cfg2.N) : (datComb m C c).after 5 t = (OUT m c (C c) : FVec F S1024 .f32) := by dsimp only [datComb]

/-! ## The body on any whole staging memrefs -/

set_option maxHeartbeats 1600000 in
/-- What the body's one store leaves in the result's staging memref, as pieces, WITH the proof that on whole staging
    memrefs — the five operands' at their contents, the result's at anything — the body runs to the continuation
    holding the operands' as they were and the result's buffer with the pieces written. -/
noncomputable def combRun (c : Dev nD)
    (a0 : Memref sig .tc .vmem S4096 .f32) (h0 : a0.IsWhole) (a1 : Memref sig .tc .vmem S4096 .f32) (h1 : a1.IsWhole)
    (a2 : Memref sig .tc .vmem S1024 .f32) (h2 : a2.IsWhole) (a3 : Memref sig .tc .vmem S1024 .f32) (h3 : a3.IsWhole)
    (a4 : Memref sig .tc .vmem S1024 .f32) (h4 : a4.IsWhole) (a5 : Memref sig .tc .vmem S1024 .f32) (h5 : a5.IsWhole)
    (x0 x1 : Vec F S4096 .f32) (x2 x3 x4 : Vec F S1024 .f32) :
    { L : List (View.Piece (Elt F) S1024 .f32) //
      ∀ (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ (∃ X, owns (c : Thread nD τ) a5 fullShare X)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L)) -∗ K ⟨⟩))
          ⊢ wp frame (wpE (defs₀ (F := F)) Variants.none c none) Set.univ (cc2__comb_body (F := F) a0 h0 a1 h1 a2 h2 a3 h3 a4 h4 a5 h5) K } := by
  refine ⟨?_, fun K => ?run⟩
  case run =>
    simp only [cc2__comb_body_eq_skeleton]; unfold cc2__comb_body_skel
    unfold owns
    iintro ⟨⟨%f0, %hf0, H0⟩, ⟨%f1, %hf1, H1⟩, ⟨%f2, %hf2, H2⟩, ⟨%f3, %hf3, H3⟩, ⟨%f4, %hf4, H4⟩, ⟨%X5, %f5, %hf5, H5⟩, Hk⟩
    obtain rfl := h0.eq_unread hf0; obtain rfl := h1.eq_unread hf1; obtain rfl := h2.eq_unread hf2
    obtain rfl := h3.eq_unread hf3; obtain rfl := h4.eq_unread hf4
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

/-! ## What the one store leaves, as a value -/

theorem hz1 : (![0] : Fin 1 → Nat) = fun _ => 0 := funext fun a => by fin_cases a; rfl

/-- A load of 1024 consecutive entries of a 4096-vector from offset `j * 1024`, read at `b`: entry `j * 1024 + b`. -/
theorem ld_4k (x : Vec F S4096 .f32) (off j : ℕ) (hoff : off = j * 1024)
    (inb : ∀ a, (![off] : Fin 1 → ℕ) a + S1024.size a ≤ S4096.size a) (b : S1024.Idx) (h : j * 1024 + (b 0).val < 4096) :
    View.ld x (Rect.unit (s := S4096) ![off] S1024.size inb) b = x (ix1 ⟨j * 1024 + (b 0).val, h⟩) := by
  subst hoff
  refine congrArg x (funext fun a => Fin.ext ?_)
  match a with
  | ⟨0, _⟩ => show j * 1024 + 1 * (b 0 : Nat) = j * 1024 + (b 0).val; omega

/-- The run's pieces, read back, are the five pairs joined and the target's entry less the larger of the others. -/
theorem combRun_val (c : Dev nD)
    (a0 : Memref sig .tc .vmem S4096 .f32) (h0 : a0.IsWhole) (a1 : Memref sig .tc .vmem S4096 .f32) (h1 : a1.IsWhole)
    (a2 : Memref sig .tc .vmem S1024 .f32) (h2 : a2.IsWhole) (a3 : Memref sig .tc .vmem S1024 .f32) (h3 : a3.IsWhole)
    (a4 : Memref sig .tc .vmem S1024 .f32) (h4 : a4.IsWhole) (a5 : Memref sig .tc .vmem S1024 .f32) (h5 : a5.IsWhole)
    (x0 x1 : Vec F S4096 .f32) (x2 x3 x4 : Vec F S1024 .f32) :
    View.canon (combRun (F := F) c a0 h0 a1 h1 a2 h2 a3 h3 a4 h4 a5 h5 x0 x1 x2 x3 x4).1 = Val.out (F := F) x0 x1 x2 x3 x4 := by
  unfold combRun
  dsimp only
  rw [View.canon_unit_zero hz1]
  unfold k2_pay1
  simp only [View.readAt_eq_ld, h0.read_unread, h1.read_unread, h2.read_unread, h3.read_unread, h4.read_unread,
    View.ld_unit_zero (S := S1024) hz1, shapeCast_self]
  funext b
  have hb : (b 0).val < 1024 := (b 0).isLt
  simp only [subf, select, cmpf, maximumf, minimumf]
  rw [ld_4k x0 0 0 rfl _ b (by omega), ld_4k x0 1024 1 rfl _ b (by omega), ld_4k x0 2048 2 rfl _ b (by omega), ld_4k x0 3072 3 rfl _ b (by omega),
    ld_4k x1 0 0 rfl _ b (by omega), ld_4k x1 1024 1 rfl _ b (by omega), ld_4k x1 2048 2 rfl _ b (by omega), ld_4k x1 3072 3 rfl _ b (by omega)]
  rw [show x2 b = x2 (ix1 (b 0)) from congrArg x2 (eq_ix1 b), show x3 b = x3 (ix1 (b 0)) from congrArg x3 (eq_ix1 b)]
  rfl

/-- Its one piece covers the block. -/
theorem combRun_cover (c : Dev nD)
    (a0 : Memref sig .tc .vmem S4096 .f32) (h0 : a0.IsWhole) (a1 : Memref sig .tc .vmem S4096 .f32) (h1 : a1.IsWhole)
    (a2 : Memref sig .tc .vmem S1024 .f32) (h2 : a2.IsWhole) (a3 : Memref sig .tc .vmem S1024 .f32) (h3 : a3.IsWhole)
    (a4 : Memref sig .tc .vmem S1024 .f32) (h4 : a4.IsWhole) (a5 : Memref sig .tc .vmem S1024 .f32) (h5 : a5.IsWhole)
    (x0 x1 : Vec F S4096 .f32) (x2 x3 x4 : Vec F S1024 .f32) (y : S1024.Idx) :
    ∃ pc ∈ (combRun (F := F) c a0 h0 a1 h1 a2 h2 a3 h3 a4 h4 a5 h5 x0 x1 x2 x3 x4).1, y ∈ pc.1.set := by
  unfold combRun
  dsimp only
  exact ⟨_, List.mem_singleton_self _, View.mem_set_unit_zero hz1 inb_S1024_S1024_0 y⟩

/-! ## The body obligation -/

/-- Each window's staging memref at the one point, as the pipeline passes it. -/
abbrev msC_0 (t : Fin cfg2.N) : Memref sig .tc .vmem S4096 .f32 := win2_0.stage (cfg2.slots t 0)
abbrev msC_1 (t : Fin cfg2.N) : Memref sig .tc .vmem S4096 .f32 := win2_1.stage (cfg2.slots t 1)
abbrev msC_2 (t : Fin cfg2.N) : Memref sig .tc .vmem S1024 .f32 := win2_2.stage (cfg2.slots t 2)
abbrev msC_3 (t : Fin cfg2.N) : Memref sig .tc .vmem S1024 .f32 := win2_3.stage (cfg2.slots t 3)
abbrev msC_4 (t : Fin cfg2.N) : Memref sig .tc .vmem S1024 .f32 := win2_4.stage (cfg2.slots t 4)
abbrev msC_5 (t : Fin cfg2.N) : Memref sig .tc .vmem S1024 .f32 := win2_5.stage (cfg2.slots t 5)

/-- What the body is called with at the point (the body obligation's precondition, the windows one by one), -/
def bodyPreC (C : (d : Dev nD) → Buf (Elt F) (clsLoc d)) (c : Dev nD) (t : Fin cfg2.N) : sProp 𝕄 :=
  iprop((datComb m C c).Φ t.castSucc ∗ (datComb m C c).owesAt none t.castSucc
    ∗ (∃ d, owns (c : Thread nD τ) (msC_0 t) fullShare ((datComb m C c).before 0 t d))
    ∗ (∃ d, owns (c : Thread nD τ) (msC_1 t) fullShare ((datComb m C c).before 1 t d))
    ∗ (∃ d, owns (c : Thread nD τ) (msC_2 t) fullShare ((datComb m C c).before 2 t d))
    ∗ (∃ d, owns (c : Thread nD τ) (msC_3 t) fullShare ((datComb m C c).before 3 t d))
    ∗ (∃ d, owns (c : Thread nD τ) (msC_4 t) fullShare ((datComb m C c).before 4 t d))
    ∗ (∃ d, owns (c : Thread nD τ) (msC_5 t) fullShare ((datComb m C c).before 5 t d)))

/-- and what it returns. -/
def bodyPostC (C : (d : Dev nD) → Buf (Elt F) (clsLoc d)) (c : Dev nD) (t : Fin cfg2.N) : sProp 𝕄 :=
  iprop((datComb m C c).Φ t.succ ∗ (datComb m C c).owesAt none t.succ
    ∗ owns (c : Thread nD τ) (msC_0 t) fullShare ((datComb m C c).after 0 t)
    ∗ owns (c : Thread nD τ) (msC_1 t) fullShare ((datComb m C c).after 1 t)
    ∗ owns (c : Thread nD τ) (msC_2 t) fullShare ((datComb m C c).after 2 t)
    ∗ owns (c : Thread nD τ) (msC_3 t) fullShare ((datComb m C c).after 3 t)
    ∗ owns (c : Thread nD τ) (msC_4 t) fullShare ((datComb m C c).after 4 t)
    ∗ owns (c : Thread nD τ) (msC_5 t) fullShare ((datComb m C c).after 5 t))

set_option maxHeartbeats 800000 in
/-- The body at the point: the operands' memrefs hold the arrays; the run applies; the result's memref ends at the
    run's pieces read back, which are `OUT`; nothing is owed throughout. -/
theorem sound_bodyC (C : (d : Dev nD) → Buf (Elt F) (clsLoc d)) (c : Dev nD) (t : Fin cfg2.N) :
    bodyPreC m C c t ⊢ wp frame (wpE (defs₀ (F := F)) Variants.none c none) Set.univ (bodyAt2 t) (fun _ => bodyPostC m C c t) := by
  unfold bodyPreC bodyPostC bodyAt2
  simp only [beforeC_0, beforeC_1, beforeC_2, beforeC_3, beforeC_4]
  rw [show (datComb m C c).Φ t.succ = (datComb m C c).Φ t.castSucc from rfl,
    show (datComb m C c).owesAt none t.succ = (datComb m C c).owesAt none t.castSucc from rfl,
    afterC_0, afterC_1, afterC_2, afterC_3, afterC_4, afterC_5]
  iintro ⟨HΦ, Ho, ⟨%d0, H0⟩, ⟨%d1, H1⟩, ⟨%d2, H2⟩, ⟨%d3, H3⟩, ⟨%d4, H4⟩, ⟨%d5, H5⟩⟩
  iapply ((combRun c _ (hstage2_0 0) _ (hstage2_1 0) _ (hstage2_2 0) _ (hstage2_3 0) _ (hstage2_4 0) _ (hstage2_5 0)
    (R1 m c : FVec F S4096 .f32) (R2 m c : FVec F S4096 .f32) (T1 m c : FVec F S1024 .f32) (T2 m c : FVec F S1024 .f32) (C c : FVec F S1024 .f32)).2 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [View.read_writes_eq_canon _ _ _ (combRun_cover c _ _ _ _ _ _ _ _ _ _ _ _ _ _ _ _ _), combRun_val]
  rfl

/-- The library's body obligation, at the one point. -/
theorem body_obligationC (C : (d : Dev nD) → Buf (Elt F) (clsLoc d)) (c : Dev nD) :
    BodyObligation (datComb (F := F) m C c) (defs₀ (F := F)) Variants.none (none : HIx 1) Set.univ := fun t => by
  rw [bigSep_W2, bigSep_W2]
  exact sound_bodyC m C c t

/-! ## The region's record -/

/-- The region's arrays at contents `Fa`, array by array. -/
theorem arraysC_eq (C : (d : Dev nD) → Buf (Elt F) (clsLoc d)) (c : Dev nD) (Fa) :
    ((pdats (F := F) m C 1 c).arrays Fa : sProp 𝕄)
      = iprop((m1Loc c ↦{fullShare} Fa 0) ∗ (m2Loc c ↦{fullShare} Fa 1) ∗ (t1Loc c ↦{fullShare} Fa 2) ∗ (t2Loc c ↦{fullShare} Fa 3)
          ∗ (clsLoc c ↦{fullShare} Fa 4) ∗ (outLoc c ↦{fullShare} Fa 5)) := by
  rw [Pipeline.arrays_eq (Pipeline.pin (pcfgs (F := F)) adm) (pdats m C) 1 c launch2.arr_whole ((pdats m C 1 c).share_full fun _ => rfl) Fa, bigSep_W2]
  rfl

omit [FloatOps F] in
theorem bigSep_Fin0 (Φ : Fin 0 → sProp 𝕄) : bigSep Finset.univ Φ = (BI.emp : sProp 𝕄) := bigSep_univ_eq_bigSepL [] (by decide) (by decide) Φ

theorem prefHeldC (c : Dev nD) (q) (pf) :
    (Pipeline.prefHeld (Ix := HIx 1) (Name := ℕ) (U := UU) (Lvl := ℕ) (Val := Elt F) (pcfgs (F := F) 1).pre c q pf : sProp 𝕄) = BI.emp :=
  bigSep_Fin0 _

/-- The result array after the one write-back: the whole array is the block. -/
theorem arrAtC_5 (C : (d : Dev nD) → Buf (Elt F) (clsLoc d)) (c : Dev nD) :
    (datComb (F := F) m C c).arrAt 5 cfg2.N = OUT m c (C c) := by
  refine (datComb m C c).arrAt_eq_of_cover 5 (OUT m c (C c)) (fun t _ => ?_) fun i => ⟨t2_0, flush2_5 t2_0, ?_⟩
  · show (cfg2.win 5).cut (grid2.coords t) ((datComb m C c).after 5 t) = _
    rw [afterC_5]
    funext j
    rw [View.read_apply]
    refine ((cast_eq _ _).trans (congrArg (OUT m c (C c)) ?_)).symm
    funext a; apply Fin.ext
    rw [View.emb_slice, Function.Embedding.trans_apply]
    show (((win2 5).rect t).emb _ a : Nat) = _
    rw [Window.rect_emb_val]
    show 0 * _ + (j a : Nat) = _
    simp
  · show i ∈ ((View.whole main_v6).slice (win2_5.rect t2_0)).set
    rw [View.set_slice_whole, Rect.mem_set_unit]
    intro a
    have h0 : (i 0 : Nat) < 1024 := (i 0).isLt
    match a with
    | ⟨0, _⟩ =>
      show win2_5.index t2_0 0 * win2_5.size 0 ≤ (i 0 : Nat) ∧ (i 0 : Nat) < win2_5.index t2_0 0 * win2_5.size 0 + win2_5.xsize (grid2.coords t2_0) 0
      rw [show win2_5.index t2_0 0 * win2_5.size 0 = 0 from by decide +kernel, show win2_5.xsize (grid2.coords t2_0) 0 = 1024 from by decide +kernel]; omega

/-- The region's configuration as the regions kit reads it is the printed one; so are its windows' specs, the scoped
    buffers it does not stage, and the invariant the proof data carries. -/
theorem spec_pin1 : (Pipeline.pin (pcfgs (F := F)) adm 1).spec = spec2 := rfl

theorem scopedRest_pin1 (c : Dev nD) :
    (Pipeline.scopedRest (Ix := HIx 1) (Name := ℕ) (U := UU) (Lvl := ℕ) (Val := Elt F) (Pipeline.pin (pcfgs (F := F)) adm 1).spec c : sProp 𝕄)
      = Pipeline.scopedRest (Ix := HIx 1) (Name := ℕ) (U := UU) (Lvl := ℕ) (Val := Elt F) spec2 c :=
  congrArg (fun s => (Pipeline.scopedRest (Ix := HIx 1) (Name := ℕ) (U := UU) (Lvl := ℕ) (Val := Elt F) s c : sProp 𝕄)) (spec_pin1 (F := F))

theorem ΦC_eq (C : (d : Dev nD) → Buf (Elt F) (clsLoc d)) (c : Dev nD) (t) :
    (pdats m C 1 c).Φ t = Pipeline.scopedRest (Ix := HIx 1) (Name := ℕ) (U := UU) (Lvl := ℕ) (Val := Elt F) spec2 c := rfl

/-- THE SECOND REGION: its six arrays into the pipeline, nothing beside; the TensorCore owes nothing throughout. -/
def segComb (C : (d : Dev nD) → Buf (Elt F) (clsLoc d)) :
    Pipeline.RegionSeg (pcfgs (F := F)) adm (pdats m C) (none : HIx 1) defs₀ 𝒱₀ (K (F := F)).L (K (F := F)).lev (1 : Fin 2) where
  win := launch2.win.to₀
  block_pos := launch2.block_pos
  stage_whole := launch2.stage_whole
  K := PEmpty
  osem k := k.elim
  ho := Pipeline.OwnSemFacts.none _
  hbody c := (body_obligationC m C c).loose
  hwaits c := (show (levAts (K (F := F)).L (K (F := F)).lev : sProp 𝕄) ⊢ BI.emp from by iintro -; iempintro).trans
    (Pipeline.cellsWaits_of_owed_zero (Pipeline.pin (pcfgs (F := F)) adm) (pdats m C) none 1 c fun _ => rfl)
  pre c := preCombN m c (C c)
  post c := postComb m c (C c)
  X _ := iprop(emp)
  Y _ := iprop(emp)
  Z _ := iprop(emp)
  hentry c := by
    rw [Pipeline.ownSems0_none, arraysC_eq, prefHeldC]
    unfold preCombN
    iintro ⟨⟨HO, H0, H1, H2, H3, H4, H5⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · iapply (owesAt_of_tcOw c (pdats m C 1 c) (fun _ => rfl) (fun _ => rfl) 0); iexact HO
    isplitr <;> iempintro
  hin c := by
    rw [scopedRest_pin1, ΦC_eq]
    iintro ⟨-, -, H⟩; iexact H
  hout c := by
    rw [Pipeline.ownSems0_none, scopedRest_pin1, ΦC_eq]
    iintro H
    isplitr; · iempintro
    isplitr; · iempintro
    iexact H
  hexit c := by
    rw [arraysC_eq]
    unfold postComb
    have e0 : (pdats m C 1 c).arrAt 0 (Pipeline.pin (pcfgs (F := F)) adm 1).N = R1 m c := (datComb m C c).arrAt_in 0 rfl _
    have e1 : (pdats m C 1 c).arrAt 1 (Pipeline.pin (pcfgs (F := F)) adm 1).N = R2 m c := (datComb m C c).arrAt_in 1 rfl _
    have e2 : (pdats m C 1 c).arrAt 2 (Pipeline.pin (pcfgs (F := F)) adm 1).N = T1 m c := (datComb m C c).arrAt_in 2 rfl _
    have e3 : (pdats m C 1 c).arrAt 3 (Pipeline.pin (pcfgs (F := F)) adm 1).N = T2 m c := (datComb m C c).arrAt_in 3 rfl _
    have e4 : (pdats m C 1 c).arrAt 4 (Pipeline.pin (pcfgs (F := F)) adm 1).N = C c := (datComb m C c).arrAt_in 4 rfl _
    have e5 : (pdats m C 1 c).arrAt 5 (Pipeline.pin (pcfgs (F := F)) adm 1).N = OUT m c (C c) := arrAtC_5 m C c
    rw [e0, e1, e2, e3, e4, e5]
    iintro ⟨⟨H0, H1, H2, H3, H4, H5⟩, HO, -, -⟩
    imodintro
    isplitl [HO]
    · iapply (tcOw_of_owesAt c (pdats m C 1 c) (fun _ => rfl) (fun _ => rfl) (Fin.last _)); iexact HO
    isplitl [H0]; · iexact H0
    isplitl [H1]; · iexact H1
    isplitl [H2]; · iexact H2
    isplitl [H3]; · iexact H3
    isplitl [H4]; · iexact H4
    iexact H5

end Cert.Proof.KernelIdeal

end
-- ==== Proof.RegionsTopk.lean ====
/-
  The first TensorCore kernel region (47 points): window 0 stages 800 rows of the transposed input per point; the
  two results' buffers are reset to minus infinity at the first point, updated by the 800 rows of each point, and
  written back at the last point only.
-/
import proofs.«210259_g7730941132961_cont_sun_c4_476_29_alg».proof.Proof.RegionsDat
import proofs.«210259_g7730941132961_cont_sun_c4_476_29_alg».proof.Proof.Gen.KernelIdeal.Loops
import Idealize.ShloMosaic.Lib.Pipeline.Regions
import Idealize.ShloMosaic.Lib.Ring
import Idealize.ShloMosaic.Lib.Tactic

noncomputable section

namespace Cert.Proof.KernelIdeal

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type}

local notation "𝕄" => MT nD τ sig (HIx 1) (Elt F) ℕ UU ℕ

variable (m : (ℓ : Loc nD τ sig) → Buf (Elt F) ℓ)

variable [FloatOps F]

/-! ## The fold over rows, continued -/

/-- A fold over `n + k` entries is the fold over the next `k` from the fold over the first `n`. -/
theorem foldN_add (col : ℕ → F .f32) (init : F .f32 × F .f32) (n k : ℕ) :
    Val.foldN col init (n + k) = Val.foldN (fun r => col (n + r)) (Val.foldN col init n) k := by
  induction k with
  | zero => rfl
  | succ k ih =>
    show Val.push (Val.foldN col init (n + k)) (col (n + k)) = Val.push (Val.foldN (fun r => col (n + r)) (Val.foldN col init n) k) (col (n + k))
    rw [ih]

/-- Folds over sequences that agree below `k` agree. -/
theorem foldN_congr (col col' : ℕ → F .f32) (init : F .f32 × F .f32) (k : ℕ) (h : ∀ r < k, col r = col' r) :
    Val.foldN col init k = Val.foldN col' init k := by
  induction k with
  | zero => rfl
  | succ k ih =>
    show Val.push (Val.foldN col init k) (col k) = Val.push (Val.foldN col' init k) (col' k)
    rw [ih fun r hr => h r (Nat.lt_succ_of_lt hr), h k (Nat.lt_succ_self k)]

/-- Column `b` of an 800-row block as a sequence (minus infinity past the last row: never read). -/
def blkCol (x : Vec F S800x1024 .f32) (b : Fin 1024) : ℕ → F .f32 :=
  fun r => if h : r < 800 then x (ix2 (n0 := 800) (n1 := 1024) ⟨r, h⟩ b) else Val.ninf

/-- The two vectors after the first `k` rows of the block `x`, from `init`: columnwise the fold. -/
def rowsN (x : Vec F S800x1024 .f32) (init : FVec F S1024 .f32 × FVec F S1024 .f32) (k : ℕ) : FVec F S1024 .f32 × FVec F S1024 .f32 :=
  (fun b => (Val.foldN (blkCol x (b 0)) (init.1 b, init.2 b) k).1, fun b => (Val.foldN (blkCol x (b 0)) (init.1 b, init.2 b) k).2)

theorem rowsN_zero (x : Vec F S800x1024 .f32) (init : FVec F S1024 .f32 × FVec F S1024 .f32) : rowsN x init 0 = init := rfl

/-! ## One trip of the rows' loop -/

/-- Row `k` of the block, as the trip loads it and casts it to a vector, at column `b`. -/
theorem row_ld (x : Vec F S800x1024 .f32) (a1 : Memref sig .tc .vmem S800x1024 .f32) (h1 : a1.IsWhole) (k : Fin k1_t1_loop.trips) (b : S1024.Idx) :
    k1_pay5 (F := F) (View.readAt (Elt F) a1.view (Rect.unit (s := S800x1024) (k1_off1 k) S1x1024.size (k1_off1_inb k)).toLoadRect (h1.unread x)) b
      = blkCol x (b 0) k.val := by
  have hk : k.val < 800 := Nat.lt_of_lt_of_le k.isLt k1_t1_abs.2.1
  unfold k1_pay5 blkCol
  rw [View.readAt_eq_ld, h1.read_unread, dif_pos hk]
  refine (shapeCast_dropUnit_apply (n := 1) ![1024] _ _ b).trans ?_
  refine congrArg x (funext fun a => Fin.ext ?_)
  have ho := k1_off1_eq k
  match a with
  | ⟨0, _⟩ =>
    show (k1_off1 k) 0 + 1 * ((Fin.cons (⟨0, Nat.one_pos⟩ : Fin 1) b : (⟨2, Matrix.vecCons 1 ![1024]⟩ : Shape).Idx) 0 : Nat) = k.val
    rw [ho]; simp; rfl
  | ⟨1, _⟩ =>
    show (k1_off1 k) 1 + 1 * ((Fin.cons (⟨0, Nat.one_pos⟩ : Fin 1) b : (⟨2, Matrix.vecCons 1 ![1024]⟩ : Shape).Idx) 1 : Nat) = (b 0).val
    rw [ho]; simp; rfl

macro_rules | `(tactic| sl_pure) => `(tactic| with_reducible exact (Cert.Proof.KernelIdeal.rowsN_zero ..).symm)

set_option warn.classDefReducibility false in
set_option maxHeartbeats 1600000 in
/-- THE ROWS' LOOP BY ITS INVARIANT, at this certificate's resource algebra: the block's buffer held at its contents, the
    carried pair the columnwise fold over the rows before trip `k`. -/
@[sl_loop] def loopInvT (𝒱 : Variants) (c : Dev nD) (bd : Option 𝒱.V) (E : Set ℕ) (i : grid1.Coords)
    (arg1 : Memref sig .tc .vmem S800x1024 .f32) (harg1 : arg1.IsWhole) (arg2 : Memref sig .tc .vmem S1024 .f32) (harg2 : arg2.IsWhole)
    (arg3 : Memref sig .tc .vmem S1024 .f32) (harg3 : arg3.IsWhole) (x : Vec F S800x1024 .f32) (init : FVec F S1024 .f32 × FVec F S1024 .f32) :
    LoopInvTy_k1_t1 (F := F) (HIx 1) ℕ UU ℕ 𝒱 c bd E i arg1 harg1 arg2 harg2 arg3 harg3 init where
  inv k acc := iprop((arg1.view.loc (c : Thread nD τ) ↦[arg1.view.set]{fullShare} harg1.unread x) ∗ ⌜acc = rowsN x init k⌝)
  step k acc := by
    iintro ⟨H, %h⟩
    subst h
    unfold k1_t1_body
    sl_exec
    sl_step
    isplitl [H]; · iexact H
    ipureintro
    refine Prod.ext (funext fun b => ?_) (funext fun b => ?_)
    · show FloatOps.maximumf _ (k1_pay5 _ b) = (Val.push _ _).1
      rw [row_ld]; rfl
    · show FloatOps.maximumf _ (FloatOps.minimumf _ (k1_pay5 _ b)) = (Val.push _ _).2
      rw [row_ld]; rfl

/-! ## The body's branch condition -/

/-- The condition of the body's `scf.if` (reset the results), from the grid coordinate. -/
abbrev condT (i : grid1.Coords) : Prop := (Scalar.cmpi .ne (Scalar.extui (Scalar.cmpi .eq (BitVec.ofNat 32 (i 0).val) 0#32)) 0#32) = 1#1
/-- It holds at the first point only — decided over the grid. -/
theorem hcondT : ∀ t : Fin cfg1.N, condT (grid1.coords t) ↔ t.val = 0 :=
  (by decide +kernel : ∀ t : Fin grid1.N, condT (grid1.coords t) ↔ t.val = 0)

/-! ## The body on any whole staging memrefs, by case -/

set_option maxHeartbeats 3200000 in
/-- CASE A (the first point: the results are reset): what the body's stores leave in the two results' staging memrefs,
    as pieces (last first), WITH the proof that on whole staging memrefs — the block's at its contents, the results' at
    anything — the body runs to the continuation holding the block's as it was and each result's buffer with its pieces written. -/
noncomputable def topkRunA (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : condT i) (x : Vec F S800x1024 .f32) :
    { L : List (View.Piece (Elt F) S1024 .f32) × List (View.Piece (Elt F) S1024 .f32) //
      ∀ (K : PUnit → sProp 𝕄),
        iprop(owns (c : Thread nD τ) a1 fullShare x ∗ (∃ X, owns (c : Thread nD τ) a2 fullShare X) ∗ (∃ X, owns (c : Thread nD τ) a3 fullShare X)
            ∗ (iprop(owns (c : Thread nD τ) a1 fullShare x
                ∗ (∃ f, a2.view.loc (c : Thread nD τ) ↦[a2.view.set]{fullShare} a2.view.writes (Elt F) f L.1)
                ∗ (∃ f, a3.view.loc (c : Thread nD τ) ↦[a3.view.set]{fullShare} a3.view.writes (Elt F) f L.2)) -∗ K ⟨⟩))
          ⊢ wp frame (wpE (defs₀ (F := F)) Variants.none c none) Set.univ (cc1__tc_body (F := F) i a1 h1 a2 h2 a3 h3) K } := by
  refine ⟨(?_, ?_), fun K => ?run⟩
  case run =>
    simp only [cc1__tc_body_eq_skeleton]; unfold cc1__tc_body_skel
    unfold owns
    iintro ⟨⟨%f1, %hf1, H1⟩, ⟨%X2, %f2, %hf2, H2⟩, ⟨%X3, %f3, %hf3, H3⟩, Hk⟩
    obtain rfl := h1.eq_unread hf1
    sl_exec (disch := first | exact hc)
    sl_step
    iapply Hk
    isplitl [H1]
    · iexists _; isplitr; · ipureintro; exact h1.read_unread _
      iexact H1
    isplitl [H2]
    · iexists _; iexact H2
    iexists _; iexact H3

set_option maxHeartbeats 3200000 in
/-- CASE B (the other points): the same with the results' staging memrefs at their running contents. -/
noncomputable def topkRunB (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : ¬condT i) (x : Vec F S800x1024 .f32) (xa xb : Vec F S1024 .f32) :
    { L : List (View.Piece (Elt F) S1024 .f32) × List (View.Piece (Elt F) S1024 .f32) //
      ∀ (K : PUnit → sProp 𝕄),
        iprop(owns (c : Thread nD τ) a1 fullShare x ∗ owns (c : Thread nD τ) a2 fullShare xa ∗ owns (c : Thread nD τ) a3 fullShare xb
            ∗ (iprop(owns (c : Thread nD τ) a1 fullShare x
                ∗ (∃ f, a2.view.loc (c : Thread nD τ) ↦[a2.view.set]{fullShare} a2.view.writes (Elt F) f L.1)
                ∗ (∃ f, a3.view.loc (c : Thread nD τ) ↦[a3.view.set]{fullShare} a3.view.writes (Elt F) f L.2)) -∗ K ⟨⟩))
          ⊢ wp frame (wpE (defs₀ (F := F)) Variants.none c none) Set.univ (cc1__tc_body (F := F) i a1 h1 a2 h2 a3 h3) K } := by
  refine ⟨(?_, ?_), fun K => ?run⟩
  case run =>
    simp only [cc1__tc_body_eq_skeleton]; unfold cc1__tc_body_skel
    unfold owns
    iintro ⟨⟨%f1, %hf1, H1⟩, ⟨%f2, %hf2, H2⟩, ⟨%f3, %hf3, H3⟩, Hk⟩
    obtain rfl := h1.eq_unread hf1; obtain rfl := h2.eq_unread hf2; obtain rfl := h3.eq_unread hf3
    sl_exec (disch := first | exact hc)
    sl_step
    iapply Hk
    isplitl [H1]
    · iexists _; isplitr; · ipureintro; exact h1.read_unread _
      iexact H1
    isplitl [H2]
    · iexists _; iexact H2
    iexists _; iexact H3

/-! ## What the stores leave, as values -/

theorem hz1T : (![0] : Fin 1 → Nat) = fun _ => 0 := funext fun a => by fin_cases a; rfl

/-- The rows' loop runs 800 trips. -/
theorem trips_eq : Scf.trips (0#32) (Scalar.addi 0#32 800#32) 1#32 = 800 := by decide +kernel

/-- CASE B: each result's buffer ends at the fold over the block's 800 rows from its running contents. -/
theorem topkRunB_val (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : ¬condT i) (x : Vec F S800x1024 .f32) (xa xb : Vec F S1024 .f32) :
    View.canon (topkRunB (F := F) c i a1 h1 a2 h2 a3 h3 hc x xa xb).1.1 = (rowsN x (xa, xb) 800).1
      ∧ View.canon (topkRunB (F := F) c i a1 h1 a2 h2 a3 h3 hc x xa xb).1.2 = (rowsN x (xa, xb) 800).2 := by
  unfold topkRunB
  dsimp only
  rw [View.canon_unit_zero hz1T, View.canon_unit_zero hz1T]
  unfold k1_pay3 k1_pay4
  simp only [View.readAt_eq_ld, h2.read_unread, h3.read_unread, View.ld_unit_zero (S := S1024) hz1T, shapeCast_self, trips_eq]
  exact ⟨rfl, rfl⟩

theorem topkRunB_cover (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : ¬condT i) (x : Vec F S800x1024 .f32) (xa xb : Vec F S1024 .f32) (y : S1024.Idx) :
    (∃ pc ∈ (topkRunB (F := F) c i a1 h1 a2 h2 a3 h3 hc x xa xb).1.1, y ∈ pc.1.set)
      ∧ ∃ pc ∈ (topkRunB (F := F) c i a1 h1 a2 h2 a3 h3 hc x xa xb).1.2, y ∈ pc.1.set := by
  unfold topkRunB
  dsimp only
  exact ⟨⟨_, List.mem_singleton_self _, View.mem_set_unit_zero hz1T inb_S1024_S1024_0 y⟩,
    ⟨_, List.mem_singleton_self _, View.mem_set_unit_zero hz1T inb_S1024_S1024_0 y⟩⟩

/-- CASE A: each result's buffer ends at the fold over the block's 800 rows from minus infinity. -/
theorem topkRunA_val (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : condT i) (x : Vec F S800x1024 .f32) :
    View.canon (topkRunA (F := F) c i a1 h1 a2 h2 a3 h3 hc x).1.1 = (rowsN x (broadcast S1024 Val.ninf, broadcast S1024 Val.ninf) 800).1
      ∧ View.canon (topkRunA (F := F) c i a1 h1 a2 h2 a3 h3 hc x).1.2 = (rowsN x (broadcast S1024 Val.ninf, broadcast S1024 Val.ninf) 800).2 := by
  unfold topkRunA
  dsimp only
  sl_unfold_words
  rw [View.canon_cons_unit_zero hz1T, View.canon_cons_unit_zero hz1T]
  rw [View.readCov_unit_zero (S := S1024) _ hz1T, View.readCov_unit_zero (S := S1024) _ hz1T]
  unfold k1_pay3 k1_pay4 k1_pay1 k1_pay2
  simp only [shapeCast_self, trips_eq]
  exact ⟨rfl, rfl⟩

theorem topkRunA_cover (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : condT i) (x : Vec F S800x1024 .f32) (y : S1024.Idx) :
    (∃ pc ∈ (topkRunA (F := F) c i a1 h1 a2 h2 a3 h3 hc x).1.1, y ∈ pc.1.set)
      ∧ ∃ pc ∈ (topkRunA (F := F) c i a1 h1 a2 h2 a3 h3 hc x).1.2, y ∈ pc.1.set := by
  unfold topkRunA
  dsimp only
  exact ⟨⟨_, List.mem_cons_self, View.mem_set_unit_zero hz1T inb_S1024_S1024_0 y⟩,
    ⟨_, List.mem_cons_self, View.mem_set_unit_zero hz1T inb_S1024_S1024_0 y⟩⟩

/-! ## A staged block's rows are the transposed input's -/

/-- Window 0's block index at point `t`: row block `78 + t`, column block 0 — decided over the grid. -/
theorem indexT_0 : ∀ t : Fin cfg1.N, (cfg1.win 0).index t 0 = 78 + t.val ∧ (cfg1.win 0).index t 1 = 0 :=
  (by decide +kernel : ∀ t : Fin grid1.N, win1_0.index t 0 = 78 + t.val ∧ win1_0.index t 1 = 0)

/-- Row `r` of the block staged at point `t` is row `62400 + 800 t + r` of the transposed input. -/
theorem iblkT_apply (c : Dev nD) (t : Fin cfg1.N) (r : ℕ) (hr : r < 800) (b : Fin 1024) (h : 62400 + (t.val * 800 + r) < 100000) :
    iblkT m c t (ix2 (n0 := 800) (n1 := 1024) ⟨r, hr⟩ b)
      = (XT m c : FVec F S100000x1024 .f32) (ix2 (n0 := 100000) (n1 := 1024) ⟨62400 + (t.val * 800 + r), h⟩ b) := by
  unfold iblkT
  rw [View.read_apply]
  refine (cast_eq _ _).trans (congrArg (XT m c) ?_)
  funext a; apply Fin.ext
  rw [View.emb_slice, Function.Embedding.trans_apply]
  show (((cfg1.win 0).rect t).emb _ a : Nat) = _
  rw [Window.rect_emb_val]
  obtain ⟨i0, i1⟩ := indexT_0 t
  match a with
  | ⟨0, _⟩ => show (cfg1.win 0).index t 0 * 800 + r = 62400 + (t.val * 800 + r); rw [i0]; omega
  | ⟨1, _⟩ => show (cfg1.win 0).index t 1 * 1024 + b.val = b.val; rw [i1]; omega

/-- Column `b` of the block staged at point `t`, below its 800 rows, is column `b` of the transposed input from row `62400 + 800 t`. -/
theorem blkCol_iblkT (c : Dev nD) (t : Fin cfg1.N) (b : Fin 1024) (r : ℕ) (hr : r < 800) :
    blkCol (iblkT m c t) b r = Val.colX (F := F) (XT m c) b (62400 + (t.val * 800 + r)) := by
  have hN : t.val < 47 := lt_of_lt_of_eq t.isLt (show cfg1.N = 47 from N_1)
  have h : 62400 + (t.val * 800 + r) < 100000 := by omega
  unfold blkCol Val.colX
  rw [dif_pos hr, dif_pos h]
  exact iblkT_apply m c t r hr b h

/-- THE STEP ACROSS A POINT: the fold over the block staged at point `t` from the pair of the first `800 t` rows is the
    pair of the first `800 (t + 1)` rows. -/
theorem rows_step (c : Dev nD) (t : Fin cfg1.N) (b : S1024.Idx) :
    Val.foldN (blkCol (iblkT m c t) (b 0)) (Val.tcPairN (F := F) (XT m c) (t.val * 800) b) 800
      = Val.tcPairN (F := F) (XT m c) ((t.val + 1) * 800) b := by
  unfold Val.tcPairN
  rw [show (t.val + 1) * 800 = t.val * 800 + 800 from by ring, foldN_add]
  exact foldN_congr _ _ _ 800 fun r hr => blkCol_iblkT m c t (b 0) r hr

/-! ## What the body finds and leaves at each point -/

theorem afterT_0 (c : Dev nD) (t : Fin cfg1.N) : (datTopk m c).after 0 t = iblkT m c t := by dsimp only [datTopk]
theorem afterT_1 (c : Dev nD) (t : Fin cfg1.N) :
    (datTopk m c).after 1 t = fun b => (Val.tcPairN (F := F) (XT m c) ((t.val + 1) * 800) b).1 := by dsimp only [datTopk]; rfl
theorem afterT_2 (c : Dev nD) (t : Fin cfg1.N) :
    (datTopk m c).after 2 t = fun b => (Val.tcPairN (F := F) (XT m c) ((t.val + 1) * 800) b).2 := by dsimp only [datTopk]; rfl

/-- The block's buffer, fetched at every point, holds the block. -/
theorem beforeT_0 (c : Dev nD) (t : Fin cfg1.N) (d) : (datTopk m c).before 0 t d = iblkT m c t := by
  rw [Dat.before_fetched _ 0 t (fetch1_0 t)]
  unfold Dat.fetched Dat.blockOf iblkT
  dsimp only [datTopk]
  funext j
  have hm : (win1 0).moved (grid1.coords t) j = true := ((win1 0).moved_iff _ j).mpr fun a => (j a).isLt
  unfold Window.fill; rw [dif_pos hm]

/-- After the first point a result's buffer, not written back between, holds what the body left at the point before. -/
theorem beforeT_1 (c : Dev nD) (t : Fin cfg1.N) (h0 : t.val ≠ 0) (d) :
    (datTopk m c).before 1 t d = fun b => (Val.tcPairN (F := F) (XT m c) (t.val * 800) b).1 := by
  have hN : t.val < 47 := lt_of_lt_of_eq t.isLt (show cfg1.N = 47 from N_1)
  rw [Dat.before_out_kept _ 1 rfl t h0 (Bool.eq_false_iff.mpr fun h => by have := (flush1_1 _).mp h; dsimp only at this; omega)
    (fun _ => rfl) (fun _ _ => rfl)]
  dsimp only [datTopk]
  rw [show t.val - 1 + 1 = t.val from by omega]
  rfl
theorem beforeT_2 (c : Dev nD) (t : Fin cfg1.N) (h0 : t.val ≠ 0) (d) :
    (datTopk m c).before 2 t d = fun b => (Val.tcPairN (F := F) (XT m c) (t.val * 800) b).2 := by
  have hN : t.val < 47 := lt_of_lt_of_eq t.isLt (show cfg1.N = 47 from N_1)
  rw [Dat.before_out_kept _ 2 rfl t h0 (Bool.eq_false_iff.mpr fun h => by have := (flush1_2 _).mp h; dsimp only at this; omega)
    (fun _ => rfl) (fun _ _ => rfl)]
  dsimp only [datTopk]
  rw [show t.val - 1 + 1 = t.val from by omega]
  rfl

/-! ## The body obligation -/

/-- Each window's current staging memref at point `t`, as the pipeline passes it, and its wholeness. -/
abbrev msT_0 (t : Fin cfg1.N) : Memref sig .tc .vmem S800x1024 .f32 := win1_0.stage (cfg1.slots t 0)
abbrev hsT_0 (t : Fin cfg1.N) : (msT_0 t).IsWhole := hstage1_0 ((cfg1.slots t 0).cast nbuf1_0)
abbrev msT_1 (t : Fin cfg1.N) : Memref sig .tc .vmem S1024 .f32 := win1_1.stage (cfg1.slots t 1)
abbrev hsT_1 (t : Fin cfg1.N) : (msT_1 t).IsWhole := hstage1_1 ((cfg1.slots t 1).cast nbuf1_1)
abbrev msT_2 (t : Fin cfg1.N) : Memref sig .tc .vmem S1024 .f32 := win1_2.stage (cfg1.slots t 2)
abbrev hsT_2 (t : Fin cfg1.N) : (msT_2 t).IsWhole := hstage1_2 ((cfg1.slots t 2).cast nbuf1_2)

/-- What the body is called with at point `t` (the body obligation's precondition, the windows one by one), -/
def bodyPreT (c : Dev nD) (t : Fin cfg1.N) : sProp 𝕄 :=
  iprop((datTopk m c).Φ t.castSucc ∗ (datTopk m c).owesAt none t.castSucc
    ∗ (∃ d, owns (c : Thread nD τ) (msT_0 t) fullShare ((datTopk m c).before 0 t d))
    ∗ (∃ d, owns (c : Thread nD τ) (msT_1 t) fullShare ((datTopk m c).before 1 t d))
    ∗ (∃ d, owns (c : Thread nD τ) (msT_2 t) fullShare ((datTopk m c).before 2 t d)))

/-- and what it returns. -/
def bodyPostT (c : Dev nD) (t : Fin cfg1.N) : sProp 𝕄 :=
  iprop((datTopk m c).Φ t.succ ∗ (datTopk m c).owesAt none t.succ
    ∗ owns (c : Thread nD τ) (msT_0 t) fullShare ((datTopk m c).after 0 t)
    ∗ owns (c : Thread nD τ) (msT_1 t) fullShare ((datTopk m c).after 1 t)
    ∗ owns (c : Thread nD τ) (msT_2 t) fullShare ((datTopk m c).after 2 t))

set_option maxHeartbeats 1600000 in
/-- The body at any point: the block's memref holds the block; the closed form says which case the point is in; at a
    later point a result's memref holds what the point before left; the run applies, and what it leaves is the pair of
    the rows so far (`rows_step`); the invariant passes through unread; nothing is owed throughout. -/
theorem sound_bodyT (c : Dev nD) (t : Fin cfg1.N) :
    bodyPreT m c t ⊢ wp frame (wpE (defs₀ (F := F)) Variants.none c none) Set.univ (bodyAt1 t) (fun _ => bodyPostT m c t) := by
  unfold bodyPreT bodyPostT bodyAt1
  simp only [beforeT_0]
  rw [show (datTopk m c).Φ t.succ = (datTopk m c).Φ t.castSucc from rfl,
    show (datTopk m c).owesAt none t.succ = (datTopk m c).owesAt none t.castSucc from rfl,
    afterT_0, afterT_1, afterT_2]
  by_cases h0 : t.val = 0
  · iintro ⟨HΦ, Ho, ⟨%d0, H0⟩, ⟨%d1, H1⟩, ⟨%d2, H2⟩⟩
    iapply ((topkRunA c (grid1.coords t) _ (hsT_0 t) _ (hsT_1 t) _ (hsT_2 t) ((hcondT t).mpr h0) (iblkT m c t)).2 _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    have hv := topkRunA_val (F := F) c (grid1.coords t) _ (hsT_0 t) _ (hsT_1 t) _ (hsT_2 t) ((hcondT t).mpr h0) (iblkT m c t)
    have hcv := fun y => topkRunA_cover (F := F) c (grid1.coords t) _ (hsT_0 t) _ (hsT_1 t) _ (hsT_2 t) ((hcondT t).mpr h0) (iblkT m c t) y
    isplitl [H1]
    · unfold owns; iexists _; isplitr
      swap; · iexact H1
      ipureintro
      rw [View.read_writes_eq_canon _ _ _ (fun y => (hcv y).1), hv.1]
      funext b
      show (Val.foldN (blkCol (iblkT m c t) (b 0)) (Val.ninf, Val.ninf) 800).1 = _
      rw [← rows_step m c t b, h0]; rfl
    · unfold owns; iexists _; isplitr
      swap; · iexact H2
      ipureintro
      rw [View.read_writes_eq_canon _ _ _ (fun y => (hcv y).2), hv.2]
      funext b
      show (Val.foldN (blkCol (iblkT m c t) (b 0)) (Val.ninf, Val.ninf) 800).2 = _
      rw [← rows_step m c t b, h0]; rfl
  · simp only [beforeT_1 m c t h0, beforeT_2 m c t h0]
    iintro ⟨HΦ, Ho, ⟨%d0, H0⟩, ⟨%d1, H1⟩, ⟨%d2, H2⟩⟩
    iapply ((topkRunB c (grid1.coords t) _ (hsT_0 t) _ (hsT_1 t) _ (hsT_2 t) (fun h => h0 ((hcondT t).mp h)) (iblkT m c t)
      (fun b => (Val.tcPairN (F := F) (XT m c) (t.val * 800) b).1) (fun b => (Val.tcPairN (F := F) (XT m c) (t.val * 800) b).2)).2 _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    have hv := topkRunB_val (F := F) c (grid1.coords t) _ (hsT_0 t) _ (hsT_1 t) _ (hsT_2 t) (fun h => h0 ((hcondT t).mp h)) (iblkT m c t)
      (fun b => (Val.tcPairN (F := F) (XT m c) (t.val * 800) b).1) (fun b => (Val.tcPairN (F := F) (XT m c) (t.val * 800) b).2)
    have hcv := fun y => topkRunB_cover (F := F) c (grid1.coords t) _ (hsT_0 t) _ (hsT_1 t) _ (hsT_2 t) (fun h => h0 ((hcondT t).mp h)) (iblkT m c t)
      (fun b => (Val.tcPairN (F := F) (XT m c) (t.val * 800) b).1) (fun b => (Val.tcPairN (F := F) (XT m c) (t.val * 800) b).2) y
    isplitl [H1]
    · unfold owns; iexists _; isplitr
      swap; · iexact H1
      ipureintro
      rw [View.read_writes_eq_canon _ _ _ (fun y => (hcv y).1), hv.1]
      funext b
      show (Val.foldN (blkCol (iblkT m c t) (b 0)) (Val.tcPairN (F := F) (XT m c) (t.val * 800) b) 800).1 = _
      rw [rows_step]
    · unfold owns; iexists _; isplitr
      swap; · iexact H2
      ipureintro
      rw [View.read_writes_eq_canon _ _ _ (fun y => (hcv y).2), hv.2]
      funext b
      show (Val.foldN (blkCol (iblkT m c t) (b 0)) (Val.tcPairN (F := F) (XT m c) (t.val * 800) b) 800).2 = _
      rw [rows_step]

/-- The library's body obligation, at every point. -/
theorem body_obligationT (c : Dev nD) :
    BodyObligation (datTopk (F := F) m c) (defs₀ (F := F)) Variants.none (none : HIx 1) Set.univ := fun t => by
  rw [bigSep_W1, bigSep_W1]
  exact sound_bodyT m c t

/-! ## The region's record -/

omit [FloatOps F] in
theorem bigSep_Fin0T (Φ : Fin 0 → sProp 𝕄) : bigSep Finset.univ Φ = (BI.emp : sProp 𝕄) := bigSep_univ_eq_bigSepL [] (by decide) (by decide) Φ

/-- The region's arrays at contents `Fa`, array by array. -/
theorem arraysT_eq (C : (d : Dev nD) → Buf (Elt F) (clsLoc d)) (c : Dev nD) (Fa) :
    ((pdats (F := F) m C 0 c).arrays Fa : sProp 𝕄)
      = iprop((xtLoc c ↦{fullShare} Fa 0) ∗ (t1Loc c ↦{fullShare} Fa 1) ∗ (t2Loc c ↦{fullShare} Fa 2)) := by
  rw [Pipeline.arrays_eq (Pipeline.pin (pcfgs (F := F)) adm) (pdats m C) 0 c launch1.arr_whole ((pdats m C 0 c).share_full fun _ => rfl) Fa, bigSep_W1]
  rfl

theorem prefHeldT (c : Dev nD) (q) (pf) :
    (Pipeline.prefHeld (Ix := HIx 1) (Name := ℕ) (U := UU) (Lvl := ℕ) (Val := Elt F) (pcfgs (F := F) 0).pre c q pf : sProp 𝕄) = BI.emp :=
  bigSep_Fin0T _

/-- The region's configuration as the regions kit reads it is the printed one; so are its windows' specs, the scoped
    buffers it does not stage, and the invariant the proof data carries. -/
theorem spec_pin0 : (Pipeline.pin (pcfgs (F := F)) adm 0).spec = spec1 := rfl

theorem scopedRest_pin0 (c : Dev nD) :
    (Pipeline.scopedRest (Ix := HIx 1) (Name := ℕ) (U := UU) (Lvl := ℕ) (Val := Elt F) (Pipeline.pin (pcfgs (F := F)) adm 0).spec c : sProp 𝕄)
      = Pipeline.scopedRest (Ix := HIx 1) (Name := ℕ) (U := UU) (Lvl := ℕ) (Val := Elt F) spec1 c :=
  congrArg (fun s => (Pipeline.scopedRest (Ix := HIx 1) (Name := ℕ) (U := UU) (Lvl := ℕ) (Val := Elt F) s c : sProp 𝕄)) (spec_pin0 (F := F))

theorem ΦT_eq (C : (d : Dev nD) → Buf (Elt F) (clsLoc d)) (c : Dev nD) (t) :
    (pdats m C 0 c).Φ t = Pipeline.scopedRest (Ix := HIx 1) (Name := ℕ) (U := UU) (Lvl := ℕ) (Val := Elt F) spec1 c := rfl

/-- The last point. -/
def t1_46 : Fin cfg1.N := ⟨46, by rw [show cfg1.N = 47 from N_1]; decide⟩

/-- A result array after the one write-back, at the last point: the whole array is the block, and the block holds the pair
    of all 37600 rows. -/
theorem arrAtT_1 (c : Dev nD) : (datTopk (F := F) m c).arrAt 1 cfg1.N = T1 m c := by
  have hN : cfg1.N = 47 := N_1
  refine (datTopk m c).arrAt_eq_of_cover 1 (T1 m c) (fun t hf => ?_) fun i => ⟨t1_46, (flush1_1 _).mpr rfl, ?_⟩
  · have h46 : t.val = 46 := by have := (flush1_1 t).mp hf; have := t.isLt; omega
    show (cfg1.win 1).cut (grid1.coords t) ((datTopk m c).after 1 t) = _
    rw [afterT_1, h46]
    funext j
    rw [View.read_apply]
    refine Eq.symm ((cast_eq _ _).trans ?_)
    show (Val.tcPairN (F := F) (XT m c) 37600 _).1 = (Val.tcPairN (F := F) (XT m c) ((46 + 1) * 800) _).1
    refine congrArg (fun b => (Val.tcPairN (F := F) (XT m c) 37600 b).1) ?_
    funext a; apply Fin.ext
    rw [View.emb_slice, Function.Embedding.trans_apply]
    show (((win1 1).rect t).emb _ a : Nat) = _
    rw [Window.rect_emb_val]
    match a with
    | ⟨0, _⟩ => show (win1 1).index t 0 * 1024 + (j 0 : Nat) = (j 0 : Nat); rw [show (win1 1).index t 0 = 0 from rfl]; omega
  · show i ∈ ((View.whole main_v5_0).slice (win1_1.rect t1_46)).set
    rw [View.set_slice_whole, Rect.mem_set_unit]
    intro a
    have h0 : (i 0 : Nat) < 1024 := (i 0).isLt
    match a with
    | ⟨0, _⟩ =>
      show win1_1.index t1_46 0 * win1_1.size 0 ≤ (i 0 : Nat) ∧ (i 0 : Nat) < win1_1.index t1_46 0 * win1_1.size 0 + win1_1.xsize (grid1.coords t1_46) 0
      rw [show win1_1.index t1_46 0 * win1_1.size 0 = 0 from by decide +kernel, show win1_1.xsize (grid1.coords t1_46) 0 = 1024 from by decide +kernel]; omega

theorem arrAtT_2 (c : Dev nD) : (datTopk (F := F) m c).arrAt 2 cfg1.N = T2 m c := by
  have hN : cfg1.N = 47 := N_1
  refine (datTopk m c).arrAt_eq_of_cover 2 (T2 m c) (fun t hf => ?_) fun i => ⟨t1_46, (flush1_2 _).mpr rfl, ?_⟩
  · have h46 : t.val = 46 := by have := (flush1_2 t).mp hf; have := t.isLt; omega
    show (cfg1.win 2).cut (grid1.coords t) ((datTopk m c).after 2 t) = _
    rw [afterT_2, h46]
    funext j
    rw [View.read_apply]
    refine Eq.symm ((cast_eq _ _).trans ?_)
    show (Val.tcPairN (F := F) (XT m c) 37600 _).2 = (Val.tcPairN (F := F) (XT m c) ((46 + 1) * 800) _).2
    refine congrArg (fun b => (Val.tcPairN (F := F) (XT m c) 37600 b).2) ?_
    funext a; apply Fin.ext
    rw [View.emb_slice, Function.Embedding.trans_apply]
    show (((win1 2).rect t).emb _ a : Nat) = _
    rw [Window.rect_emb_val]
    match a with
    | ⟨0, _⟩ => show (win1 2).index t 0 * 1024 + (j 0 : Nat) = (j 0 : Nat); rw [show (win1 2).index t 0 = 0 from rfl]; omega
  · show i ∈ ((View.whole main_v5_1).slice (win1_2.rect t1_46)).set
    rw [View.set_slice_whole, Rect.mem_set_unit]
    intro a
    have h0 : (i 0 : Nat) < 1024 := (i 0).isLt
    match a with
    | ⟨0, _⟩ =>
      show win1_2.index t1_46 0 * win1_2.size 0 ≤ (i 0 : Nat) ∧ (i 0 : Nat) < win1_2.index t1_46 0 * win1_2.size 0 + win1_2.xsize (grid1.coords t1_46) 0
      rw [show win1_2.index t1_46 0 * win1_2.size 0 = 0 from by decide +kernel, show win1_2.xsize (grid1.coords t1_46) 0 = 1024 from by decide +kernel]; omega

/-- THE FIRST REGION: its three arrays into the pipeline, nothing beside; the TensorCore owes nothing throughout. -/
def segTopk (C : (d : Dev nD) → Buf (Elt F) (clsLoc d)) :
    Pipeline.RegionSeg (pcfgs (F := F)) adm (pdats m C) (none : HIx 1) defs₀ 𝒱₀ (K (F := F)).L (K (F := F)).lev (0 : Fin 2) where
  win := launch1.win.to₀
  block_pos := launch1.block_pos
  stage_whole := launch1.stage_whole
  K := PEmpty
  osem k := k.elim
  ho := Pipeline.OwnSemFacts.none _
  hbody c := (body_obligationT m c).loose
  hwaits c := (show (levAts (K (F := F)).L (K (F := F)).lev : sProp 𝕄) ⊢ BI.emp from by iintro -; iempintro).trans
    (Pipeline.cellsWaits_of_owed_zero (Pipeline.pin (pcfgs (F := F)) adm) (pdats m C) none 0 c fun _ => rfl)
  pre := preTopkN m
  post := postTopk m
  X _ := iprop(emp)
  Y _ := iprop(emp)
  Z _ := iprop(emp)
  hentry c := by
    rw [Pipeline.ownSems0_none, arraysT_eq, prefHeldT]
    unfold preTopkN
    iintro ⟨⟨HO, H0, H1, H2⟩, -, -⟩
    imodintro
    isplitl [H0 H1 H2]
    · isplitl [H0]; · iexact H0
      isplitl [H1]; · iexact H1
      iexact H2
    isplitr; · iempintro
    isplitl [HO]
    · iapply (owesAt_of_tcOw c (pdats m C 0 c) (fun _ => rfl) (fun _ => rfl) 0); iexact HO
    isplitr <;> iempintro
  hin c := by
    rw [scopedRest_pin0, ΦT_eq]
    iintro ⟨-, -, H⟩; iexact H
  hout c := by
    rw [Pipeline.ownSems0_none, scopedRest_pin0, ΦT_eq]
    iintro H
    isplitr; · iempintro
    isplitr; · iempintro
    iexact H
  hexit c := by
    rw [arraysT_eq]
    unfold postTopk
    have e0 : (pdats m C 0 c).arrAt 0 (Pipeline.pin (pcfgs (F := F)) adm 0).N = XT m c := (datTopk m c).arrAt_in 0 rfl _
    have e1 : (pdats m C 0 c).arrAt 1 (Pipeline.pin (pcfgs (F := F)) adm 0).N = T1 m c := arrAtT_1 m c
    have e2 : (pdats m C 0 c).arrAt 2 (Pipeline.pin (pcfgs (F := F)) adm 0).N = T2 m c := arrAtT_2 m c
    rw [e0, e1, e2]
    iintro ⟨⟨H0, H1, H2⟩, HO, -, -⟩
    imodintro
    isplitl [HO]
    · iapply (tcOw_of_owesAt c (pdats m C 0 c) (fun _ => rfl) (fun _ => rfl) (Fin.last _)); iexact HO
    isplitl [H0]; · iexact H0
    isplitl [H1]; · iexact H1
    iexact H2

end Cert.Proof.KernelIdeal

end
-- ==== Proof.Regions.lean ====
/-
  The two TensorCore kernel regions of @main as records of the regions kit, together: each is entered from its thread
  state (the results at the launch memory's contents) and left at the one after it.
-/
import proofs.«210259_g7730941132961_cont_sun_c4_476_29_alg».proof.Proof.RegionsComb
import proofs.«210259_g7730941132961_cont_sun_c4_476_29_alg».proof.Proof.RegionsTopk

noncomputable section

namespace Cert.Proof.KernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI

variable {F : FTy → Type}

variable (m : (ℓ : Loc nD τ sig) → Buf (Elt F) ℓ)

variable [FloatOps F]

theorem segTopk_pre (C : (d : Dev nD) → Buf (Elt F) (clsLoc d)) : (segTopk m C).pre = preTopkN m := rfl
theorem segTopk_post (C : (d : Dev nD) → Buf (Elt F) (clsLoc d)) : (segTopk m C).post = postTopk m := rfl
theorem segComb_pre (C : (d : Dev nD) → Buf (Elt F) (clsLoc d)) : (segComb m C).pre = fun d => preCombN m d (C d) := rfl
theorem segComb_post (C : (d : Dev nD) → Buf (Elt F) (clsLoc d)) : (segComb m C).post = fun d => postComb m d (C d) := rfl

end Cert.Proof.KernelIdeal

end
-- ==== Proof.Bits.Common.lean ====
/-
  What the parts of this certificate share: the program as the launch theorem of a SparseCore program sees it
  (one vector-subcore call on 2 x 16 tiles, then two TensorCore pipelines), the resource algebra (the handshakes'
  rounds, the pipelines' staging cells' rounds, the local transfers' counters), and the names of the arrays.
-/
import proofs.«210259_g7730941132961_cont_sun_c4_476_29_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«210259_g7730941132961_cont_sun_c4_476_29_alg».proof.Proof.Gen.Kernel
import proofs.«210259_g7730941132961_cont_sun_c4_476_29_alg».proof.Proof.Gen.Kernel.Skeleton
import proofs.«210259_g7730941132961_cont_sun_c4_476_29_alg».proof.Proof.Gen.Kernel.Launch
import proofs.«210259_g7730941132961_cont_sun_c4_476_29_alg».proof.Proof.Gen.Kernel.Points

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' label signature, lifted through the family of the two TensorCore pipelines. -/
abbrev ΛP : Labels := Pipeline.Sig Λ₀ (Fin 2) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
/-- The kernels' body table, lifted. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := UR sig nD τ
/-- Side by side with the local transfers' counters. -/
abbrev UU : Type := UH × (UP × Counters)

/-- The handshakes' copy: the left factor. -/
abbrev EH : Emb UH (MT nD τ sig (HIx 1) (Elt F) ℕ UU ℕ) := embL
/-- The pipelines' copy: the left factor of the right factor. -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.Kernel

end
-- ==== Proof.Bits.Pay.lean ====
/-
  What the handshakes of the one SparseCore call carry. The TensorCore hands each tile two read shares of the
  whole transposed input (one per transfer that may be reading it at a time) and the tile's own 128 entries of
  the two 4096-vectors; the tile hands them back with its entries at the pairs of its row group and columns.
-/
import proofs.«210259_g7730941132961_cont_sun_c4_476_29_alg».proof.Proof.Bits.Common
import proofs.«210259_g7730941132961_cont_sun_c4_476_29_alg».proof.Proof.Val

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable (m : (ℓ : Loc nD τ sig) → Buf (Elt F) ℓ) (ρ : Dev nD → PrngReg)

/-- The input, its transpose, the two 4096-vectors, as locations of device `d`. -/
abbrev inLoc (d : Dev nD) : Loc nD τ sig := (SparseCore.T d).loc main_arg0
abbrev tgLoc (d : Dev nD) : Loc nD τ sig := (SparseCore.T d).loc main_arg1
abbrev xtLoc (d : Dev nD) : Loc nD τ sig := (SparseCore.T d).loc main_v0
abbrev m1Loc (d : Dev nD) : Loc nD τ sig := (SparseCore.T d).loc main_v4_0
abbrev m2Loc (d : Dev nD) : Loc nD τ sig := (SparseCore.T d).loc main_v4_1

variable [FloatOps F]

/-- The transposed input: what the first host operation writes. -/
def XT (d : Dev nD) : Buf (Elt F) (xtLoc d) :=
  (transpose S100000x1024 [1, 0] (m (inLoc d)) transposes_S1024x100000_S100000x1024_1_0 : FVec F S100000x1024 .f32)

/-- What the tiles leave in the two 4096-vectors. -/
def R1 (d : Dev nD) : Buf (Elt F) (m1Loc d) := (Val.scM1 (F := F) (XT m d) : FVec F S4096 .f32)
def R2 (d : Dev nD) : Buf (Elt F) (m2Loc d) := (Val.scM2 (F := F) (XT m d) : FVec F S4096 .f32)

/-- Tile `(c, i)`'s number: the kernel's `wid = s * 2 + c`. -/
def wid (c : Fin 2) (i : Fin 16) : Fin 32 := ⟨i.val * 2 + c.val, by omega⟩

theorem hdiv32 : 32 ∣ S4096.size 0 := ⟨128, rfl⟩
/-- Tile `w`'s 128 entries of a 4096-vector. -/
abbrev pc (w : Fin 32) : Rect S4096 := Rect.part (s := S4096) (a₀ := 0) hdiv32 w
abbrev pcSet (w : Fin 32) : Finset S4096.Idx := ((Memref.whole main_v4_0_scv : Memref sig .scVector .hbm S4096 .f32).view.slice (pc w)).set

/-- The read shares of the transposed input: a share per SparseCore, of it a share per tile, of it the two read shares
    a tile holds, one per transfer of its two. -/
abbrev coreTok (c : Fin 2) : PosShare TreeShare := shareTok fullShare 2 c
abbrev tileTok (c : Fin 2) (i : Fin 16) : PosShare TreeShare := shareTok (coreTok c) 16 i
abbrev tokA (c : Fin 2) (i : Fin 16) : PosShare TreeShare := shareTok (tileTok c i) 2 0
abbrev tokB (c : Fin 2) (i : Fin 16) : PosShare TreeShare := shareTok (tileTok c i) 2 1

/-- What a tile is handed, -/
def goT (d : Dev nD) (c : Fin 2) (i : Fin 16) : sProp 𝕄 :=
  iprop((xtLoc d ↦{tokA c i} XT m d) ∗ (xtLoc d ↦{tokB c i} XT m d)
    ∗ (m1Loc d ↦[pcSet (wid c i)]{fullShare} m (m1Loc d)) ∗ (m2Loc d ↦[pcSet (wid c i)]{fullShare} m (m2Loc d)))
/-- and what it hands back. -/
def tdT (d : Dev nD) (c : Fin 2) (i : Fin 16) : sProp 𝕄 :=
  iprop((xtLoc d ↦{tokA c i} XT m d) ∗ (xtLoc d ↦{tokB c i} XT m d)
    ∗ (m1Loc d ↦[pcSet (wid c i)]{fullShare} R1 m d) ∗ (m2Loc d ↦[pcSet (wid c i)]{fullShare} R2 m d))

instance goT_storable (d : Dev nD) (c : Fin 2) (i : Fin 16) : BI.Storable (upEmb : UEmb _ 𝕄) (goT m d c i) := by unfold goT; infer_instance
instance tdT_storable (d : Dev nD) (c : Fin 2) (i : Fin 16) : BI.Storable (upEmb : UEmb _ 𝕄) (tdT m d c i) := by unfold tdT; infer_instance

/-- The one call's payloads: a SparseCore's are its sixteen tiles'; the kernel's proof consumes nothing of the launch's. -/
def P : (K (F := F)).Pay (nD := nD) (Val := Elt F) (Name := ℕ) (U := UU) where
  st := fun q d c => match q with | 0 => bigSep Finset.univ fun i : Fin ((K (F := F)).nSub 0) => goT m d (Fin.cast nCore_zero c) (Fin.cast nSub_zero i)
  dn := fun q d c => match q with | 0 => bigSep Finset.univ fun i : Fin ((K (F := F)).nSub 0) => tdT m d (Fin.cast nCore_zero c) (Fin.cast nSub_zero i)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands are its tiles', and its results theirs. -/
theorem vecSplit : (K (F := F)).VecSplit' (P m) 0 := by
  intro d c
  have h1 : (P m).st 0 d c = bigSep Finset.univ fun i : Fin ((K (F := F)).nSub 0) => (P m).go 0 d c i := rfl
  have h2 : (P m).dn 0 d c = bigSep Finset.univ fun i : Fin ((K (F := F)).nSub 0) => (P m).td 0 d c i := rfl
  rw [h1, h2]
  iintro H
  imodintro
  isplitl [H]
  · iexact H
  · iintro H; iexact H

end Cert.Proof.Kernel

end
-- ==== Proof.Bits.HostOps.lean ====
/-
  The host operations of @main before the SparseCore call, as one straight line: the transpose of the input, the
  gather of each row's target entry (with its index normalisation and bounds mask) and its reshape to a vector; and
  @main as that line followed by the call and the two TensorCore kernel regions.
-/
import proofs.«210259_g7730941132961_cont_sun_c4_476_29_alg».proof.Proof.Bits.Pay
import Idealize.ShloMosaic.Lib.Pipeline.Frame

noncomputable section

namespace Cert.Proof.Kernel

open Cert.Kernel Cert.Kernel.Gen

open Idealize.ShloMosaic
open Idealize.ShloMosaic.SparseCore (S V T)
open Idealize.SL Idealize.SL.Sem

variable {F : FTy → Type} [FloatOps F]

/-- The straight line. -/
def hostOps : List (HloOp τ sig (Elt F)) := [
  StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F)),
  StableHlo.unary main_arg1 main_v1 (broadcastInDim S1024x1 ![0] bcast_S1024_S1024x1_0 : (⟨S1024, .i32⟩ : BufTy).Contents (Elt F) → (⟨S1024x1, .i32⟩ : BufTy).Contents (Elt F)),
  StableHlo.TRef.nullary main_call0.c (constantI S_ 32 0#32),
  StableHlo.TRef.unary main_call0.c main_call0.v0 (broadcastInDim S1024x1 ![] bcast_S_S1024x1),
  StableHlo.TRef.binary (StableHlo.TRef.of main_v1) main_call0.v0 main_call0.v1 (cmpi .slt),
  StableHlo.TRef.nullary main_call0.c_0 (constantI S_ 32 100000#32),
  StableHlo.TRef.unary main_call0.c_0 main_call0.v2 (broadcastInDim S1024x1 ![] bcast_S_S1024x1),
  StableHlo.TRef.binary (StableHlo.TRef.of main_v1) main_call0.v2 main_call0.v3 addi,
  StableHlo.TRef.ternary main_call0.v1 main_call0.v3 (StableHlo.TRef.of main_v1) main_call0.v4 select,
  StableHlo.TRef.reshape main_call0.v4 main_call0.v5 rfl shapeCasts_S1024x1_S1024x1x1,
  StableHlo.TRef.nullary main_call0.c_1 (constantI S1 32 99999#32),
  StableHlo.TRef.nullary main_call0.c_2 (constantI S_ 32 0#32),
  StableHlo.TRef.unary main_call0.c_2 main_call0.v6 (broadcastInDim S1024x1x1 ![] bcast_S_S1024x1x1),
  StableHlo.TRef.binary main_call0.v5 main_call0.v6 main_call0.v7 (cmpi .sge),
  StableHlo.TRef.unary main_call0.c_1 main_call0.v8 (broadcastInDim S1x1x1 ![2] bcast_S1_S1x1x1_2),
  StableHlo.TRef.unary main_call0.v8 main_call0.v9 (broadcastInDim S1024x1x1 ![0, 1, 2] bcast_S1x1x1_S1024x1x1_0_1_2),
  StableHlo.TRef.binary main_call0.v5 main_call0.v9 main_call0.v10 (cmpi .sle),
  StableHlo.TRef.binary main_call0.v7 main_call0.v10 main_call0.v11 andi,
  StableHlo.TRef.nullary main_call0.c_3 (constantI S_ 1 1#1),
  StableHlo.TRef.binary main_call0.v11 main_call0.c_3 main_call0.v12 (fun x v => Host.reduce IntOp.andi x v reducesTo_S1024x1x1_S1024x1_d2 h_S_),
  StableHlo.TRef.binary (StableHlo.TRef.of main_arg0) main_call0.v5 main_call0.v13 (fun x i => Host.gather gather_S1024x100000_S1024x1x1_S1024x1_n_1_0_0_1_2_11 x i),
  StableHlo.TRef.nullary main_call0.cst (constant S_ .f32 0x7FC00000#32),
  StableHlo.TRef.unary main_call0.cst main_call0.v14 (broadcastInDim S1024x1 ![] bcast_S_S1024x1),
  StableHlo.TRef.ternary main_call0.v12 main_call0.v13 main_call0.v14 main_call0.v15 select,
  StableHlo.reshape main_v2 main_v3 rfl shapeCasts_S1024x1_S1024]

/-- What follows it: the SparseCore call, then the two kernel regions. -/
def tail (d : Dev nD) : Prog (TpuEff nD τ sig (Elt F) (SparseCore.Sig (Pipeline.Sig Λ₀ (Fin 2) fun p => (pcfgs (F := F) p).Adm) 1) .tc) PUnit :=
  sc.run d 0 >>= fun _ =>
    (Prog.lift (.customCall (SparseCore.inner (Pipeline.entry 0)) ()) >>= fun _ =>
      (Prog.lift (.customCall (SparseCore.inner (Pipeline.entry 1)) ()) >>= fun _ => pure ⟨⟩))

/-- @main is the line, then the rest. -/
theorem main_eq (d : Dev nD) : main (F := F) d = (StableHlo.seq hostOps >>= fun _ => tail d) := by
  chain_rfl

end Cert.Proof.Kernel

end
-- ==== Proof.Bits.TcStates.lean ====
/-
  The TensorCore's thread states around its two kernel regions, after the SparseCore call has returned:
  what it owes (nothing) with its recorded waits bounded, and the arrays the regions read and write at their contents.
-/
import proofs.«210259_g7730941132961_cont_sun_c4_476_29_alg».proof.Proof.Bits.Pay

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The first TensorCore kernel's two results, the gathered target entries, the final result, as locations of device `d`. -/
abbrev t1Loc (d : Dev nD) : Loc nD τ sig := (SparseCore.T d).loc main_v5_0
abbrev t2Loc (d : Dev nD) : Loc nD τ sig := (SparseCore.T d).loc main_v5_1
abbrev clsLoc (d : Dev nD) : Loc nD τ sig := (SparseCore.T d).loc main_v3
abbrev outLoc (d : Dev nD) : Loc nD τ sig := (SparseCore.T d).loc main_v6

variable [FloatOps F]

/-- What the first TensorCore kernel leaves in its two results: the pairs of the rows 62400 .. 99999. -/
def T1 (d : Dev nD) : Buf (Elt F) (t1Loc d) := (Val.tcM1 (F := F) (XT m d) : FVec F S1024 .f32)
def T2 (d : Dev nD) : Buf (Elt F) (t2Loc d) := (Val.tcM2 (F := F) (XT m d) : FVec F S1024 .f32)

/-- What the second leaves in the result, from the target entries `C`. -/
def OUT (d : Dev nD) (C : Buf (Elt F) (clsLoc d)) : Buf (Elt F) (outLoc d) :=
  (Val.out (F := F) (R1 m d : FVec F S4096 .f32) (R2 m d : FVec F S4096 .f32) (T1 m d : FVec F S1024 .f32) (T2 m d : FVec F S1024 .f32) (C : FVec F S1024 .f32) : FVec F S1024 .f32)

/-- After the SparseCore call the TensorCore owes nothing; its recorded waits sit at or below level 8. -/
def tcOw (d : Dev nD) : sProp 𝕄 := iprop(∃ W, ⌜(K (F := F)).WBelow (T d) W 8⌝ ∗ owes (T d) 0 W)

/-- Around the first region: the transposed input whole, the two results (at any contents before, at the pairs after). -/
def preTopk (d : Dev nD) : sProp 𝕄 :=
  iprop(tcOw d ∗ (xtLoc d ↦{fullShare} XT m d) ∗ (∃ f, t1Loc d ↦{fullShare} f) ∗ (∃ f, t2Loc d ↦{fullShare} f))
def postTopk (d : Dev nD) : sProp 𝕄 :=
  iprop(tcOw d ∗ (xtLoc d ↦{fullShare} XT m d) ∗ (t1Loc d ↦{fullShare} T1 m d) ∗ (t2Loc d ↦{fullShare} T2 m d))

/-- Around the second region: its five operands at their contents, the result (at any contents before, at `OUT` after). -/
def preComb (d : Dev nD) (C : Buf (Elt F) (clsLoc d)) : sProp 𝕄 :=
  iprop(tcOw d ∗ (m1Loc d ↦{fullShare} R1 m d) ∗ (m2Loc d ↦{fullShare} R2 m d) ∗ (t1Loc d ↦{fullShare} T1 m d) ∗ (t2Loc d ↦{fullShare} T2 m d)
    ∗ (clsLoc d ↦{fullShare} C) ∗ (∃ f, outLoc d ↦{fullShare} f))
def postComb (d : Dev nD) (C : Buf (Elt F) (clsLoc d)) : sProp 𝕄 :=
  iprop(tcOw d ∗ (m1Loc d ↦{fullShare} R1 m d) ∗ (m2Loc d ↦{fullShare} R2 m d) ∗ (t1Loc d ↦{fullShare} T1 m d) ∗ (t2Loc d ↦{fullShare} T2 m d)
    ∗ (clsLoc d ↦{fullShare} C) ∗ (outLoc d ↦{fullShare} OUT m d C))

end Cert.Proof.Kernel

end
-- ==== Proof.Bits.HostVal.lean ====
/-
  What the buffers hold after the host line: the transposed input is the transpose; the gathered target entries are
  whatever the line computes (named, not opened, here); every buffer the line does not write holds what it held.
-/
import proofs.«210259_g7730941132961_cont_sun_c4_476_29_alg».proof.Proof.Bits.HostOps
import proofs.«210259_g7730941132961_cont_sun_c4_476_29_alg».proof.Proof.Bits.TcStates

noncomputable section

namespace Cert.Proof.Kernel

open Cert.Kernel Cert.Kernel.Gen

open Idealize.ShloMosaic Idealize.ShloMosaic.StableHlo
open Idealize.ShloMosaic.SparseCore (S V T)
open Idealize.SL Idealize.SL.Sem

variable {F : FTy → Type} [FloatOps F]

variable (m : (ℓ : Loc nD τ sig) → Buf (Elt F) ℓ)

abbrev in' : DevRef τ sig := Proc.devRef .tc (main_arg0 : Ref sig .tc)
abbrev tg' : DevRef τ sig := Proc.devRef .tc (main_arg1 : Ref sig .tc)
abbrev xt' : DevRef τ sig := Proc.devRef .tc (main_v0 : Ref sig .tc)
abbrev cls' : DevRef τ sig := Proc.devRef .tc (main_v3 : Ref sig .tc)
abbrev m1' : DevRef τ sig := Proc.devRef .tc (main_v4_0 : Ref sig .tc)
abbrev m2' : DevRef τ sig := Proc.devRef .tc (main_v4_1 : Ref sig .tc)
abbrev t1' : DevRef τ sig := Proc.devRef .tc (main_v5_0 : Ref sig .tc)
abbrev t2' : DevRef τ sig := Proc.devRef .tc (main_v5_1 : Ref sig .tc)
abbrev out' : DevRef τ sig := Proc.devRef .tc (main_v6 : Ref sig .tc)

/-- The launch contents, and the contents after the host line. -/
def V0 (d : Dev nD) : Valuation τ sig (Elt F) := fun b => m (d, b)
def V1 (d : Dev nD) : Valuation τ sig (Elt F) := StableHlo.after (hostOps (F := F)) (V0 m d)

/-- The gathered target entries: what the host line leaves in its last buffer. -/
def CLS (d : Dev nD) : Buf (Elt F) (clsLoc d) := V1 m d cls'

theorem V1_in (d : Dev nD) : V1 m d in' = m (inLoc d) := by
  unfold V1 hostOps; after_results; rfl
theorem V1_tg (d : Dev nD) : V1 m d tg' = m (tgLoc d) := by
  unfold V1 hostOps; after_results; rfl
theorem V1_m1 (d : Dev nD) : V1 m d m1' = m (m1Loc d) := by
  unfold V1 hostOps; after_results; rfl
theorem V1_m2 (d : Dev nD) : V1 m d m2' = m (m2Loc d) := by
  unfold V1 hostOps; after_results; rfl
theorem V1_t1 (d : Dev nD) : V1 m d t1' = m (t1Loc d) := by
  unfold V1 hostOps; after_results; rfl
theorem V1_t2 (d : Dev nD) : V1 m d t2' = m (t2Loc d) := by
  unfold V1 hostOps; after_results; rfl
theorem V1_out (d : Dev nD) : V1 m d out' = m (outLoc d) := by
  unfold V1 hostOps; after_results; rfl

theorem V1_xt (d : Dev nD) : V1 m d xt' = XT m d := by
  unfold V1 hostOps XT
  after_results
  rfl

end Cert.Proof.Kernel

end
-- ==== Proof.Bits.Split.lean ====
/-
  How the TensorCore deals the arrays to the 32 tiles and gathers them back: the transposed input as nested read
  shares (a share per SparseCore, per tile, per transfer; the remainders stay with the TensorCore), each 4096-vector
  as its 32 runs of 128 entries, run `i * 2 + c` to tile `i` of SparseCore `c`.
-/
import proofs.«210259_g7730941132961_cont_sun_c4_476_29_alg».proof.Proof.Bits.Pay

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable (m : (ℓ : Loc nD τ sig) → Buf (Elt F) ℓ)

/-! ## The 32 runs of a 4096-vector -/

theorem pcSet_eq (w : Fin 32) : pcSet w = (pc w).set := by
  show ((View.whole (main_v4_0_scv : Ref sig .scVector)).slice (pc w)).set = _
  rw [View.set_slice]; exact Finset.map_refl
theorem pcs_disjoint : ∀ i ∈ (Finset.univ : Finset (Fin 32)), ∀ j ∈ (Finset.univ : Finset (Fin 32)), i ≠ j → Disjoint (pcSet i) (pcSet j) :=
  fun i _ j _ h => by rw [pcSet_eq, pcSet_eq]; exact Rect.part_disjoint hdiv32 h
theorem pcs_cover : (Finset.univ : Finset (Fin 32)).biUnion pcSet = Finset.univ :=
  (Finset.biUnion_congr rfl fun i _ => pcSet_eq i).trans (Rect.biUnion_part hdiv32)

theorem m1_pieces (d : Dev nD) (f : Buf (Elt F) (m1Loc d)) :
    (m1Loc d ↦{fullShare} f : sProp 𝕄) = bigSep Finset.univ fun w : Fin 32 => m1Loc d ↦[pcSet w]{fullShare} f := by
  rw [← pointsTo_biUnion Finset.univ (ℓ := m1Loc d) pcSet pcs_disjoint, pcs_cover]; try rfl
theorem m2_pieces (d : Dev nD) (f : Buf (Elt F) (m2Loc d)) :
    (m2Loc d ↦{fullShare} f : sProp 𝕄) = bigSep Finset.univ fun w : Fin 32 => m2Loc d ↦[pcSet w]{fullShare} f := by
  rw [← pointsTo_biUnion Finset.univ (ℓ := m2Loc d) pcSet pcs_disjoint, pcs_cover]; try rfl

/-- Run `w` is tile `(w % 2, w / 2)`'s. -/
def widE : Fin 2 × Fin 16 ↪ Fin 32 := ⟨fun ci => wid ci.1 ci.2, by
  rintro ⟨c, i⟩ ⟨c', i'⟩ h
  have h' : i.val * 2 + c.val = i'.val * 2 + c'.val := congrArg Fin.val h
  have hc := c.isLt; have hc' := c'.isLt
  refine Prod.ext (Fin.ext ?_) (Fin.ext ?_) <;> simp only <;> omega⟩

theorem widE_univ : (Finset.univ : Finset (Fin 2 × Fin 16)).map widE = Finset.univ := by decide

theorem bigSep_wid (Φ : Fin 32 → sProp 𝕄) :
    bigSep Finset.univ Φ = bigSep Finset.univ fun c : Fin 2 => bigSep Finset.univ fun i : Fin 16 => Φ (wid c i) := by
  rw [← widE_univ, bigSep_map, bigSep_univ_prod]; rfl

/-! ## The read shares of the transposed input -/

variable [FloatOps F]

theorem fin2_sep (Φ : Fin 2 → sProp 𝕄) : bigSep Finset.univ Φ = iprop(Φ 0 ∗ Φ 1) := by
  rw [show (Finset.univ : Finset (Fin 2)) = {0, 1} by decide, bigSep_insert (by decide), bigSep_singleton]; rfl

/-- A tile's share is its two read shares and a remainder. -/
theorem tile_split (d : Dev nD) (c : Fin 2) (i : Fin 16) :
    (xtLoc d ↦{tileTok c i} XT m d : sProp 𝕄)
      ⊣⊢ iprop((xtLoc d ↦{shareDrop (tileTok c i) 2} XT m d) ∗ ((xtLoc d ↦{tokA c i} XT m d) ∗ (xtLoc d ↦{tokB c i} XT m d))) := by
  have h : (xtLoc d ↦{tileTok c i} XT m d : sProp 𝕄)
      ⊣⊢ iprop((xtLoc d ↦{shareDrop (tileTok c i) 2} XT m d) ∗ bigSep Finset.univ (fun j : Fin 2 => xtLoc d ↦{shareTok (tileTok c i) 2 j} XT m d)) :=
    pointsTo_toks (tileTok c i) 2
  rw [fin2_sep] at h
  exact h

/-- The families the split is made of. -/
abbrev R0 (d : Dev nD) : sProp 𝕄 := xtLoc d ↦{shareDrop fullShare 2} XT m d
abbrev RC (d : Dev nD) : sProp 𝕄 := bigSep Finset.univ fun c : Fin 2 => xtLoc d ↦{shareDrop (coreTok c) 16} XT m d
abbrev RT (d : Dev nD) : sProp 𝕄 := bigSep Finset.univ fun c : Fin 2 => bigSep Finset.univ fun i : Fin 16 => xtLoc d ↦{shareDrop (tileTok c i) 2} XT m d
abbrev AA (d : Dev nD) : sProp 𝕄 := bigSep Finset.univ fun c : Fin 2 => bigSep Finset.univ fun i : Fin 16 => xtLoc d ↦{tokA c i} XT m d
abbrev BB (d : Dev nD) : sProp 𝕄 := bigSep Finset.univ fun c : Fin 2 => bigSep Finset.univ fun i : Fin 16 => xtLoc d ↦{tokB c i} XT m d
abbrev PP1 (d : Dev nD) (f : Buf (Elt F) (m1Loc d)) : sProp 𝕄 := bigSep Finset.univ fun c : Fin 2 => bigSep Finset.univ fun i : Fin 16 => m1Loc d ↦[pcSet (wid c i)]{fullShare} f
abbrev PP2 (d : Dev nD) (f : Buf (Elt F) (m2Loc d)) : sProp 𝕄 := bigSep Finset.univ fun c : Fin 2 => bigSep Finset.univ fun i : Fin 16 => m2Loc d ↦[pcSet (wid c i)]{fullShare} f

/-- The whole transposed input is the remainders and every tile's two read shares. -/
theorem xt_split (d : Dev nD) :
    (xtLoc d ↦{fullShare} XT m d : sProp 𝕄) = iprop(R0 m d ∗ (RC m d ∗ (RT m d ∗ (AA m d ∗ BB m d)))) := by
  have top : (xtLoc d ↦{fullShare} XT m d : sProp 𝕄)
      ⊣⊢ iprop((xtLoc d ↦{shareDrop fullShare 2} XT m d) ∗ bigSep Finset.univ (fun c : Fin 2 => xtLoc d ↦{coreTok c} XT m d)) :=
    pointsTo_toks fullShare 2
  have core (c : Fin 2) : (xtLoc d ↦{coreTok c} XT m d : sProp 𝕄)
      ⊣⊢ iprop((xtLoc d ↦{shareDrop (coreTok c) 16} XT m d) ∗ bigSep Finset.univ (fun i : Fin 16 => xtLoc d ↦{tileTok c i} XT m d)) :=
    pointsTo_toks (coreTok c) 16
  rw [BI.equiv_iff.mp ⟨top.1, top.2⟩,
    bigSep_congr fun c _ => BI.equiv_iff.mp ⟨(core c).1, (core c).2⟩,
    bigSep_congr fun c _ => congrArg _ (bigSep_congr fun i _ => BI.equiv_iff.mp ⟨(tile_split m d c i).1, (tile_split m d c i).2⟩)]
  simp only [bigSep_sep']

theorem m1_tiles (d : Dev nD) (f : Buf (Elt F) (m1Loc d)) : (m1Loc d ↦{fullShare} f : sProp 𝕄) = PP1 d f := by
  rw [m1_pieces, bigSep_wid]
theorem m2_tiles (d : Dev nD) (f : Buf (Elt F) (m2Loc d)) : (m2Loc d ↦{fullShare} f : sProp 𝕄) = PP2 d f := by
  rw [m2_pieces, bigSep_wid]

/-- Every SparseCore's operands, -/
theorem st_all (d : Dev nD) : (bigSep Finset.univ fun c : Fin ((K (F := F)).nCore 0) => (P m).st 0 d c)
    = iprop(AA m d ∗ (BB m d ∗ (PP1 d (m (m1Loc d)) ∗ PP2 d (m (m2Loc d))))) := by
  have h : (bigSep Finset.univ fun c : Fin ((K (F := F)).nCore 0) => (P m).st 0 d c)
      = bigSep Finset.univ fun c : Fin 2 => bigSep Finset.univ fun i : Fin 16 => goT m d c i := rfl
  rw [h]; unfold goT; simp only [bigSep_sep']
/-- and results. -/
theorem dn_all (d : Dev nD) : (bigSep Finset.univ fun c : Fin ((K (F := F)).nCore 0) => (P m).dn 0 d c)
    = iprop(AA m d ∗ (BB m d ∗ (PP1 d (R1 m d) ∗ PP2 d (R2 m d)))) := by
  have h : (bigSep Finset.univ fun c : Fin ((K (F := F)).nCore 0) => (P m).dn 0 d c)
      = bigSep Finset.univ fun c : Fin 2 => bigSep Finset.univ fun i : Fin 16 => tdT m d c i := rfl
  rw [h]; unfold tdT; simp only [bigSep_sep']

/-- The remainders the TensorCore keeps across the call. -/
def xtRest (d : Dev nD) : sProp 𝕄 := iprop(R0 m d ∗ (RC m d ∗ RT m d))

/-- The deal: the three arrays whole are the remainders and every SparseCore's operands. -/
theorem st_intro (d : Dev nD) :
    iprop((xtLoc d ↦{fullShare} XT m d) ∗ (m1Loc d ↦{fullShare} m (m1Loc d)) ∗ (m2Loc d ↦{fullShare} m (m2Loc d)))
      ⊢ (iprop(xtRest m d ∗ bigSep Finset.univ fun c : Fin ((K (F := F)).nCore 0) => (P m).st 0 d c) : sProp 𝕄) := by
  rw [xt_split, m1_tiles, m2_tiles, st_all]; unfold xtRest
  iintro ⟨⟨H0, HC, HT, HA, HB⟩, H1, H2⟩
  isplitl [H0 HC HT]
  · isplitl [H0]; · iexact H0
    isplitl [HC]; · iexact HC
    iexact HT
  isplitl [HA]; · iexact HA
  isplitl [HB]; · iexact HB
  isplitl [H1]; · iexact H1
  iexact H2

/-- The gathering: the remainders and every SparseCore's results are the three arrays whole, the vectors at the pairs. -/
theorem dn_elim (d : Dev nD) :
    (iprop(xtRest m d ∗ bigSep Finset.univ fun c : Fin ((K (F := F)).nCore 0) => (P m).dn 0 d c) : sProp 𝕄)
      ⊢ iprop((xtLoc d ↦{fullShare} XT m d) ∗ (m1Loc d ↦{fullShare} R1 m d) ∗ (m2Loc d ↦{fullShare} R2 m d)) := by
  rw [xt_split, m1_tiles, m2_tiles, dn_all]; unfold xtRest
  iintro ⟨⟨H0, HC, HT⟩, HA, HB, H1, H2⟩
  isplitl [H0 HC HT HA HB]
  · isplitl [H0]; · iexact H0
    isplitl [HC]; · iexact HC
    isplitl [HT]; · iexact HT
    isplitl [HA]; · iexact HA
    iexact HB
  isplitl [H1]; · iexact H1
  iexact H2

end Cert.Proof.Kernel

end
-- ==== Proof.Bits.Ghost.lean ====
/-
  The launch element of the ghost state: the handshakes' rounds, the two pipelines' staging cells' rounds (dealt to each
  TensorCore as the ghost state its two regions allocate their cells' invariants from), and the transfers' counters.
-/
import proofs.«210259_g7730941132961_cont_sun_c4_476_29_alg».proof.Proof.Bits.Pay

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- Neither pipeline has prefetched tables. -/
abbrev adm : (p : Fin 2) → (pcfgs (F := F) p).Adm := fun p => (cfgs p).toPCfg_adm

/-- The pipelines' configurations, as the regions kit reads them. -/
abbrev pinned : Fin 2 → Pipeline.Cfg sig Λ₀ := Pipeline.pin (pcfgs (F := F)) adm

theorem pinned_inj : Function.Injective (Pipeline.cellOf (nD := nD) (τ := τ) (pinned (F := F))) := cellOf_inj

variable [FloatOps F]

/-- What the launch deals a TensorCore for its two regions: both pipelines' cells' ghost state and duty tokens. -/
def G (d : Dev nD) : sProp 𝕄 := Pipeline.ghostOn (pcfgs (F := F)) adm EP Finset.univ d

def u₀ : UU := (initOf (K (F := F)).hsCells (K (F := F)).hsToks,
  (initOf (Pipeline.cells (nD := nD) (τ := τ) (pinned (F := F)) pinned_inj) (Pipeline.launchToks (nD := nD) (τ := τ) (pinned (F := F)) pinned_inj), 1))

theorem bigSep_emp' {I : Type} (s : Finset I) : (bigSep s fun _ => iprop(emp)) = (iprop(emp) : sProp 𝕄) := bigSep_emp_const s

theorem own_EP (x : UP) :
    (BI.own (((Emb.inl : Emb UP (UP × Counters)).trans (embR : Emb (UP × Counters) (MT nD τ sig (HIx 1) (Elt F) ℕ UU ℕ))) x) : sProp 𝕄) ⊢ BI.own (EP (F := F) x) :=
  Entails.of_eq rfl

theorem hghost : iprop((bigSep Finset.univ fun c : Dev nD => bigSep Finset.univ fun p : Fin 2 => Pipeline.cellsGhost (pinned (F := F)) (EP (F := F)) p c)
      ∗ (bigSep Finset.univ fun c : Dev nD => bigSep Finset.univ fun p : Fin 2 => (Pipeline.toksInit (pinned (F := F)) (EP (F := F)) p c : sProp 𝕄)))
    ⊢ bigSep Finset.univ fun d : Dev nD => G (F := F) d := by
  rw [← bigSep_sep']
  exact bigSep_mono fun c _ => show iprop((bigSep Finset.univ fun p : Fin 2 => Pipeline.cellsGhost (pinned (F := F)) (EP (F := F)) p c)
        ∗ bigSep Finset.univ fun p : Fin 2 => (Pipeline.toksInit (pinned (F := F)) (EP (F := F)) p c : sProp 𝕄)) ⊢ G (F := F) c
    from Entails.of_eq (by unfold G Pipeline.ghostOn Pipeline.PerCore.ghostOn; rw [bigSep_sep'])

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP0, -⟩
  ihave HP := (own_EP _) $$ HP0
  imod (Pipeline.fund_ghost (pinned (F := F)) (EP (F := F)) pinned_inj) $$ HP with ⟨Hg, Ht⟩
  imodintro
  isplitl [HH]; · iexact HH
  isplitl [Hg Ht]
  · iapply (hghost (F := F))
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Kernel

end
-- ==== Proof.Bits.Launch1.lean ====
/-
  @main on the TensorCore, first part: the host line, then the SparseCore call — the transposed input dealt to the
  tiles as read shares, the two 4096-vectors as their 32 runs, and gathered back with the vectors at the pairs.
-/
import proofs.«210259_g7730941132961_cont_sun_c4_476_29_alg».proof.Proof.Bits.HostVal
import proofs.«210259_g7730941132961_cont_sun_c4_476_29_alg».proof.Proof.Bits.Split
import proofs.«210259_g7730941132961_cont_sun_c4_476_29_alg».proof.Proof.Bits.Ghost

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)

variable {F : FTy → Type}

local notation "𝕄" => MT nD τ sig (HIx 1) (Elt F) ℕ UU ℕ

variable (m : (ℓ : Loc nD τ sig) → Buf (Elt F) ℓ) (ρ : Dev nD → PrngReg)

variable [FloatOps F]

theorem hostOps_tc : (hostOps (F := F)).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub ..⟩

theorem hostOps_sub : ∀ op ∈ (hostOps (F := F)), op.bufs ⊆ ucRefs τ sig :=
  fun op h => sub_ucRefs op ((List.forall_iff_forall_mem.mp hostOps_tc) op h)

theorem hostOps_fresh : ∀ op ∈ (hostOps (F := F)), op.fresh = ∅ := by
  intro op h
  simp only [hostOps, List.mem_cons, List.mem_nil_iff, or_false] at h
  rcases h with (rfl | rfl | rfl | rfl | rfl | rfl | rfl | rfl | rfl | rfl | rfl | rfl | rfl | rfl | rfl | rfl | rfl | rfl | rfl | rfl | rfl | rfl | rfl | rfl | rfl) <;> rfl

/-- The nine arrays the rest of @main reads or writes. -/
abbrev S9 : Finset (DevRef τ sig) := {in', tg', xt', cls', m1', m2', t1', t2', out'}

theorem S9_sub : S9 ⊆ ucRefs τ sig := by decide

theorem held_S9 (d : Dev nD) (W : Valuation τ sig (Elt F)) :
    (held (T d) S9 W : sProp 𝕄) = iprop((inLoc d ↦{fullShare} W in') ∗ (tgLoc d ↦{fullShare} W tg') ∗ (xtLoc d ↦{fullShare} W xt')
      ∗ (clsLoc d ↦{fullShare} W cls') ∗ (m1Loc d ↦{fullShare} W m1') ∗ (m2Loc d ↦{fullShare} W m2') ∗ (t1Loc d ↦{fullShare} W t1')
      ∗ (t2Loc d ↦{fullShare} W t2') ∗ (outLoc d ↦{fullShare} W out')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The two kernel regions that follow the call, then the return. -/
def tail2 (d : Dev nD) : Prog (TpuEff nD τ sig (Elt F) (SparseCore.Sig (Pipeline.Sig Λ₀ (Fin 2) fun p => (pcfgs (F := F) p).Adm) 1) .tc) PUnit :=
  Prog.lift (.customCall (SparseCore.inner (Pipeline.entry 0)) ()) >>= fun _ =>
    (Prog.lift (.customCall (SparseCore.inner (Pipeline.entry 1)) ()) >>= fun _ => pure ⟨⟩)

theorem tail_eq (d : Dev nD) : tail (F := F) d = (sc.run d 0 >>= fun _ => tail2 d) := rfl

/-- What the TensorCore holds when the SparseCore call has returned: the boundary, the nine arrays — the transposed
    input, the gathered entries, the two 4096-vectors at the pairs, the rest at the launch contents. -/
def afterCall (d : Dev nD) : sProp 𝕄 :=
  iprop(boundary (T d) ∗ (inLoc d ↦{fullShare} m (inLoc d)) ∗ (tgLoc d ↦{fullShare} m (tgLoc d)) ∗ (xtLoc d ↦{fullShare} XT m d)
    ∗ (clsLoc d ↦{fullShare} CLS m d) ∗ (m1Loc d ↦{fullShare} R1 m d) ∗ (m2Loc d ↦{fullShare} R2 m d)
    ∗ (t1Loc d ↦{fullShare} m (t1Loc d)) ∗ (t2Loc d ↦{fullShare} m (t2Loc d)) ∗ (outLoc d ↦{fullShare} m (outLoc d)))

set_option backward.isDefEq.respectTransparency.types false in
/-- @main up to the return of the SparseCore call. -/
theorem hmain_call (κ : GSem nD τ sig → ℕ) (d : Dev nD) (Φ : PUnit → sProp 𝕄) :
    iprop((K (F := F)).ctx EH (P m) κ ∗ (K (F := F)).tcSt EH d 0 ∗ (K (F := F)).tcRes m ρ d
        ∗ (iprop((K (F := F)).tcSt EH d 1 ∗ afterCall m d) -∗ wp frame (wpE ((K (F := F)).defs (D (F := F))) 𝒱 (SparseCore.T d) none) Set.univ (tail2 d) Φ))
      ⊢ wp frame (wpE ((K (F := F)).defs (D (F := F))) 𝒱 (SparseCore.T d) none) Set.univ (main d) Φ := by
  unfold SparseCore.Cfg.tcRes
  rw [main_eq, show (unscopedBufs d (fun b => m ((SparseCore.T d).loc b)) : sProp 𝕄) = held (T d) (ucRefs τ sig) (V0 m d)
    from unscopedBufs_held d (V0 m d)]
  iintro ⟨#Hctx, Hst, ⟨Hb, Hheld, -, -⟩, Hk⟩
  iapply (StableHlo.wp_seq 𝒱 none Set.univ d (ucRefs τ sig) _ (hostOps (F := F)) hostOps_sub hostOps_fresh (V0 m d)) $$ [Hb Hheld]
  · isplitl [Hb]; · iexact Hb
    iexact Hheld
  iintro ⟨Hb, Hheld⟩
  ihave H2 := (Entails.of_eq (held_sub_split (d.tc : Thread nD τ) S9_sub (StableHlo.after (hostOps (F := F)) (V0 m d)))) $$ Hheld
  icases H2 with ⟨H9, -⟩
  ihave H9' := (show (held (d.tc : Thread nD τ) S9 (StableHlo.after (hostOps (F := F)) (V0 m d)) : sProp 𝕄)
      ⊢ iprop((inLoc d ↦{fullShare} V1 m d in') ∗ (tgLoc d ↦{fullShare} V1 m d tg') ∗ (xtLoc d ↦{fullShare} V1 m d xt')
      ∗ (clsLoc d ↦{fullShare} V1 m d cls') ∗ (m1Loc d ↦{fullShare} V1 m d m1') ∗ (m2Loc d ↦{fullShare} V1 m d m2') ∗ (t1Loc d ↦{fullShare} V1 m d t1')
      ∗ (t2Loc d ↦{fullShare} V1 m d t2') ∗ (outLoc d ↦{fullShare} V1 m d out')) from Entails.of_eq (held_S9 (F := F) d (V1 m d))) $$ H9
  icases H9' with ⟨Hin, Htg, Hxt, Hcls, Hm1, Hm2, Ht1, Ht2, Hout⟩
  rw [V1_in, V1_tg, V1_xt, V1_m1, V1_m2, V1_t1, V1_t2, V1_out, tail_eq, wp_bind]
  ihave Hsp := (st_intro m d) $$ [Hxt Hm1 Hm2]
  · isplitl [Hxt]; · iexact Hxt
    isplitl [Hm1]; · iexact Hm1
    iexact Hm2
  icases Hsp with ⟨Hrest, Hst0⟩
  iapply ((K (F := F)).wp_run (D (F := F)) 𝒱 (EH := EH) (P := P m) κ d 0) $$ [Hst Hst0 Hrest Hb Hin Htg Hcls Ht1 Ht2 Hout Hk]
  isplitr; · iexact Hctx
  isplitl [Hst]; · iexact Hst
  isplitl [Hst0]; · iexact Hst0
  iintro ⟨Hst, Hdn⟩
  ihave Hj := (dn_elim m d) $$ [Hrest Hdn]
  · isplitl [Hrest]; · iexact Hrest
    iexact Hdn
  icases Hj with ⟨Hxt, Hm1, Hm2⟩
  iapply Hk
  isplitl [Hst]; · iexact Hst
  unfold afterCall CLS
  isplitl [Hb]; · iexact Hb
  isplitl [Hin]; · iexact Hin
  isplitl [Htg]; · iexact Htg
  isplitl [Hxt]; · iexact Hxt
  isplitl [Hcls]; · iexact Hcls
  isplitl [Hm1]; · iexact Hm1
  isplitl [Hm2]; · iexact Hm2
  isplitl [Ht1]; · iexact Ht1
  isplitl [Ht2]; · iexact Ht2
  iexact Hout

end Cert.Proof.Kernel

end
-- ==== Proof.Bits.Launch2.lean ====
/-
  @main on the TensorCore, second part: the two kernel regions entered through the regions kit from what the
  SparseCore call left, and what @main leaves for the claim to read: the two arguments unchanged, the result at the
  target entries minus the larger of the others.
-/
import proofs.«210259_g7730941132961_cont_sun_c4_476_29_alg».proof.Proof.Bits.Launch1
import proofs.«210259_g7730941132961_cont_sun_c4_476_29_alg».proof.Proof.Bits.TcStates

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The rest of the TensorCore's handshake state after the call. -/
def tcStRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (d : Dev nD) : ((K (F := F)).tcSt EH d 1 : sProp 𝕄) = iprop(tcOw d ∗ tcStRest d) := by
  unfold SparseCore.Cfg.tcSt tcOw tcStRest
  rw [(K (F := F)).Otc_end d (le_refl 1)]

/-- The states the two regions are entered from. -/
def preTopkM (d : Dev nD) : sProp 𝕄 :=
  iprop(tcOw d ∗ (xtLoc d ↦{fullShare} XT m d) ∗ (t1Loc d ↦{fullShare} m (t1Loc d)) ∗ (t2Loc d ↦{fullShare} m (t2Loc d)))
def preCombM (d : Dev nD) (C : Buf (Elt F) (clsLoc d)) : sProp 𝕄 :=
  iprop(tcOw d ∗ (m1Loc d ↦{fullShare} R1 m d) ∗ (m2Loc d ↦{fullShare} R2 m d) ∗ (t1Loc d ↦{fullShare} T1 m d) ∗ (t2Loc d ↦{fullShare} T2 m d)
    ∗ (clsLoc d ↦{fullShare} C) ∗ (outLoc d ↦{fullShare} m (outLoc d)))

/-- What @main leaves the claim. -/
def FIN (d : Dev nD) : sProp 𝕄 :=
  iprop((inLoc d ↦{fullShare} m (inLoc d)) ∗ (tgLoc d ↦{fullShare} m (tgLoc d)) ∗ (outLoc d ↦{fullShare} OUT m d (CLS m d)))

/-- The two regions and the return, in the kernels' own label signature. -/
def tail2D : Prog (TpuEff nD τ sig (Elt F) (Pipeline.Sig Λ₀ (Fin 2) fun p => (pcfgs (F := F) p).Adm) .tc) PUnit :=
  .op (.customCall (Pipeline.entry 0) ()) fun _ => .op (.customCall (Pipeline.entry 1) ()) fun _ => .ret ⟨⟩

theorem tail2_lift (d : Dev nD) : tail2 (F := F) d = SparseCore.liftProg tail2D := rfl

theorem G_split (d : Dev nD) : (G (F := F) d : sProp 𝕄)
    = iprop((Pipeline.cellsGhost (pinned (F := F)) (EP (F := F)) 0 d ∗ Pipeline.toksInit (pinned (F := F)) (EP (F := F)) 0 d)
      ∗ (Pipeline.cellsGhost (pinned (F := F)) (EP (F := F)) 1 d ∗ Pipeline.toksInit (pinned (F := F)) (EP (F := F)) 1 d)) := by
  unfold G Pipeline.ghostOn Pipeline.PerCore.ghostOn
  rw [fin2_sep]

section Tail

variable {pd : (p : Fin 2) → (c : Dev nD) → Pipeline.Dat τ (Elt F) (HIx 1) ℕ UU ℕ (Pipeline.pin (pcfgs (F := F)) adm p) c}
  (Rt : Pipeline.RegionSeg (pcfgs (F := F)) adm pd (none : HIx 1) (defs₀ (F := F)) 𝒱₀ (K (F := F)).L (K (F := F)).lev (0 : Fin 2))
  (Rc : Pipeline.RegionSeg (pcfgs (F := F)) adm pd (none : HIx 1) (defs₀ (F := F)) 𝒱₀ (K (F := F)).L (K (F := F)).lev (1 : Fin 2))
  (htpre : ∀ d, preTopkM m d ⊢ Rt.pre d) (htpost : ∀ d, Rt.post d ⊢ postTopk m d)
  (hcpre : ∀ d, preCombM m d (CLS m d) ⊢ Rc.pre d) (hcpost : ∀ d, Rc.post d ⊢ postComb m d (CLS m d))

set_option backward.isDefEq.respectTransparency.types false in
include htpre htpost hcpre hcpost in
/-- The two regions and the return, over the kernels' own body table. -/
theorem hmain_tailD (κ : GSem nD τ sig → ℕ) (d : Dev nD) :
    iprop((K (F := F)).ctx EH (P m) κ ∗ (tcOw d ∗ tcStRest d) ∗ afterCall m d
        ∗ ((Pipeline.cellsGhost (pinned (F := F)) (EP (F := F)) 0 d ∗ Pipeline.toksInit (pinned (F := F)) (EP (F := F)) 0 d)
          ∗ (Pipeline.cellsGhost (pinned (F := F)) (EP (F := F)) 1 d ∗ Pipeline.toksInit (pinned (F := F)) (EP (F := F)) 1 d)))
      ⊢ wp frame (wpE (D (F := F)) 𝒱 (SparseCore.T d) none) Set.univ (tail2D (F := F))
          fun _ => iprop((tcOw d ∗ tcStRest d) ∗ FIN m d) := by
  unfold afterCall tail2D
  iintro ⟨#Hctx, ⟨How, Hsr⟩, ⟨Hb, Hin, Htg, Hxt, Hcls, Hm1, Hm2, Ht1, Ht2, Hout⟩, ⟨Hg0, Hk0⟩, ⟨Hg1, Hk1⟩⟩
  ihave #Hlev := (SparseCore.Cfg.ctx_levAts κ) $$ Hctx
  iapply (Pipeline.RegionSeg.wp (pcfgs (F := F)) adm pd (none : HIx 1) pinned_inj (EP (F := F)) (defs₀ (F := F)) 𝒱₀ (K (F := F)).L (K (F := F)).lev Rt d none
    (fun u hu => nomatch hu) _ _) $$ [Hb How Hxt Ht1 Ht2 Hg0 Hk0 Hsr Hin Htg Hcls Hm1 Hm2 Hout Hg1 Hk1]
  isplitr [Hb How Hxt Ht1 Ht2 Hg0 Hk0]
  swap
  · isplitl [Hb]; · iexact Hb
    isplitl [How Hxt Ht1 Ht2]
    · iapply (htpre d); unfold preTopkM
      isplitl [How]; · iexact How
      isplitl [Hxt]; · iexact Hxt
      isplitl [Ht1]; · iexact Ht1
      iexact Ht2
    isplitr; · iexact Hlev
    isplitl [Hg0]; · iexact Hg0
    iexact Hk0
  iintro ⟨Hb, Hpost⟩
  ihave Hpost' := (htpost d) $$ Hpost
  unfold postTopk
  icases Hpost' with ⟨How, Hxt, Ht1, Ht2⟩
  iapply (Pipeline.RegionSeg.wp (pcfgs (F := F)) adm pd (none : HIx 1) pinned_inj (EP (F := F)) (defs₀ (F := F)) 𝒱₀ (K (F := F)).L (K (F := F)).lev Rc d none
    (fun u hu => nomatch hu) _ _) $$ [Hb How Ht1 Ht2 Hsr Hin Htg Hcls Hm1 Hm2 Hout Hg1 Hk1]
  isplitr [Hb How Ht1 Ht2 Hcls Hm1 Hm2 Hout Hg1 Hk1]
  swap
  · isplitl [Hb]; · iexact Hb
    isplitl [How Ht1 Ht2 Hcls Hm1 Hm2 Hout]
    · iapply (hcpre d); unfold preCombM
      isplitl [How]; · iexact How
      isplitl [Hm1]; · iexact Hm1
      isplitl [Hm2]; · iexact Hm2
      isplitl [Ht1]; · iexact Ht1
      isplitl [Ht2]; · iexact Ht2
      isplitl [Hcls]; · iexact Hcls
      iexact Hout
    isplitr; · iexact Hlev
    isplitl [Hg1]; · iexact Hg1
    iexact Hk1
  iintro ⟨Hb, Hpost⟩
  ihave Hpost' := (hcpost d) $$ Hpost
  unfold postComb
  icases Hpost' with ⟨How, Hm1, Hm2, Ht1, Ht2, Hcls, Hout⟩
  rw [wp_ret]; imodintro
  isplitl [How Hsr]
  · isplitl [How]; · iexact How
    iexact Hsr
  unfold FIN
  isplitl [Hin]; · iexact Hin
  isplitl [Htg]; · iexact Htg
  iexact Hout

include htpre htpost hcpre hcpost in
/-- @main from the return of the SparseCore call to its end. -/
theorem hmain_tail (κ : GSem nD τ sig → ℕ) (d : Dev nD) :
    iprop((K (F := F)).ctx EH (P m) κ ∗ (K (F := F)).tcSt EH d 1 ∗ afterCall m d ∗ G (F := F) d)
      ⊢ wp frame (wpE ((K (F := F)).defs (D (F := F))) 𝒱 (SparseCore.T d) none) Set.univ (tail2 d)
          fun _ => iprop((K (F := F)).tcSt EH d 1 ∗ FIN m d) := by
  rw [tail2_lift, tcSt_one, G_split]
  exact (hmain_tailD m Rt Rc htpre htpost hcpre hcpost κ d).trans
    ((K (F := F)).wp_liftProg (D (F := F)) 𝒱 (SparseCore.T d) Set.univ none tail2D _)

end Tail

end Cert.Proof.Kernel

end
-- ==== Proof.Bits.Run.lean ====
/-
  The program's run: the launch theorem of a SparseCore program at this certificate's payloads, the tile's task,
  @main's two parts and the launch element. Every weakly fair execution of the device's threads terminates, nothing
  faulting, and every final memory holds the result at the target entries minus the larger of the others, the two
  arguments unchanged.
-/
import proofs.«210259_g7730941132961_cont_sun_c4_476_29_alg».proof.Proof.Bits.Launch2

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the claim reads off a final memory on device `d`. -/
def fq (d : Dev nD) (s' : Phys nD τ sig (Elt F)) : Prop :=
  s'.mem.mem (outLoc d) = OUT m d (CLS m d) ∧ s'.mem.mem (inLoc d) = m (inLoc d) ∧ s'.mem.mem (tgLoc d) = m (tgLoc d)

theorem hfin (d : Dev nD) (s' : Phys nD τ sig (Elt F)) : iprop(FIN m d ∗ SI s') ⊢ (⌜fq m d s'⌝ : sProp 𝕄) := by
  unfold FIN
  iintro ⟨⟨Hin, Htg, Hout⟩, HSI⟩
  icombine HSI Hin gives %h1
  icombine HSI Htg gives %h2
  icombine HSI Hout gives %h3
  ipureintro
  exact ⟨funext fun i => h3 i (Finset.mem_univ i), funext fun i => h1 i (Finset.mem_univ i), funext fun i => h2 i (Finset.mem_univ i)⟩

/-- The post of the run. -/
def QC : PUnit × MemSt nD τ sig (Elt F) → Prop := fun r => ∀ c : Dev nD,
  r.2.mem (outLoc c) = OUT m c (CLS m c) ∧ r.2.mem (inLoc c) = m (inLoc c) ∧ r.2.mem (tgLoc c) = m (tgLoc c)

section Run

variable {pd : (p : Fin 2) → (c : Dev nD) → Pipeline.Dat τ (Elt F) (HIx 1) ℕ UU ℕ (Pipeline.pin (pcfgs (F := F)) adm p) c}
  (Rt : Pipeline.RegionSeg (pcfgs (F := F)) adm pd (none : HIx 1) (defs₀ (F := F)) 𝒱₀ (K (F := F)).L (K (F := F)).lev (0 : Fin 2))
  (Rc : Pipeline.RegionSeg (pcfgs (F := F)) adm pd (none : HIx 1) (defs₀ (F := F)) 𝒱₀ (K (F := F)).L (K (F := F)).lev (1 : Fin 2))
  (htpre : ∀ d, preTopkM m d ⊢ Rt.pre d) (htpost : ∀ d, Rt.post d ⊢ postTopk m d)
  (hcpre : ∀ d, preCombM m d (CLS m d) ⊢ Rc.pre d) (hcpost : ∀ d, Rc.post d ⊢ postComb m d (CLS m d))
  (htile : (K (F := F)).TileObl (D (F := F)) 𝒱 (P m) v₀ 0)

include htpre htpost hcpre hcpost in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  iintro ⟨#Hctx, Hst, Hres, HG⟩
  iapply (hmain_call m ρ κ d _) $$ [Hst Hres HG]
  isplitr; · iexact Hctx
  isplitl [Hst]; · iexact Hst
  isplitl [Hres]; · iexact Hres
  iintro ⟨Hst, Hac⟩
  iapply (hmain_tail m Rt Rc htpre htpost hcpre hcpost κ d) $$ [Hst Hac HG]
  isplitr; · iexact Hctx
  isplitl [Hst]; · iexact Hst
  isplitl [Hac]; · iexact Hac
  iexact HG

include htpre htpost hcpre hcpost htile in
/-- The launch theorem at this certificate. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G (F := F)) (FIN m) (u₀ (F := F)) (sep_elim_left.trans (hu₀ m)) (hmain m ρ Rt Rc htpre htpost hcpre hcpost) (fq m) (hfin m) (QC m) (fun _ h => h)

end Run

end Cert.Proof.Kernel

end
-- ==== Proof.Bits.TileBodyVal.lean ====
/-
  The values a tile's task carries, as pure functions of the transposed input X.
  Tile w (of 32) works on row group w / 8 (rows (w / 8) * 15600 ..) and column block w % 8 (columns (w % 8) * 128 ..).
  Lane l of lane group u is column (w % 8) * 128 + u * 16 + l; after n rows its running pair is the pair of the first
  n entries of that column within the row group. A chunk c is rows c * 240 .. c * 240 + 239 of the group.
-/
import proofs.«210259_g7730941132961_cont_sun_c4_476_29_alg».proof.Proof.Bits.Common
import proofs.«210259_g7730941132961_cont_sun_c4_476_29_alg».proof.Proof.Val
import Idealize.ShloMosaic.Lib.Pipeline.Value

noncomputable section

namespace Cert.Proof.Kernel

open Cert.Kernel Cert.Kernel.Gen
open Idealize.ShloMosaic Idealize.ShloMosaic.ValueIdx

variable {F : FTy → Type} [FloatOps F]

/-- Tile `w`'s row group and column block. -/
def gsW (w : Fin 32) : ℕ := w.val / 8
def jbW (w : Fin 32) : ℕ := w.val % 8
theorem gsW_lt (w : Fin 32) : gsW w < 4 := by unfold gsW; omega
theorem jbW_lt (w : Fin 32) : jbW w < 8 := by unfold jbW; omega

/-- Column `b` of the tile's block, as a column of X. -/
def colW (w : Fin 32) (b : ℕ) (hb : b < 128) : Fin 1024 := ⟨jbW w * 128 + b, by have := jbW_lt w; omega⟩

/-- The entries of column `b` of the block within the tile's row group, in order. -/
def seqW (X : FVec F Val.SX .f32) (w : Fin 32) (b : ℕ) (hb : b < 128) : ℕ → F .f32 :=
  fun r => Val.colX X (colW w b hb) (gsW w * 15600 + r)

/-- Lane `l` of lane group `u` after `n` rows. -/
def pairW (X : FVec F Val.SX .f32) (w : Fin 32) (n : ℕ) (u : Fin 8) (l : ℕ) (hl : l < 16) : F .f32 × F .f32 :=
  Val.foldN (seqW X w (u.val * 16 + l) (by omega)) (Val.ninf, Val.ninf) n

def Avec (X : FVec F Val.SX .f32) (w : Fin 32) (n : ℕ) (u : Fin 8) : FVec F S16 .f32 := fun j => (pairW X w n u (j 0).val (j 0).isLt).1
def Bvec (X : FVec F Val.SX .f32) (w : Fin 32) (n : ℕ) (u : Fin 8) : FVec F S16 .f32 := fun j => (pairW X w n u (j 0).val (j 0).isLt).2

/-- The sixteen carried vectors. -/
abbrev St (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

def stV (X : FVec F Val.SX .f32) (w : Fin 32) (n : ℕ) : St F :=
  (Avec X w n 0, Avec X w n 1, Avec X w n 2, Avec X w n 3, Avec X w n 4, Avec X w n 5, Avec X w n 6, Avec X w n 7,
    Bvec X w n 0, Bvec X w n 1, Bvec X w n 2, Bvec X w n 3, Bvec X w n 4, Bvec X w n 5, Bvec X w n 6, Bvec X w n 7)

/-- Chunk `c` of the tile's region: 240 rows by 128 columns. -/
def chunkB (X : FVec F Val.SX .f32) (w : Fin 32) (c : ℕ) : FVec F S240x128 .f32 :=
  fun j => Val.colX X (colW w (j 1).val (j 1).isLt) (gsW w * 15600 + (c * 240 + (j 0).val))

theorem pairW_zero (X : FVec F Val.SX .f32) (w : Fin 32) (u : Fin 8) (l : ℕ) (hl : l < 16) : pairW X w 0 u l hl = (Val.ninf, Val.ninf) := rfl

theorem pairW_succ (X : FVec F Val.SX .f32) (w : Fin 32) (n : ℕ) (u : Fin 8) (l : ℕ) (hl : l < 16) :
    pairW X w (n + 1) u l hl = Val.push (pairW X w n u l hl) (seqW X w (u.val * 16 + l) (by omega) n) := rfl

/-- The 1x16 piece at row `r`, columns `cc ..`, of a 240x128 array, recast to 16 lanes, at lane `j`. -/
theorem lane_of_piece (B : FVec F S240x128 .f32) (g : S1x16.Idx → F .f32) (r cc : ℕ) (hr : r < 240) (hcc : cc + 16 ≤ 128)
    (hg : ∀ x : S1x16.Idx, g x = B (ix2 ⟨r, hr⟩ ⟨cc + (x 1).val, by have : (x 1).val < 16 := (x 1).isLt; omega⟩)) (j : S16.Idx) :
    shapeCast S16 g shapeCasts_S1x16_S16 j = B (ix2 ⟨r, hr⟩ ⟨cc + (j 0).val, by have : (j 0).val < 16 := (j 0).isLt; omega⟩) := by
  rw [shapeCast_apply g shapeCasts_S1x16_S16 j (ix2 0 (j 0)) (by rw [Shape.rowMajor_val_two, Shape.rowMajor_val_one]; simp [ix2]), hg]

/-- One more row into the larger entries: lane group `u` at row `r` of chunk `c`. -/
theorem stepA (X : FVec F Val.SX .f32) (w : Fin 32) (c r : ℕ) (hr : r < 240) (u : Fin 8) (g : S1x16.Idx → F .f32)
    (hg : ∀ x : S1x16.Idx, g x = chunkB X w c (ix2 ⟨r, hr⟩ ⟨u.val * 16 + (x 1).val, by have : (x 1).val < 16 := (x 1).isLt; omega⟩)) :
    maximumf (Avec X w (c * 240 + r) u) (shapeCast S16 g shapeCasts_S1x16_S16) = Avec X w (c * 240 + r + 1) u := by
  funext j
  show FloatOps.maximumf (pairW X w (c * 240 + r) u (j 0).val (j 0).isLt).1 (shapeCast S16 g shapeCasts_S1x16_S16 j)
    = (pairW X w (c * 240 + r + 1) u (j 0).val (j 0).isLt).1
  rw [lane_of_piece (chunkB X w c) g r (u.val * 16) hr (by omega) hg j]
  rfl

/-- One more row into the second larger entries. -/
theorem stepB (X : FVec F Val.SX .f32) (w : Fin 32) (c r : ℕ) (hr : r < 240) (u : Fin 8) (g : S1x16.Idx → F .f32)
    (hg : ∀ x : S1x16.Idx, g x = chunkB X w c (ix2 ⟨r, hr⟩ ⟨u.val * 16 + (x 1).val, by have : (x 1).val < 16 := (x 1).isLt; omega⟩)) :
    maximumf (Bvec X w (c * 240 + r) u) (minimumf (Avec X w (c * 240 + r) u) (shapeCast S16 g shapeCasts_S1x16_S16)) = Bvec X w (c * 240 + r + 1) u := by
  funext j
  show FloatOps.maximumf (pairW X w (c * 240 + r) u (j 0).val (j 0).isLt).2
      (FloatOps.minimumf (pairW X w (c * 240 + r) u (j 0).val (j 0).isLt).1 (shapeCast S16 g shapeCasts_S1x16_S16 j))
    = (pairW X w (c * 240 + r + 1) u (j 0).val (j 0).isLt).2
  rw [lane_of_piece (chunkB X w c) g r (u.val * 16) hr (by omega) hg j]
  rfl

end Cert.Proof.Kernel

end
-- ==== Proof.Bits.TileBodyGeo.lean ====
/-
  A tile's place and the pieces of the arrays it touches: the tile's number, the chunks of the transposed input it
  streams (as rectangles of the array, in closed form and as the program computes them), what a chunk's copy leaves
  in a buffer, and the tile's 128 entries of the two result vectors.
-/
import proofs.«210259_g7730941132961_cont_sun_c4_476_29_alg».proof.Proof.Bits.Common
import proofs.«210259_g7730941132961_cont_sun_c4_476_29_alg».proof.Proof.Val
import proofs.«210259_g7730941132961_cont_sun_c4_476_29_alg».proof.Proof.Bits.Pay
import proofs.«210259_g7730941132961_cont_sun_c4_476_29_alg».proof.Proof.Bits.TileBodyVal

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xtV" => (Memref.whole Cert.Kernel.main_v0_scv : Memref Cert.Kernel.sig Kind.scVector Space.hbm Cert.Kernel.S100000x1024 EltTy.f32)
local notation "m1V" => (Memref.whole Cert.Kernel.main_v4_0_scv : Memref Cert.Kernel.sig Kind.scVector Space.hbm Cert.Kernel.S4096 EltTy.f32)
local notation "m2V" => (Memref.whole Cert.Kernel.main_v4_1_scv : Memref Cert.Kernel.sig Kind.scVector Space.hbm Cert.Kernel.S4096 EltTy.f32)
local notation "bufA" => (Memref.whole Cert.Kernel.cc0_scratch0 : Memref Cert.Kernel.sig Kind.scVector Space.vmem Cert.Kernel.S240x128 EltTy.f32)
local notation "bufB" => (Memref.whole Cert.Kernel.cc0_scratch1 : Memref Cert.Kernel.sig Kind.scVector Space.vmem Cert.Kernel.S240x128 EltTy.f32)
local notation "s1V" => (Memref.whole Cert.Kernel.cc0_scratch2 : Memref Cert.Kernel.sig Kind.scVector Space.vmem Cert.Kernel.S128 EltTy.f32)
local notation "s2V" => (Memref.whole Cert.Kernel.cc0_scratch3 : Memref Cert.Kernel.sig Kind.scVector Space.vmem Cert.Kernel.S128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev iL (L : grid0.Coords) : Fin 16 := Fin.cast bound_one (L 1)
/-- The tile's number. -/
def wL (L : grid0.Coords) : Fin 32 := wid (cL L) (iL L)

/-- The transposed input, as the values' functions read it. -/
abbrev XV (d : Dev nD) : FVec F Val.SX .f32 := XT m d

/-! ## The chunks -/

omit [FloatOps F] in
theorem chunk_inb (w : Fin 32) (c : ℕ) :
    ∀ a, (![gsW w * 15600 + min c 64 * 240, jbW w * 128] : Fin 2 → ℕ) a + S240x128.size a ≤ S100000x1024.size a := by
  have := gsW_lt w; have := jbW_lt w
  exact Rect.inb₂ (by show gsW w * 15600 + min c 64 * 240 + 240 ≤ 100000; omega) (by show jbW w * 128 + 128 ≤ 1024; omega)

/-- Chunk `c` of tile `w`'s region, as a rectangle of the transposed input (`c ≤ 64`). -/
abbrev chunkR (w : Fin 32) (c : ℕ) : Rect S100000x1024 :=
  Rect.unit (s := S100000x1024) ![gsW w * 15600 + min c 64 * 240, jbW w * 128] S240x128.size (chunk_inb w c)
abbrev chunkM (w : Fin 32) (c : ℕ) : Memref sig .scVector .hbm S240x128 .f32 := (xtV).slice (chunkR w c) (fun _ => rfl)

omit [FloatOps F] in
theorem rect_congr {s : Shape} {off off' : Fin s.rank → ℕ} (size : Fin s.rank → ℕ) (h : off = off') (inb) (inb') :
    Rect.unit (s := s) off size inb = Rect.unit (s := s) off' size inb' := by subst h; rfl

-- the offsets the program computes, in closed form
omit [FloatOps F] in
theorem off1_eq0 : ∀ L : grid0.Coords, k0_off1 L 0#32 = ![gsW (wL L) * 15600 + min 0 64 * 240, jbW (wL L) * 128] := by decide +kernel
omit [FloatOps F] in
theorem off1_eq1 : ∀ L : grid0.Coords, k0_off1 L 240#32 = ![gsW (wL L) * 15600 + min 1 64 * 240, jbW (wL L) * 128] := by decide +kernel
omit [FloatOps F] in
theorem off28_eq : ∀ L : grid0.Coords, k0_off28 L = ![(wL L).val * 128] := by decide +kernel
omit [FloatOps F] in
theorem cond1_eq : ∀ k : Fin k0_t1_loop.trips, k0_cond1 k = 1#1 := by decide +kernel
omit [FloatOps F] in
theorem cond2_eq : ∀ k : Fin k0_t1_loop.trips, k0_cond2 k = if k.val < 31 then 1#1 else 0#1 := by decide +kernel
omit [FloatOps F] in
theorem off10_eq : ∀ (L : grid0.Coords) (k : Fin k0_t1_loop.trips),
    k0_off10 L k = ![gsW (wL L) * 15600 + min (2 * k.val + 2) 64 * 240, jbW (wL L) * 128] := by decide +kernel
omit [FloatOps F] in
theorem off19_eq : ∀ (L : grid0.Coords) (k : Fin k0_t1_loop.trips), k.val < 31 →
    k0_off19 L k = ![gsW (wL L) * 15600 + min (2 * k.val + 3) 64 * 240, jbW (wL L) * 128] := by decide +kernel
omit [FloatOps F] in
theorem trips1 : k0_t1_loop.trips = 32 := by decide +kernel
omit [FloatOps F] in
theorem trips2 : k0_t2_loop.trips = 240 := by decide +kernel
omit [FloatOps F] in
theorem trips3 : k0_t3_loop.trips = 240 := by decide +kernel
omit [FloatOps F] in
theorem trips4 : k0_t4_loop.trips = 240 := by decide +kernel

/-- What a chunk read through its rectangle is. -/
theorem read_chunk (w : Fin 32) (c : ℕ) (hc : c ≤ 64) :
    (chunkM w c).view.read (Elt F) (XT m d) = (chunkB (XV m d) w c : FVec F S240x128 .f32) := by
  funext i
  have h : gsW w * 15600 + (c * 240 + (i 0).val) < 100000 := by
    have := gsW_lt w; have : (i 0).val < 240 := (i 0).isLt; omega
  have hmin : min c 64 = c := Nat.min_eq_left hc
  show XT m d ((chunkR w c).idx i) = Val.colX (XV m d) (colW w (i 1).val (i 1).isLt) (gsW w * 15600 + (c * 240 + (i 0).val))
  unfold Val.colX
  rw [dif_pos h]
  show XV m d _ = XV m d _
  congr 1
  funext a
  match a with
  | 0 => exact Fin.ext (by show gsW w * 15600 + min c 64 * 240 + 1 * (i 0).val = gsW w * 15600 + (c * 240 + (i 0).val); rw [hmin]; omega)
  | 1 => exact Fin.ext (by show jbW w * 128 + 1 * (i 1).val = jbW w * 128 + (i 1).val; omega)

/-- What a chunk's copy leaves in the first buffer, -/
theorem landedA (w : Fin 32) (c : ℕ) (hc : c ≤ 64) (fa : Buf (Elt F) ((thrV d L).loc cc0_scratch0)) :
    View.write (Elt F) (bufA).view fa ((chunkM w c).view.read (Elt F) (XT m d)) Finset.univ
      = (chunkB (XV m d) w c : FVec F S240x128 .f32) := by
  rw [read_chunk m d w c hc]
  exact View.write_whole_univ _ _ _
/-- and in the second. -/
theorem landedB (w : Fin 32) (c : ℕ) (hc : c ≤ 64) (fb : Buf (Elt F) ((thrV d L).loc cc0_scratch1)) :
    View.write (Elt F) (bufB).view fb ((chunkM w c).view.read (Elt F) (XT m d)) Finset.univ
      = (chunkB (XV m d) w c : FVec F S240x128 .f32) := by
  rw [read_chunk m d w c hc]
  exact View.write_whole_univ _ _ _

end Tile

end Cert.Proof.Kernel

end
-- ==== Proof.Bits.TileBodyRow.lean ====
/-
  One row of a chunk held in a buffer: what the eight loads of sixteen lanes read, and the sixteen carried vectors
  after the row.
-/
import proofs.«210259_g7730941132961_cont_sun_c4_476_29_alg».proof.Proof.Bits.Common
import proofs.«210259_g7730941132961_cont_sun_c4_476_29_alg».proof.Proof.Val
import proofs.«210259_g7730941132961_cont_sun_c4_476_29_alg».proof.Proof.Bits.Pay
import proofs.«210259_g7730941132961_cont_sun_c4_476_29_alg».proof.Proof.Bits.TileBodyGeo

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xtV" => (Memref.whole Cert.Kernel.main_v0_scv : Memref Cert.Kernel.sig Kind.scVector Space.hbm Cert.Kernel.S100000x1024 EltTy.f32)
local notation "m1V" => (Memref.whole Cert.Kernel.main_v4_0_scv : Memref Cert.Kernel.sig Kind.scVector Space.hbm Cert.Kernel.S4096 EltTy.f32)
local notation "m2V" => (Memref.whole Cert.Kernel.main_v4_1_scv : Memref Cert.Kernel.sig Kind.scVector Space.hbm Cert.Kernel.S4096 EltTy.f32)
local notation "bufA" => (Memref.whole Cert.Kernel.cc0_scratch0 : Memref Cert.Kernel.sig Kind.scVector Space.vmem Cert.Kernel.S240x128 EltTy.f32)
local notation "bufB" => (Memref.whole Cert.Kernel.cc0_scratch1 : Memref Cert.Kernel.sig Kind.scVector Space.vmem Cert.Kernel.S240x128 EltTy.f32)
local notation "s1V" => (Memref.whole Cert.Kernel.cc0_scratch2 : Memref Cert.Kernel.sig Kind.scVector Space.vmem Cert.Kernel.S128 EltTy.f32)
local notation "s2V" => (Memref.whole Cert.Kernel.cc0_scratch3 : Memref Cert.Kernel.sig Kind.scVector Space.vmem Cert.Kernel.S128 EltTy.f32)

variable [FloatOps F]

open Idealize.ShloMosaic.ValueIdx

/-- A load of one row's sixteen lanes from the first buffer, -/
theorem piece_readA (d : Dev nD) (L : grid0.Coords) (B : FVec F S240x128 .f32) (off : Fin 2 → ℕ) (inb) (r cc : ℕ) (hoff : off = ![r, cc])
    (hr : r < 240) (hcc : cc + 16 ≤ 128) (x : S1x16.Idx) :
    View.readAt (Elt F) (bufA).view (Rect.unit (s := S240x128) off S1x16.size inb).toLoadRect (B : Buf (Elt F) ((thrV d L).loc cc0_scratch0)) x
      = B (ix2 ⟨r, hr⟩ ⟨cc + (x 1).val, by have : (x 1).val < 16 := (x 1).isLt; omega⟩) := by
  subst hoff
  show B ((Rect.unit (s := S240x128) ![r, cc] S1x16.size inb).idx x) = _
  congr 1
  funext a
  match a with
  | 0 => exact Fin.ext (by have : (x 0).val < 1 := (x 0).isLt; show r + 1 * (x 0).val = r; omega)
  | 1 => exact Fin.ext (by show cc + 1 * (x 1).val = cc + (x 1).val; omega)
/-- and from the second. -/
theorem piece_readB (d : Dev nD) (L : grid0.Coords) (B : FVec F S240x128 .f32) (off : Fin 2 → ℕ) (inb) (r cc : ℕ) (hoff : off = ![r, cc])
    (hr : r < 240) (hcc : cc + 16 ≤ 128) (x : S1x16.Idx) :
    View.readAt (Elt F) (bufB).view (Rect.unit (s := S240x128) off S1x16.size inb).toLoadRect (B : Buf (Elt F) ((thrV d L).loc cc0_scratch1)) x
      = B (ix2 ⟨r, hr⟩ ⟨cc + (x 1).val, by have : (x 1).val < 16 := (x 1).isLt; omega⟩) := by
  subst hoff
  show B ((Rect.unit (s := S240x128) ![r, cc] S1x16.size inb).idx x) = _
  congr 1
  funext a
  match a with
  | 0 => exact Fin.ext (by have : (x 0).val < 1 := (x 0).isLt; show r + 1 * (x 0).val = r; omega)
  | 1 => exact Fin.ext (by show cc + 1 * (x 1).val = cc + (x 1).val; omega)

/-- The sixteen carried vectors after row `r` of chunk `c`: each lane group's pair takes the row's sixteen entries. -/
theorem stV_step (X : FVec F Val.SX .f32) (w : Fin 32) (c r : ℕ) (hr : r < 240) (g0 g1 g2 g3 g4 g5 g6 g7 : S1x16.Idx → F .f32)
    (h0 : ∀ x : S1x16.Idx, g0 x = chunkB X w c (ix2 ⟨r, hr⟩ ⟨0 + (x 1).val, by have : (x 1).val < 16 := (x 1).isLt; omega⟩))
    (h1 : ∀ x : S1x16.Idx, g1 x = chunkB X w c (ix2 ⟨r, hr⟩ ⟨16 + (x 1).val, by have : (x 1).val < 16 := (x 1).isLt; omega⟩))
    (h2 : ∀ x : S1x16.Idx, g2 x = chunkB X w c (ix2 ⟨r, hr⟩ ⟨32 + (x 1).val, by have : (x 1).val < 16 := (x 1).isLt; omega⟩))
    (h3 : ∀ x : S1x16.Idx, g3 x = chunkB X w c (ix2 ⟨r, hr⟩ ⟨48 + (x 1).val, by have : (x 1).val < 16 := (x 1).isLt; omega⟩))
    (h4 : ∀ x : S1x16.Idx, g4 x = chunkB X w c (ix2 ⟨r, hr⟩ ⟨64 + (x 1).val, by have : (x 1).val < 16 := (x 1).isLt; omega⟩))
    (h5 : ∀ x : S1x16.Idx, g5 x = chunkB X w c (ix2 ⟨r, hr⟩ ⟨80 + (x 1).val, by have : (x 1).val < 16 := (x 1).isLt; omega⟩))
    (h6 : ∀ x : S1x16.Idx, g6 x = chunkB X w c (ix2 ⟨r, hr⟩ ⟨96 + (x 1).val, by have : (x 1).val < 16 := (x 1).isLt; omega⟩))
    (h7 : ∀ x : S1x16.Idx, g7 x = chunkB X w c (ix2 ⟨r, hr⟩ ⟨112 + (x 1).val, by have : (x 1).val < 16 := (x 1).isLt; omega⟩)) :
    ((maximumf (Avec X w (c * 240 + r) 0) (shapeCast S16 g0 shapeCasts_S1x16_S16),
      maximumf (Avec X w (c * 240 + r) 1) (shapeCast S16 g1 shapeCasts_S1x16_S16),
      maximumf (Avec X w (c * 240 + r) 2) (shapeCast S16 g2 shapeCasts_S1x16_S16),
      maximumf (Avec X w (c * 240 + r) 3) (shapeCast S16 g3 shapeCasts_S1x16_S16),
      maximumf (Avec X w (c * 240 + r) 4) (shapeCast S16 g4 shapeCasts_S1x16_S16),
      maximumf (Avec X w (c * 240 + r) 5) (shapeCast S16 g5 shapeCasts_S1x16_S16),
      maximumf (Avec X w (c * 240 + r) 6) (shapeCast S16 g6 shapeCasts_S1x16_S16),
      maximumf (Avec X w (c * 240 + r) 7) (shapeCast S16 g7 shapeCasts_S1x16_S16),
      maximumf (Bvec X w (c * 240 + r) 0) (minimumf (Avec X w (c * 240 + r) 0) (shapeCast S16 g0 shapeCasts_S1x16_S16)),
      maximumf (Bvec X w (c * 240 + r) 1) (minimumf (Avec X w (c * 240 + r) 1) (shapeCast S16 g1 shapeCasts_S1x16_S16)),
      maximumf (Bvec X w (c * 240 + r) 2) (minimumf (Avec X w (c * 240 + r) 2) (shapeCast S16 g2 shapeCasts_S1x16_S16)),
      maximumf (Bvec X w (c * 240 + r) 3) (minimumf (Avec X w (c * 240 + r) 3) (shapeCast S16 g3 shapeCasts_S1x16_S16)),
      maximumf (Bvec X w (c * 240 + r) 4) (minimumf (Avec X w (c * 240 + r) 4) (shapeCast S16 g4 shapeCasts_S1x16_S16)),
      maximumf (Bvec X w (c * 240 + r) 5) (minimumf (Avec X w (c * 240 + r) 5) (shapeCast S16 g5 shapeCasts_S1x16_S16)),
      maximumf (Bvec X w (c * 240 + r) 6) (minimumf (Avec X w (c * 240 + r) 6) (shapeCast S16 g6 shapeCasts_S1x16_S16)),
      maximumf (Bvec X w (c * 240 + r) 7) (minimumf (Avec X w (c * 240 + r) 7) (shapeCast S16 g7 shapeCasts_S1x16_S16))) : St F)
      = stV X w (c * 240 + (r + 1)) := by
  unfold stV
  rw [stepA X w c r hr 0 g0 h0, stepA X w c r hr 1 g1 h1, stepA X w c r hr 2 g2 h2, stepA X w c r hr 3 g3 h3,
    stepA X w c r hr 4 g4 h4, stepA X w c r hr 5 g5 h5, stepA X w c r hr 6 g6 h6, stepA X w c r hr 7 g7 h7,
    stepB X w c r hr 0 g0 h0, stepB X w c r hr 1 g1 h1, stepB X w c r hr 2 g2 h2, stepB X w c r hr 3 g3 h3,
    stepB X w c r hr 4 g4 h4, stepB X w c r hr 5 g5 h5, stepB X w c r hr 6 g6 h6, stepB X w c r hr 7 g7 h7]
  rfl

end Cert.Proof.Kernel

end
-- ==== Proof.Bits.TileBodyFin.lean ====
/-
  What a tile leaves in the two result vectors: entry w * 128 + t of the first is the larger entry of lane t % 16 of
  lane group t / 16 after all 15600 rows, which is the row group's pair at that column; the second likewise.
-/
import proofs.«210259_g7730941132961_cont_sun_c4_476_29_alg».proof.Proof.Bits.Common
import proofs.«210259_g7730941132961_cont_sun_c4_476_29_alg».proof.Proof.Val
import proofs.«210259_g7730941132961_cont_sun_c4_476_29_alg».proof.Proof.Bits.Pay
import proofs.«210259_g7730941132961_cont_sun_c4_476_29_alg».proof.Proof.Bits.TileBodyGeo
import Idealize.ShloMosaic.Lib.Ring

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xtV" => (Memref.whole Cert.Kernel.main_v0_scv : Memref Cert.Kernel.sig Kind.scVector Space.hbm Cert.Kernel.S100000x1024 EltTy.f32)
local notation "m1V" => (Memref.whole Cert.Kernel.main_v4_0_scv : Memref Cert.Kernel.sig Kind.scVector Space.hbm Cert.Kernel.S4096 EltTy.f32)
local notation "m2V" => (Memref.whole Cert.Kernel.main_v4_1_scv : Memref Cert.Kernel.sig Kind.scVector Space.hbm Cert.Kernel.S4096 EltTy.f32)
local notation "bufA" => (Memref.whole Cert.Kernel.cc0_scratch0 : Memref Cert.Kernel.sig Kind.scVector Space.vmem Cert.Kernel.S240x128 EltTy.f32)
local notation "bufB" => (Memref.whole Cert.Kernel.cc0_scratch1 : Memref Cert.Kernel.sig Kind.scVector Space.vmem Cert.Kernel.S240x128 EltTy.f32)
local notation "s1V" => (Memref.whole Cert.Kernel.cc0_scratch2 : Memref Cert.Kernel.sig Kind.scVector Space.vmem Cert.Kernel.S128 EltTy.f32)
local notation "s2V" => (Memref.whole Cert.Kernel.cc0_scratch3 : Memref Cert.Kernel.sig Kind.scVector Space.vmem Cert.Kernel.S128 EltTy.f32)

variable [FloatOps F]

open Idealize.ShloMosaic.ValueIdx

/-- Every element type has a value (the closed form of a list of stores names one off the pieces). -/
instance eltNonempty : ∀ e, Nonempty (Elt F e) := by
  intro e
  cases e
  · exact ⟨(0 : BitVec 1)⟩
  · exact ⟨(0 : BitVec 4)⟩
  · exact ⟨(0 : BitVec 8)⟩
  · exact ⟨(0 : BitVec 16)⟩
  · exact ⟨(0 : BitVec 32)⟩
  · exact ⟨(0 : BitVec 64)⟩
  · exact ⟨(Scalar.ofBits .fp8e4m3 0 : F .fp8e4m3)⟩
  · exact ⟨(Scalar.ofBits .fp8e5m2 0 : F .fp8e5m2)⟩
  · exact ⟨(Scalar.ofBits .bf16 0 : F .bf16)⟩
  · exact ⟨(Scalar.ofBits .f16 0 : F .f16)⟩
  · exact ⟨(Scalar.ofBits .f32 0 : F .f32)⟩

/-- What the tile leaves in its two 128-scratches after `n` rows. -/
def outAn (X : FVec F Val.SX .f32) (w : Fin 32) (n : ℕ) : FVec F S128 .f32 :=
  fun t => (pairW X w n ⟨(t 0).val / 16, by have : (t 0).val < 128 := (t 0).isLt; omega⟩ ((t 0).val % 16) (Nat.mod_lt _ (by norm_num))).1
def outBn (X : FVec F Val.SX .f32) (w : Fin 32) (n : ℕ) : FVec F S128 .f32 :=
  fun t => (pairW X w n ⟨(t 0).val / 16, by have : (t 0).val < 128 := (t 0).isLt; omega⟩ ((t 0).val % 16) (Nat.mod_lt _ (by norm_num))).2

theorem pairW_congr (X : FVec F Val.SX .f32) (w : Fin 32) (n : ℕ) {u u' : Fin 8} {l l' : ℕ} (hl : l < 16) (hl' : l' < 16)
    (hu : u = u') (hll : l = l') : pairW X w n u l hl = pairW X w n u' l' hl' := by subst hu; subst hll; rfl

/-- The row group's pair at a column of the tile's block is the lane's pair after all the rows. -/
theorem groupPair_eq (X : FVec F Val.SX .f32) (w : Fin 32) (t : ℕ) (ht : t < 128) (i : ℕ) (hi : i = w.val * 128 + t) (h1 : i % 1024 < 1024) :
    Val.groupPair X (i / 1024) ⟨i % 1024, h1⟩ = pairW X w 15600 ⟨t / 16, by omega⟩ (t % 16) (Nat.mod_lt _ (by norm_num)) := by
  subst hi
  have hg : (w.val * 128 + t) / 1024 = gsW w := by unfold gsW; omega
  have hb : (⟨(w.val * 128 + t) % 1024, h1⟩ : Fin 1024) = colW w (t / 16 * 16 + t % 16) (by omega) :=
    Fin.ext (by unfold colW jbW; simp only []; omega)
  unfold Val.groupPair pairW seqW
  rw [hg, hb]

/-- One store of sixteen lanes is the scratch's function on its sixteen entries. -/
theorem pieceA_out (X : FVec F Val.SX .f32) (w : Fin 32) (n : ℕ) (u : Fin 8) (off : Fin 1 → ℕ) (inb) (hoff : off = ![u.val * 16])
    (v : FVec F S16 .f32) (hv : v = Avec X w n u) (x : S16.Idx) :
    shapeCast S16 v shapeCasts_S16_S16 x = outAn X w n ((Rect.unit (s := S128) off S16.size inb).emb x) := by
  subst hoff hv
  have hx : (x 0).val < 16 := (x 0).isLt
  rw [shapeCast_apply _ shapeCasts_S16_S16 x x rfl]
  show (pairW X w n u (x 0).val hx).1
    = (pairW X w n ⟨(u.val * 16 + 1 * (x 0).val) / 16, by omega⟩ ((u.val * 16 + 1 * (x 0).val) % 16) (Nat.mod_lt _ (by norm_num))).1
  exact congrArg Prod.fst (pairW_congr X w n _ _ (Fin.ext (by show u.val = (u.val * 16 + 1 * (x 0).val) / 16; omega)) (by omega))
theorem pieceB_out (X : FVec F Val.SX .f32) (w : Fin 32) (n : ℕ) (u : Fin 8) (off : Fin 1 → ℕ) (inb) (hoff : off = ![u.val * 16])
    (v : FVec F S16 .f32) (hv : v = Bvec X w n u) (x : S16.Idx) :
    shapeCast S16 v shapeCasts_S16_S16 x = outBn X w n ((Rect.unit (s := S128) off S16.size inb).emb x) := by
  subst hoff hv
  have hx : (x 0).val < 16 := (x 0).isLt
  rw [shapeCast_apply _ shapeCasts_S16_S16 x x rfl]
  show (pairW X w n u (x 0).val hx).2
    = (pairW X w n ⟨(u.val * 16 + 1 * (x 0).val) / 16, by omega⟩ ((u.val * 16 + 1 * (x 0).val) % 16) (Nat.mod_lt _ (by norm_num))).2
  exact congrArg Prod.snd (pairW_congr X w n _ _ (Fin.ext (by show u.val = (u.val * 16 + 1 * (x 0).val) / 16; omega)) (by omega))

/-- What the eight stores of sixteen lanes leave in the scratch, read back whole. -/
theorem read_out1 (X : FVec F Val.SX .f32) (w : Fin 32) (n : ℕ) (d : Dev nD) (L : grid0.Coords)
    (f1 : Buf (Elt F) ((thrV d L).loc cc0_scratch2)) (Lp : List (View.Piece (Elt F) S128 .f32))
    (hL : Lp = [(⟨Rect.unit (s := S128) ![112] S16.size inb_S128_S16_112, k0_pay88 (Avec X w (n) 7)⟩ : View.Piece (Elt F) S128 .f32),
        (⟨Rect.unit (s := S128) ![96] S16.size inb_S128_S16_96, k0_pay86 (Avec X w (n) 6)⟩ : View.Piece (Elt F) S128 .f32),
        (⟨Rect.unit (s := S128) ![80] S16.size inb_S128_S16_80, k0_pay84 (Avec X w (n) 5)⟩ : View.Piece (Elt F) S128 .f32),
        (⟨Rect.unit (s := S128) ![64] S16.size inb_S128_S16_64, k0_pay82 (Avec X w (n) 4)⟩ : View.Piece (Elt F) S128 .f32),
        (⟨Rect.unit (s := S128) ![48] S16.size inb_S128_S16_48, k0_pay80 (Avec X w (n) 3)⟩ : View.Piece (Elt F) S128 .f32),
        (⟨Rect.unit (s := S128) ![32] S16.size inb_S128_S16_32, k0_pay78 (Avec X w (n) 2)⟩ : View.Piece (Elt F) S128 .f32),
        (⟨Rect.unit (s := S128) ![16] S16.size inb_S128_S16_16, k0_pay76 (Avec X w (n) 1)⟩ : View.Piece (Elt F) S128 .f32),
        (⟨Rect.unit (s := S128) ![0] S16.size inb_S128_S16_0, k0_pay74 (Avec X w (n) 0)⟩ : View.Piece (Elt F) S128 .f32)]) :
    View.read (Elt F) (s1V).view ((s1V).view.writes (Elt F) f1 Lp) = outAn X w n := by
  subst hL
  have hcov := View.cover_of_tiledL (Val := Elt F) [(⟨Rect.unit (s := S128) ![112] S16.size inb_S128_S16_112, k0_pay88 (Avec X w (n) 7)⟩ : View.Piece (Elt F) S128 .f32),
        (⟨Rect.unit (s := S128) ![96] S16.size inb_S128_S16_96, k0_pay86 (Avec X w (n) 6)⟩ : View.Piece (Elt F) S128 .f32),
        (⟨Rect.unit (s := S128) ![80] S16.size inb_S128_S16_80, k0_pay84 (Avec X w (n) 5)⟩ : View.Piece (Elt F) S128 .f32),
        (⟨Rect.unit (s := S128) ![64] S16.size inb_S128_S16_64, k0_pay82 (Avec X w (n) 4)⟩ : View.Piece (Elt F) S128 .f32),
        (⟨Rect.unit (s := S128) ![48] S16.size inb_S128_S16_48, k0_pay80 (Avec X w (n) 3)⟩ : View.Piece (Elt F) S128 .f32),
        (⟨Rect.unit (s := S128) ![32] S16.size inb_S128_S16_32, k0_pay78 (Avec X w (n) 2)⟩ : View.Piece (Elt F) S128 .f32),
        (⟨Rect.unit (s := S128) ![16] S16.size inb_S128_S16_16, k0_pay76 (Avec X w (n) 1)⟩ : View.Piece (Elt F) S128 .f32),
        (⟨Rect.unit (s := S128) ![0] S16.size inb_S128_S16_0, k0_pay74 (Avec X w (n) 0)⟩ : View.Piece (Elt F) S128 .f32)] ![16] (by sl_kernel_rfl)
  rw [View.read_writes_eq_canon _ _ _ hcov]
  funext y
  refine View.canon_apply_of_pieces (outAn X w n) _ ?_ y (hcov y)
  intro p hp x
  simp only [List.mem_cons, List.mem_singleton, List.not_mem_nil, or_false] at hp
  rcases hp with rfl | rfl | rfl | rfl | rfl | rfl | rfl | rfl
  · exact pieceA_out X w n 7 ![112] inb_S128_S16_112 rfl _ rfl x
  · exact pieceA_out X w n 6 ![96] inb_S128_S16_96 rfl _ rfl x
  · exact pieceA_out X w n 5 ![80] inb_S128_S16_80 rfl _ rfl x
  · exact pieceA_out X w n 4 ![64] inb_S128_S16_64 rfl _ rfl x
  · exact pieceA_out X w n 3 ![48] inb_S128_S16_48 rfl _ rfl x
  · exact pieceA_out X w n 2 ![32] inb_S128_S16_32 rfl _ rfl x
  · exact pieceA_out X w n 1 ![16] inb_S128_S16_16 rfl _ rfl x
  · exact pieceA_out X w n 0 ![0] inb_S128_S16_0 rfl _ rfl x

/-- What the eight stores of sixteen lanes leave in the scratch, read back whole. -/
theorem read_out2 (X : FVec F Val.SX .f32) (w : Fin 32) (n : ℕ) (d : Dev nD) (L : grid0.Coords)
    (f1 : Buf (Elt F) ((thrV d L).loc cc0_scratch3)) (Lp : List (View.Piece (Elt F) S128 .f32))
    (hL : Lp = [(⟨Rect.unit (s := S128) ![112] S16.size inb_S128_S16_112, k0_pay89 (Bvec X w (n) 7)⟩ : View.Piece (Elt F) S128 .f32),
        (⟨Rect.unit (s := S128) ![96] S16.size inb_S128_S16_96, k0_pay87 (Bvec X w (n) 6)⟩ : View.Piece (Elt F) S128 .f32),
        (⟨Rect.unit (s := S128) ![80] S16.size inb_S128_S16_80, k0_pay85 (Bvec X w (n) 5)⟩ : View.Piece (Elt F) S128 .f32),
        (⟨Rect.unit (s := S128) ![64] S16.size inb_S128_S16_64, k0_pay83 (Bvec X w (n) 4)⟩ : View.Piece (Elt F) S128 .f32),
        (⟨Rect.unit (s := S128) ![48] S16.size inb_S128_S16_48, k0_pay81 (Bvec X w (n) 3)⟩ : View.Piece (Elt F) S128 .f32),
        (⟨Rect.unit (s := S128) ![32] S16.size inb_S128_S16_32, k0_pay79 (Bvec X w (n) 2)⟩ : View.Piece (Elt F) S128 .f32),
        (⟨Rect.unit (s := S128) ![16] S16.size inb_S128_S16_16, k0_pay77 (Bvec X w (n) 1)⟩ : View.Piece (Elt F) S128 .f32),
        (⟨Rect.unit (s := S128) ![0] S16.size inb_S128_S16_0, k0_pay75 (Bvec X w (n) 0)⟩ : View.Piece (Elt F) S128 .f32)]) :
    View.read (Elt F) (s2V).view ((s2V).view.writes (Elt F) f1 Lp) = outBn X w n := by
  subst hL
  have hcov := View.cover_of_tiledL (Val := Elt F) [(⟨Rect.unit (s := S128) ![112] S16.size inb_S128_S16_112, k0_pay89 (Bvec X w (n) 7)⟩ : View.Piece (Elt F) S128 .f32),
        (⟨Rect.unit (s := S128) ![96] S16.size inb_S128_S16_96, k0_pay87 (Bvec X w (n) 6)⟩ : View.Piece (Elt F) S128 .f32),
        (⟨Rect.unit (s := S128) ![80] S16.size inb_S128_S16_80, k0_pay85 (Bvec X w (n) 5)⟩ : View.Piece (Elt F) S128 .f32),
        (⟨Rect.unit (s := S128) ![64] S16.size inb_S128_S16_64, k0_pay83 (Bvec X w (n) 4)⟩ : View.Piece (Elt F) S128 .f32),
        (⟨Rect.unit (s := S128) ![48] S16.size inb_S128_S16_48, k0_pay81 (Bvec X w (n) 3)⟩ : View.Piece (Elt F) S128 .f32),
        (⟨Rect.unit (s := S128) ![32] S16.size inb_S128_S16_32, k0_pay79 (Bvec X w (n) 2)⟩ : View.Piece (Elt F) S128 .f32),
        (⟨Rect.unit (s := S128) ![16] S16.size inb_S128_S16_16, k0_pay77 (Bvec X w (n) 1)⟩ : View.Piece (Elt F) S128 .f32),
        (⟨Rect.unit (s := S128) ![0] S16.size inb_S128_S16_0, k0_pay75 (Bvec X w (n) 0)⟩ : View.Piece (Elt F) S128 .f32)] ![16] (by sl_kernel_rfl)
  rw [View.read_writes_eq_canon _ _ _ hcov]
  funext y
  refine View.canon_apply_of_pieces (outBn X w n) _ ?_ y (hcov y)
  intro p hp x
  simp only [List.mem_cons, List.mem_singleton, List.not_mem_nil, or_false] at hp
  rcases hp with rfl | rfl | rfl | rfl | rfl | rfl | rfl | rfl
  · exact pieceB_out X w n 7 ![112] inb_S128_S16_112 rfl _ rfl x
  · exact pieceB_out X w n 6 ![96] inb_S128_S16_96 rfl _ rfl x
  · exact pieceB_out X w n 5 ![80] inb_S128_S16_80 rfl _ rfl x
  · exact pieceB_out X w n 4 ![64] inb_S128_S16_64 rfl _ rfl x
  · exact pieceB_out X w n 3 ![48] inb_S128_S16_48 rfl _ rfl x
  · exact pieceB_out X w n 2 ![32] inb_S128_S16_32 rfl _ rfl x
  · exact pieceB_out X w n 1 ![16] inb_S128_S16_16 rfl _ rfl x
  · exact pieceB_out X w n 0 ![0] inb_S128_S16_0 rfl _ rfl x

section Tile

variable (d : Dev nD) (L : grid0.Coords)

/-! ## The tile's entries of the two result vectors -/

abbrev m1K (L : grid0.Coords) : Memref sig .scVector .hbm S128 .f32 :=
  (m1V).slice (Rect.unit (s := S4096) (k0_off28 L) S128.size (k0_off28_inb L)) (fun _ => rfl)
abbrev m2K (L : grid0.Coords) : Memref sig .scVector .hbm S128 .f32 :=
  (m2V).slice (Rect.unit (s := S4096) (k0_off28 L) S128.size (k0_off28_inb L)) (fun _ => rfl)

omit [FloatOps F] in
theorem outRect_eq : Rect.unit (s := S4096) (k0_off28 L) S128.size (k0_off28_inb L) = pc (wL L) := by
  unfold pc Rect.part Rect.block
  congr 1 <;> funext a
  · rw [off28_eq]
    match a with
    | 0 => simp [Shape.partIx, Shape.partSize]
  · match a with
    | 0 => simp [Shape.partSize]

omit [FloatOps F] in
theorem set_m1K : (m1K L).view.set = pcSet (wL L) := by
  show ((m1V).view.slice (Rect.unit (s := S4096) (k0_off28 L) S128.size (k0_off28_inb L))).set = ((m1V).view.slice (pc (wL L))).set
  rw [outRect_eq]
omit [FloatOps F] in
theorem set_m2K : (m2K L).view.set = pcSet (wL L) := by
  show ((m2V).view.slice (Rect.unit (s := S4096) (k0_off28 L) S128.size (k0_off28_inb L))).set = ((m1V).view.slice (pc (wL L))).set
  rw [outRect_eq]
  rfl

omit [FloatOps F] in
theorem pts_m1K (f : Buf (Elt F) (m1Loc d)) :
    ((m1K L).view.loc (thrV d L) ↦[(m1K L).view.set]{fullShare} f : sProp 𝕄) = m1Loc d ↦[pcSet (wid (cL L) (iL L))]{fullShare} f := by
  rw [set_m1K]; rfl
omit [FloatOps F] in
theorem pts_m2K (f : Buf (Elt F) (m2Loc d)) :
    ((m2K L).view.loc (thrV d L) ↦[(m2K L).view.set]{fullShare} f : sProp 𝕄) = m2Loc d ↦[pcSet (wid (cL L) (iL L))]{fullShare} f := by
  rw [set_m2K]; rfl

/-- What the copy out of the scratch leaves in the tile's entries of the result vector. -/
theorem landed1 (f0 : Buf (Elt F) (m1Loc d)) (pay : S128.Idx → Elt F .f32) (hpay : pay = outAn (XV m d) (wL L) 15600) :
    ((m1K L).view.loc (thrV d L) ↦[(m1K L).view.set]{fullShare} (m1K L).view.writes (Elt F) f0 [⟨Rect.whole S128, pay⟩] : sProp 𝕄)
      = m1Loc d ↦[pcSet (wid (cL L) (iL L))]{fullShare} R1 m d := by
  rw [← pts_m1K (F := F) d L (R1 m d)]
  refine pointsTo_congr fun i hi => ?_
  obtain ⟨t, -, rfl⟩ := Finset.mem_map.mp hi
  subst hpay
  have he : ((m1K L).view.slice (Rect.whole S128)).emb t = (m1K L).view.emb t := by
    rw [View.emb_slice]
    show (m1K L).view.emb ((Rect.whole S128).emb t) = _
    rw [Rect.emb_whole_apply]
  have ht : (t 0).val < 128 := (t 0).isLt
  have hi0 : (((m1K L).view.emb t) 0).val = (wL L).val * 128 + (t 0).val := by
    show k0_off28 L 0 + 1 * (t 0).val = _
    rw [off28_eq]; simp
  rw [View.writes_singleton, ← he, View.write_emb_of_mem _ _ (Finset.mem_univ t), he]
  show outAn (XV m d) (wL L) 15600 t = (Val.scPair (XV m d) ((m1K L).view.emb t)).1
  unfold outAn Val.scPair
  rw [groupPair_eq (XV m d) (wL L) (t 0).val ht _ hi0]

/-- What the copy out of the scratch leaves in the tile's entries of the result vector. -/
theorem landed2 (f0 : Buf (Elt F) (m2Loc d)) (pay : S128.Idx → Elt F .f32) (hpay : pay = outBn (XV m d) (wL L) 15600) :
    ((m2K L).view.loc (thrV d L) ↦[(m2K L).view.set]{fullShare} (m2K L).view.writes (Elt F) f0 [⟨Rect.whole S128, pay⟩] : sProp 𝕄)
      = m2Loc d ↦[pcSet (wid (cL L) (iL L))]{fullShare} R2 m d := by
  rw [← pts_m2K (F := F) d L (R2 m d)]
  refine pointsTo_congr fun i hi => ?_
  obtain ⟨t, -, rfl⟩ := Finset.mem_map.mp hi
  subst hpay
  have he : ((m2K L).view.slice (Rect.whole S128)).emb t = (m2K L).view.emb t := by
    rw [View.emb_slice]
    show (m2K L).view.emb ((Rect.whole S128).emb t) = _
    rw [Rect.emb_whole_apply]
  have ht : (t 0).val < 128 := (t 0).isLt
  have hi0 : (((m2K L).view.emb t) 0).val = (wL L).val * 128 + (t 0).val := by
    show k0_off28 L 0 + 1 * (t 0).val = _
    rw [off28_eq]; simp
  rw [View.writes_singleton, ← he, View.write_emb_of_mem _ _ (Finset.mem_univ t), he]
  show outBn (XV m d) (wL L) 15600 t = (Val.scPair (XV m d) ((m2K L).view.emb t)).2
  unfold outBn Val.scPair
  rw [groupPair_eq (XV m d) (wL L) (t 0).val ht _ hi0]

/-- The same, the scratch's contents being what the eight stores left. -/
theorem landed1' (f0 : Buf (Elt F) (m1Loc d)) (f1 : Buf (Elt F) ((thrV d L).loc cc0_scratch2)) (Lp : List (View.Piece (Elt F) S128 .f32)) (n : ℕ)
    (hL : Lp = [(⟨Rect.unit (s := S128) ![112] S16.size inb_S128_S16_112, k0_pay88 (Avec (XV m d) (wL L) (n) 7)⟩ : View.Piece (Elt F) S128 .f32),
        (⟨Rect.unit (s := S128) ![96] S16.size inb_S128_S16_96, k0_pay86 (Avec (XV m d) (wL L) (n) 6)⟩ : View.Piece (Elt F) S128 .f32),
        (⟨Rect.unit (s := S128) ![80] S16.size inb_S128_S16_80, k0_pay84 (Avec (XV m d) (wL L) (n) 5)⟩ : View.Piece (Elt F) S128 .f32),
        (⟨Rect.unit (s := S128) ![64] S16.size inb_S128_S16_64, k0_pay82 (Avec (XV m d) (wL L) (n) 4)⟩ : View.Piece (Elt F) S128 .f32),
        (⟨Rect.unit (s := S128) ![48] S16.size inb_S128_S16_48, k0_pay80 (Avec (XV m d) (wL L) (n) 3)⟩ : View.Piece (Elt F) S128 .f32),
        (⟨Rect.unit (s := S128) ![32] S16.size inb_S128_S16_32, k0_pay78 (Avec (XV m d) (wL L) (n) 2)⟩ : View.Piece (Elt F) S128 .f32),
        (⟨Rect.unit (s := S128) ![16] S16.size inb_S128_S16_16, k0_pay76 (Avec (XV m d) (wL L) (n) 1)⟩ : View.Piece (Elt F) S128 .f32),
        (⟨Rect.unit (s := S128) ![0] S16.size inb_S128_S16_0, k0_pay74 (Avec (XV m d) (wL L) (n) 0)⟩ : View.Piece (Elt F) S128 .f32)]) (hn : n = 15600) :
    ((m1K L).view.loc (thrV d L) ↦[(m1K L).view.set]{fullShare} (m1K L).view.writes (Elt F) f0
        [⟨Rect.whole S128, ReadAs.same.apply (View.read (Elt F) (s1V).view ((s1V).view.writes (Elt F) f1 Lp))⟩] : sProp 𝕄)
      = m1Loc d ↦[pcSet (wid (cL L) (iL L))]{fullShare} R1 m d := by
  subst hn
  exact landed1 m d L f0 _ (read_out1 (XV m d) (wL L) 15600 d L f1 Lp hL)

/-- The same, the scratch's contents being what the eight stores left. -/
theorem landed2' (f0 : Buf (Elt F) (m2Loc d)) (f1 : Buf (Elt F) ((thrV d L).loc cc0_scratch3)) (Lp : List (View.Piece (Elt F) S128 .f32)) (n : ℕ)
    (hL : Lp = [(⟨Rect.unit (s := S128) ![112] S16.size inb_S128_S16_112, k0_pay89 (Bvec (XV m d) (wL L) (n) 7)⟩ : View.Piece (Elt F) S128 .f32),
        (⟨Rect.unit (s := S128) ![96] S16.size inb_S128_S16_96, k0_pay87 (Bvec (XV m d) (wL L) (n) 6)⟩ : View.Piece (Elt F) S128 .f32),
        (⟨Rect.unit (s := S128) ![80] S16.size inb_S128_S16_80, k0_pay85 (Bvec (XV m d) (wL L) (n) 5)⟩ : View.Piece (Elt F) S128 .f32),
        (⟨Rect.unit (s := S128) ![64] S16.size inb_S128_S16_64, k0_pay83 (Bvec (XV m d) (wL L) (n) 4)⟩ : View.Piece (Elt F) S128 .f32),
        (⟨Rect.unit (s := S128) ![48] S16.size inb_S128_S16_48, k0_pay81 (Bvec (XV m d) (wL L) (n) 3)⟩ : View.Piece (Elt F) S128 .f32),
        (⟨Rect.unit (s := S128) ![32] S16.size inb_S128_S16_32, k0_pay79 (Bvec (XV m d) (wL L) (n) 2)⟩ : View.Piece (Elt F) S128 .f32),
        (⟨Rect.unit (s := S128) ![16] S16.size inb_S128_S16_16, k0_pay77 (Bvec (XV m d) (wL L) (n) 1)⟩ : View.Piece (Elt F) S128 .f32),
        (⟨Rect.unit (s := S128) ![0] S16.size inb_S128_S16_0, k0_pay75 (Bvec (XV m d) (wL L) (n) 0)⟩ : View.Piece (Elt F) S128 .f32)]) (hn : n = 15600) :
    ((m2K L).view.loc (thrV d L) ↦[(m2K L).view.set]{fullShare} (m2K L).view.writes (Elt F) f0
        [⟨Rect.whole S128, ReadAs.same.apply (View.read (Elt F) (s2V).view ((s2V).view.writes (Elt F) f1 Lp))⟩] : sProp 𝕄)
      = m2Loc d ↦[pcSet (wid (cL L) (iL L))]{fullShare} R2 m d := by
  subst hn
  exact landed2 m d L f0 _ (read_out2 (XV m d) (wL L) 15600 d L f1 Lp hL)

end Tile

end Cert.Proof.Kernel

end
-- ==== Proof.Bits.TileBody.lean ====
/-
  The body of the SparseCore kernel, one tile's task: two copies of 240-row chunks in flight on two semaphores while
  the rows of the chunk before are folded into sixteen running vectors, then the sixteen vectors stored to two
  scratches and copied out to the tile's entries of the two result vectors.
-/
import proofs.«210259_g7730941132961_cont_sun_c4_476_29_alg».proof.Proof.Bits.Common
import proofs.«210259_g7730941132961_cont_sun_c4_476_29_alg».proof.Proof.Val
import proofs.«210259_g7730941132961_cont_sun_c4_476_29_alg».proof.Proof.Bits.Pay
import proofs.«210259_g7730941132961_cont_sun_c4_476_29_alg».proof.Proof.Bits.TileBodyRow
import proofs.«210259_g7730941132961_cont_sun_c4_476_29_alg».proof.Proof.Bits.TileBodyFin

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xtV" => (Memref.whole Cert.Kernel.main_v0_scv : Memref Cert.Kernel.sig Kind.scVector Space.hbm Cert.Kernel.S100000x1024 EltTy.f32)
local notation "m1V" => (Memref.whole Cert.Kernel.main_v4_0_scv : Memref Cert.Kernel.sig Kind.scVector Space.hbm Cert.Kernel.S4096 EltTy.f32)
local notation "m2V" => (Memref.whole Cert.Kernel.main_v4_1_scv : Memref Cert.Kernel.sig Kind.scVector Space.hbm Cert.Kernel.S4096 EltTy.f32)
local notation "bufA" => (Memref.whole Cert.Kernel.cc0_scratch0 : Memref Cert.Kernel.sig Kind.scVector Space.vmem Cert.Kernel.S240x128 EltTy.f32)
local notation "bufB" => (Memref.whole Cert.Kernel.cc0_scratch1 : Memref Cert.Kernel.sig Kind.scVector Space.vmem Cert.Kernel.S240x128 EltTy.f32)
local notation "s1V" => (Memref.whole Cert.Kernel.cc0_scratch2 : Memref Cert.Kernel.sig Kind.scVector Space.vmem Cert.Kernel.S128 EltTy.f32)
local notation "s2V" => (Memref.whole Cert.Kernel.cc0_scratch3 : Memref Cert.Kernel.sig Kind.scVector Space.vmem Cert.Kernel.S128 EltTy.f32)

variable [FloatOps F]

section Tile

variable (d : Dev nD) (L : grid0.Coords)

abbrev semA (d : Dev nD) (L : grid0.Coords) : GSem nD τ sig := (thrV d L, .dma cc0_scratch4.sem)
abbrev semB (d : Dev nD) (L : grid0.Coords) : GSem nD τ sig := (thrV d L, .dma cc0_scratch5.sem)
abbrev semC (d : Dev nD) (L : grid0.Coords) : GSem nD τ sig := (thrV d L, .dma cc0_scoped0.sem)
abbrev semD (d : Dev nD) (L : grid0.Coords) : GSem nD τ sig := (thrV d L, .dma cc0_scoped1.sem)

omit [FloatOps F] in
theorem ownSems0_V :
    (ownSems0 (thrV d L) : sProp 𝕄)
      = iprop(semVal (semA d L) 0 ∗ semVal (semB d L) 0 ∗ semVal (semC d L) 0 ∗ semVal (semD d L) 0
          ∗ bigSep (((((ownCells (thrV d L)).erase (semA d L)).erase (semB d L)).erase (semC d L)).erase (semD d L))
              fun g => semVal g 0) := by
  unfold SparseCore.Cfg.ownSems0
  rw [SparseCore.bigSep_erase' ((mem_ownCells (g := semA d L)).mpr ⟨rfl, by
      show (SemLoc.dma cc0_scratch4.sem : SemLoc sig).isScoped .scVector = true; decide⟩),
    SparseCore.bigSep_erase' (Finset.mem_erase.mpr ⟨by simp [semA, semB]; decide, (mem_ownCells (g := semB d L)).mpr ⟨rfl, by
      show (SemLoc.dma cc0_scratch5.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d L)).mpr ⟨rfl, by show (SemLoc.dma cc0_scoped0.sem : SemLoc sig).isScoped .scVector = true; decide⟩⟩⟩),
    SparseCore.bigSep_erase' (Finset.mem_erase.mpr ⟨by simp [semC, semD]; decide, Finset.mem_erase.mpr ⟨by simp [semB, semD]; decide,
      Finset.mem_erase.mpr ⟨by simp [semA, semD]; decide,
      (mem_ownCells (g := semD d L)).mpr ⟨rfl, by show (SemLoc.dma cc0_scoped1.sem : SemLoc sig).isScoped .scVector = true; decide⟩⟩⟩⟩)]

omit [FloatOps F] in
/-- The four scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_xt (q : PosShare TreeShare) (f : Buf (Elt F) (xtLoc d)) :
    ((xtV).view.loc (thrV d L) ↦{q} f : sProp 𝕄) = xtLoc d ↦{q} f := by
  simp only [Memref.view_whole, View.set_whole]
omit [FloatOps F] in
theorem pts_bufA (f : Buf (Elt F) ((thrV d L).loc cc0_scratch0)) :
    ((bufA).view.loc (thrV d L) ↦{fullShare} f : sProp 𝕄) = (thrV d L).loc cc0_scratch0 ↦{fullShare} f := rfl
omit [FloatOps F] in
theorem pts_bufB (f : Buf (Elt F) ((thrV d L).loc cc0_scratch1)) :
    ((bufB).view.loc (thrV d L) ↦{fullShare} f : sProp 𝕄) = (thrV d L).loc cc0_scratch1 ↦{fullShare} f := rfl
omit [FloatOps F] in
theorem pts_s1 (f : Buf (Elt F) ((thrV d L).loc cc0_scratch2)) :
    ((s1V).view.loc (thrV d L) ↦{fullShare} f : sProp 𝕄) = (thrV d L).loc cc0_scratch2 ↦{fullShare} f := rfl
omit [FloatOps F] in
theorem pts_s2 (f : Buf (Elt F) ((thrV d L).loc cc0_scratch3)) :
    ((s2V).view.loc (thrV d L) ↦{fullShare} f : sProp 𝕄) = (thrV d L).loc cc0_scratch3 ↦{fullShare} f := rfl

/-! ## A chunk's copy in flight -/

/-- Chunk `c` on its way into the first buffer: what its wait hands over, -/
abbrev FlA (c : ℕ) : sProp 𝕄 :=
  Flight countersEmb (thrV d L) (SemLoc.dma cc0_scratch4.sem) (default : HIx 1) 983040
    iprop(((bufA).view.loc (thrV d L) ↦{fullShare} (chunkB (XV m d) (wL L) c : FVec F S240x128 .f32))
      ∗ ((xtV).view.loc (thrV d L) ↦[(chunkM (wL L) c).view.set]{tokA (cL L) (iL L)} XT m d))
/-- and the rest of the read share it borrowed from. -/
abbrev RestA (c : ℕ) : sProp 𝕄 :=
  (xtV).view.loc (thrV d L) ↦[Finset.univ \ (chunkM (wL L) c).view.set]{tokA (cL L) (iL L)} XT m d
/-- The same into the second buffer. -/
abbrev FlB (c : ℕ) : sProp 𝕄 :=
  Flight countersEmb (thrV d L) (SemLoc.dma cc0_scratch5.sem) (default : HIx 1) 983040
    iprop(((bufB).view.loc (thrV d L) ↦{fullShare} (chunkB (XV m d) (wL L) c : FVec F S240x128 .f32))
      ∗ ((xtV).view.loc (thrV d L) ↦[(chunkM (wL L) c).view.set]{tokB (cL L) (iL L)} XT m d))
abbrev RestB (c : ℕ) : sProp 𝕄 :=
  (xtV).view.loc (thrV d L) ↦[Finset.univ \ (chunkM (wL L) c).view.set]{tokB (cL L) (iL L)} XT m d

/-- A copy in flight, its source the slice at the offsets the program computes and the buffer's earlier contents
    overwritten whole, is the chunk's. -/
theorem flA_norm (c : ℕ) (hc : c ≤ 64) (off : Fin 2 → ℕ) (inb) (hoff : off = ![gsW (wL L) * 15600 + min c 64 * 240, jbW (wL L) * 128])
    (fa : Buf (Elt F) ((thrV d L).loc cc0_scratch0)) :
    (Flight countersEmb (thrV d L) (SemLoc.dma cc0_scratch4.sem) (default : HIx 1) 983040
      iprop(((bufA).view.loc (thrV d L) ↦{fullShare} View.write (Elt F) (bufA).view fa
            (((xtV).slice (Rect.unit (s := S100000x1024) off S240x128.size inb) (fun _ => rfl)).view.read (Elt F) (XT m d)) Finset.univ)
        ∗ ((xtV).view.loc (thrV d L) ↦[((xtV).slice (Rect.unit (s := S100000x1024) off S240x128.size inb) (fun _ => rfl)).view.set]{tokA (cL L) (iL L)} XT m d)) : sProp 𝕄)
      ⊢ FlA m d L c := by
  subst hoff
  rw [landedA m d L (wL L) c hc fa]
theorem restA_norm (c : ℕ) (off : Fin 2 → ℕ) (inb) (hoff : off = ![gsW (wL L) * 15600 + min c 64 * 240, jbW (wL L) * 128]) :
    ((xtV).view.loc (thrV d L) ↦[Finset.univ \ ((xtV).slice (Rect.unit (s := S100000x1024) off S240x128.size inb) (fun _ => rfl)).view.set]{tokA (cL L) (iL L)} XT m d : sProp 𝕄)
      ⊢ RestA m d L c := by
  subst hoff; exact .rfl
theorem flB_norm (c : ℕ) (hc : c ≤ 64) (off : Fin 2 → ℕ) (inb) (hoff : off = ![gsW (wL L) * 15600 + min c 64 * 240, jbW (wL L) * 128])
    (fb : Buf (Elt F) ((thrV d L).loc cc0_scratch1)) :
    (Flight countersEmb (thrV d L) (SemLoc.dma cc0_scratch5.sem) (default : HIx 1) 983040
      iprop(((bufB).view.loc (thrV d L) ↦{fullShare} View.write (Elt F) (bufB).view fb
            (((xtV).slice (Rect.unit (s := S100000x1024) off S240x128.size inb) (fun _ => rfl)).view.read (Elt F) (XT m d)) Finset.univ)
        ∗ ((xtV).view.loc (thrV d L) ↦[((xtV).slice (Rect.unit (s := S100000x1024) off S240x128.size inb) (fun _ => rfl)).view.set]{tokB (cL L) (iL L)} XT m d)) : sProp 𝕄)
      ⊢ FlB m d L c := by
  subst hoff
  rw [landedB m d L (wL L) c hc fb]
theorem restB_norm (c : ℕ) (off : Fin 2 → ℕ) (inb) (hoff : off = ![gsW (wL L) * 15600 + min c 64 * 240, jbW (wL L) * 128]) :
    ((xtV).view.loc (thrV d L) ↦[Finset.univ \ ((xtV).slice (Rect.unit (s := S100000x1024) off S240x128.size inb) (fun _ => rfl)).view.set]{tokB (cL L) (iL L)} XT m d : sProp 𝕄)
      ⊢ RestB m d L c := by
  subst hoff; exact .rfl

/-! ## The invariants -/

/-- Before trip `k` of the pairs' loop: chunk `2k` on its way into the first buffer, chunk `2k + 1` into the second
    (none after the last trip: the second buffer, its semaphore and its read share are back), the carried vectors the
    pairs after `2k` chunks, the waits recorded so far at the index that may always be recorded. -/
def invO (O : CellTallies nD τ sig (HIx 1)) (W : Waits sig (HIx 1)) (k : ℕ) (acc : St F) : sProp 𝕄 :=
  iprop(Transfers.MayWaits (thrV d L) (none : HIx 1) O
    ∗ FlA m d L (2 * k) ∗ RestA m d L (2 * k)
    ∗ (if k < 32 then iprop(FlB m d L (2 * k + 1) ∗ RestB m d L (2 * k + 1))
        else iprop((∃ fb, (bufB).view.loc (thrV d L) ↦{fullShare} fb) ∗ semVal (semB d L) 0
          ∗ ((xtV).view.loc (thrV d L) ↦{tokB (cL L) (iL L)} XT m d)))
    ∗ ⌜acc = stV (XV m d) (wL L) (2 * k * 240)⌝
    ∗ ∃ W', ⌜∀ p ∈ W', p ∈ W ∨ p.2 = none⌝ ∗ owes (thrV d L) O W')

/-- Before row `r` of a chunk `c` held in the first buffer. -/
def invA (c : ℕ) (r : ℕ) (acc : St F) : sProp 𝕄 :=
  iprop(((bufA).view.loc (thrV d L) ↦{fullShare} (chunkB (XV m d) (wL L) c : FVec F S240x128 .f32))
    ∗ ⌜acc = stV (XV m d) (wL L) (c * 240 + r)⌝)
/-- The same in the second buffer. -/
def invB (c : ℕ) (r : ℕ) (acc : St F) : sProp 𝕄 :=
  iprop(((bufB).view.loc (thrV d L) ↦{fullShare} (chunkB (XV m d) (wL L) c : FVec F S240x128 .f32))
    ∗ ⌜acc = stV (XV m d) (wL L) (c * 240 + r)⌝)

theorem stV_eq (X : FVec F Val.SX .f32) (w : Fin 32) {n n' : ℕ} (h : n = n') : stV X w n = stV X w n' := by rw [h]

set_option maxHeartbeats 4000000 in
theorem body (hF : (K (F := F)).Facts) (O : CellTallies nD τ sig (HIx 1)) (W : Waits sig (HIx 1)) (hO : ∀ g, O g none = 0) :
    iprop(levAts (K (F := F)).L (K (F := F)).lev ∗ emp ∗ goT m d (cL L) (iL L)
        ∗ scopedBufs (thrV d L) ∗ scopedSems0 (thrV d L) ∗ owes (thrV d L) O W)
      ⊢ wp frame (wpE (defs₀ (F := F)) 𝒱₀ (thrV d L) none) Set.univ
          (cc0__topk_kernel L xtV (Memref.isWhole_whole _) m1V (Memref.isWhole_whole _) m2V (Memref.isWhole_whole _)
            bufA (Memref.isWhole_whole _) bufB (Memref.isWhole_whole _) s1V (Memref.isWhole_whole _) s2V (Memref.isWhole_whole _)
            cc0_scratch4 cc0_scratch5 cc0_scoped0 cc0_scoped1)
          fun _ => iprop(tdT m d (cL L) (iL L) ∗ scopedBufs (thrV d L) ∗ scopedSems0 (thrV d L)
            ∗ ∃ W', ⌜∀ p ∈ W', p ∈ W ∨ p.2 = none⌝ ∗ owes (thrV d L) O W') := by
  simp only [cc0__topk_kernel_eq_skeleton]; unfold cc0__topk_kernel_skel
  rw [(K (F := F)).scopedBufs_V hF d (cV L) (jV L), SparseCore.Cfg.scopedSems0_V (Val := Elt F) d (cV L) (jV L), ownSems0_V, ownBufs_V]
  unfold goT
  iintro ⟨#Hlv, -, ⟨HxA, HxB, Hm1, Hm2⟩, ⟨⟨%fa, Hba⟩, ⟨%fb, Hbb⟩, ⟨%f1, Hs1⟩, ⟨%f2, Hs2⟩, Hbufs⟩, ⟨HsemA, HsemB, HsemC, HsemD, Hsems⟩, HO⟩
  ihave Hmw := ((K (F := F)).mayWaits_none (thr := thrV d L) hO) $$ Hlv
  ihave HxA' := (Entails.of_eq (pts_xt (F := F) d L _ _).symm) $$ HxA
  ihave HxB' := (Entails.of_eq (pts_xt (F := F) d L _ _).symm) $$ HxB
  ihave Hba' := (Entails.of_eq (pts_bufA (F := F) d L _).symm) $$ Hba
  ihave Hbb' := (Entails.of_eq (pts_bufB (F := F) d L _).symm) $$ Hbb
  ihave Hs1' := (Entails.of_eq (pts_s1 (F := F) d L _).symm) $$ Hs1
  ihave Hs2' := (Entails.of_eq (pts_s2 (F := F) d L _).symm) $$ Hs2
  sl_exec
  -- the two copies in flight, stated over the chunks
  ihave HFA := (flA_norm m d L 0 (by omega) _ (k0_off1_inb L 0) (off1_eq0 L) fa) $$ [HsemA]
  · iexact HsemA
  ihave HRA := (restA_norm m d L 0 _ (k0_off1_inb L 0) (off1_eq0 L)) $$ [HxA']
  · iexact HxA'
  ihave HFB := (flB_norm m d L 1 (by omega) _ (k0_off1_inb L 1) (off1_eq1 L) fb) $$ [HsemB]
  · iexact HsemB
  ihave HRB := (restB_norm m d L 1 _ (k0_off1_inb L 1) (off1_eq1 L)) $$ [HxB']
  · iexact HxB'

  sl_for (invO m d L O W) $$ [Hmw HFA HRA HFB HRB HO]
  case region =>
    intro k acc
    have hk : k.val < 32 := lt_of_lt_of_eq k.isLt trips1
    have h2 : Scf.trips k0_t2_loop.lb k0_t2_loop.ub k0_t2_loop.st = 240 := trips2
    have h3 : Scf.trips k0_t3_loop.lb k0_t3_loop.ub k0_t3_loop.st = 240 := trips3
    unfold invO
    rw [if_pos hk]
    unfold FlA RestA FlB RestB
    iintro ⟨#Hmw, HFA, HRA, ⟨HFB, HRB⟩, %hacc, %W', %hW', HO⟩
    subst hacc
    have k0_h1 : k0_cond1 k = 1#1 := cond1_eq k
    sl_exec
    sl_for (invA m d L (2 * k.val)) $$ [HFA_dst]
    case region =>
      intro r acc'
      have hr : r.val < 240 := lt_of_lt_of_eq r.isLt trips2
      unfold invA
      iintro ⟨HB, %hacc'⟩
      subst hacc'
      sl_exec
      sl_step
      isplitl [HB]; · iexact HB
      ipureintro
      exact stV_step (XV m d) (wL L) (2 * k.val) r.val hr _ _ _ _ _ _ _ _
        (fun x => piece_readA d L _ _ _ r.val 0 (k0_off2_eq r) hr (by omega) x)
        (fun x => piece_readA d L _ _ _ r.val 16 (k0_off3_eq r) hr (by omega) x)
        (fun x => piece_readA d L _ _ _ r.val 32 (k0_off4_eq r) hr (by omega) x)
        (fun x => piece_readA d L _ _ _ r.val 48 (k0_off5_eq r) hr (by omega) x)
        (fun x => piece_readA d L _ _ _ r.val 64 (k0_off6_eq r) hr (by omega) x)
        (fun x => piece_readA d L _ _ _ r.val 80 (k0_off7_eq r) hr (by omega) x)
        (fun x => piece_readA d L _ _ _ r.val 96 (k0_off8_eq r) hr (by omega) x)
        (fun x => piece_readA d L _ _ _ r.val 112 (k0_off9_eq r) hr (by omega) x)
    · unfold invA
      isplitl [HFA_dst]; · iexact HFA_dst
      ipureintro; rfl
    iintro %acc1 HI
    unfold invA
    icases HI with ⟨HbA, %hacc1⟩
    subst hacc1
    sl_exec
    ihave HFA' := (flA_norm m d L (2 * k.val + 2) (by omega) _ (k0_off10_inb L k k0_h1) (off10_eq L k) _) $$ [HFA]
    · iexact HFA
    ihave HRA' := (restA_norm m d L (2 * k.val + 2) _ (k0_off10_inb L k k0_h1) (off10_eq L k)) $$ [HRA]
    · iexact HRA
    sl_for (invB m d L (2 * k.val + 1)) $$ [HFB_dst]
    case region =>
      intro r acc'
      have hr : r.val < 240 := lt_of_lt_of_eq r.isLt trips3
      unfold invB
      iintro ⟨HB, %hacc'⟩
      subst hacc'
      sl_exec
      sl_step
      isplitl [HB]; · iexact HB
      ipureintro
      exact stV_step (XV m d) (wL L) (2 * k.val + 1) r.val hr _ _ _ _ _ _ _ _
        (fun x => piece_readB d L _ _ _ r.val 0 (k0_off11_eq r) hr (by omega) x)
        (fun x => piece_readB d L _ _ _ r.val 16 (k0_off12_eq r) hr (by omega) x)
        (fun x => piece_readB d L _ _ _ r.val 32 (k0_off13_eq r) hr (by omega) x)
        (fun x => piece_readB d L _ _ _ r.val 48 (k0_off14_eq r) hr (by omega) x)
        (fun x => piece_readB d L _ _ _ r.val 64 (k0_off15_eq r) hr (by omega) x)
        (fun x => piece_readB d L _ _ _ r.val 80 (k0_off16_eq r) hr (by omega) x)
        (fun x => piece_readB d L _ _ _ r.val 96 (k0_off17_eq r) hr (by omega) x)
        (fun x => piece_readB d L _ _ _ r.val 112 (k0_off18_eq r) hr (by omega) x)
    · unfold invB
      isplitl [HFB_dst]; · iexact HFB_dst
      ipureintro
      exact stV_eq _ _ (by omega)
    iintro %acc2 HI
    unfold invB
    icases HI with ⟨HbB, %hacc2⟩
    subst hacc2
    by_cases hk31 : k.val < 31
    · have k0_h2 : k0_cond2 k = 1#1 := by rw [cond2_eq, if_pos hk31]
      rw [if_pos (by omega : k.val + 1 < 32)]
      sl_exec
      ihave HFB' := (flB_norm m d L (2 * k.val + 3) (by omega) _ (k0_off19_inb L k k0_h2) (off19_eq L k hk31) _) $$ [HFB]
      · iexact HFB
      ihave HRB' := (restB_norm m d L (2 * k.val + 3) _ (k0_off19_inb L k k0_h2) (off19_eq L k hk31)) $$ [HRB]
      · iexact HRB
      sl_step
      isplitr; · iexact Hmw
      isplitl [HFA']; · iexact HFA'
      isplitl [HRA']; · iexact HRA'
      isplitl [HFB' HRB']
      · isplitl [HFB']; · iexact HFB'
        iexact HRB'
      isplitr; · ipureintro; exact stV_eq _ _ (by omega)
      iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        exact hW' p hp
    · have k0_h2 : ¬ k0_cond2 k = 1#1 := by rw [cond2_eq, if_neg hk31]; decide
      rw [if_neg (by omega : ¬ k.val + 1 < 32)]
      sl_exec
      sl_step
      isplitr; · iexact Hmw
      isplitl [HFA']; · iexact HFA'
      isplitl [HRA']; · iexact HRA'
      isplitl [HbB HFB HRB]
      · isplitl [HbB]; · iexists _; iexact HbB
        isplitl [HFB]; · iexact HFB
        iexact HRB
      isplitr; · ipureintro; exact stV_eq _ _ (by omega)
      iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        exact hW' p hp
  · unfold invO
    rw [if_pos (by omega : 0 < 32)]
    isplitr; · iexact Hmw
    isplitl [HFA]; · iexact HFA
    isplitl [HRA]; · iexact HRA
    isplitl [HFB HRB]
    · isplitl [HFB]; · iexact HFB
      iexact HRB
    isplitr; · ipureintro; rfl
    iexists W; isplitr
    · ipureintro; exact fun p hp => .inl hp
    · iexact HO
  iintro %accO HI
  have h1 : Scf.trips k0_t1_loop.lb k0_t1_loop.ub k0_t1_loop.st = 32 := trips1
  have h4 : Scf.trips k0_t4_loop.lb k0_t4_loop.ub k0_t4_loop.st = 240 := trips4
  obtain ⟨kk, hkk⟩ : ∃ kk : ℕ, kk = 32 := ⟨_, rfl⟩
  rw [h1, ← hkk]
  unfold invO
  rw [if_neg (by omega : ¬ kk < 32)]
  unfold FlA RestA
  icases HI with ⟨-, HFA, HRA, ⟨⟨%fb', Hbb⟩, HsemB, HxB⟩, %hacc, %W', %hW', HO⟩
  subst hacc
  sl_exec
  sl_for (invA m d L (2 * kk)) $$ [HFA_dst]
  case region =>
    intro r acc'
    have hr : r.val < 240 := lt_of_lt_of_eq r.isLt trips4
    unfold invA
    iintro ⟨HB, %hacc'⟩
    subst hacc'
    sl_exec
    sl_step
    isplitl [HB]; · iexact HB
    ipureintro
    exact stV_step (XV m d) (wL L) (2 * kk) r.val hr _ _ _ _ _ _ _ _
      (fun x => piece_readA d L _ _ _ r.val 0 (k0_off20_eq r) hr (by omega) x)
      (fun x => piece_readA d L _ _ _ r.val 16 (k0_off21_eq r) hr (by omega) x)
      (fun x => piece_readA d L _ _ _ r.val 32 (k0_off22_eq r) hr (by omega) x)
      (fun x => piece_readA d L _ _ _ r.val 48 (k0_off23_eq r) hr (by omega) x)
      (fun x => piece_readA d L _ _ _ r.val 64 (k0_off24_eq r) hr (by omega) x)
      (fun x => piece_readA d L _ _ _ r.val 80 (k0_off25_eq r) hr (by omega) x)
      (fun x => piece_readA d L _ _ _ r.val 96 (k0_off26_eq r) hr (by omega) x)
      (fun x => piece_readA d L _ _ _ r.val 112 (k0_off27_eq r) hr (by omega) x)
  · unfold invA
    isplitl [HFA_dst]; · iexact HFA_dst
    ipureintro; rfl
  iintro %acc4 HI
  unfold invA
  icases HI with ⟨HbA, %hacc4⟩
  subst hacc4
  rw [h4]
  ihave Hm1' := (Entails.of_eq (pts_m1K (F := F) d L _).symm) $$ Hm1
  ihave Hm2' := (Entails.of_eq (pts_m2K (F := F) d L _).symm) $$ Hm2
  sl_exec
  sl_step
  unfold tdT
  ihave Hm1'' := (Entails.of_eq (landed1' m d L _ f1 _ (2 * kk * 240 + 240) rfl (by omega))) $$ [Hm1']
  · iexact Hm1'
  ihave Hm2'' := (Entails.of_eq (landed2' m d L _ f2 _ (2 * kk * 240 + 240) rfl (by omega))) $$ [Hm2']
  · iexact Hm2'
  ihave HxA'' := (Entails.of_eq (pts_xt (F := F) d L _ _)) $$ HRA
  ihave HxB'' := (Entails.of_eq (pts_xt (F := F) d L _ _)) $$ HxB
  isplitl [HxA'' HxB'' Hm1'' Hm2'']
  · isplitl [HxA'']; · iexact HxA''
    isplitl [HxB'']; · iexact HxB''
    isplitl [Hm1'']; · iexact Hm1''
    iexact Hm2''
  isplitl [HbA Hbb Hs1' Hs2' Hbufs]
  · isplitl [HbA]; · iexists _; iexact HbA
    isplitl [Hbb]; · iexists _; iexact Hbb
    isplitl [Hs1']; · iexists _; iexact Hs1'
    isplitl [Hs2']; · iexists _; iexact Hs2'
    iexact Hbufs
  isplitl [HFA HsemB HsemC HsemD Hsems]
  · isplitl [HFA]; · iexact HFA
    isplitl [HsemB]; · iexact HsemB
    isplitl [HsemC]; · iexact HsemC
    isplitl [HsemD]; · iexact HsemD
    iexact Hsems
  iexists _; isplitr
  swap
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW' p hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__topk_kernel (coordsV c s)
          xtV (Memref.isWhole_whole _) m1V (Memref.isWhole_whole _) m2V (Memref.isWhole_whole _)
          bufA (Memref.isWhole_whole _) bufB (Memref.isWhole_whole _) s1V (Memref.isWhole_whole _) s2V (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task: from its two read shares of the transposed input and its entries of the two result vectors to the
    same with the entries at the row group's pairs. -/
theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (body m d (coordsV ⟨_, hc.1⟩ ⟨_, hc.2⟩) facts O W hO).trans (wp_mono frame _ _ fun _ => obl_post)

end Cert.Proof.Kernel

end
-- ==== Proof.Bits.RegionsDat.lean ====
/-
  The proof data of the two TensorCore kernel regions: per region the arrays' contents at entry, what each window's
  staging buffer holds after the body at each point, the invariant (the scoped buffers the region does not stage,
  passed through unread), nothing owed, and the bound on the recorded waits.
  Region 0 (47 points): the block of the transposed input at point t is rows 62400 + 800 t .. 62400 + 800 t + 799; the
  two results' buffers, written back at the last point only, hold after point t the pairs of the first 800 (t + 1) rows.
  Region 1 (one point): the five operands as fetched; the result at the joined pairs' difference.
-/
import proofs.«210259_g7730941132961_cont_sun_c4_476_29_alg».proof.Proof.Bits.TcStates
import proofs.«210259_g7730941132961_cont_sun_c4_476_29_alg».proof.Proof.Bits.Ghost
import Idealize.ShloMosaic.Lib.Pipeline.Frame
import Idealize.ShloMosaic.Lib.Pipeline.FrameBody
import Idealize.ShloMosaic.Lib.Pipeline.Value

noncomputable section

namespace Cert.Proof.Kernel

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type}

local notation "𝕄" => MT nD τ sig (HIx 1) (Elt F) ℕ UU ℕ

variable (m : (ℓ : Loc nD τ sig) → Buf (Elt F) ℓ)

variable [FloatOps F]

/-- The pairs a TensorCore's recorded waits may name: those at or below level 8 (the pipeline loop's own, at the index
    of its credit tokens, sit at level 0). -/
def recBelow (c : Dev nD) : Set (SemLoc sig × HIx 1) := {p | (K (F := F)).lev (SparseCore.T c, p.1) p.2 ≤ 8}

/-- The thread states the regions are entered from: as `preTopk` / `preComb`, the results at the launch memory's contents. -/
def preTopkN (d : Dev nD) : sProp 𝕄 :=
  iprop(tcOw d ∗ (xtLoc d ↦{fullShare} XT m d) ∗ (t1Loc d ↦{fullShare} m (t1Loc d)) ∗ (t2Loc d ↦{fullShare} m (t2Loc d)))
def preCombN (d : Dev nD) (C : Buf (Elt F) (clsLoc d)) : sProp 𝕄 :=
  iprop(tcOw d ∗ (m1Loc d ↦{fullShare} R1 m d) ∗ (m2Loc d ↦{fullShare} R2 m d) ∗ (t1Loc d ↦{fullShare} T1 m d) ∗ (t2Loc d ↦{fullShare} T2 m d)
    ∗ (clsLoc d ↦{fullShare} C) ∗ (outLoc d ↦{fullShare} m (outLoc d)))

/-- The block of the transposed input the first kernel's window 0 stages at point `t`, read off the array. -/
def iblkT (c : Dev nD) (t : Fin cfg1.N) : ((cfg1.win 0).xblock (cfg1.grid.coords t)).Idx → Elt F (cfg1.win 0).elt :=
  ((cfg1.win 0).blk t).view.read (Elt F) (XT m c)

/-- Region 0's proof data on core `c`. -/
def datTopk (c : Dev nD) : Dat τ (Elt F) (HIx 1) ℕ UU ℕ cfg1 c where
  A w := match w with
    | ⟨0, _⟩ => XT m c
    | ⟨1, _⟩ => m (t1Loc c)
    | ⟨2, _⟩ => m (t2Loc c)
  after w t := match w with
    | ⟨0, _⟩ => iblkT m c t
    | ⟨1, _⟩ => fun b => (Val.tcPairN (F := F) (XT m c) ((t.val + 1) * 800) b).1
    | ⟨2, _⟩ => fun b => (Val.tcPairN (F := F) (XT m c) ((t.val + 1) * 800) b).2
  Φ _ := Pipeline.scopedRest (Ix := HIx 1) (Name := ℕ) (U := UU) (Lvl := ℕ) (Val := Elt F) spec1 c
  q _ := fullShare
  owed _ := 0
  recorded _ := recBelow (F := F) c

/-- Region 1's proof data on core `c`, from the target entries `C`. -/
def datComb (C : (d : Dev nD) → Buf (Elt F) (clsLoc d)) (c : Dev nD) : Dat τ (Elt F) (HIx 1) ℕ UU ℕ cfg2 c where
  A w := match w with
    | ⟨0, _⟩ => R1 m c
    | ⟨1, _⟩ => R2 m c
    | ⟨2, _⟩ => T1 m c
    | ⟨3, _⟩ => T2 m c
    | ⟨4, _⟩ => C c
    | ⟨5, _⟩ => m (outLoc c)
  after w _ := match w with
    | ⟨0, _⟩ => (R1 m c : FVec F S4096 .f32)
    | ⟨1, _⟩ => (R2 m c : FVec F S4096 .f32)
    | ⟨2, _⟩ => (T1 m c : FVec F S1024 .f32)
    | ⟨3, _⟩ => (T2 m c : FVec F S1024 .f32)
    | ⟨4, _⟩ => (C c : FVec F S1024 .f32)
    | ⟨5, _⟩ => (OUT m c (C c) : FVec F S1024 .f32)
  Φ _ := Pipeline.scopedRest (Ix := HIx 1) (Name := ℕ) (U := UU) (Lvl := ℕ) (Val := Elt F) spec2 c
  q _ := fullShare
  owed _ := 0
  recorded _ := recBelow (F := F) c

/-- The two regions' proof data, by pipeline. -/
def pdats (C : (d : Dev nD) → Buf (Elt F) (clsLoc d)) :
    (p : Fin 2) → (c : Dev nD) → Dat τ (Elt F) (HIx 1) ℕ UU ℕ (Pipeline.pin (pcfgs (F := F)) adm p) c
  | ⟨0, _⟩ => datTopk m
  | ⟨1, _⟩ => datComb m C

/-! ## What both regions' entries and exits share -/

/-- The TensorCore's debt as the pipeline loop holds it, from the thread state's: every recorded wait sits at or below level 8. -/
theorem owesAt_of_tcOw {cfg : Cfg sig Λ₀} (c : Dev nD) (dat : Dat τ (Elt F) (HIx 1) ℕ UU ℕ cfg c)
    (ho : ∀ t, dat.owed t = 0) (hr : ∀ t, dat.recorded t = recBelow (F := F) c) (t : Fin (cfg.N + 1)) :
    (tcOw (F := F) c : sProp 𝕄) ⊢ dat.owesAt none t := by
  unfold tcOw Pipeline.Dat.owesAt Pipeline.owesWithin
  iintro ⟨%W, %hW, HO⟩
  iexists W; isplitr
  · ipureintro; intro p hp; exact Or.inl (by rw [hr]; exact hW p hp)
  rw [ho]; iexact HO

/-- and back: the loop's own waits, recorded at the index of its credit tokens, sit at level 0. -/
theorem tcOw_of_owesAt {cfg : Cfg sig Λ₀} (c : Dev nD) (dat : Dat τ (Elt F) (HIx 1) ℕ UU ℕ cfg c)
    (ho : ∀ t, dat.owed t = 0) (hr : ∀ t, dat.recorded t = recBelow (F := F) c) (t : Fin (cfg.N + 1)) :
    dat.owesAt none t ⊢ (tcOw (F := F) c : sProp 𝕄) := by
  unfold tcOw Pipeline.Dat.owesAt Pipeline.owesWithin
  iintro ⟨%W, %hW, HO⟩
  iexists W; isplitr
  · ipureintro; intro p hp
    rcases hW hp with h | ⟨w, s, rfl⟩
    · rw [hr] at h; exact h
    · show (K (F := F)).lev _ none ≤ 8
      rw [SparseCore.Cfg.lev_none]; exact Nat.zero_le _
  rw [ho]; iexact HO

end Cert.Proof.Kernel

end
-- ==== Proof.Bits.RegionsComb.lean ====
/-
  The second TensorCore kernel region (no grid: one point): its six windows are whole arrays; the body loads the
  four row groups' pairs and the first kernel's pair, joins the five, and stores the target's entry minus the larger
  of the others. Here: what the body finds in its operands' buffers, the body's run on any whole staging memrefs,
  what the run's one covering store leaves as a value, the body obligation, and the region's record.
-/
import proofs.«210259_g7730941132961_cont_sun_c4_476_29_alg».proof.Proof.Bits.RegionsDat
import Idealize.ShloMosaic.Lib.Pipeline.Regions
import Idealize.ShloMosaic.Lib.Ring
import Idealize.ShloMosaic.Lib.Tactic

noncomputable section

namespace Cert.Proof.Kernel

open Cert.Kernel Cert.Kernel.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type}

local notation "𝕄" => MT nD τ sig (HIx 1) (Elt F) ℕ UU ℕ

variable (m : (ℓ : Loc nD τ sig) → Buf (Elt F) ℓ)

variable [FloatOps F]

/-! ## What the body finds in its operands' buffers -/

/-- A whole-array window's buffer, once fetched, holds the array: the block index is zero and the block the array. -/
local macro "before_whole_tac" w:term "," X:term "," tt:term : tactic => `(tactic| (
  unfold Dat.fetched Dat.blockOf
  dsimp only [datComb]
  funext j
  have hm : (win2 $w).moved (grid2.coords $tt) j = true := ((win2 $w).moved_iff _ j).mpr fun a => (j a).isLt
  unfold Window.fill; rw [dif_pos hm, View.read_apply]
  refine (cast_eq _ _).trans (congrArg $X ?_)
  funext a; apply Fin.ext
  rw [View.emb_slice, Function.Embedding.trans_apply]
  show (((win2 $w).rect $tt).emb _ a : Nat) = _
  rw [Window.rect_emb_val]
  show 0 * _ + (j a : Nat) = j a
  omega))

theorem beforeC_0 (C) (c : Dev nD) (t : Fin cfg2.N) (d) : (datComb m C c).before 0 t d = (R1 m c : FVec F S4096 .f32) := by
  rw [Dat.before_fetched _ 0 t (fetch2_0 t)]; before_whole_tac 0, (R1 m c), t
theorem beforeC_1 (C) (c : Dev nD) (t : Fin cfg2.N) (d) : (datComb m C c).before 1 t d = (R2 m c : FVec F S4096 .f32) := by
  rw [Dat.before_fetched _ 1 t (fetch2_1 t)]; before_whole_tac 1, (R2 m c), t
theorem beforeC_2 (C) (c : Dev nD) (t : Fin cfg2.N) (d) : (datComb m C c).before 2 t d = (T1 m c : FVec F S1024 .f32) := by
  rw [Dat.before_fetched _ 2 t (fetch2_2 t)]; before_whole_tac 2, (T1 m c), t
theorem beforeC_3 (C) (c : Dev nD) (t : Fin cfg2.N) (d) : (datComb m C c).before 3 t d = (T2 m c : FVec F S1024 .f32) := by
  rw [Dat.before_fetched _ 3 t (fetch2_3 t)]; before_whole_tac 3, (T2 m c), t
theorem beforeC_4 (C : (d : Dev nD) → Buf (Elt F) (clsLoc d)) (c : Dev nD) (t : Fin cfg2.N) (d) : (datComb m C c).before 4 t d = (C c : FVec F S1024 .f32) := by
  rw [Dat.before_fetched _ 4 t (fetch2_4 t)]; before_whole_tac 4, (C c), t

theorem afterC_0 (C) (c : Dev nD) (t : Fin cfg2.N) : (datComb m C c).after 0 t = (R1 m c : FVec F S4096 .f32) := by dsimp only [datComb]
theorem afterC_1 (C) (c : Dev nD) (t : Fin cfg2.N) : (datComb m C c).after 1 t = (R2 m c : FVec F S4096 .f32) := by dsimp only [datComb]
theorem afterC_2 (C) (c : Dev nD) (t : Fin cfg2.N) : (datComb m C c).after 2 t = (T1 m c : FVec F S1024 .f32) := by dsimp only [datComb]
theorem afterC_3 (C) (c : Dev nD) (t : Fin cfg2.N) : (datComb m C c).after 3 t = (T2 m c : FVec F S1024 .f32) := by dsimp only [datComb]
theorem afterC_4 (C : (d : Dev nD) → Buf (Elt F) (clsLoc d)) (c : Dev nD) (t : Fin cfg2.N) : (datComb m C c).after 4 t = (C c : FVec F S1024 .f32) := by dsimp only [datComb]
theorem afterC_5 (C) (c : Dev nD) (t : Fin cfg2.N) : (datComb m C c).after 5 t = (OUT m c (C c) : FVec F S1024 .f32) := by dsimp only [datComb]

/-! ## The body on any whole staging memrefs -/

set_option maxHeartbeats 1600000 in
/-- What the body's one store leaves in the result's staging memref, as pieces, WITH the proof that on whole staging
    memrefs — the five operands' at their contents, the result's at anything — the body runs to the continuation
    holding the operands' as they were and the result's buffer with the pieces written. -/
noncomputable def combRun (c : Dev nD)
    (a0 : Memref sig .tc .vmem S4096 .f32) (h0 : a0.IsWhole) (a1 : Memref sig .tc .vmem S4096 .f32) (h1 : a1.IsWhole)
    (a2 : Memref sig .tc .vmem S1024 .f32) (h2 : a2.IsWhole) (a3 : Memref sig .tc .vmem S1024 .f32) (h3 : a3.IsWhole)
    (a4 : Memref sig .tc .vmem S1024 .f32) (h4 : a4.IsWhole) (a5 : Memref sig .tc .vmem S1024 .f32) (h5 : a5.IsWhole)
    (x0 x1 : Vec F S4096 .f32) (x2 x3 x4 : Vec F S1024 .f32) :
    { L : List (View.Piece (Elt F) S1024 .f32) //
      ∀ (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ (∃ X, owns (c : Thread nD τ) a5 fullShare X)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L)) -∗ K ⟨⟩))
          ⊢ wp frame (wpE (defs₀ (F := F)) Variants.none c none) Set.univ (cc2__comb_body (F := F) a0 h0 a1 h1 a2 h2 a3 h3 a4 h4 a5 h5) K } := by
  refine ⟨?_, fun K => ?run⟩
  case run =>
    simp only [cc2__comb_body_eq_skeleton]; unfold cc2__comb_body_skel
    unfold owns
    iintro ⟨⟨%f0, %hf0, H0⟩, ⟨%f1, %hf1, H1⟩, ⟨%f2, %hf2, H2⟩, ⟨%f3, %hf3, H3⟩, ⟨%f4, %hf4, H4⟩, ⟨%X5, %f5, %hf5, H5⟩, Hk⟩
    obtain rfl := h0.eq_unread hf0; obtain rfl := h1.eq_unread hf1; obtain rfl := h2.eq_unread hf2
    obtain rfl := h3.eq_unread hf3; obtain rfl := h4.eq_unread hf4
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

/-! ## What the one store leaves, as a value -/

theorem hz1 : (![0] : Fin 1 → Nat) = fun _ => 0 := funext fun a => by fin_cases a; rfl

/-- A load of 1024 consecutive entries of a 4096-vector from offset `j * 1024`, read at `b`: entry `j * 1024 + b`. -/
theorem ld_4k (x : Vec F S4096 .f32) (off j : ℕ) (hoff : off = j * 1024)
    (inb : ∀ a, (![off] : Fin 1 → ℕ) a + S1024.size a ≤ S4096.size a) (b : S1024.Idx) (h : j * 1024 + (b 0).val < 4096) :
    View.ld x (Rect.unit (s := S4096) ![off] S1024.size inb) b = x (ix1 ⟨j * 1024 + (b 0).val, h⟩) := by
  subst hoff
  refine congrArg x (funext fun a => Fin.ext ?_)
  match a with
  | ⟨0, _⟩ => show j * 1024 + 1 * (b 0 : Nat) = j * 1024 + (b 0).val; omega

/-- The run's pieces, read back, are the five pairs joined and the target's entry less the larger of the others. -/
theorem combRun_val (c : Dev nD)
    (a0 : Memref sig .tc .vmem S4096 .f32) (h0 : a0.IsWhole) (a1 : Memref sig .tc .vmem S4096 .f32) (h1 : a1.IsWhole)
    (a2 : Memref sig .tc .vmem S1024 .f32) (h2 : a2.IsWhole) (a3 : Memref sig .tc .vmem S1024 .f32) (h3 : a3.IsWhole)
    (a4 : Memref sig .tc .vmem S1024 .f32) (h4 : a4.IsWhole) (a5 : Memref sig .tc .vmem S1024 .f32) (h5 : a5.IsWhole)
    (x0 x1 : Vec F S4096 .f32) (x2 x3 x4 : Vec F S1024 .f32) :
    View.canon (combRun (F := F) c a0 h0 a1 h1 a2 h2 a3 h3 a4 h4 a5 h5 x0 x1 x2 x3 x4).1 = Val.out (F := F) x0 x1 x2 x3 x4 := by
  unfold combRun
  dsimp only
  rw [View.canon_unit_zero hz1]
  unfold k2_pay1
  simp only [View.readAt_eq_ld, h0.read_unread, h1.read_unread, h2.read_unread, h3.read_unread, h4.read_unread,
    View.ld_unit_zero (S := S1024) hz1, shapeCast_self]
  funext b
  have hb : (b 0).val < 1024 := (b 0).isLt
  simp only [subf, select, cmpf, maximumf, minimumf]
  rw [ld_4k x0 0 0 rfl _ b (by omega), ld_4k x0 1024 1 rfl _ b (by omega), ld_4k x0 2048 2 rfl _ b (by omega), ld_4k x0 3072 3 rfl _ b (by omega),
    ld_4k x1 0 0 rfl _ b (by omega), ld_4k x1 1024 1 rfl _ b (by omega), ld_4k x1 2048 2 rfl _ b (by omega), ld_4k x1 3072 3 rfl _ b (by omega)]
  rw [show x2 b = x2 (ix1 (b 0)) from congrArg x2 (eq_ix1 b), show x3 b = x3 (ix1 (b 0)) from congrArg x3 (eq_ix1 b)]
  rfl

/-- Its one piece covers the block. -/
theorem combRun_cover (c : Dev nD)
    (a0 : Memref sig .tc .vmem S4096 .f32) (h0 : a0.IsWhole) (a1 : Memref sig .tc .vmem S4096 .f32) (h1 : a1.IsWhole)
    (a2 : Memref sig .tc .vmem S1024 .f32) (h2 : a2.IsWhole) (a3 : Memref sig .tc .vmem S1024 .f32) (h3 : a3.IsWhole)
    (a4 : Memref sig .tc .vmem S1024 .f32) (h4 : a4.IsWhole) (a5 : Memref sig .tc .vmem S1024 .f32) (h5 : a5.IsWhole)
    (x0 x1 : Vec F S4096 .f32) (x2 x3 x4 : Vec F S1024 .f32) (y : S1024.Idx) :
    ∃ pc ∈ (combRun (F := F) c a0 h0 a1 h1 a2 h2 a3 h3 a4 h4 a5 h5 x0 x1 x2 x3 x4).1, y ∈ pc.1.set := by
  unfold combRun
  dsimp only
  exact ⟨_, List.mem_singleton_self _, View.mem_set_unit_zero hz1 inb_S1024_S1024_0 y⟩

/-! ## The body obligation -/

/-- Each window's staging memref at the one point, as the pipeline passes it. -/
abbrev msC_0 (t : Fin cfg2.N) : Memref sig .tc .vmem S4096 .f32 := win2_0.stage (cfg2.slots t 0)
abbrev msC_1 (t : Fin cfg2.N) : Memref sig .tc .vmem S4096 .f32 := win2_1.stage (cfg2.slots t 1)
abbrev msC_2 (t : Fin cfg2.N) : Memref sig .tc .vmem S1024 .f32 := win2_2.stage (cfg2.slots t 2)
abbrev msC_3 (t : Fin cfg2.N) : Memref sig .tc .vmem S1024 .f32 := win2_3.stage (cfg2.slots t 3)
abbrev msC_4 (t : Fin cfg2.N) : Memref sig .tc .vmem S1024 .f32 := win2_4.stage (cfg2.slots t 4)
abbrev msC_5 (t : Fin cfg2.N) : Memref sig .tc .vmem S1024 .f32 := win2_5.stage (cfg2.slots t 5)

/-- What the body is called with at the point (the body obligation's precondition, the windows one by one), -/
def bodyPreC (C : (d : Dev nD) → Buf (Elt F) (clsLoc d)) (c : Dev nD) (t : Fin cfg2.N) : sProp 𝕄 :=
  iprop((datComb m C c).Φ t.castSucc ∗ (datComb m C c).owesAt none t.castSucc
    ∗ (∃ d, owns (c : Thread nD τ) (msC_0 t) fullShare ((datComb m C c).before 0 t d))
    ∗ (∃ d, owns (c : Thread nD τ) (msC_1 t) fullShare ((datComb m C c).before 1 t d))
    ∗ (∃ d, owns (c : Thread nD τ) (msC_2 t) fullShare ((datComb m C c).before 2 t d))
    ∗ (∃ d, owns (c : Thread nD τ) (msC_3 t) fullShare ((datComb m C c).before 3 t d))
    ∗ (∃ d, owns (c : Thread nD τ) (msC_4 t) fullShare ((datComb m C c).before 4 t d))
    ∗ (∃ d, owns (c : Thread nD τ) (msC_5 t) fullShare ((datComb m C c).before 5 t d)))

/-- and what it returns. -/
def bodyPostC (C : (d : Dev nD) → Buf (Elt F) (clsLoc d)) (c : Dev nD) (t : Fin cfg2.N) : sProp 𝕄 :=
  iprop((datComb m C c).Φ t.succ ∗ (datComb m C c).owesAt none t.succ
    ∗ owns (c : Thread nD τ) (msC_0 t) fullShare ((datComb m C c).after 0 t)
    ∗ owns (c : Thread nD τ) (msC_1 t) fullShare ((datComb m C c).after 1 t)
    ∗ owns (c : Thread nD τ) (msC_2 t) fullShare ((datComb m C c).after 2 t)
    ∗ owns (c : Thread nD τ) (msC_3 t) fullShare ((datComb m C c).after 3 t)
    ∗ owns (c : Thread nD τ) (msC_4 t) fullShare ((datComb m C c).after 4 t)
    ∗ owns (c : Thread nD τ) (msC_5 t) fullShare ((datComb m C c).after 5 t))

set_option maxHeartbeats 800000 in
/-- The body at the point: the operands' memrefs hold the arrays; the run applies; the result's memref ends at the
    run's pieces read back, which are `OUT`; nothing is owed throughout. -/
theorem sound_bodyC (C : (d : Dev nD) → Buf (Elt F) (clsLoc d)) (c : Dev nD) (t : Fin cfg2.N) :
    bodyPreC m C c t ⊢ wp frame (wpE (defs₀ (F := F)) Variants.none c none) Set.univ (bodyAt2 t) (fun _ => bodyPostC m C c t) := by
  unfold bodyPreC bodyPostC bodyAt2
  simp only [beforeC_0, beforeC_1, beforeC_2, beforeC_3, beforeC_4]
  rw [show (datComb m C c).Φ t.succ = (datComb m C c).Φ t.castSucc from rfl,
    show (datComb m C c).owesAt none t.succ = (datComb m C c).owesAt none t.castSucc from rfl,
    afterC_0, afterC_1, afterC_2, afterC_3, afterC_4, afterC_5]
  iintro ⟨HΦ, Ho, ⟨%d0, H0⟩, ⟨%d1, H1⟩, ⟨%d2, H2⟩, ⟨%d3, H3⟩, ⟨%d4, H4⟩, ⟨%d5, H5⟩⟩
  iapply ((combRun c _ (hstage2_0 0) _ (hstage2_1 0) _ (hstage2_2 0) _ (hstage2_3 0) _ (hstage2_4 0) _ (hstage2_5 0)
    (R1 m c : FVec F S4096 .f32) (R2 m c : FVec F S4096 .f32) (T1 m c : FVec F S1024 .f32) (T2 m c : FVec F S1024 .f32) (C c : FVec F S1024 .f32)).2 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [View.read_writes_eq_canon _ _ _ (combRun_cover c _ _ _ _ _ _ _ _ _ _ _ _ _ _ _ _ _), combRun_val]
  rfl

/-- The library's body obligation, at the one point. -/
theorem body_obligationC (C : (d : Dev nD) → Buf (Elt F) (clsLoc d)) (c : Dev nD) :
    BodyObligation (datComb (F := F) m C c) (defs₀ (F := F)) Variants.none (none : HIx 1) Set.univ := fun t => by
  rw [bigSep_W2, bigSep_W2]
  exact sound_bodyC m C c t

/-! ## The region's record -/

/-- The region's arrays at contents `Fa`, array by array. -/
theorem arraysC_eq (C : (d : Dev nD) → Buf (Elt F) (clsLoc d)) (c : Dev nD) (Fa) :
    ((pdats (F := F) m C 1 c).arrays Fa : sProp 𝕄)
      = iprop((m1Loc c ↦{fullShare} Fa 0) ∗ (m2Loc c ↦{fullShare} Fa 1) ∗ (t1Loc c ↦{fullShare} Fa 2) ∗ (t2Loc c ↦{fullShare} Fa 3)
          ∗ (clsLoc c ↦{fullShare} Fa 4) ∗ (outLoc c ↦{fullShare} Fa 5)) := by
  rw [Pipeline.arrays_eq (Pipeline.pin (pcfgs (F := F)) adm) (pdats m C) 1 c launch2.arr_whole ((pdats m C 1 c).share_full fun _ => rfl) Fa, bigSep_W2]
  rfl

omit [FloatOps F] in
theorem bigSep_Fin0 (Φ : Fin 0 → sProp 𝕄) : bigSep Finset.univ Φ = (BI.emp : sProp 𝕄) := bigSep_univ_eq_bigSepL [] (by decide) (by decide) Φ

theorem prefHeldC (c : Dev nD) (q) (pf) :
    (Pipeline.prefHeld (Ix := HIx 1) (Name := ℕ) (U := UU) (Lvl := ℕ) (Val := Elt F) (pcfgs (F := F) 1).pre c q pf : sProp 𝕄) = BI.emp :=
  bigSep_Fin0 _

/-- The result array after the one write-back: the whole array is the block. -/
theorem arrAtC_5 (C : (d : Dev nD) → Buf (Elt F) (clsLoc d)) (c : Dev nD) :
    (datComb (F := F) m C c).arrAt 5 cfg2.N = OUT m c (C c) := by
  refine (datComb m C c).arrAt_eq_of_cover 5 (OUT m c (C c)) (fun t _ => ?_) fun i => ⟨t2_0, flush2_5 t2_0, ?_⟩
  · show (cfg2.win 5).cut (grid2.coords t) ((datComb m C c).after 5 t) = _
    rw [afterC_5]
    funext j
    rw [View.read_apply]
    refine ((cast_eq _ _).trans (congrArg (OUT m c (C c)) ?_)).symm
    funext a; apply Fin.ext
    rw [View.emb_slice, Function.Embedding.trans_apply]
    show (((win2 5).rect t).emb _ a : Nat) = _
    rw [Window.rect_emb_val]
    show 0 * _ + (j a : Nat) = _
    simp
  · show i ∈ ((View.whole main_v6).slice (win2_5.rect t2_0)).set
    rw [View.set_slice_whole, Rect.mem_set_unit]
    intro a
    have h0 : (i 0 : Nat) < 1024 := (i 0).isLt
    match a with
    | ⟨0, _⟩ =>
      show win2_5.index t2_0 0 * win2_5.size 0 ≤ (i 0 : Nat) ∧ (i 0 : Nat) < win2_5.index t2_0 0 * win2_5.size 0 + win2_5.xsize (grid2.coords t2_0) 0
      rw [show win2_5.index t2_0 0 * win2_5.size 0 = 0 from by decide +kernel, show win2_5.xsize (grid2.coords t2_0) 0 = 1024 from by decide +kernel]; omega

/-- The region's configuration as the regions kit reads it is the printed one; so are its windows' specs, the scoped
    buffers it does not stage, and the invariant the proof data carries. -/
theorem spec_pin1 : (Pipeline.pin (pcfgs (F := F)) adm 1).spec = spec2 := rfl

theorem scopedRest_pin1 (c : Dev nD) :
    (Pipeline.scopedRest (Ix := HIx 1) (Name := ℕ) (U := UU) (Lvl := ℕ) (Val := Elt F) (Pipeline.pin (pcfgs (F := F)) adm 1).spec c : sProp 𝕄)
      = Pipeline.scopedRest (Ix := HIx 1) (Name := ℕ) (U := UU) (Lvl := ℕ) (Val := Elt F) spec2 c :=
  congrArg (fun s => (Pipeline.scopedRest (Ix := HIx 1) (Name := ℕ) (U := UU) (Lvl := ℕ) (Val := Elt F) s c : sProp 𝕄)) (spec_pin1 (F := F))

theorem ΦC_eq (C : (d : Dev nD) → Buf (Elt F) (clsLoc d)) (c : Dev nD) (t) :
    (pdats m C 1 c).Φ t = Pipeline.scopedRest (Ix := HIx 1) (Name := ℕ) (U := UU) (Lvl := ℕ) (Val := Elt F) spec2 c := rfl

/-- THE SECOND REGION: its six arrays into the pipeline, nothing beside; the TensorCore owes nothing throughout. -/
def segComb (C : (d : Dev nD) → Buf (Elt F) (clsLoc d)) :
    Pipeline.RegionSeg (pcfgs (F := F)) adm (pdats m C) (none : HIx 1) defs₀ 𝒱₀ (K (F := F)).L (K (F := F)).lev (1 : Fin 2) where
  win := launch2.win.to₀
  block_pos := launch2.block_pos
  stage_whole := launch2.stage_whole
  K := PEmpty
  osem k := k.elim
  ho := Pipeline.OwnSemFacts.none _
  hbody c := (body_obligationC m C c).loose
  hwaits c := (show (levAts (K (F := F)).L (K (F := F)).lev : sProp 𝕄) ⊢ BI.emp from by iintro -; iempintro).trans
    (Pipeline.cellsWaits_of_owed_zero (Pipeline.pin (pcfgs (F := F)) adm) (pdats m C) none 1 c fun _ => rfl)
  pre c := preCombN m c (C c)
  post c := postComb m c (C c)
  X _ := iprop(emp)
  Y _ := iprop(emp)
  Z _ := iprop(emp)
  hentry c := by
    rw [Pipeline.ownSems0_none, arraysC_eq, prefHeldC]
    unfold preCombN
    iintro ⟨⟨HO, H0, H1, H2, H3, H4, H5⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · iapply (owesAt_of_tcOw c (pdats m C 1 c) (fun _ => rfl) (fun _ => rfl) 0); iexact HO
    isplitr <;> iempintro
  hin c := by
    rw [scopedRest_pin1, ΦC_eq]
    iintro ⟨-, -, H⟩; iexact H
  hout c := by
    rw [Pipeline.ownSems0_none, scopedRest_pin1, ΦC_eq]
    iintro H
    isplitr; · iempintro
    isplitr; · iempintro
    iexact H
  hexit c := by
    rw [arraysC_eq]
    unfold postComb
    have e0 : (pdats m C 1 c).arrAt 0 (Pipeline.pin (pcfgs (F := F)) adm 1).N = R1 m c := (datComb m C c).arrAt_in 0 rfl _
    have e1 : (pdats m C 1 c).arrAt 1 (Pipeline.pin (pcfgs (F := F)) adm 1).N = R2 m c := (datComb m C c).arrAt_in 1 rfl _
    have e2 : (pdats m C 1 c).arrAt 2 (Pipeline.pin (pcfgs (F := F)) adm 1).N = T1 m c := (datComb m C c).arrAt_in 2 rfl _
    have e3 : (pdats m C 1 c).arrAt 3 (Pipeline.pin (pcfgs (F := F)) adm 1).N = T2 m c := (datComb m C c).arrAt_in 3 rfl _
    have e4 : (pdats m C 1 c).arrAt 4 (Pipeline.pin (pcfgs (F := F)) adm 1).N = C c := (datComb m C c).arrAt_in 4 rfl _
    have e5 : (pdats m C 1 c).arrAt 5 (Pipeline.pin (pcfgs (F := F)) adm 1).N = OUT m c (C c) := arrAtC_5 m C c
    rw [e0, e1, e2, e3, e4, e5]
    iintro ⟨⟨H0, H1, H2, H3, H4, H5⟩, HO, -, -⟩
    imodintro
    isplitl [HO]
    · iapply (tcOw_of_owesAt c (pdats m C 1 c) (fun _ => rfl) (fun _ => rfl) (Fin.last _)); iexact HO
    isplitl [H0]; · iexact H0
    isplitl [H1]; · iexact H1
    isplitl [H2]; · iexact H2
    isplitl [H3]; · iexact H3
    isplitl [H4]; · iexact H4
    iexact H5

end Cert.Proof.Kernel

end
-- ==== Proof.Bits.RegionsTopk.lean ====
/-
  The first TensorCore kernel region (47 points): window 0 stages 800 rows of the transposed input per point; the
  two results' buffers are reset to minus infinity at the first point, updated by the 800 rows of each point, and
  written back at the last point only.
-/
import proofs.«210259_g7730941132961_cont_sun_c4_476_29_alg».proof.Proof.Bits.RegionsDat
import proofs.«210259_g7730941132961_cont_sun_c4_476_29_alg».proof.Proof.Gen.Kernel.Loops
import Idealize.ShloMosaic.Lib.Pipeline.Regions
import Idealize.ShloMosaic.Lib.Ring
import Idealize.ShloMosaic.Lib.Tactic

noncomputable section

namespace Cert.Proof.Kernel

open Cert.Kernel Cert.Kernel.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type}

local notation "𝕄" => MT nD τ sig (HIx 1) (Elt F) ℕ UU ℕ

variable (m : (ℓ : Loc nD τ sig) → Buf (Elt F) ℓ)

variable [FloatOps F]

/-! ## The fold over rows, continued -/

/-- A fold over `n + k` entries is the fold over the next `k` from the fold over the first `n`. -/
theorem foldN_add (col : ℕ → F .f32) (init : F .f32 × F .f32) (n k : ℕ) :
    Val.foldN col init (n + k) = Val.foldN (fun r => col (n + r)) (Val.foldN col init n) k := by
  induction k with
  | zero => rfl
  | succ k ih =>
    show Val.push (Val.foldN col init (n + k)) (col (n + k)) = Val.push (Val.foldN (fun r => col (n + r)) (Val.foldN col init n) k) (col (n + k))
    rw [ih]

/-- Folds over sequences that agree below `k` agree. -/
theorem foldN_congr (col col' : ℕ → F .f32) (init : F .f32 × F .f32) (k : ℕ) (h : ∀ r < k, col r = col' r) :
    Val.foldN col init k = Val.foldN col' init k := by
  induction k with
  | zero => rfl
  | succ k ih =>
    show Val.push (Val.foldN col init k) (col k) = Val.push (Val.foldN col' init k) (col' k)
    rw [ih fun r hr => h r (Nat.lt_succ_of_lt hr), h k (Nat.lt_succ_self k)]

/-- Column `b` of an 800-row block as a sequence (minus infinity past the last row: never read). -/
def blkCol (x : Vec F S800x1024 .f32) (b : Fin 1024) : ℕ → F .f32 :=
  fun r => if h : r < 800 then x (ix2 (n0 := 800) (n1 := 1024) ⟨r, h⟩ b) else Val.ninf

/-- The two vectors after the first `k` rows of the block `x`, from `init`: columnwise the fold. -/
def rowsN (x : Vec F S800x1024 .f32) (init : FVec F S1024 .f32 × FVec F S1024 .f32) (k : ℕ) : FVec F S1024 .f32 × FVec F S1024 .f32 :=
  (fun b => (Val.foldN (blkCol x (b 0)) (init.1 b, init.2 b) k).1, fun b => (Val.foldN (blkCol x (b 0)) (init.1 b, init.2 b) k).2)

theorem rowsN_zero (x : Vec F S800x1024 .f32) (init : FVec F S1024 .f32 × FVec F S1024 .f32) : rowsN x init 0 = init := rfl

/-! ## One trip of the rows' loop -/

/-- Row `k` of the block, as the trip loads it and casts it to a vector, at column `b`. -/
theorem row_ld (x : Vec F S800x1024 .f32) (a1 : Memref sig .tc .vmem S800x1024 .f32) (h1 : a1.IsWhole) (k : Fin k1_t1_loop.trips) (b : S1024.Idx) :
    k1_pay5 (F := F) (View.readAt (Elt F) a1.view (Rect.unit (s := S800x1024) (k1_off1 k) S1x1024.size (k1_off1_inb k)).toLoadRect (h1.unread x)) b
      = blkCol x (b 0) k.val := by
  have hk : k.val < 800 := Nat.lt_of_lt_of_le k.isLt k1_t1_abs.2.1
  unfold k1_pay5 blkCol
  rw [View.readAt_eq_ld, h1.read_unread, dif_pos hk]
  refine (shapeCast_dropUnit_apply (n := 1) ![1024] _ _ b).trans ?_
  refine congrArg x (funext fun a => Fin.ext ?_)
  have ho := k1_off1_eq k
  match a with
  | ⟨0, _⟩ =>
    show (k1_off1 k) 0 + 1 * ((Fin.cons (⟨0, Nat.one_pos⟩ : Fin 1) b : (⟨2, Matrix.vecCons 1 ![1024]⟩ : Shape).Idx) 0 : Nat) = k.val
    rw [ho]; simp; rfl
  | ⟨1, _⟩ =>
    show (k1_off1 k) 1 + 1 * ((Fin.cons (⟨0, Nat.one_pos⟩ : Fin 1) b : (⟨2, Matrix.vecCons 1 ![1024]⟩ : Shape).Idx) 1 : Nat) = (b 0).val
    rw [ho]; simp; rfl

macro_rules | `(tactic| sl_pure) => `(tactic| with_reducible exact (Cert.Proof.Kernel.rowsN_zero ..).symm)

set_option warn.classDefReducibility false in
set_option maxHeartbeats 1600000 in
/-- THE ROWS' LOOP BY ITS INVARIANT, at this certificate's resource algebra: the block's buffer held at its contents, the
    carried pair the columnwise fold over the rows before trip `k`. -/
@[sl_loop] def loopInvT (𝒱 : Variants) (c : Dev nD) (bd : Option 𝒱.V) (E : Set ℕ) (i : grid1.Coords)
    (arg1 : Memref sig .tc .vmem S800x1024 .f32) (harg1 : arg1.IsWhole) (arg2 : Memref sig .tc .vmem S1024 .f32) (harg2 : arg2.IsWhole)
    (arg3 : Memref sig .tc .vmem S1024 .f32) (harg3 : arg3.IsWhole) (x : Vec F S800x1024 .f32) (init : FVec F S1024 .f32 × FVec F S1024 .f32) :
    LoopInvTy_k1_t1 (F := F) (HIx 1) ℕ UU ℕ 𝒱 c bd E i arg1 harg1 arg2 harg2 arg3 harg3 init where
  inv k acc := iprop((arg1.view.loc (c : Thread nD τ) ↦[arg1.view.set]{fullShare} harg1.unread x) ∗ ⌜acc = rowsN x init k⌝)
  step k acc := by
    iintro ⟨H, %h⟩
    subst h
    unfold k1_t1_body
    sl_exec
    sl_step
    isplitl [H]; · iexact H
    ipureintro
    refine Prod.ext (funext fun b => ?_) (funext fun b => ?_)
    · show FloatOps.maximumf _ (k1_pay5 _ b) = (Val.push _ _).1
      rw [row_ld]; rfl
    · show FloatOps.maximumf _ (FloatOps.minimumf _ (k1_pay5 _ b)) = (Val.push _ _).2
      rw [row_ld]; rfl

/-! ## The body's branch condition -/

/-- The condition of the body's `scf.if` (reset the results), from the grid coordinate. -/
abbrev condT (i : grid1.Coords) : Prop := (Scalar.cmpi .ne (Scalar.extui (Scalar.cmpi .eq (BitVec.ofNat 32 (i 0).val) 0#32)) 0#32) = 1#1
/-- It holds at the first point only — decided over the grid. -/
theorem hcondT : ∀ t : Fin cfg1.N, condT (grid1.coords t) ↔ t.val = 0 :=
  (by decide +kernel : ∀ t : Fin grid1.N, condT (grid1.coords t) ↔ t.val = 0)

/-! ## The body on any whole staging memrefs, by case -/

set_option maxHeartbeats 3200000 in
/-- CASE A (the first point: the results are reset): what the body's stores leave in the two results' staging memrefs,
    as pieces (last first), WITH the proof that on whole staging memrefs — the block's at its contents, the results' at
    anything — the body runs to the continuation holding the block's as it was and each result's buffer with its pieces written. -/
noncomputable def topkRunA (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : condT i) (x : Vec F S800x1024 .f32) :
    { L : List (View.Piece (Elt F) S1024 .f32) × List (View.Piece (Elt F) S1024 .f32) //
      ∀ (K : PUnit → sProp 𝕄),
        iprop(owns (c : Thread nD τ) a1 fullShare x ∗ (∃ X, owns (c : Thread nD τ) a2 fullShare X) ∗ (∃ X, owns (c : Thread nD τ) a3 fullShare X)
            ∗ (iprop(owns (c : Thread nD τ) a1 fullShare x
                ∗ (∃ f, a2.view.loc (c : Thread nD τ) ↦[a2.view.set]{fullShare} a2.view.writes (Elt F) f L.1)
                ∗ (∃ f, a3.view.loc (c : Thread nD τ) ↦[a3.view.set]{fullShare} a3.view.writes (Elt F) f L.2)) -∗ K ⟨⟩))
          ⊢ wp frame (wpE (defs₀ (F := F)) Variants.none c none) Set.univ (cc1__tc_body (F := F) i a1 h1 a2 h2 a3 h3) K } := by
  refine ⟨(?_, ?_), fun K => ?run⟩
  case run =>
    simp only [cc1__tc_body_eq_skeleton]; unfold cc1__tc_body_skel
    unfold owns
    iintro ⟨⟨%f1, %hf1, H1⟩, ⟨%X2, %f2, %hf2, H2⟩, ⟨%X3, %f3, %hf3, H3⟩, Hk⟩
    obtain rfl := h1.eq_unread hf1
    sl_exec (disch := first | exact hc)
    sl_step
    iapply Hk
    isplitl [H1]
    · iexists _; isplitr; · ipureintro; exact h1.read_unread _
      iexact H1
    isplitl [H2]
    · iexists _; iexact H2
    iexists _; iexact H3

set_option maxHeartbeats 3200000 in
/-- CASE B (the other points): the same with the results' staging memrefs at their running contents. -/
noncomputable def topkRunB (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : ¬condT i) (x : Vec F S800x1024 .f32) (xa xb : Vec F S1024 .f32) :
    { L : List (View.Piece (Elt F) S1024 .f32) × List (View.Piece (Elt F) S1024 .f32) //
      ∀ (K : PUnit → sProp 𝕄),
        iprop(owns (c : Thread nD τ) a1 fullShare x ∗ owns (c : Thread nD τ) a2 fullShare xa ∗ owns (c : Thread nD τ) a3 fullShare xb
            ∗ (iprop(owns (c : Thread nD τ) a1 fullShare x
                ∗ (∃ f, a2.view.loc (c : Thread nD τ) ↦[a2.view.set]{fullShare} a2.view.writes (Elt F) f L.1)
                ∗ (∃ f, a3.view.loc (c : Thread nD τ) ↦[a3.view.set]{fullShare} a3.view.writes (Elt F) f L.2)) -∗ K ⟨⟩))
          ⊢ wp frame (wpE (defs₀ (F := F)) Variants.none c none) Set.univ (cc1__tc_body (F := F) i a1 h1 a2 h2 a3 h3) K } := by
  refine ⟨(?_, ?_), fun K => ?run⟩
  case run =>
    simp only [cc1__tc_body_eq_skeleton]; unfold cc1__tc_body_skel
    unfold owns
    iintro ⟨⟨%f1, %hf1, H1⟩, ⟨%f2, %hf2, H2⟩, ⟨%f3, %hf3, H3⟩, Hk⟩
    obtain rfl := h1.eq_unread hf1; obtain rfl := h2.eq_unread hf2; obtain rfl := h3.eq_unread hf3
    sl_exec (disch := first | exact hc)
    sl_step
    iapply Hk
    isplitl [H1]
    · iexists _; isplitr; · ipureintro; exact h1.read_unread _
      iexact H1
    isplitl [H2]
    · iexists _; iexact H2
    iexists _; iexact H3

/-! ## What the stores leave, as values -/

theorem hz1T : (![0] : Fin 1 → Nat) = fun _ => 0 := funext fun a => by fin_cases a; rfl

/-- The rows' loop runs 800 trips. -/
theorem trips_eq : Scf.trips (0#32) (Scalar.addi 0#32 800#32) 1#32 = 800 := by decide +kernel

/-- CASE B: each result's buffer ends at the fold over the block's 800 rows from its running contents. -/
theorem topkRunB_val (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : ¬condT i) (x : Vec F S800x1024 .f32) (xa xb : Vec F S1024 .f32) :
    View.canon (topkRunB (F := F) c i a1 h1 a2 h2 a3 h3 hc x xa xb).1.1 = (rowsN x (xa, xb) 800).1
      ∧ View.canon (topkRunB (F := F) c i a1 h1 a2 h2 a3 h3 hc x xa xb).1.2 = (rowsN x (xa, xb) 800).2 := by
  unfold topkRunB
  dsimp only
  rw [View.canon_unit_zero hz1T, View.canon_unit_zero hz1T]
  unfold k1_pay3 k1_pay4
  simp only [View.readAt_eq_ld, h2.read_unread, h3.read_unread, View.ld_unit_zero (S := S1024) hz1T, shapeCast_self, trips_eq]
  exact ⟨rfl, rfl⟩

theorem topkRunB_cover (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : ¬condT i) (x : Vec F S800x1024 .f32) (xa xb : Vec F S1024 .f32) (y : S1024.Idx) :
    (∃ pc ∈ (topkRunB (F := F) c i a1 h1 a2 h2 a3 h3 hc x xa xb).1.1, y ∈ pc.1.set)
      ∧ ∃ pc ∈ (topkRunB (F := F) c i a1 h1 a2 h2 a3 h3 hc x xa xb).1.2, y ∈ pc.1.set := by
  unfold topkRunB
  dsimp only
  exact ⟨⟨_, List.mem_singleton_self _, View.mem_set_unit_zero hz1T inb_S1024_S1024_0 y⟩,
    ⟨_, List.mem_singleton_self _, View.mem_set_unit_zero hz1T inb_S1024_S1024_0 y⟩⟩

/-- CASE A: each result's buffer ends at the fold over the block's 800 rows from minus infinity. -/
theorem topkRunA_val (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : condT i) (x : Vec F S800x1024 .f32) :
    View.canon (topkRunA (F := F) c i a1 h1 a2 h2 a3 h3 hc x).1.1 = (rowsN x (broadcast S1024 Val.ninf, broadcast S1024 Val.ninf) 800).1
      ∧ View.canon (topkRunA (F := F) c i a1 h1 a2 h2 a3 h3 hc x).1.2 = (rowsN x (broadcast S1024 Val.ninf, broadcast S1024 Val.ninf) 800).2 := by
  unfold topkRunA
  dsimp only
  sl_unfold_words
  rw [View.canon_cons_unit_zero hz1T, View.canon_cons_unit_zero hz1T]
  rw [View.readCov_unit_zero (S := S1024) _ hz1T, View.readCov_unit_zero (S := S1024) _ hz1T]
  unfold k1_pay3 k1_pay4 k1_pay1 k1_pay2
  simp only [shapeCast_self, trips_eq]
  exact ⟨rfl, rfl⟩

theorem topkRunA_cover (c : Dev nD) (i : grid1.Coords)
    (a1 : Memref sig .tc .vmem S800x1024 .f32) (h1 : a1.IsWhole) (a2 : Memref sig .tc .vmem S1024 .f32) (h2 : a2.IsWhole)
    (a3 : Memref sig .tc .vmem S1024 .f32) (h3 : a3.IsWhole) (hc : condT i) (x : Vec F S800x1024 .f32) (y : S1024.Idx) :
    (∃ pc ∈ (topkRunA (F := F) c i a1 h1 a2 h2 a3 h3 hc x).1.1, y ∈ pc.1.set)
      ∧ ∃ pc ∈ (topkRunA (F := F) c i a1 h1 a2 h2 a3 h3 hc x).1.2, y ∈ pc.1.set := by
  unfold topkRunA
  dsimp only
  exact ⟨⟨_, List.mem_cons_self, View.mem_set_unit_zero hz1T inb_S1024_S1024_0 y⟩,
    ⟨_, List.mem_cons_self, View.mem_set_unit_zero hz1T inb_S1024_S1024_0 y⟩⟩

/-! ## A staged block's rows are the transposed input's -/

/-- Window 0's block index at point `t`: row block `78 + t`, column block 0 — decided over the grid. -/
theorem indexT_0 : ∀ t : Fin cfg1.N, (cfg1.win 0).index t 0 = 78 + t.val ∧ (cfg1.win 0).index t 1 = 0 :=
  (by decide +kernel : ∀ t : Fin grid1.N, win1_0.index t 0 = 78 + t.val ∧ win1_0.index t 1 = 0)

/-- Row `r` of the block staged at point `t` is row `62400 + 800 t + r` of the transposed input. -/
theorem iblkT_apply (c : Dev nD) (t : Fin cfg1.N) (r : ℕ) (hr : r < 800) (b : Fin 1024) (h : 62400 + (t.val * 800 + r) < 100000) :
    iblkT m c t (ix2 (n0 := 800) (n1 := 1024) ⟨r, hr⟩ b)
      = (XT m c : FVec F S100000x1024 .f32) (ix2 (n0 := 100000) (n1 := 1024) ⟨62400 + (t.val * 800 + r), h⟩ b) := by
  unfold iblkT
  rw [View.read_apply]
  refine (cast_eq _ _).trans (congrArg (XT m c) ?_)
  funext a; apply Fin.ext
  rw [View.emb_slice, Function.Embedding.trans_apply]
  show (((cfg1.win 0).rect t).emb _ a : Nat) = _
  rw [Window.rect_emb_val]
  obtain ⟨i0, i1⟩ := indexT_0 t
  match a with
  | ⟨0, _⟩ => show (cfg1.win 0).index t 0 * 800 + r = 62400 + (t.val * 800 + r); rw [i0]; omega
  | ⟨1, _⟩ => show (cfg1.win 0).index t 1 * 1024 + b.val = b.val; rw [i1]; omega

/-- Column `b` of the block staged at point `t`, below its 800 rows, is column `b` of the transposed input from row `62400 + 800 t`. -/
theorem blkCol_iblkT (c : Dev nD) (t : Fin cfg1.N) (b : Fin 1024) (r : ℕ) (hr : r < 800) :
    blkCol (iblkT m c t) b r = Val.colX (F := F) (XT m c) b (62400 + (t.val * 800 + r)) := by
  have hN : t.val < 47 := lt_of_lt_of_eq t.isLt (show cfg1.N = 47 from N_1)
  have h : 62400 + (t.val * 800 + r) < 100000 := by omega
  unfold blkCol Val.colX
  rw [dif_pos hr, dif_pos h]
  exact iblkT_apply m c t r hr b h

/-- THE STEP ACROSS A POINT: the fold over the block staged at point `t` from the pair of the first `800 t` rows is the
    pair of the first `800 (t + 1)` rows. -/
theorem rows_step (c : Dev nD) (t : Fin cfg1.N) (b : S1024.Idx) :
    Val.foldN (blkCol (iblkT m c t) (b 0)) (Val.tcPairN (F := F) (XT m c) (t.val * 800) b) 800
      = Val.tcPairN (F := F) (XT m c) ((t.val + 1) * 800) b := by
  unfold Val.tcPairN
  rw [show (t.val + 1) * 800 = t.val * 800 + 800 from by ring, foldN_add]
  exact foldN_congr _ _ _ 800 fun r hr => blkCol_iblkT m c t (b 0) r hr

/-! ## What the body finds and leaves at each point -/

theorem afterT_0 (c : Dev nD) (t : Fin cfg1.N) : (datTopk m c).after 0 t = iblkT m c t := by dsimp only [datTopk]
theorem afterT_1 (c : Dev nD) (t : Fin cfg1.N) :
    (datTopk m c).after 1 t = fun b => (Val.tcPairN (F := F) (XT m c) ((t.val + 1) * 800) b).1 := by dsimp only [datTopk]; rfl
theorem afterT_2 (c : Dev nD) (t : Fin cfg1.N) :
    (datTopk m c).after 2 t = fun b => (Val.tcPairN (F := F) (XT m c) ((t.val + 1) * 800) b).2 := by dsimp only [datTopk]; rfl

/-- The block's buffer, fetched at every point, holds the block. -/
theorem beforeT_0 (c : Dev nD) (t : Fin cfg1.N) (d) : (datTopk m c).before 0 t d = iblkT m c t := by
  rw [Dat.before_fetched _ 0 t (fetch1_0 t)]
  unfold Dat.fetched Dat.blockOf iblkT
  dsimp only [datTopk]
  funext j
  have hm : (win1 0).moved (grid1.coords t) j = true := ((win1 0).moved_iff _ j).mpr fun a => (j a).isLt
  unfold Window.fill; rw [dif_pos hm]

/-- After the first point a result's buffer, not written back between, holds what the body left at the point before. -/
theorem beforeT_1 (c : Dev nD) (t : Fin cfg1.N) (h0 : t.val ≠ 0) (d) :
    (datTopk m c).before 1 t d = fun b => (Val.tcPairN (F := F) (XT m c) (t.val * 800) b).1 := by
  have hN : t.val < 47 := lt_of_lt_of_eq t.isLt (show cfg1.N = 47 from N_1)
  rw [Dat.before_out_kept _ 1 rfl t h0 (Bool.eq_false_iff.mpr fun h => by have := (flush1_1 _).mp h; dsimp only at this; omega)
    (fun _ => rfl) (fun _ _ => rfl)]
  dsimp only [datTopk]
  rw [show t.val - 1 + 1 = t.val from by omega]
  rfl
theorem beforeT_2 (c : Dev nD) (t : Fin cfg1.N) (h0 : t.val ≠ 0) (d) :
    (datTopk m c).before 2 t d = fun b => (Val.tcPairN (F := F) (XT m c) (t.val * 800) b).2 := by
  have hN : t.val < 47 := lt_of_lt_of_eq t.isLt (show cfg1.N = 47 from N_1)
  rw [Dat.before_out_kept _ 2 rfl t h0 (Bool.eq_false_iff.mpr fun h => by have := (flush1_2 _).mp h; dsimp only at this; omega)
    (fun _ => rfl) (fun _ _ => rfl)]
  dsimp only [datTopk]
  rw [show t.val - 1 + 1 = t.val from by omega]
  rfl

/-! ## The body obligation -/

/-- Each window's current staging memref at point `t`, as the pipeline passes it, and its wholeness. -/
abbrev msT_0 (t : Fin cfg1.N) : Memref sig .tc .vmem S800x1024 .f32 := win1_0.stage (cfg1.slots t 0)
abbrev hsT_0 (t : Fin cfg1.N) : (msT_0 t).IsWhole := hstage1_0 ((cfg1.slots t 0).cast nbuf1_0)
abbrev msT_1 (t : Fin cfg1.N) : Memref sig .tc .vmem S1024 .f32 := win1_1.stage (cfg1.slots t 1)
abbrev hsT_1 (t : Fin cfg1.N) : (msT_1 t).IsWhole := hstage1_1 ((cfg1.slots t 1).cast nbuf1_1)
abbrev msT_2 (t : Fin cfg1.N) : Memref sig .tc .vmem S1024 .f32 := win1_2.stage (cfg1.slots t 2)
abbrev hsT_2 (t : Fin cfg1.N) : (msT_2 t).IsWhole := hstage1_2 ((cfg1.slots t 2).cast nbuf1_2)

/-- What the body is called with at point `t` (the body obligation's precondition, the windows one by one), -/
def bodyPreT (c : Dev nD) (t : Fin cfg1.N) : sProp 𝕄 :=
  iprop((datTopk m c).Φ t.castSucc ∗ (datTopk m c).owesAt none t.castSucc
    ∗ (∃ d, owns (c : Thread nD τ) (msT_0 t) fullShare ((datTopk m c).before 0 t d))
    ∗ (∃ d, owns (c : Thread nD τ) (msT_1 t) fullShare ((datTopk m c).before 1 t d))
    ∗ (∃ d, owns (c : Thread nD τ) (msT_2 t) fullShare ((datTopk m c).before 2 t d)))

/-- and what it returns. -/
def bodyPostT (c : Dev nD) (t : Fin cfg1.N) : sProp 𝕄 :=
  iprop((datTopk m c).Φ t.succ ∗ (datTopk m c).owesAt none t.succ
    ∗ owns (c : Thread nD τ) (msT_0 t) fullShare ((datTopk m c).after 0 t)
    ∗ owns (c : Thread nD τ) (msT_1 t) fullShare ((datTopk m c).after 1 t)
    ∗ owns (c : Thread nD τ) (msT_2 t) fullShare ((datTopk m c).after 2 t))

set_option maxHeartbeats 1600000 in
/-- The body at any point: the block's memref holds the block; the closed form says which case the point is in; at a
    later point a result's memref holds what the point before left; the run applies, and what it leaves is the pair of
    the rows so far (`rows_step`); the invariant passes through unread; nothing is owed throughout. -/
theorem sound_bodyT (c : Dev nD) (t : Fin cfg1.N) :
    bodyPreT m c t ⊢ wp frame (wpE (defs₀ (F := F)) Variants.none c none) Set.univ (bodyAt1 t) (fun _ => bodyPostT m c t) := by
  unfold bodyPreT bodyPostT bodyAt1
  simp only [beforeT_0]
  rw [show (datTopk m c).Φ t.succ = (datTopk m c).Φ t.castSucc from rfl,
    show (datTopk m c).owesAt none t.succ = (datTopk m c).owesAt none t.castSucc from rfl,
    afterT_0, afterT_1, afterT_2]
  by_cases h0 : t.val = 0
  · iintro ⟨HΦ, Ho, ⟨%d0, H0⟩, ⟨%d1, H1⟩, ⟨%d2, H2⟩⟩
    iapply ((topkRunA c (grid1.coords t) _ (hsT_0 t) _ (hsT_1 t) _ (hsT_2 t) ((hcondT t).mpr h0) (iblkT m c t)).2 _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    have hv := topkRunA_val (F := F) c (grid1.coords t) _ (hsT_0 t) _ (hsT_1 t) _ (hsT_2 t) ((hcondT t).mpr h0) (iblkT m c t)
    have hcv := fun y => topkRunA_cover (F := F) c (grid1.coords t) _ (hsT_0 t) _ (hsT_1 t) _ (hsT_2 t) ((hcondT t).mpr h0) (iblkT m c t) y
    isplitl [H1]
    · unfold owns; iexists _; isplitr
      swap; · iexact H1
      ipureintro
      rw [View.read_writes_eq_canon _ _ _ (fun y => (hcv y).1), hv.1]
      funext b
      show (Val.foldN (blkCol (iblkT m c t) (b 0)) (Val.ninf, Val.ninf) 800).1 = _
      rw [← rows_step m c t b, h0]; rfl
    · unfold owns; iexists _; isplitr
      swap; · iexact H2
      ipureintro
      rw [View.read_writes_eq_canon _ _ _ (fun y => (hcv y).2), hv.2]
      funext b
      show (Val.foldN (blkCol (iblkT m c t) (b 0)) (Val.ninf, Val.ninf) 800).2 = _
      rw [← rows_step m c t b, h0]; rfl
  · simp only [beforeT_1 m c t h0, beforeT_2 m c t h0]
    iintro ⟨HΦ, Ho, ⟨%d0, H0⟩, ⟨%d1, H1⟩, ⟨%d2, H2⟩⟩
    iapply ((topkRunB c (grid1.coords t) _ (hsT_0 t) _ (hsT_1 t) _ (hsT_2 t) (fun h => h0 ((hcondT t).mp h)) (iblkT m c t)
      (fun b => (Val.tcPairN (F := F) (XT m c) (t.val * 800) b).1) (fun b => (Val.tcPairN (F := F) (XT m c) (t.val * 800) b).2)).2 _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    have hv := topkRunB_val (F := F) c (grid1.coords t) _ (hsT_0 t) _ (hsT_1 t) _ (hsT_2 t) (fun h => h0 ((hcondT t).mp h)) (iblkT m c t)
      (fun b => (Val.tcPairN (F := F) (XT m c) (t.val * 800) b).1) (fun b => (Val.tcPairN (F := F) (XT m c) (t.val * 800) b).2)
    have hcv := fun y => topkRunB_cover (F := F) c (grid1.coords t) _ (hsT_0 t) _ (hsT_1 t) _ (hsT_2 t) (fun h => h0 ((hcondT t).mp h)) (iblkT m c t)
      (fun b => (Val.tcPairN (F := F) (XT m c) (t.val * 800) b).1) (fun b => (Val.tcPairN (F := F) (XT m c) (t.val * 800) b).2) y
    isplitl [H1]
    · unfold owns; iexists _; isplitr
      swap; · iexact H1
      ipureintro
      rw [View.read_writes_eq_canon _ _ _ (fun y => (hcv y).1), hv.1]
      funext b
      show (Val.foldN (blkCol (iblkT m c t) (b 0)) (Val.tcPairN (F := F) (XT m c) (t.val * 800) b) 800).1 = _
      rw [rows_step]
    · unfold owns; iexists _; isplitr
      swap; · iexact H2
      ipureintro
      rw [View.read_writes_eq_canon _ _ _ (fun y => (hcv y).2), hv.2]
      funext b
      show (Val.foldN (blkCol (iblkT m c t) (b 0)) (Val.tcPairN (F := F) (XT m c) (t.val * 800) b) 800).2 = _
      rw [rows_step]

/-- The library's body obligation, at every point. -/
theorem body_obligationT (c : Dev nD) :
    BodyObligation (datTopk (F := F) m c) (defs₀ (F := F)) Variants.none (none : HIx 1) Set.univ := fun t => by
  rw [bigSep_W1, bigSep_W1]
  exact sound_bodyT m c t

/-! ## The region's record -/

omit [FloatOps F] in
theorem bigSep_Fin0T (Φ : Fin 0 → sProp 𝕄) : bigSep Finset.univ Φ = (BI.emp : sProp 𝕄) := bigSep_univ_eq_bigSepL [] (by decide) (by decide) Φ

/-- The region's arrays at contents `Fa`, array by array. -/
theorem arraysT_eq (C : (d : Dev nD) → Buf (Elt F) (clsLoc d)) (c : Dev nD) (Fa) :
    ((pdats (F := F) m C 0 c).arrays Fa : sProp 𝕄)
      = iprop((xtLoc c ↦{fullShare} Fa 0) ∗ (t1Loc c ↦{fullShare} Fa 1) ∗ (t2Loc c ↦{fullShare} Fa 2)) := by
  rw [Pipeline.arrays_eq (Pipeline.pin (pcfgs (F := F)) adm) (pdats m C) 0 c launch1.arr_whole ((pdats m C 0 c).share_full fun _ => rfl) Fa, bigSep_W1]
  rfl

theorem prefHeldT (c : Dev nD) (q) (pf) :
    (Pipeline.prefHeld (Ix := HIx 1) (Name := ℕ) (U := UU) (Lvl := ℕ) (Val := Elt F) (pcfgs (F := F) 0).pre c q pf : sProp 𝕄) = BI.emp :=
  bigSep_Fin0T _

/-- The region's configuration as the regions kit reads it is the printed one; so are its windows' specs, the scoped
    buffers it does not stage, and the invariant the proof data carries. -/
theorem spec_pin0 : (Pipeline.pin (pcfgs (F := F)) adm 0).spec = spec1 := rfl

theorem scopedRest_pin0 (c : Dev nD) :
    (Pipeline.scopedRest (Ix := HIx 1) (Name := ℕ) (U := UU) (Lvl := ℕ) (Val := Elt F) (Pipeline.pin (pcfgs (F := F)) adm 0).spec c : sProp 𝕄)
      = Pipeline.scopedRest (Ix := HIx 1) (Name := ℕ) (U := UU) (Lvl := ℕ) (Val := Elt F) spec1 c :=
  congrArg (fun s => (Pipeline.scopedRest (Ix := HIx 1) (Name := ℕ) (U := UU) (Lvl := ℕ) (Val := Elt F) s c : sProp 𝕄)) (spec_pin0 (F := F))

theorem ΦT_eq (C : (d : Dev nD) → Buf (Elt F) (clsLoc d)) (c : Dev nD) (t) :
    (pdats m C 0 c).Φ t = Pipeline.scopedRest (Ix := HIx 1) (Name := ℕ) (U := UU) (Lvl := ℕ) (Val := Elt F) spec1 c := rfl

/-- The last point. -/
def t1_46 : Fin cfg1.N := ⟨46, by rw [show cfg1.N = 47 from N_1]; decide⟩

/-- A result array after the one write-back, at the last point: the whole array is the block, and the block holds the pair
    of all 37600 rows. -/
theorem arrAtT_1 (c : Dev nD) : (datTopk (F := F) m c).arrAt 1 cfg1.N = T1 m c := by
  have hN : cfg1.N = 47 := N_1
  refine (datTopk m c).arrAt_eq_of_cover 1 (T1 m c) (fun t hf => ?_) fun i => ⟨t1_46, (flush1_1 _).mpr rfl, ?_⟩
  · have h46 : t.val = 46 := by have := (flush1_1 t).mp hf; have := t.isLt; omega
    show (cfg1.win 1).cut (grid1.coords t) ((datTopk m c).after 1 t) = _
    rw [afterT_1, h46]
    funext j
    rw [View.read_apply]
    refine Eq.symm ((cast_eq _ _).trans ?_)
    show (Val.tcPairN (F := F) (XT m c) 37600 _).1 = (Val.tcPairN (F := F) (XT m c) ((46 + 1) * 800) _).1
    refine congrArg (fun b => (Val.tcPairN (F := F) (XT m c) 37600 b).1) ?_
    funext a; apply Fin.ext
    rw [View.emb_slice, Function.Embedding.trans_apply]
    show (((win1 1).rect t).emb _ a : Nat) = _
    rw [Window.rect_emb_val]
    match a with
    | ⟨0, _⟩ => show (win1 1).index t 0 * 1024 + (j 0 : Nat) = (j 0 : Nat); rw [show (win1 1).index t 0 = 0 from rfl]; omega
  · show i ∈ ((View.whole main_v5_0).slice (win1_1.rect t1_46)).set
    rw [View.set_slice_whole, Rect.mem_set_unit]
    intro a
    have h0 : (i 0 : Nat) < 1024 := (i 0).isLt
    match a with
    | ⟨0, _⟩ =>
      show win1_1.index t1_46 0 * win1_1.size 0 ≤ (i 0 : Nat) ∧ (i 0 : Nat) < win1_1.index t1_46 0 * win1_1.size 0 + win1_1.xsize (grid1.coords t1_46) 0
      rw [show win1_1.index t1_46 0 * win1_1.size 0 = 0 from by decide +kernel, show win1_1.xsize (grid1.coords t1_46) 0 = 1024 from by decide +kernel]; omega

theorem arrAtT_2 (c : Dev nD) : (datTopk (F := F) m c).arrAt 2 cfg1.N = T2 m c := by
  have hN : cfg1.N = 47 := N_1
  refine (datTopk m c).arrAt_eq_of_cover 2 (T2 m c) (fun t hf => ?_) fun i => ⟨t1_46, (flush1_2 _).mpr rfl, ?_⟩
  · have h46 : t.val = 46 := by have := (flush1_2 t).mp hf; have := t.isLt; omega
    show (cfg1.win 2).cut (grid1.coords t) ((datTopk m c).after 2 t) = _
    rw [afterT_2, h46]
    funext j
    rw [View.read_apply]
    refine Eq.symm ((cast_eq _ _).trans ?_)
    show (Val.tcPairN (F := F) (XT m c) 37600 _).2 = (Val.tcPairN (F := F) (XT m c) ((46 + 1) * 800) _).2
    refine congrArg (fun b => (Val.tcPairN (F := F) (XT m c) 37600 b).2) ?_
    funext a; apply Fin.ext
    rw [View.emb_slice, Function.Embedding.trans_apply]
    show (((win1 2).rect t).emb _ a : Nat) = _
    rw [Window.rect_emb_val]
    match a with
    | ⟨0, _⟩ => show (win1 2).index t 0 * 1024 + (j 0 : Nat) = (j 0 : Nat); rw [show (win1 2).index t 0 = 0 from rfl]; omega
  · show i ∈ ((View.whole main_v5_1).slice (win1_2.rect t1_46)).set
    rw [View.set_slice_whole, Rect.mem_set_unit]
    intro a
    have h0 : (i 0 : Nat) < 1024 := (i 0).isLt
    match a with
    | ⟨0, _⟩ =>
      show win1_2.index t1_46 0 * win1_2.size 0 ≤ (i 0 : Nat) ∧ (i 0 : Nat) < win1_2.index t1_46 0 * win1_2.size 0 + win1_2.xsize (grid1.coords t1_46) 0
      rw [show win1_2.index t1_46 0 * win1_2.size 0 = 0 from by decide +kernel, show win1_2.xsize (grid1.coords t1_46) 0 = 1024 from by decide +kernel]; omega

/-- THE FIRST REGION: its three arrays into the pipeline, nothing beside; the TensorCore owes nothing throughout. -/
def segTopk (C : (d : Dev nD) → Buf (Elt F) (clsLoc d)) :
    Pipeline.RegionSeg (pcfgs (F := F)) adm (pdats m C) (none : HIx 1) defs₀ 𝒱₀ (K (F := F)).L (K (F := F)).lev (0 : Fin 2) where
  win := launch1.win.to₀
  block_pos := launch1.block_pos
  stage_whole := launch1.stage_whole
  K := PEmpty
  osem k := k.elim
  ho := Pipeline.OwnSemFacts.none _
  hbody c := (body_obligationT m c).loose
  hwaits c := (show (levAts (K (F := F)).L (K (F := F)).lev : sProp 𝕄) ⊢ BI.emp from by iintro -; iempintro).trans
    (Pipeline.cellsWaits_of_owed_zero (Pipeline.pin (pcfgs (F := F)) adm) (pdats m C) none 0 c fun _ => rfl)
  pre := preTopkN m
  post := postTopk m
  X _ := iprop(emp)
  Y _ := iprop(emp)
  Z _ := iprop(emp)
  hentry c := by
    rw [Pipeline.ownSems0_none, arraysT_eq, prefHeldT]
    unfold preTopkN
    iintro ⟨⟨HO, H0, H1, H2⟩, -, -⟩
    imodintro
    isplitl [H0 H1 H2]
    · isplitl [H0]; · iexact H0
      isplitl [H1]; · iexact H1
      iexact H2
    isplitr; · iempintro
    isplitl [HO]
    · iapply (owesAt_of_tcOw c (pdats m C 0 c) (fun _ => rfl) (fun _ => rfl) 0); iexact HO
    isplitr <;> iempintro
  hin c := by
    rw [scopedRest_pin0, ΦT_eq]
    iintro ⟨-, -, H⟩; iexact H
  hout c := by
    rw [Pipeline.ownSems0_none, scopedRest_pin0, ΦT_eq]
    iintro H
    isplitr; · iempintro
    isplitr; · iempintro
    iexact H
  hexit c := by
    rw [arraysT_eq]
    unfold postTopk
    have e0 : (pdats m C 0 c).arrAt 0 (Pipeline.pin (pcfgs (F := F)) adm 0).N = XT m c := (datTopk m c).arrAt_in 0 rfl _
    have e1 : (pdats m C 0 c).arrAt 1 (Pipeline.pin (pcfgs (F := F)) adm 0).N = T1 m c := arrAtT_1 m c
    have e2 : (pdats m C 0 c).arrAt 2 (Pipeline.pin (pcfgs (F := F)) adm 0).N = T2 m c := arrAtT_2 m c
    rw [e0, e1, e2]
    iintro ⟨⟨H0, H1, H2⟩, HO, -, -⟩
    imodintro
    isplitl [HO]
    · iapply (tcOw_of_owesAt c (pdats m C 0 c) (fun _ => rfl) (fun _ => rfl) (Fin.last _)); iexact HO
    isplitl [H0]; · iexact H0
    isplitl [H1]; · iexact H1
    iexact H2

end Cert.Proof.Kernel

end
-- ==== Proof.Bits.Regions.lean ====
/-
  The two TensorCore kernel regions of @main as records of the regions kit, together: each is entered from its thread
  state (the results at the launch memory's contents) and left at the one after it.
-/
import proofs.«210259_g7730941132961_cont_sun_c4_476_29_alg».proof.Proof.Bits.RegionsComb
import proofs.«210259_g7730941132961_cont_sun_c4_476_29_alg».proof.Proof.Bits.RegionsTopk

noncomputable section

namespace Cert.Proof.Kernel

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI

variable {F : FTy → Type}

variable (m : (ℓ : Loc nD τ sig) → Buf (Elt F) ℓ)

variable [FloatOps F]

theorem segTopk_pre (C : (d : Dev nD) → Buf (Elt F) (clsLoc d)) : (segTopk m C).pre = preTopkN m := rfl
theorem segTopk_post (C : (d : Dev nD) → Buf (Elt F) (clsLoc d)) : (segTopk m C).post = postTopk m := rfl
theorem segComb_pre (C : (d : Dev nD) → Buf (Elt F) (clsLoc d)) : (segComb m C).pre = fun d => preCombN m d (C d) := rfl
theorem segComb_post (C : (d : Dev nD) → Buf (Elt F) (clsLoc d)) : (segComb m C).post = fun d => postComb m d (C d) := rfl

end Cert.Proof.Kernel

end
-- ==== Proof.ClsValue.lean ====
import proofs.«210259_g7730941132961_cont_sun_c4_476_29_alg».proof.Proof.HostVal
import Idealize.ShloMosaic.Lib.ValueIdx
import Idealize.ShloMosaic.Lib.Pipeline.Value
import Idealize.ShloMosaic.Lib.Affine
import Idealize.ShloMosaic.PureOps.Reduce

/-!
# The host line before the first kernel, read at an index

The line transposes the input and gathers each row's target entry.  The transposed input at
(v, b) is the input at (b, v).  The gather's start indices are the targets passed through
"add the extent when negative" (the identity on a target in range) and reshaped; its bounds mask
— 0 ≤ index and index ≤ 99999, read signed, and-reduced over a unit axis — holds at every row
when every target is in range, so the fill value is never selected and row `b`'s result is the
input at (b, t b).  No float arithmetic happens: the statements hold at every float instance.
-/

noncomputable section

namespace Cert.Proof.KernelIdeal

open Cert.KernelIdeal Cert.KernelIdeal.Gen

open Idealize.ShloMosaic Idealize.ShloMosaic.StableHlo Idealize.ShloMosaic.ValueIdx
open Idealize.ShloMosaic.SparseCore (S V T)
open Idealize.SL Idealize.SL.Sem

variable {F : FTy → Type} [FloatOps F]

variable (m : (ℓ : Loc nD τ sig) → Buf (Elt F) ℓ)

/-! ## The transposed input at an index -/

theorem XT_apply (d : Dev nD) (v : Fin 100000) (b : Fin 1024) :
    (XT m d : FVec F S100000x1024 .f32) (ix2 v b) = (m (inLoc d) : FVec F S1024x100000 .f32) (ix2 b v) := by
  unfold XT
  exact transpose_apply (s := S1024x100000) (t := S100000x1024) [1, 0] _ transposes_S1024x100000_S100000x1024_1_0
    (ix2 v b) (ix2 b v) (fun a => match a with | ⟨0, _⟩ => rfl | ⟨1, _⟩ => rfl)

/-! ## The host line's gather of the target entries, as one term of the two arguments -/

section Term
variable (x : FVec F S1024x100000 .f32) (t : IVec S1024 32)

/-- The targets as a column. -/
def w1 : IVec S1024x1 32 := broadcastInDim S1024x1 ![0] bcast_S1024_S1024x1_0 t
/-- "Add the extent when negative". -/
def w4 : IVec S1024x1 32 :=
  select (cmpi .slt (w1 t) (broadcastInDim S1024x1 ![] bcast_S_S1024x1 (constantI S_ 32 0#32)))
    (addi (w1 t) (broadcastInDim S1024x1 ![] bcast_S_S1024x1 (constantI S_ 32 100000#32))) (w1 t)
/-- The start indices of the gather. -/
def w5 : IVec S1024x1x1 32 := shapeCast S1024x1x1 (w4 t) shapeCasts_S1024x1_S1024x1x1
/-- The bounds mask before its reduction: 0 ≤ index and index ≤ 99999, read signed. -/
def w11 : IVec S1024x1x1 1 :=
  andi (cmpi .sge (w5 t) (broadcastInDim S1024x1x1 ![] bcast_S_S1024x1x1 (constantI S_ 32 0#32)))
    (cmpi .sle (w5 t) (broadcastInDim S1024x1x1 ![0, 1, 2] bcast_S1x1x1_S1024x1x1_0_1_2
      (broadcastInDim S1x1x1 ![2] bcast_S1_S1x1x1_2 (constantI S1 32 99999#32))))
/-- The bounds mask. -/
def w12 : IVec S1024x1 1 :=
  Host.reduce IntOp.andi (w11 t) (constantI S_ 1 1#1) reducesTo_S1024x1x1_S1024x1_d2 h_S_
/-- The gathered entries. -/
def w13 : FVec F S1024x1 .f32 := Host.gather gather_S1024x100000_S1024x1x1_S1024x1_n_1_0_0_1_2_11 x (w5 t)
/-- The gathered entries where the mask holds, the fill elsewhere. -/
def w15 : FVec F S1024x1 .f32 :=
  select (w12 t) (w13 x t) (broadcastInDim S1024x1 ![] bcast_S_S1024x1 (constant S_ .f32 0x7FC00000#32))
/-- The result as a vector. -/
def clsTerm : FVec F S1024 .f32 := shapeCast S1024 (w15 x t) shapeCasts_S1024x1_S1024

end Term

set_option maxHeartbeats 1000000 in
/-- What the host line leaves in its last buffer is that term of the launch contents. -/
theorem CLS_eq_term (d : Dev nD) :
    (CLS m d : FVec F S1024 .f32) = clsTerm (m (inLoc d) : FVec F S1024x100000 .f32) (m (tgLoc d) : IVec S1024 32) := by
  unfold CLS V1 hostOps
  after_results_simp
  rfl

/-! ## The term read at an index -/

/-- A select on "w is negative" keeps w when w, read unsigned, is below 2^31. -/
theorem select_neg_of_small (w a : BitVec 32) (hw : w.toNat < 2147483648) :
    Scalar.select (IntOp.cmpi .slt w 0#32) a w = w := by
  unfold Scalar.select
  rw [if_neg]
  intro h
  have h1 := IntOp.cmpi_slt.mp h
  rw [BitVec.toInt_eq_toNat_cond] at h1
  simp at h1
  omega

/-- A word below 2^31 reads signed as it reads unsigned. -/
theorem toInt_of_small (w : BitVec 32) (hw : w.toNat < 2147483648) : w.toInt = (w.toNat : Int) := by
  rw [BitVec.toInt_eq_toNat_cond, if_pos (by omega)]

section Read
variable (x : FVec F S1024x100000 .f32) (t : IVec S1024 32)

theorem w1_apply (r : Fin 1024) (c : Fin 1) : w1 t (ix2 r c) = t (ix1 r) := by
  unfold w1
  exact broadcastInDim_apply _ bcast_S1024_S1024x1_0 t (ix2 r c) (ix1 r) (fun a => match a with
    | ⟨0, _⟩ => by show r.val = if (1024 : Nat) = 1 then 0 else r.val; rw [if_neg (by decide)])

theorem w4_apply (r : Fin 1024) (c : Fin 1) (ht : (t (ix1 r)).toNat < 100000) : w4 t (ix2 r c) = t (ix1 r) := by
  unfold w4
  show Scalar.select (IntOp.cmpi .slt (w1 t (ix2 r c)) 0#32) _ (w1 t (ix2 r c)) = _
  rw [w1_apply]
  exact select_neg_of_small _ _ (by omega)

theorem w5_apply (r : Fin 1024) (ht : (t (ix1 r)).toNat < 100000) :
    w5 t (ix3 r (0 : Fin 1) (0 : Fin 1)) = t (ix1 r) := by
  unfold w5
  rw [shapeCast_apply (w4 t) shapeCasts_S1024x1_S1024x1x1 (ix3 r (0 : Fin 1) (0 : Fin 1)) (ix2 r (0 : Fin 1))
    (by rw [Shape.rowMajor_val_two, Shape.rowMajor_val_three]
        show r.val * 1 + 0 = (r.val * 1 + 0) * 1 + 0
        omega)]
  exact w4_apply t r 0 ht

end Read

section Mask
variable (t : IVec S1024 32)

/-- A left fold by `and` from 1 over 1s is 1. -/
theorem foldl_andi_one {ι : Type} (f : ι → BitVec 1) (l : List ι) (h : ∀ i ∈ l, f i = 1#1) :
    l.foldl (fun r i => IntOp.andi r (f i)) 1#1 = 1#1 := by
  induction l with
  | nil => rfl
  | cons a l ih =>
    rw [List.foldl_cons, h a List.mem_cons_self]
    exact ih (fun i hi => h i (List.mem_cons_of_mem _ hi))

/-- Every target in range passes both bounds. -/
theorem w11_apply (ht : ∀ i : S1024.Idx, (t i).toNat < 100000) (i : S1024x1x1.Idx) : w11 t i = 1#1 := by
  obtain ⟨a, b, c, rfl⟩ : ∃ (a : Fin 1024) (b c : Fin 1), i = ix3 a b c := ⟨i 0, i 1, i 2, eq_ix3 i⟩
  obtain rfl : b = 0 := Subsingleton.elim _ _
  obtain rfl : c = 0 := Subsingleton.elim _ _
  have h := ht (ix1 a)
  unfold w11
  show IntOp.andi (IntOp.cmpi .sge (w5 t (ix3 a 0 0)) 0#32) (IntOp.cmpi .sle (w5 t (ix3 a 0 0)) 99999#32) = 1#1
  rw [w5_apply t a h]
  refine IntOp.andi_eq_one.2 ⟨IntOp.cmpi_sge.2 ?_, IntOp.cmpi_sle.2 ?_⟩
  · rw [toInt_of_small (t (ix1 a)) (by omega)]
    have e0 : (0#32 : BitVec 32).toInt = 0 := by decide
    rw [e0]; omega
  · rw [toInt_of_small (t (ix1 a)) (by omega)]
    have e1 : (99999#32 : BitVec 32).toInt = 99999 := by decide
    rw [e1]; omega

/-- So the bounds mask holds everywhere. -/
theorem w12_apply (ht : ∀ i : S1024.Idx, (t i).toNat < 100000) (j : S1024x1.Idx) : w12 t j = 1#1 := by
  unfold w12
  rw [Host.reduce_eq_foldl]
  exact foldl_andi_one _ _ (fun i _ => w11_apply t ht i)

end Mask

section GatherRead
variable (x : FVec F S1024x100000 .f32) (t : IVec S1024 32)

local notation "G" => gather_S1024x100000_S1024x1x1_S1024x1_n_1_0_0_1_2_11

/-- The gather reads row `r` at its target column. -/
theorem w13_apply (r : Fin 1024) (ht : (t (ix1 r)).toNat < 100000) :
    w13 x t (ix2 r (0 : Fin 1)) = x (ix2 r ⟨(t (ix1 r)).toNat % 100000, Nat.mod_lt _ (by norm_num)⟩) := by
  unfold w13 Host.gather
  congr 1
  funext a
  refine Fin.ext ?_
  match a with
  | ⟨0, _⟩ =>
    show GatherDims.start G (ix2 r (0 : Fin 1)) (w5 t) 0 + GatherDims.batchCoord G (ix2 r (0 : Fin 1)) 0
      + GatherDims.offCoord G (ix2 r (0 : Fin 1)) 0 = r.val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨1, _⟩ =>
    show GatherDims.start G (ix2 r (0 : Fin 1)) (w5 t) 1 + GatherDims.batchCoord G (ix2 r (0 : Fin 1)) 1
      + GatherDims.offCoord G (ix2 r (0 : Fin 1)) 1 = (t (ix1 r)).toNat % 100000
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 2) ∈ GatherDims.startIndexMap G from by decide)]
    have hsi : GatherDims.siIdx G (ix2 r (0 : Fin 1)) ⟨List.idxOf (1 : Fin 2) (GatherDims.startIndexMap G),
        List.idxOf_lt_length_iff.2 (by decide)⟩ = ix3 r (0 : Fin 1) (0 : Fin 1) := by
      funext b; refine Fin.ext ?_
      match b with
      | ⟨0, _⟩ => rfl
      | ⟨1, _⟩ => rfl
      | ⟨2, _⟩ => rfl
    rw [hsi, w5_apply t r ht, toInt_of_small (t (ix1 r)) (by omega)]
    show min (Int.toNat ((t (ix1 r)).toNat : Int)) (100000 - 1) = _
    rw [Int.toNat_natCast, Nat.mod_eq_of_lt ht]
    omega

/-- The whole term at row `r`. -/
theorem clsTerm_apply (ht : ∀ i : S1024.Idx, (t i).toNat < 100000) (r : Fin 1024) :
    clsTerm x t (ix1 r) = x (ix2 r ⟨(t (ix1 r)).toNat % 100000, Nat.mod_lt _ (by norm_num)⟩) := by
  unfold clsTerm
  rw [shapeCast_apply (w15 x t) shapeCasts_S1024x1_S1024 (ix1 r) (ix2 r (0 : Fin 1))
    (by rw [Shape.rowMajor_val_two, Shape.rowMajor_val_one]
        show r.val * 1 + 0 = r.val
        omega)]
  unfold w15
  show Scalar.select (w12 t (ix2 r (0 : Fin 1))) (w13 x t (ix2 r (0 : Fin 1))) _ = _
  rw [w12_apply t ht, select_one]
  exact w13_apply x t r (ht _)

end GatherRead

/-! ## The gathered target entries -/

theorem CLS_apply (d : Dev nD) (ht : ∀ i : S1024.Idx, ((m (tgLoc d) : IVec S1024 32) i).toNat < 100000) (b : S1024.Idx) :
    (CLS m d : FVec F S1024 .f32) b = (m (inLoc d) : FVec F S1024x100000 .f32) (ix2 (b 0)
      ⟨((m (tgLoc d) : IVec S1024 32) (ix1 (b 0))).toNat % 100000, Nat.mod_lt _ (by norm_num)⟩) := by
  obtain ⟨r, rfl⟩ : ∃ r : Fin 1024, b = ix1 r := ⟨b 0, eq_ix1 b⟩
  rw [CLS_eq_term]
  exact clsTerm_apply _ _ ht r

end Cert.Proof.KernelIdeal
end
-- ==== Proof.Top2.lean ====
import Mathlib.Data.EReal.Basic
import Mathlib.Data.Finset.Fold
import Mathlib.Data.Finset.Lattice.Fold
import Mathlib.Data.Finset.Range
import Mathlib.Data.Finset.Union

/-!
# The two largest values of a finite family of extended reals

A pair `(m₁, m₂)` records the largest value of a family and the largest value
of the family once one occurrence of the largest is taken away (so `m₂ = m₁`
when the largest value is attained twice).  Two such pairs are combined by
`merge`; one more value is added by `push`.  `merge` is commutative and
associative on all pairs, because in a distributive lattice both bracketings of
three pairs `(a, b) (c, d) (e, f)` have second component
`max {min a c, min a e, min c e, b, d, f}`.  Hence the pair of a finite family
is a `Finset.fold`, may be computed in any order and in any grouping, and the
largest value of the family with one index removed is read off the pair.
-/

noncomputable section

namespace Cert.Top2

/-- Combine the (largest, second largest) pairs of two families. -/
def merge (p q : EReal × EReal) : EReal × EReal :=
  (max p.1 q.1, max (min p.1 q.1) (max p.2 q.2))

/-- Add one value to a (largest, second largest) pair. -/
def push (p : EReal × EReal) (x : EReal) : EReal × EReal :=
  (max p.1 x, max p.2 (min p.1 x))

/-- The pair of the empty family. -/
def bot2 : EReal × EReal := (⊥, ⊥)

theorem merge_comm (p q : EReal × EReal) : merge p q = merge q p := by
  unfold merge
  rw [max_comm p.1 q.1, min_comm p.1 q.1, max_comm p.2 q.2]

theorem merge_assoc (p q r : EReal × EReal) :
    merge (merge p q) r = merge p (merge q r) := by
  obtain ⟨a, b⟩ := p
  obtain ⟨c, d⟩ := q
  obtain ⟨e, f⟩ := r
  unfold merge
  refine Prod.ext (max_assoc a c e) ?_
  show max (min (max a c) e) (max (max (min a c) (max b d)) f)
     = max (min a (max c e)) (max b (max (min c e) (max d f)))
  rw [min_max_distrib_right, min_max_distrib_left]
  simp only [max_assoc, max_comm, max_left_comm]

instance : Std.Commutative merge := ⟨merge_comm⟩
instance : Std.Associative merge := ⟨merge_assoc⟩

theorem merge_bot2 (p : EReal × EReal) : merge p bot2 = p := by
  obtain ⟨a, b⟩ := p
  unfold merge bot2
  refine Prod.ext (max_bot_right a) ?_
  show max (min a ⊥) (max b ⊥) = b
  rw [min_bot_right, max_bot_right, max_bot_left]

theorem bot2_merge (p : EReal × EReal) : merge bot2 p = p := by
  rw [merge_comm, merge_bot2]

theorem push_eq_merge (p : EReal × EReal) (x : EReal) : push p x = merge p (x, ⊥) := by
  obtain ⟨a, b⟩ := p
  unfold push merge
  refine Prod.ext rfl ?_
  show max b (min a x) = max (min a x) (max b ⊥)
  rw [max_bot_right, max_comm]

theorem push_fst (p : EReal × EReal) (x : EReal) : (push p x).1 = max p.1 x := rfl

theorem push_snd (p : EReal × EReal) (x : EReal) : (push p x).2 = max p.2 (min p.1 x) := rfl

theorem merge_fst (p q : EReal × EReal) : (merge p q).1 = max p.1 q.1 := rfl

theorem merge_snd (p q : EReal × EReal) :
    (merge p q).2 = max (min p.1 q.1) (max p.2 q.2) := rfl

/-- Pushing onto the empty pair. -/
theorem push_bot2 (x : EReal) : push bot2 x = (x, ⊥) := by
  rw [push_eq_merge, bot2_merge]

section Fold

variable {ι : Type} [DecidableEq ι]

/-- The (largest, second largest) pair of the family `f` over the finite set `s`. -/
def T (s : Finset ι) (f : ι → EReal) : EReal × EReal :=
  s.fold merge bot2 (fun j => (f j, ⊥))

theorem T_empty (f : ι → EReal) : T (∅ : Finset ι) f = bot2 := by
  unfold T
  exact Finset.fold_empty

theorem T_insert_merge {s : Finset ι} {f : ι → EReal} {a : ι} (h : a ∉ s) :
    T (insert a s) f = merge (T s f) (f a, ⊥) := by
  unfold T
  rw [Finset.fold_insert h, merge_comm]

theorem T_insert {s : Finset ι} {f : ι → EReal} {a : ι} (h : a ∉ s) :
    T (insert a s) f = push (T s f) (f a) := by
  rw [push_eq_merge, T_insert_merge h]

theorem T_singleton (f : ι → EReal) (a : ι) : T {a} f = (f a, ⊥) := by
  have h : a ∉ (∅ : Finset ι) := Finset.notMem_empty a
  have e : ({a} : Finset ι) = insert a ∅ := (Finset.insert_empty (a := a)).symm
  rw [e, T_insert h, T_empty, push_bot2]

theorem T_union {s u : Finset ι} {f : ι → EReal} (h : Disjoint s u) :
    T (s ∪ u) f = merge (T s f) (T u f) := by
  have key := Finset.fold_union_inter (op := merge) (f := fun j => (f j, (⊥ : EReal)))
    (s₁ := s) (s₂ := u) (b₁ := bot2) (b₂ := bot2)
  rw [Finset.disjoint_iff_inter_eq_empty.mp h, Finset.fold_empty] at key
  unfold T
  rw [← key, merge_bot2]

theorem T_congr {s : Finset ι} {f g : ι → EReal} (h : ∀ j ∈ s, f j = g j) :
    T s f = T s g := by
  unfold T
  exact Finset.fold_congr (fun j hj => by rw [h j hj])

theorem T_map {κ : Type} [DecidableEq κ] (e : κ ↪ ι) (s : Finset κ) (f : ι → EReal) :
    T (s.map e) f = T s (fun k => f (e k)) := by
  unfold T
  rw [Finset.fold_map]
  rfl

theorem T_image {κ : Type} [DecidableEq κ] (e : κ → ι) (s : Finset κ) (f : ι → EReal)
    (he : ∀ x ∈ s, ∀ y ∈ s, e x = e y → x = y) :
    T (s.image e) f = T s (fun k => f (e k)) := by
  unfold T
  rw [Finset.fold_image he]
  rfl

/-- The pair over a union of pairwise disjoint finite sets is the merge of the pairs. -/
theorem T_biUnion {κ : Type} [DecidableEq κ] (c : Finset κ) (u : κ → Finset ι) (f : ι → EReal)
    (hd : ∀ x ∈ c, ∀ y ∈ c, x ≠ y → Disjoint (u x) (u y)) :
    T (c.biUnion u) f = c.fold merge bot2 (fun k => T (u k) f) := by
  induction c using Finset.induction_on with
  | empty => rw [Finset.biUnion_empty, T_empty, Finset.fold_empty]
  | insert a c ha ih =>
    rw [Finset.biUnion_insert, Finset.fold_insert ha, T_union, ih]
    · intro x hx y hy hxy
      exact hd x (Finset.mem_insert_of_mem hx) y (Finset.mem_insert_of_mem hy) hxy
    · rw [Finset.disjoint_biUnion_right]
      intro y hy
      exact hd a (Finset.mem_insert_self a c) y (Finset.mem_insert_of_mem hy)
        (fun e => ha (e ▸ hy))

theorem T_fst (s : Finset ι) (f : ι → EReal) : (T s f).1 = s.sup f := by
  induction s using Finset.induction_on with
  | empty => rw [T_empty, Finset.sup_empty]; rfl
  | insert a s ha ih =>
    rw [T_insert ha, push_fst, ih, Finset.sup_insert, max_comm]

/-- The second component never exceeds the first. -/
theorem T_snd_le_fst (s : Finset ι) (f : ι → EReal) : (T s f).2 ≤ (T s f).1 := by
  induction s using Finset.induction_on with
  | empty => rw [T_empty]; exact le_refl _
  | insert a s ha ih =>
    rw [T_insert ha, push_fst, push_snd]
    exact max_le (ih.trans (le_max_left _ _)) ((min_le_left _ _).trans (le_max_left _ _))

/-- The largest value of the family with the index `t` removed: the second
component when `f t` is the largest value, the largest value otherwise. -/
theorem other_max {s : Finset ι} {f : ι → EReal} {t : ι} (ht : t ∈ s) :
    (s.erase t).sup f = if f t = (T s f).1 then (T s f).2 else (T s f).1 := by
  have hs : T s f = push (T (s.erase t) f) (f t) := by
    conv_lhs => rw [← Finset.insert_erase ht]
    exact T_insert (Finset.notMem_erase t s)
  have h1 : (T (s.erase t) f).1 = (s.erase t).sup f := T_fst _ _
  have h2 : (T (s.erase t) f).2 ≤ (T (s.erase t) f).1 := T_snd_le_fst _ _
  rw [hs, push_fst, push_snd, h1] at *
  rw [h1] at h2
  by_cases hle : (s.erase t).sup f ≤ f t
  · rw [max_eq_right hle, if_pos rfl, min_eq_left hle, max_eq_right h2]
  · have hlt : f t < (s.erase t).sup f := lt_of_not_ge hle
    rw [max_eq_left hlt.le, if_neg (ne_of_lt hlt)]

end Fold

/-- A counted loop: one more trip pushes one more value. -/
theorem T_range_succ (g : ℕ → EReal) (n : ℕ) :
    T (Finset.range (n + 1)) g = push (T (Finset.range n) g) (g n) := by
  rw [Finset.range_add_one, T_insert Finset.notMem_range_self]

end Cert.Top2

end
-- ==== Proof.PointUpdates.lean ====
import Mathlib.Data.List.Basic
import Mathlib.Data.List.Nodup

/-!
# A left fold of point updates

A list of updates, update `n` writing the value `v n` at the position `p n` of a
function, is folded from the left over a starting function.  A position that no
update names keeps its starting value; when the positions are pairwise distinct
and the list has no repetition, the position of update `n` ends at `v n`.
-/

namespace Cert.Proof.PointUpdates

variable {κ ι α : Type} [DecidableEq ι]

/-- One step: write `v n` at the position `p n`. -/
def step (p : κ → ι) (v : κ → α) (r : ι → α) (n : κ) : ι → α :=
  fun i' => if i' = p n then v n else r i'

/-- A position no update names keeps the starting value. -/
theorem foldl_step_of_not_mem (p : κ → ι) (v : κ → α) (l : List κ) (x : ι → α) (i : ι)
    (h : ∀ n ∈ l, p n ≠ i) : l.foldl (step p v) x i = x i := by
  induction l generalizing x with
  | nil => rfl
  | cons n l ih =>
    rw [List.foldl_cons, ih _ (fun m hm => h m (List.mem_cons_of_mem _ hm))]
    unfold step
    rw [if_neg (fun e => h n List.mem_cons_self e.symm)]

/-- When the positions are pairwise distinct, the position of update `n` ends at `v n`. -/
theorem foldl_step_of_mem (p : κ → ι) (v : κ → α) (hp : Function.Injective p) (l : List κ) (hl : l.Nodup)
    (x : ι → α) (n : κ) (hn : n ∈ l) : l.foldl (step p v) x (p n) = v n := by
  induction l generalizing x with
  | nil => exact absurd hn List.not_mem_nil
  | cons m l ih =>
    rw [List.foldl_cons]
    rcases List.mem_cons.mp hn with rfl | hn'
    · rw [foldl_step_of_not_mem p v l _ _
        (fun k hk e => (List.nodup_cons.mp hl).1 (by rw [← hp e]; exact hk))]
      unfold step
      rw [if_pos rfl]
    · exact ih (List.nodup_cons.mp hl).2 _ hn'

end Cert.Proof.PointUpdates
-- ==== Proof.RefIdx.lean ====
import proofs.«210259_g7730941132961_cont_sun_c4_476_29_alg».proof.Proof.Gen.ReferenceIdeal.Read
import Idealize.ShloMosaic.Lib.ValueIdx
import Idealize.ShloMosaic.Lib.Pipeline.Value
import Idealize.ShloMosaic.Lib.Affine
import proofs.«210259_g7730941132961_cont_sun_c4_476_29_alg».proof.Proof.PointUpdates

/-!
# The reference's index arrays, its gather and its scatter, read at an index

The reference builds, twice, the 1024 × 2 array whose row `b` is (b, t b): the row numbers and
the targets are first passed through "add the extent when negative", which is the identity on
row numbers and on targets in range.  The gather with that array reads x (b, t b) for each
row; the scatter with that array writes one value per row at (b, t b).  The scatter is a left
fold of 1024 point updates at pairwise distinct positions, so its result at (b, c) is the
written value when c = t b and the operand's element otherwise.
-/

noncomputable section

namespace Cert.Proof.RefIdx

open Cert.ReferenceIdeal Cert.ReferenceIdeal.Gen Cert.ReferenceIdeal.Read Idealize.ShloMosaic Idealize.ShloMosaic.ValueIdx

variable {F : FTy → Type} [FloatOps F]

/-- A select on "x is negative" keeps x when x, read unsigned, is below 2^31. -/
theorem select_slt_zero (x a : BitVec 32) (hx : x.toNat < 2147483648) :
    Scalar.select (IntOp.cmpi .slt x 0#32) a x = x := by
  unfold Scalar.select
  rw [if_neg]
  intro h
  have h1 := IntOp.cmpi_slt.mp h
  rw [BitVec.toInt_eq_toNat_cond] at h1
  simp at h1
  omega

/-- A row number is its own word's unsigned reading. -/
theorem ofNat_toNat_lt (n : Nat) (hn : n < 1024) : (BitVec.ofNat 32 n).toNat = n := by
  rw [BitVec.toNat_ofNat]; omega

/-- The row numbers, normalised as possibly negative indices, are the row numbers. -/
theorem v6_apply (i : S1024.Idx) : val_main_v6 (F := F) i = BitVec.ofNat 32 (i 0).val := by
  have hi : (i 0).val < 1024 := (i 0).isLt
  rw [val_main_v6_apply, val_main_v3_apply, val_main_v2_apply, val_main_c_apply, val_main_v0_apply]
  exact select_slt_zero _ _ (by rw [ofNat_toNat_lt _ hi]; omega)

/-- The same for the gather's copy. -/
theorem v21_apply (i : S1024.Idx) : val_main_v21 (F := F) i = BitVec.ofNat 32 (i 0).val := by
  have hi : (i 0).val < 1024 := (i 0).isLt
  rw [val_main_v21_apply, val_main_v18_apply, val_main_v17_apply, val_main_c_4_apply, val_main_v0_apply]
  exact select_slt_zero _ _ (by rw [ofNat_toNat_lt _ hi]; omega)

/-- A target in range, normalised as a possibly negative index, is itself. -/
theorem v11_apply (t : IVec S1024 32) (i : S1024.Idx) (ht : (t i).toNat < 100000) :
    val_main_v11 (F := F) t i = t i := by
  rw [val_main_v11_apply, val_main_v8_apply, val_main_v7_apply, val_main_c_1_apply]
  exact select_slt_zero _ _ (by omega)

/-- The same for the gather's copy. -/
theorem v26_apply (t : IVec S1024 32) (i : S1024.Idx) (ht : (t i).toNat < 100000) :
    val_main_v26 (F := F) t i = t i := by
  rw [val_main_v26_apply, val_main_v23_apply, val_main_v22_apply, val_main_c_6_apply]
  exact select_slt_zero _ _ (by omega)

/-- The row-number column of the scatter's index array. -/
theorem v14_apply0 (t : IVec S1024 32) (b : Fin 1024) :
    val_main_v14 (F := F) t (ix2 b (0 : Fin 2)) = BitVec.ofNat 32 b.val := by
  unfold val_main_v14
  rw [concatenate_pair_apply_left (t := S1024x2) (s₁ := S1024x1) (s₂ := S1024x1) (1 : Fin S1024x2.rank) _ _ _ (ix2 b (0 : Fin 2)) rfl (ix2 b (0 : Fin 1))
    (fun a => match a with | ⟨0, _⟩ => rfl | ⟨1, _⟩ => rfl)]
  rw [val_main_v12_apply, v6_apply]

/-- The target column of the scatter's index array, for a target in range. -/
theorem v14_apply1 (t : IVec S1024 32) (b : Fin 1024) (ht : (t (ix1 b)).toNat < 100000) :
    val_main_v14 (F := F) t (ix2 b (1 : Fin 2)) = t (ix1 b) := by
  unfold val_main_v14
  rw [concatenate_pair_apply_right (t := S1024x2) (s₁ := S1024x1) (s₂ := S1024x1) (1 : Fin S1024x2.rank) _ _ _ (ix2 b (1 : Fin 2)) rfl rfl (ix2 b (0 : Fin 1))
    (fun a => match a with | ⟨0, _⟩ => fun _ => rfl | ⟨1, _⟩ => fun h => absurd rfl h) rfl]
  have e : idx_main_v13 (ix2 b (0 : Fin 1)) = ix1 b := by
    funext a; match a with | ⟨0, _⟩ => rfl
  rw [val_main_v13_apply (F := F), e]
  exact v11_apply (F := F) t _ ht

/-- The row-number column of the gather's index array. -/
theorem v29_apply0 (t : IVec S1024 32) (b : Fin 1024) :
    val_main_v29 (F := F) t (ix2 b (0 : Fin 2)) = BitVec.ofNat 32 b.val := by
  unfold val_main_v29
  rw [concatenate_pair_apply_left (t := S1024x2) (s₁ := S1024x1) (s₂ := S1024x1) (1 : Fin S1024x2.rank) _ _ _ (ix2 b (0 : Fin 2)) rfl (ix2 b (0 : Fin 1))
    (fun a => match a with | ⟨0, _⟩ => rfl | ⟨1, _⟩ => rfl)]
  rw [val_main_v27_apply, v21_apply]

/-- The target column of the gather's index array, for a target in range. -/
theorem v29_apply1 (t : IVec S1024 32) (b : Fin 1024) (ht : (t (ix1 b)).toNat < 100000) :
    val_main_v29 (F := F) t (ix2 b (1 : Fin 2)) = t (ix1 b) := by
  unfold val_main_v29
  rw [concatenate_pair_apply_right (t := S1024x2) (s₁ := S1024x1) (s₂ := S1024x1) (1 : Fin S1024x2.rank) _ _ _ (ix2 b (1 : Fin 2)) rfl rfl (ix2 b (0 : Fin 1))
    (fun a => match a with | ⟨0, _⟩ => fun _ => rfl | ⟨1, _⟩ => fun h => absurd rfl h) rfl]
  have e : idx_main_v28 (ix2 b (0 : Fin 1)) = ix1 b := by
    funext a; match a with | ⟨0, _⟩ => rfl
  rw [val_main_v28_apply (F := F), e]
  exact v26_apply (F := F) t _ ht

/-! ## Words below 2^31 read signed as they read unsigned -/

theorem toInt_of_lt (x : BitVec 32) (hx : x.toNat < 2147483648) : x.toInt = (x.toNat : Int) := by
  rw [BitVec.toInt_eq_toNat_cond]
  rw [if_pos (by omega)]

/-! ## The gather: one element per row, at (row, start index) -/

section Gather
variable {α : Type}

local notation "G" => gather_S1024x100000_S1024x2_S1024_n_01_n_n_01_1_11

theorem gather_apply (x : S1024x100000.Idx → α) (idx : IVec S1024x2 32) (b : Fin 1024) (c : Fin 100000)
    (h0 : idx (ix2 b (0 : Fin 2)) = BitVec.ofNat 32 b.val)
    (h1 : (idx (ix2 b (1 : Fin 2))).toNat = c.val) :
    Host.gather G x idx (ix1 b) = x (ix2 b c) := by
  have hb : b.val < 1024 := b.isLt
  have hc : c.val < 100000 := c.isLt
  unfold Host.gather
  congr 1
  funext a
  refine Fin.ext ?_
  match a with
  | ⟨0, _⟩ =>
    show GatherDims.start G (ix1 b) idx 0 + GatherDims.batchCoord G (ix1 b) 0 + GatherDims.offCoord G (ix1 b) 0 = b.val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (0 : Fin 2) ∈ GatherDims.startIndexMap G from by decide)]
    have hsi : GatherDims.siIdx G (ix1 b) ⟨List.idxOf (0 : Fin 2) (GatherDims.startIndexMap G),
        List.idxOf_lt_length_iff.2 (by decide)⟩ = ix2 b (0 : Fin 2) := by
      funext d; refine Fin.ext ?_
      match d with
      | ⟨0, _⟩ => rfl
      | ⟨1, _⟩ => rfl
    rw [hsi, h0, toInt_of_lt _ (by rw [ofNat_toNat_lt _ hb]; omega), ofNat_toNat_lt _ hb]
    show min (Int.toNat (b.val : Int)) (1024 - 1) = b.val
    rw [Int.toNat_natCast]; omega
  | ⟨1, _⟩ =>
    show GatherDims.start G (ix1 b) idx 1 + GatherDims.batchCoord G (ix1 b) 1 + GatherDims.offCoord G (ix1 b) 1 = c.val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 2) ∈ GatherDims.startIndexMap G from by decide)]
    have hsi : GatherDims.siIdx G (ix1 b) ⟨List.idxOf (1 : Fin 2) (GatherDims.startIndexMap G),
        List.idxOf_lt_length_iff.2 (by decide)⟩ = ix2 b (1 : Fin 2) := by
      funext d; refine Fin.ext ?_
      match d with
      | ⟨0, _⟩ => rfl
      | ⟨1, _⟩ => rfl
    rw [hsi, toInt_of_lt _ (by omega), h1]
    show min (Int.toNat (c.val : Int)) (100000 - 1) = c.val
    rw [Int.toNat_natCast]; omega

end Gather

/-! ## The scatter: one element written per row -/

section Scatter
variable {α : Type}

local notation "D" => scatter_S1024x100000_S1024x2_S1024_n_01_01_1

/-- Update `b` lands at (b, c) when the index array's row `b` holds (b, c). -/
theorem scatter_resultIdx (idx : IVec S1024x2 32) (b : Fin 1024) (c : Fin 100000)
    (h0 : idx (ix2 b (0 : Fin 2)) = BitVec.ofNat 32 b.val)
    (h1 : (idx (ix2 b (1 : Fin 2))).toNat = c.val) :
    ScatterDims.resultIdx? D (ix1 b) idx = some (ix2 b c) := by
  have hb : b.val < 1024 := b.isLt
  have hc : c.val < 100000 := c.isLt
  have hs0 : ScatterDims.start D (ix1 b) idx 0 = (b.val : Int) := by
    unfold ScatterDims.start
    rw [dif_pos (show (0 : Fin 2) ∈ ScatterDims.scatterDimsToOperandDims D from by decide)]
    have hsi : ScatterDims.siIdx D (ix1 b) ⟨List.idxOf (0 : Fin 2) (ScatterDims.scatterDimsToOperandDims D),
        List.idxOf_lt_length_iff.2 (by decide)⟩ = ix2 b (0 : Fin 2) := by
      funext d; refine Fin.ext ?_
      match d with
      | ⟨0, _⟩ => rfl
      | ⟨1, _⟩ => rfl
    rw [hsi, h0, toInt_of_lt _ (by rw [ofNat_toNat_lt _ hb]; omega), ofNat_toNat_lt _ hb]
  have hs1 : ScatterDims.start D (ix1 b) idx 1 = (c.val : Int) := by
    unfold ScatterDims.start
    rw [dif_pos (show (1 : Fin 2) ∈ ScatterDims.scatterDimsToOperandDims D from by decide)]
    have hsi : ScatterDims.siIdx D (ix1 b) ⟨List.idxOf (1 : Fin 2) (ScatterDims.scatterDimsToOperandDims D),
        List.idxOf_lt_length_iff.2 (by decide)⟩ = ix2 b (1 : Fin 2) := by
      funext d; refine Fin.ext ?_
      match d with
      | ⟨0, _⟩ => rfl
      | ⟨1, _⟩ => rfl
    rw [hsi, toInt_of_lt _ (by omega), h1]
  have hw0 : ScatterDims.window D (ix1 b) 0 = 0 := by
    unfold ScatterDims.window
    rw [dif_neg (by decide)]
  have hw1 : ScatterDims.window D (ix1 b) 1 = 0 := by
    unfold ScatterDims.window
    rw [dif_neg (by decide)]
  unfold ScatterDims.resultIdx?
  rw [dif_pos (fun a => match a with
    | ⟨0, _⟩ => by
      show 0 ≤ ScatterDims.start D (ix1 b) idx 0 + ((ScatterDims.window D (ix1 b) 0 : Nat) : Int) ∧
        ScatterDims.start D (ix1 b) idx 0 + ((ScatterDims.window D (ix1 b) 0 : Nat) : Int) < ((1024 : Nat) : Int)
      rw [hs0, hw0]; omega
    | ⟨1, _⟩ => by
      show 0 ≤ ScatterDims.start D (ix1 b) idx 1 + ((ScatterDims.window D (ix1 b) 1 : Nat) : Int) ∧
        ScatterDims.start D (ix1 b) idx 1 + ((ScatterDims.window D (ix1 b) 1 : Nat) : Int) < ((100000 : Nat) : Int)
      rw [hs1, hw1]; omega)]
  refine congrArg some ?_
  funext a
  refine Fin.ext ?_
  match a with
  | ⟨0, _⟩ =>
    show (ScatterDims.start D (ix1 b) idx 0 + ((ScatterDims.window D (ix1 b) 0 : Nat) : Int)).toNat = b.val
    rw [hs0, hw0]; omega
  | ⟨1, _⟩ =>
    show (ScatterDims.start D (ix1 b) idx 1 + ((ScatterDims.window D (ix1 b) 1 : Nat) : Int)).toNat = c.val
    rw [hs1, hw1]; omega

end Scatter

section ScatterFold
variable {α : Type}

local notation "D" => scatter_S1024x100000_S1024x2_S1024_n_01_01_1

open Cert.Proof.PointUpdates in
/-- The scatter of one value per row, row `b`'s written at column `tg b`: at (b, c) the
    result is row `b`'s update when `c = tg b` and the operand elsewhere. -/
theorem scatter_apply (x : S1024x100000.Idx → α) (idx : IVec S1024x2 32) (u : S1024.Idx → α)
    (tg : Fin 1024 → Fin 100000)
    (h0 : ∀ b : Fin 1024, idx (ix2 b (0 : Fin 2)) = BitVec.ofNat 32 b.val)
    (h1 : ∀ b : Fin 1024, (idx (ix2 b (1 : Fin 2))).toNat = (tg b).val)
    (b : Fin 1024) (c : Fin 100000) :
    Host.scatter D (fun _ v => v) x idx u (ix2 b c) = if c = tg b then u (ix1 b) else x (ix2 b c) := by
  -- the position and the value of update number `n`
  let p : Fin S1024.numel → S1024x100000.Idx := fun n =>
    ix2 ((S1024.rowMajor.symm n) 0 : Fin 1024) (tg ((S1024.rowMajor.symm n) 0))
  let v : Fin S1024.numel → α := fun n => u (S1024.rowMajor.symm n)
  have hres : ∀ j : S1024.Idx, ScatterDims.resultIdx? D j idx = some (ix2 (j 0 : Fin 1024) (tg (j 0))) := by
    intro j
    obtain ⟨b', rfl⟩ : ∃ b' : Fin 1024, j = ix1 b' := ⟨j 0, eq_ix1 j⟩
    exact scatter_resultIdx idx b' (tg b') (h0 b') (h1 b')
  have hfold : Host.scatter D (fun _ v => v) x idx u = (List.finRange S1024.numel).foldl (step p v) x := by
    unfold Host.scatter
    congr 1
    funext r n
    rw [hres (S1024.rowMajor.symm n)]
    rfl
  have hp : Function.Injective p := by
    intro n m e
    have e0 : (S1024.rowMajor.symm n) 0 = (S1024.rowMajor.symm m) 0 := congrFun e 0
    have e1 : S1024.rowMajor.symm n = S1024.rowMajor.symm m := by
      rw [eq_ix1 (S1024.rowMajor.symm n), eq_ix1 (S1024.rowMajor.symm m), e0]
    exact S1024.rowMajor.symm.injective e1
  rw [hfold]
  by_cases hc : c = tg b
  · subst hc
    rw [if_pos rfl]
    have hn : p (S1024.rowMajor (ix1 b)) = ix2 b (tg b) := by
      show ix2 ((S1024.rowMajor.symm (S1024.rowMajor (ix1 b))) 0 : Fin 1024)
        (tg ((S1024.rowMajor.symm (S1024.rowMajor (ix1 b))) 0)) = ix2 b (tg b)
      rw [Equiv.symm_apply_apply]
      rfl
    have key := foldl_step_of_mem p v hp (List.finRange S1024.numel) (List.nodup_finRange _) x
      (S1024.rowMajor (ix1 b)) (List.mem_finRange _)
    rw [hn] at key
    rw [key]
    show u (S1024.rowMajor.symm (S1024.rowMajor (ix1 b))) = u (ix1 b)
    rw [Equiv.symm_apply_apply]
  · rw [if_neg hc]
    refine foldl_step_of_not_mem p v _ x _ (fun n _ e => hc ?_)
    have e0 : (S1024.rowMajor.symm n) 0 = b := congrFun e 0
    have e1 : tg ((S1024.rowMajor.symm n) 0) = c := congrFun e 1
    rw [← e1, e0]

end ScatterFold

end Cert.Proof.RefIdx
end
-- ==== Proof.RefValue.lean ====
import proofs.«210259_g7730941132961_cont_sun_c4_476_29_alg».proof.Proof.Top2
import proofs.«210259_g7730941132961_cont_sun_c4_476_29_alg».proof.Proof.RefIdx
import Idealize.ShloMosaic.PureOps.Ideal.Laws
import Idealize.ShloMosaic.PureOps.Reduce

/-!
# The reference's value

For logits `x : [1024, 100000]` and targets `t : [1024]` in range, the reference returns, for
each row `b`, the target logit `x (b, t b)` minus the largest of the other logits of the row.
It computes the second term as the row maximum of `x - L`, where `L` is zero except for `+∞` at
`(b, t b)`: on the extended reals `x - 0 = x` and `x - ⊤ = ⊥`, and `⊥` is neutral for the
maximum, so the row maximum of `x - L` is the supremum of the row with the target removed.
That supremum is read off the (largest, second largest) pair of the row.
-/

noncomputable section

namespace Cert.Proof.RefValue

open Cert.ReferenceIdeal Cert.ReferenceIdeal.Gen Cert.ReferenceIdeal.Read Idealize.ShloMosaic
  Idealize.ShloMosaic.ValueIdx Cert.Proof.RefIdx

/-- Row `b`'s target column (the remainder is the identity on a target in range). -/
def tgt (t : IVec S1024 32) (b : Fin 1024) : Fin 100000 :=
  ⟨(t (ix1 b)).toNat % 100000, Nat.mod_lt _ (by norm_num)⟩

/-- Row `b` of the logits, as a family over the columns. -/
def row (x : FVec Ideal S1024x100000 .f32) (b : Fin 1024) : Fin 100000 → EReal :=
  fun j => x (ix2 b j)

/-- The specification: the target logit minus the supremum of the other logits of the row. -/
def spec (x : FVec Ideal S1024x100000 .f32) (t : IVec S1024 32) : FVec Ideal S1024 .f32 :=
  fun i => row x (i 0) (tgt t (i 0)) - (Finset.univ.erase (tgt t (i 0))).sup (row x (i 0))

theorem tgt_val (t : IVec S1024 32) (b : Fin 1024) (ht : (t (ix1 b)).toNat < 100000) :
    (tgt t b).val = (t (ix1 b)).toNat := Nat.mod_eq_of_lt ht

/-! ## The three non-pointwise stages at an index -/

/-- The gather reads the target logit. -/
theorem v30_apply (x : FVec Ideal S1024x100000 .f32) (t : IVec S1024 32)
    (ht : ∀ i : S1024.Idx, (t i).toNat < 100000) (b : Fin 1024) :
    val_main_v30 (F := Ideal) x t (ix1 b) = row x b (tgt t b) := by
  unfold val_main_v30
  exact gather_apply x (val_main_v29 (F := Ideal) t) b (tgt t b) (v29_apply0 t b)
    (by rw [v29_apply1 t b (ht _), tgt_val t b (ht _)])

/-- The scatter's result: `+∞` at the target column, zero elsewhere. -/
theorem v16_apply (t : IVec S1024 32) (ht : ∀ i : S1024.Idx, (t i).toNat < 100000)
    (b : Fin 1024) (c : Fin 100000) :
    val_main_v16 (F := Ideal) t (ix2 b c) = if c = tgt t b then (⊤ : EReal) else 0 := by
  unfold val_main_v16
  rw [scatter_apply _ _ _ (tgt t) (v14_apply0 t)
    (fun b' => by rw [v14_apply1 t b' (ht _), tgt_val t b' (ht _)]) b c]
  rw [val_main_v15_apply, val_main_cst_3_apply, val_main_v1_apply, val_main_cst_apply]
  have e1 : FloatOps.ofBits (F := Ideal) .f32 0x7F800000#32 = (⊤ : EReal) := by
    simp [Ideal.ofBits, Ideal.ieee]
  have e0 : FloatOps.ofBits (F := Ideal) .f32 0x00000000#32 = (0 : EReal) := Ideal.ofBits_zero_f32
  rw [e1, e0]

/-- A supremum in which one index contributes `⊥` is the supremum without that index. -/
theorem sup_ite_bot {ι : Type} [DecidableEq ι] (s : Finset ι) (c : ι) (hc : c ∈ s) (f : ι → EReal) :
    s.sup (fun k => if k = c then ⊥ else f k) = (s.erase c).sup f := by
  conv_lhs => rw [← Finset.insert_erase hc]
  rw [Finset.sup_insert, if_pos rfl, bot_sup_eq]
  exact Finset.sup_congr rfl (fun k hk => if_neg (Finset.ne_of_mem_erase hk))

/-- The row maximum of `x - L` is the supremum of the row with the target removed. -/
theorem v32_apply (x : FVec Ideal S1024x100000 .f32) (t : IVec S1024 32)
    (ht : ∀ i : S1024.Idx, (t i).toNat < 100000) (b : Fin 1024) :
    val_main_v32 (F := Ideal) x t (ix1 b) = (Finset.univ.erase (tgt t b)).sup (row x b) := by
  have hR : S1024x100000.Reduces [1] S1024 := by decide
  unfold val_main_v32
  rw [Host.reduce_eq_fold_single (FloatOps.maximumf (F := Ideal) (φ := .f32)) _ _
    reducesTo_S1024x100000_S1024_d1 hR h_S_ (ix1 b)]
  have hinit : val_main_cst_8 (F := Ideal) (Shape.Idx.first h_S_) = (⊥ : EReal) := by
    rw [val_main_cst_8_apply]
    simp [Ideal.ofBits, Ideal.ieee]
  have hlift : ∀ k : Fin 100000, hR.lift (ix1 b) k = ix2 b k := by
    intro k
    funext a
    refine Fin.ext ?_
    match a with
    | ⟨0, _⟩ => rfl
    | ⟨1, _⟩ => rfl
  have hfun : (fun k : Fin 100000 => val_main_v31 (F := Ideal) x t (hR.lift (ix1 b) k))
      = fun k : Fin 100000 => if k = tgt t b then (⊥ : EReal) else row x b k := by
    funext k
    rw [hlift k, val_main_v31_apply, v16_apply t ht b k]
    by_cases hk : k = tgt t b
    · rw [if_pos hk, if_pos hk]
      exact EReal.sub_top _
    · rw [if_neg hk, if_neg hk]
      exact sub_zero _
  show (Finset.univ : Finset (Fin 100000)).fold (FloatOps.maximumf (F := Ideal) (φ := .f32))
    (val_main_cst_8 (F := Ideal) (Shape.Idx.first h_S_))
    (fun k : Fin 100000 => val_main_v31 (F := Ideal) x t (hR.lift (ix1 b) k)) = _
  rw [hinit, hfun]
  exact sup_ite_bot Finset.univ (tgt t b) (Finset.mem_univ _) (row x b)

/-! ## The reference is the specification -/

theorem ref_eq_spec (x : FVec Ideal S1024x100000 .f32) (t : IVec S1024 32)
    (ht : ∀ i : S1024.Idx, (t i).toNat < 100000) :
    Cert.ReferenceIdeal.Read.val_main_v33 (F := Ideal) x t = spec x t := by
  funext i
  obtain ⟨b, rfl⟩ : ∃ b : Fin 1024, i = ix1 b := ⟨i 0, eq_ix1 i⟩
  rw [val_main_v33_apply, v30_apply x t ht b, v32_apply x t ht b]
  rfl

/-- The specification from the (largest, second largest) pair of the row. -/
theorem spec_of_top2 (x : FVec Ideal S1024x100000 .f32) (t : IVec S1024 32) (i : S1024.Idx)
    (M : EReal × EReal) (hM : M = Cert.Top2.T Finset.univ (row x (i 0))) :
    row x (i 0) (tgt t (i 0)) - (if row x (i 0) (tgt t (i 0)) = M.1 then M.2 else M.1) = spec x t i := by
  rw [hM, ← Cert.Top2.other_max (Finset.mem_univ (tgt t (i 0)))]
  rfl

end Cert.Proof.RefValue

end
-- ==== Proof.ValSpec.lean ====
import proofs.«210259_g7730941132961_cont_sun_c4_476_29_alg».proof.Proof.Val
import proofs.«210259_g7730941132961_cont_sun_c4_476_29_alg».proof.Proof.Top2
import proofs.«210259_g7730941132961_cont_sun_c4_476_29_alg».proof.Proof.RefValue
import Mathlib.Order.Interval.Finset.Nat
import Mathlib.Algebra.Order.Interval.Finset.Basic

/-!
# The kernels' value is the specification

On the extended reals the kernels' `push` and `merge` are the pair operations of `Cert.Top2`,
and minus infinity is `⊥`.  A counted fold of `push` over `n` entries is therefore the
(largest, second largest) pair of those entries.  For one row `b` of the logits (one column of
the transposed input) the four row groups cover the columns [0, 15600), [15600, 31200),
[31200, 46800), [46800, 62400) and the last kernel's block covers [62400, 100000); these five
ranges are consecutive, so merging their pairs gives the pair of the whole row, and the
result — the target's entry minus the second component when the target attains the largest
value, minus the largest value otherwise — is the specification.
-/

noncomputable section

namespace Cert.Proof.ValSpec

open Idealize.ShloMosaic Idealize.ShloMosaic.ValueIdx Cert.Proof.RefValue

/-! ## The pair operations at the extended reals -/

theorem ninf_eq : (Val.ninf (F := Ideal)) = (⊥ : EReal) := by
  unfold Val.ninf
  show Ideal.ofBits .f32 0xFF800000#32 = ⊥
  simp [Ideal.ofBits, Ideal.ieee]

theorem push_eq (p : EReal × EReal) (a : EReal) : Val.push (F := Ideal) p a = Cert.Top2.push p a := rfl

theorem merge_eq (p q : EReal × EReal) : Val.merge (F := Ideal) p q = Cert.Top2.merge p q := rfl

/-- A counted fold of `push` from (⊥, ⊥) is the pair of the entries met. -/
theorem foldN_eq_T (col : ℕ → EReal) (n : ℕ) :
    Val.foldN (F := Ideal) col (Val.ninf, Val.ninf) n = Cert.Top2.T (Finset.range n) col := by
  induction n with
  | zero =>
    rw [Finset.range_zero, Cert.Top2.T_empty]
    show ((Val.ninf (F := Ideal)), (Val.ninf (F := Ideal))) = Cert.Top2.bot2
    rw [ninf_eq]
    rfl
  | succ n ih =>
    rw [Cert.Top2.T_range_succ, ← ih]
    rfl

/-- The pair over `n` entries starting at `c` is the pair over the range [c, c + n). -/
theorem T_range_shift (f : ℕ → EReal) (c n : ℕ) :
    Cert.Top2.T (Finset.range n) (fun r => f (c + r)) = Cert.Top2.T (Finset.Ico c (c + n)) f := by
  have e : Finset.Ico c (c + n) = (Finset.range n).map (addLeftEmbedding c) := by
    rw [Finset.range_eq_Ico, Finset.map_add_left_Ico, add_zero]
  rw [e, Cert.Top2.T_map]
  rfl

/-! ## One row of the logits as a sequence -/

/-- Row `b` of the logits as a sequence over the naturals (`⊥` past the last column). -/
def colN (x : FVec Ideal Cert.ReferenceIdeal.S1024x100000 .f32) (b : Fin 1024) : ℕ → EReal :=
  fun v => if h : v < 100000 then row x b ⟨v, h⟩ else ⊥

section
variable (x : FVec Ideal Cert.ReferenceIdeal.S1024x100000 .f32) (X : FVec Ideal Cert.Proof.Val.SX .f32)
  (hX : ∀ (v : Fin 100000) (b : Fin 1024), X (ix2 v b) = x (ix2 b v))
include hX

theorem colX_eq (b : Fin 1024) : Val.colX (F := Ideal) X b = colN x b := by
  funext v
  unfold Val.colX colN
  by_cases h : v < 100000
  · rw [dif_pos h, dif_pos h, hX]
    rfl
  · rw [dif_neg h, dif_neg h, ninf_eq]

/-- A row group's pair is the pair of its range of columns. -/
theorem groupPair_eq (g : ℕ) (b : Fin 1024) :
    Val.groupPair (F := Ideal) X g b
      = Cert.Top2.T (Finset.Ico (g * 15600) (g * 15600 + 15600)) (colN x b) := by
  unfold Val.groupPair
  rw [colX_eq x X hX b, foldN_eq_T, T_range_shift (colN x b)]

/-- The last block's pair is the pair of the columns from 62400 on. -/
theorem tcPairN_eq (b : Fin 1024) :
    Val.tcPairN (F := Ideal) X 37600 (ix1 b) = Cert.Top2.T (Finset.Ico 62400 100000) (colN x b) := by
  unfold Val.tcPairN
  show Val.foldN (F := Ideal) (fun r => Val.colX X b (62400 + r)) (Val.ninf, Val.ninf) 37600 = _
  rw [colX_eq x X hX b, foldN_eq_T, T_range_shift (colN x b)]

/-- Entry `j * 1024 + b` of the two 4096-vectors holds row group `j`'s pair at column `b`. -/
theorem scPair_eq (j : ℕ) (b : Fin 1024) (h : j * 1024 + b.val < 4096) :
    (Val.scM1 (F := Ideal) X (ix1 ⟨j * 1024 + b.val, h⟩), Val.scM2 (F := Ideal) X (ix1 ⟨j * 1024 + b.val, h⟩))
      = Cert.Top2.T (Finset.Ico (j * 15600) (j * 15600 + 15600)) (colN x b) := by
  have hb : b.val < 1024 := b.isLt
  have e1 : (j * 1024 + b.val) / 1024 = j := by omega
  have e2 : (⟨(j * 1024 + b.val) % 1024, Nat.mod_lt _ (by norm_num)⟩ : Fin 1024) = b :=
    Fin.ext (by show (j * 1024 + b.val) % 1024 = b.val; omega)
  show Val.groupPair (F := Ideal) X ((j * 1024 + b.val) / 1024)
    ⟨(j * 1024 + b.val) % 1024, Nat.mod_lt _ (by norm_num)⟩ = _
  rw [e2, e1]
  exact groupPair_eq x X hX j b

/-- The five pairs joined are the pair of the whole row. -/
theorem allPair_eq (b : Fin 1024) :
    Val.allPair (F := Ideal) (Val.scM1 X) (Val.scM2 X) (Val.tcM1 X) (Val.tcM2 X) b
      = Cert.Top2.T Finset.univ (row x b) := by
  have hb : b.val < 1024 := b.isLt
  have g0 : (Val.scM1 (F := Ideal) X (ix1 ⟨0 * 1024 + b.val, by omega⟩),
      Val.scM2 (F := Ideal) X (ix1 ⟨0 * 1024 + b.val, by omega⟩))
      = Cert.Top2.T (Finset.Ico 0 15600) (colN x b) := scPair_eq x X hX 0 b (by omega)
  have g1 : (Val.scM1 (F := Ideal) X (ix1 ⟨1 * 1024 + b.val, by omega⟩),
      Val.scM2 (F := Ideal) X (ix1 ⟨1 * 1024 + b.val, by omega⟩))
      = Cert.Top2.T (Finset.Ico 15600 31200) (colN x b) := scPair_eq x X hX 1 b (by omega)
  have g2 : (Val.scM1 (F := Ideal) X (ix1 ⟨2 * 1024 + b.val, by omega⟩),
      Val.scM2 (F := Ideal) X (ix1 ⟨2 * 1024 + b.val, by omega⟩))
      = Cert.Top2.T (Finset.Ico 31200 46800) (colN x b) := scPair_eq x X hX 2 b (by omega)
  have g3 : (Val.scM1 (F := Ideal) X (ix1 ⟨3 * 1024 + b.val, by omega⟩),
      Val.scM2 (F := Ideal) X (ix1 ⟨3 * 1024 + b.val, by omega⟩))
      = Cert.Top2.T (Finset.Ico 46800 62400) (colN x b) := scPair_eq x X hX 3 b (by omega)
  have gt : (Val.tcM1 (F := Ideal) X (ix1 b), Val.tcM2 (F := Ideal) X (ix1 b))
      = Cert.Top2.T (Finset.Ico 62400 100000) (colN x b) := tcPairN_eq x X hX b
  unfold Val.allPair
  dsimp only
  rw [g0, g1, g2, g3, gt, merge_eq, merge_eq, merge_eq, merge_eq]
  rw [← Cert.Top2.T_union (Finset.Ico_disjoint_Ico_consecutive 0 15600 31200),
    Finset.Ico_union_Ico_eq_Ico (by norm_num) (by norm_num),
    ← Cert.Top2.T_union (Finset.Ico_disjoint_Ico_consecutive 0 31200 46800),
    Finset.Ico_union_Ico_eq_Ico (by norm_num) (by norm_num),
    ← Cert.Top2.T_union (Finset.Ico_disjoint_Ico_consecutive 0 46800 62400),
    Finset.Ico_union_Ico_eq_Ico (by norm_num) (by norm_num),
    ← Cert.Top2.T_union (Finset.Ico_disjoint_Ico_consecutive 0 62400 100000),
    Finset.Ico_union_Ico_eq_Ico (by norm_num) (by norm_num)]
  have e : Finset.Ico 0 100000 = (Finset.univ : Finset (Fin 100000)).map Fin.valEmbedding := by
    ext k
    rw [Finset.mem_Ico, Finset.mem_map]
    constructor
    · intro hk
      exact ⟨⟨k, hk.2⟩, Finset.mem_univ _, rfl⟩
    · rintro ⟨a, -, rfl⟩
      exact ⟨Nat.zero_le _, a.isLt⟩
  rw [e, Cert.Top2.T_map]
  refine Cert.Top2.T_congr (fun k _ => ?_)
  show colN x b k.val = row x b k
  unfold colN
  rw [dif_pos k.isLt]

end

/-! ## The result -/

theorem out_eq_spec (x : FVec Ideal Cert.ReferenceIdeal.S1024x100000 .f32) (t : IVec Cert.ReferenceIdeal.S1024 32)
    (X : FVec Ideal Cert.Proof.Val.SX .f32)
    (hX : ∀ (v : Fin 100000) (b : Fin 1024), X (ValueIdx.ix2 v b) = x (ValueIdx.ix2 b v))
    (C : FVec Ideal Cert.Proof.Val.S1k .f32)
    (hC : ∀ b : Cert.Proof.Val.S1k.Idx, C b = Cert.Proof.RefValue.row x (b 0) (Cert.Proof.RefValue.tgt t (b 0))) :
    Cert.Proof.Val.out (F := Ideal) (Cert.Proof.Val.scM1 X) (Cert.Proof.Val.scM2 X) (Cert.Proof.Val.tcM1 X)
      (Cert.Proof.Val.tcM2 X) C = Cert.Proof.RefValue.spec x t := by
  funext b
  have hM := allPair_eq x X hX (b 0)
  rw [← spec_of_top2 x t b _ hM, ← hC b]
  unfold Val.out
  dsimp only
  generalize Val.allPair (F := Ideal) (Val.scM1 X) (Val.scM2 X) (Val.tcM1 X) (Val.tcM2 X) (b 0) = M
  show C b - Scalar.select (Ideal.cmp .oeq (C b) M.1) M.2 M.1 = _
  unfold Scalar.select Ideal.cmp
  by_cases h : C b = M.1
  · rw [if_pos h, if_pos (by simp [h])]
  · rw [if_neg h, if_neg (by simp [h])]

end Cert.Proof.ValSpec

end
-- ==== Proof.FinalValue.lean ====
/-
  At the ideal instance the result the kernel's run leaves is the reference's: per row, the target's entry minus the
  largest of the other entries. The five pairs joined are the (largest, second largest) of the whole row; the target's
  entry is the largest exactly when the largest of the others is the second largest.
-/
import proofs.«210259_g7730941132961_cont_sun_c4_476_29_alg».proof.Proof.ClsValue
import proofs.«210259_g7730941132961_cont_sun_c4_476_29_alg».proof.Proof.TcStates
import proofs.«210259_g7730941132961_cont_sun_c4_476_29_alg».proof.Proof.ValSpec

noncomputable section

namespace Cert.Proof.KernelIdeal

open Cert.KernelIdeal Cert.KernelIdeal.Gen

open Idealize.ShloMosaic
open Idealize.SL Idealize.SL.Sem

variable (m : (ℓ : Loc nD τ sig) → Buf (Elt Ideal) ℓ)

/-- The kernel's result is the specification, where the targets name columns. -/
theorem out_spec (c : Dev nD) (ht : ∀ i : S1024.Idx, ((m (tgLoc c) : IVec S1024 32) i).toNat < 100000) :
    (OUT m c (CLS m c) : FVec Ideal S1024 .f32)
      = Cert.Proof.RefValue.spec (m (inLoc c) : FVec Ideal S1024x100000 .f32) (m (tgLoc c) : IVec S1024 32) := by
  unfold OUT R1 R2 T1 T2
  exact Cert.Proof.ValSpec.out_eq_spec _ _ (XT m c) (XT_apply m c) (CLS m c) (fun b => CLS_apply m c ht b)

end Cert.Proof.KernelIdeal

end
-- ==== Proof.PreRange.lean ====
import proofs.«210259_g7730941132961_cont_sun_c4_476_29_alg».proof.Pre_input_domain
import proofs.«210259_g7730941132961_cont_sun_c4_476_29_alg».proof.Proof.Gen.Pre_input_domain
import Idealize.ShloMosaic.Lib.ReduceAll
import Idealize.ShloMosaic.Lib.ValueIdx
import Idealize.ShloMosaic.Lib.Pipeline.Value

/-!
# The precondition bounds the targets

The precondition is the conjunction of "every input is finite" and "every target
`t` satisfies `0 ≤ t` and `t ≤ 99999`, read signed".  From the second conjunct
every target, read unsigned, is below 100000.
-/

namespace Cert.Proof.PreRange

open Idealize.ShloMosaic Idealize.ShloMosaic.ValueIdx Cert.Pre_input_domain

variable {F : FTy → Type} [FloatOps F]

instance : Subsingleton S_.Idx := ⟨fun a b => funext fun d => d.elim0⟩

/-- A 32-bit word between 0 and 99999, read signed, is below 100000 read unsigned. -/
theorem toNat_lt_of_signed (w : BitVec 32) (h0 : (0#32 : BitVec 32).toInt ≤ w.toInt)
    (h1 : w.toInt ≤ (99999#32 : BitVec 32).toInt) : w.toNat < 100000 := by
  have e0 : (0#32 : BitVec 32).toInt = 0 := by decide
  have e1 : (99999#32 : BitVec 32).toInt = 99999 := by decide
  rw [e0] at h0
  rw [e1] at h1
  rw [BitVec.toInt_eq_toNat_cond] at h0 h1
  have hw := w.isLt
  split at h0 <;> omega

theorem range_of_pre (x : FVec F Cert.Pre_input_domain.S1024x100000 .f32) (t : IVec Cert.Pre_input_domain.S1024 32)
    (h : @Cert.Pre_input_domain.fn Cert.Pre_input_domain.Gen.facts F _ x t = fun _ => 1#1) :
    ∀ i : Cert.Pre_input_domain.S1024.Idx, (t i).toNat < 100000 := by
  intro i
  have h0 := congrFun h ix0
  dsimp only [Cert.Pre_input_domain.fn] at h0
  obtain ⟨-, h9⟩ := IntOp.andi_eq_one.1 h0
  have h8 := Host.reduce_andi_all _ _ _ _ _ h9 i
  obtain ⟨hge, hle⟩ := IntOp.andi_eq_one.1 h8
  have hge' := IntOp.cmpi_sge.1 hge
  have hle' := IntOp.cmpi_sle.1 hle
  rw [broadcastInDim_apply _ _ _ i ix0 (fun a => a.elim0)] at hge' hle'
  exact toNat_lt_of_signed _ hge' hle'

end Cert.Proof.PreRange
-- ==== Proof.lean ====
/-
  The certificate's claim. The kernel: per row of a 1024 x 100000 input, the target's entry minus the largest of the
  other entries, computed as a running (largest, second largest) pair per column of the transposed input — the rows
  0 .. 62399 on the 32 SparseCore tiles (four row groups, eight column blocks), the rows 62400 .. 99999 on the
  TensorCore over a grid of 47 blocks — the five pairs joined by a last TensorCore kernel that subtracts from the target's
  entry the second largest if the target's entry is the largest, else the largest. The reference masks the target's
  entry to minus infinity and takes the row's maximum. Over the extended reals both are
  x[b, t b] - sup over j ≠ t b of x[b, j]: joining pairs is associative and commutative, so the five pairs joined are
  the pair of the whole row, and the largest of the others is read off it.
  The three frames are the runs with the values dropped; the idealisation rewrote nothing.
-/
import proofs.«210259_g7730941132961_cont_sun_c4_476_29_alg».proof.Defs
import proofs.«210259_g7730941132961_cont_sun_c4_476_29_alg».proof.Proof.RefFrame
import proofs.«210259_g7730941132961_cont_sun_c4_476_29_alg».proof.Proof.Run
import proofs.«210259_g7730941132961_cont_sun_c4_476_29_alg».proof.Proof.TileBody
import proofs.«210259_g7730941132961_cont_sun_c4_476_29_alg».proof.Proof.Regions
import proofs.«210259_g7730941132961_cont_sun_c4_476_29_alg».proof.Proof.Bits.Run
import proofs.«210259_g7730941132961_cont_sun_c4_476_29_alg».proof.Proof.Bits.TileBody
import proofs.«210259_g7730941132961_cont_sun_c4_476_29_alg».proof.Proof.Bits.Regions
import proofs.«210259_g7730941132961_cont_sun_c4_476_29_alg».proof.Proof.FinalValue
import proofs.«210259_g7730941132961_cont_sun_c4_476_29_alg».proof.Proof.PreRange
import proofs.«210259_g7730941132961_cont_sun_c4_476_29_alg».proof.Proof.RefValue

noncomputable section

namespace Cert.Proof

open Idealize.ShloMosaic Idealize.SL.Sem

/-- The kernel as printed runs to the end, faults nowhere, and leaves its arguments as they were. -/
theorem run_k (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (Cert.Proof.Kernel.QC m) :=
  Cert.Proof.Kernel.run_main m ρ (Cert.Proof.Kernel.segTopk m (Cert.Proof.Kernel.CLS m)) (Cert.Proof.Kernel.segComb m (Cert.Proof.Kernel.CLS m))
    (fun _ => Idealize.SL.BI.Entails.refl _) (fun _ => Idealize.SL.BI.Entails.refl _) (fun _ => Idealize.SL.BI.Entails.refl _) (fun _ => Idealize.SL.BI.Entails.refl _)
    (Cert.Proof.Kernel.tileObl m)

/-- The idealised kernel's run, with its result named. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (Cert.Proof.KernelIdeal.QC m) :=
  Cert.Proof.KernelIdeal.run_main m ρ (Cert.Proof.KernelIdeal.segTopk m (Cert.Proof.KernelIdeal.CLS m)) (Cert.Proof.KernelIdeal.segComb m (Cert.Proof.KernelIdeal.CLS m))
    (fun _ => Idealize.SL.BI.Entails.refl _) (fun _ => Idealize.SL.BI.Entails.refl _) (fun _ => Idealize.SL.BI.Entails.refl _) (fun _ => Idealize.SL.BI.Entails.refl _)
    (Cert.Proof.KernelIdeal.tileObl m)

theorem frame_k : @Cert.frame_Kernel Cert.Kernel.Gen.facts Cert.Pre_input_domain.Gen.facts := fun m ρ _ =>
  (θ_run Cert.Kernel.defs _ _).mono (fun _ h c => ⟨(h c).2.1, (h c).2.2⟩) (run_k m ρ)

theorem frame_ki : @Cert.frame_KernelIdeal Cert.KernelIdeal.Gen.facts Cert.Pre_input_domain.Gen.facts := fun m ρ _ =>
  (θ_run Cert.KernelIdeal.defs _ _).mono (fun _ h c => ⟨(h c).2.1, (h c).2.2⟩) (run_ki m ρ)

/-- At the ideal instance the two programs end with equal results. -/
theorem algebraic : @Cert.algebraic_KernelIdeal_ReferenceIdeal Cert.KernelIdeal.Gen.facts Cert.ReferenceIdeal.Gen.facts Cert.Pre_input_domain.Gen.facts := by
  intro m ρ m' ρ' hpre hagree
  have ht : ∀ (c : Dev Cert.KernelIdeal.nD) (i : Cert.KernelIdeal.S1024.Idx),
      ((m (Cert.Proof.KernelIdeal.tgLoc c) : IVec Cert.KernelIdeal.S1024 32) i).toNat < 100000 :=
    fun c => Cert.Proof.PreRange.range_of_pre _ _ (hpre c)
  refine ⟨fun c => Cert.Proof.KernelIdeal.OUT m c (Cert.Proof.KernelIdeal.CLS m c),
    (θ_run Cert.KernelIdeal.defs _ _).mono (fun _ h c => ⟨(h c).1, (h c).2.1, (h c).2.2⟩) (run_ki m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2]
  exact (Cert.Proof.RefValue.ref_eq_spec _ _ (ht c)).trans (Cert.Proof.KernelIdeal.out_spec m c (ht c)).symm

theorem claim : Cert.Claim := ⟨Cert.Kernel.Gen.facts, Cert.KernelIdeal.Gen.facts, Cert.ReferenceIdeal.Gen.facts, Cert.Pre_input_domain.Gen.facts,
  frame_k, frame_ki, Cert.Proof.RefFrame.frame_ri, trivial, algebraic⟩

end Cert.Proof

end
